-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v90)) (v2 : (c : Dev Cert.KernelIdeal.nD) → Buf (Elt Ideal) ((c.tc : Thread Cert.KernelIdeal.nD Cert.KernelIdeal.τ).loc Cert.KernelIdeal.main_v95)) (v3 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v90) = v1 c
          ∧ r.2.mem ((c.tc : Thread Cert.KernelIdeal.nD Cert.KernelIdeal.τ).loc Cert.KernelIdeal.main_v95) = v2 c
          ∧ r.2.mem ((c.tc : Thread Cert.KernelIdeal.nD Cert.KernelIdeal.τ).loc Cert.KernelIdeal.main_v99) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v188) = v2 c
          ∧ r.2.mem ((c.tc : Thread Cert.ReferenceIdeal.nD Cert.ReferenceIdeal.τ).loc Cert.ReferenceIdeal.main_v192) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S3x256x256 : Shape := ⟨3, ![3, 256, 256]⟩
abbrev S3x256 : Shape := ⟨2, ![3, 256]⟩
abbrev S512x256 : Shape := ⟨2, ![512, 256]⟩
abbrev S256x3 : Shape := ⟨2, ![256, 3]⟩
abbrev S3 : Shape := ⟨1, ![3]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S512x256 : S_.BroadcastsInDim S512x256 (![] : Fin 0 → Fin S512x256.rank)
  reducesTo_S512x256_S_d0_1 : S512x256.ReducesTo [0, 1] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S256x3 .f32) (main_arg9 : FVec F S3 .f32) (main_arg10 : FVec F S256x128 .f32) (main_arg11 : FVec F S128 .f32) (main_arg12 : FVec F S128x1 .f32) (main_arg13 : FVec F S1 .f32) (main_v33 : IVec S_ 1) : IVec S_ 1 :=
  let main_v34 : FVec F S256x3 .f32 := Host.absf main_arg8
  let main_cst_12 : FVec F S_ .f32 := constant S_ .f32 0x7F800000#32
  let main_v35 : FVec F S256x3 .f32 := broadcastInDim S256x3 ![] bcast_S_S256x3 main_cst_12
  let main_v36 : IVec S256x3 1 := cmpf .olt main_v34 main_v35
  let main_c_13 : IVec S_ 1 := constantI S_ 1 1#1
  let main_v37 : IVec S_ 1 := (fun x v => Host.reduce IntOp.andi x v reducesTo_S256x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S3x256 .f32) (main_arg6 : FVec F S512x256 .f32) (main_arg7 : FVec F S256 .f32) (main_arg8 : FVec F S256x3 .f32) (main_arg9 : FVec F S3 .f32) (main_arg10 : FVec F S256x128 .f32) (main_arg11 : FVec F S128 .f32) (main_arg12 : FVec F S128x1 .f32) (main_arg13 : FVec F S1 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x256 .f32) (main_arg1 : IVec S2x400000 32) (main_arg2 : FVec F S256x256 .f32) (main_arg3 : FVec F S256 .f32) (main_arg4 : FVec F S3x256x256 .f32) (main_arg5 : FVec F S3x256 .f32) (main_arg6 : FVec F S512x256 .f32) (main_arg7 : FVec F S256 .f32) (main_arg8 : FVec F S256x3 .f32) (main_arg9 : FVec F S3 .f32) (main_arg10 : FVec F S256x128 .f32) (main_arg11 : FVec F S128 .f32) (main_arg12 : FVec F S128x1 .f32) (main_arg13 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x256 .f32 := Host.absf main_arg4
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg5 main_arg6 main_arg7 main_arg8 main_arg9 main_arg10 main_arg11 main_arg12 main_arg13 main_v13 main_v16
-- ==== Kernel.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S3x256x256 : Shape := ⟨3, ![3, 256, 256]⟩
abbrev S3x256 : Shape := ⟨2, ![3, 256]⟩
abbrev S512x256 : Shape := ⟨2, ![512, 256]⟩
abbrev S256x3 : Shape := ⟨2, ![256, 3]⟩
abbrev S3 : Shape := ⟨1, ![3]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S1x256 : Shape := ⟨2, ![1, 256]⟩
abbrev S2000x256 : Shape := ⟨2, ![2000, 256]⟩
abbrev S1x256x256 : Shape := ⟨3, ![1, 256, 256]⟩
abbrev S2000x1 : Shape := ⟨2, ![2000, 1]⟩
abbrev S400000x256 : Shape := ⟨2, ![400000, 256]⟩
abbrev S1x3 : Shape := ⟨2, ![1, 3]⟩
abbrev S400000x3 : Shape := ⟨2, ![400000, 3]⟩
abbrev S4000x256 : Shape := ⟨2, ![4000, 256]⟩
abbrev S4000x3 : Shape := ⟨2, ![4000, 3]⟩
abbrev S1x128 : Shape := ⟨2, ![1, 128]⟩
abbrev S1x1 : Shape := ⟨2, ![1, 1]⟩
abbrev S2000x128 : Shape := ⟨2, ![2000, 128]⟩
abbrev S1x50000x256 : Shape := ⟨3, ![1, 50000, 256]⟩
abbrev S3x50000x256 : Shape := ⟨3, ![3, 50000, 256]⟩

abbrev nBuf : Space → Nat
  | .hbm => 133
  | .vmem => 65
  | .smem => 0
  | _ => 0

abbrev hbmTy0_0 (i : Nat) : BufTy := match i % 128 with
  | 0 => ⟨S50000x256, .f32⟩
  | 1 => ⟨S2x400000, .i32⟩
  | 2 => ⟨S256x256, .f32⟩
  | 3 => ⟨S256, .f32⟩
  | 4 => ⟨S3x256x256, .f32⟩
  | 5 => ⟨S3x256, .f32⟩
  | 6 => ⟨S512x256, .f32⟩
  | 7 => ⟨S256, .f32⟩
  | 8 => ⟨S256x3, .f32⟩
  | 9 => ⟨S3, .f32⟩
  | 10 => ⟨S256x128, .f32⟩
  | 11 => ⟨S128, .f32⟩
  | 12 => ⟨S128x1, .f32⟩
  | 13 => ⟨S1, .f32⟩
  | 14 => ⟨S1x400000, .i32⟩
  | 15 => ⟨S400000, .i32⟩
  | 16 => ⟨S1x400000, .i32⟩
  | 17 => ⟨S400000, .i32⟩
  | 18 => ⟨S_, .f32⟩
  | 19 => ⟨S400000, .f32⟩
  | 20 => ⟨S_, .f32⟩
  | 21 => ⟨S50000, .f32⟩
  | 22 => ⟨S400000x1, .i32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000, .f32⟩
  | 31 => ⟨S50000x1, .f32⟩
  | 32 => ⟨S50000x256, .bf16⟩
  | 33 => ⟨S256x256, .bf16⟩
  | 34 => ⟨S1x256, .f32⟩
  | 35 => ⟨S50000x256, .f32⟩
  | 36 => ⟨S3x256x256, .bf16⟩
  | 37 => ⟨S1x256x256, .bf16⟩
  | 38 => ⟨S256x256, .bf16⟩
  | 39 => ⟨S50000x256, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S400000x256, .f32⟩
  | 49 => ⟨S_, .f32⟩
  | 50 => ⟨S50000x256, .f32⟩
  | 51 => ⟨S400000x1, .i32⟩
  | 52 => ⟨S50000x256, .f32⟩
  | 53 => ⟨S1x256, .f32⟩
  | 54 => ⟨S256, .f32⟩
  | 55 => ⟨S1x256x256, .bf16⟩
  | 56 => ⟨S256x256, .bf16⟩
  | 57 => ⟨S1x256, .f32⟩
  | 58 => ⟨S50000x256, .f32⟩
  | 59 => ⟨S50000x256, .f32⟩
  | 60 => ⟨S_, .i32⟩
  | 61 => ⟨S400000, .i32⟩
  | 62 => ⟨S400000, .i1⟩
  | 63 => ⟨S_, .i32⟩
  | 64 => ⟨S400000, .i32⟩
  | 65 => ⟨S400000, .i32⟩
  | 66 => ⟨S400000, .i32⟩
  | 67 => ⟨S400000x1, .i32⟩
  | 68 => ⟨S400000x256, .f32⟩
  | 69 => ⟨S_, .f32⟩
  | 70 => ⟨S50000x256, .f32⟩
  | 71 => ⟨S400000x1, .i32⟩
  | 72 => ⟨S50000x256, .f32⟩
  | 73 => ⟨S1x256, .f32⟩
  | 74 => ⟨S256, .f32⟩
  | 75 => ⟨S1x256x256, .bf16⟩
  | 76 => ⟨S256x256, .bf16⟩
  | 77 => ⟨S1x256, .f32⟩
  | 78 => ⟨S50000x256, .f32⟩
  | 79 => ⟨S50000x256, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S400000x256, .f32⟩
  | 89 => ⟨S_, .f32⟩
  | 90 => ⟨S50000x256, .f32⟩
  | 91 => ⟨S400000x1, .i32⟩
  | 92 => ⟨S50000x256, .f32⟩
  | 93 => ⟨S1x256, .f32⟩
  | 94 => ⟨S256, .f32⟩
  | 95 => ⟨S1x256, .f32⟩
  | 96 => ⟨S50000x256, .f32⟩
  | 97 => ⟨S50000x256, .bf16⟩
  | 98 => ⟨S256x256, .f32⟩
  | 99 => ⟨S256x256, .bf16⟩
  | 100 => ⟨S256x256, .f32⟩
  | 101 => ⟨S256x256, .bf16⟩
  | 102 => ⟨S256x3, .bf16⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000x256, .bf16⟩
  | 112 => ⟨S_, .i32⟩
  | 113 => ⟨S400000, .i32⟩
  | 114 => ⟨S400000, .i1⟩
  | 115 => ⟨S_, .i32⟩
  | 116 => ⟨S400000, .i32⟩
  | 117 => ⟨S400000, .i32⟩
  | 118 => ⟨S400000, .i32⟩
  | 119 => ⟨S400000x1, .i32⟩
  | 120 => ⟨S400000x256, .bf16⟩
  | 121 => ⟨S1x256, .f32⟩
  | 122 => ⟨S1x3, .f32⟩
  | 123 => ⟨S400000x3, .f32⟩
  | 124 => ⟨S256x128, .bf16⟩
  | 125 => ⟨S128x1, .bf16⟩
  | 126 => ⟨S1x128, .f32⟩
  | 127 => ⟨S1x1, .f32⟩
  | _ => ⟨S50000x256, .f32⟩

abbrev hbmTy0_1 (i : Nat) : BufTy := match i % 128 with
  | 0 => ⟨S50000x1, .f32⟩
  | 1 => ⟨S1x50000x256, .f32⟩
  | 2 => ⟨S1x50000x256, .f32⟩
  | 3 => ⟨S1x50000x256, .f32⟩
  | 4 => ⟨S3x50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .bf16⟩
  | .local _ .vmem, ⟨1, _⟩ => ⟨S2000x256, .bf16⟩
  | .local _ .vmem, ⟨2, _⟩ => ⟨S256x256, .bf16⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .bf16⟩
  | .local _ .vmem, ⟨9, _⟩ => ⟨S2000x1, .f32⟩
  | .local _ .vmem, ⟨10, _⟩ => ⟨S2000x1, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x1, .f32⟩
  | .local _ .vmem, ⟨18, _⟩ => ⟨S2000x1, .f32⟩
  | .local _ .vmem, ⟨19, _⟩ => ⟨S1x256, .f32⟩
  | .local _ .vmem, ⟨20, _⟩ => ⟨S256x256, .bf16⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x1, .f32⟩
  | .local _ .vmem, ⟨30, _⟩ => ⟨S2000x1, .f32⟩
  | .local _ .vmem, ⟨31, _⟩ => ⟨S1x256, .f32⟩
  | .local _ .vmem, ⟨32, _⟩ => ⟨S256x256, .bf16⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x1, .f32⟩
  | .local _ .vmem, ⟨42, _⟩ => ⟨S2000x1, .f32⟩
  | .local _ .vmem, ⟨43, _⟩ => ⟨S1x256, .f32⟩
  | .local _ .vmem, ⟨44, _⟩ => ⟨S2000x256, .f32⟩
  | .local _ .vmem, ⟨45, _⟩ => ⟨S2000x256, .f32⟩
  | .local _ .vmem, ⟨46, _⟩ => ⟨S4000x256, .bf16⟩
  | .local _ .vmem, ⟨47, _⟩ => ⟨S4000x256, .bf16⟩
  | .local _ .vmem, ⟨48, _⟩ => ⟨S4000x256, .bf16⟩
  | .local _ .vmem, ⟨49, _⟩ => ⟨S4000x256, .bf16⟩
  | .local _ .vmem, ⟨50, _⟩ => ⟨S256x256, .bf16⟩
  | .local _ .vmem, ⟨51, _⟩ => ⟨S256x256, .bf16⟩
  | .local _ .vmem, ⟨52, _⟩ => ⟨S1x256, .f32⟩
  | .local _ .vmem, ⟨53, _⟩ => ⟨S256x3, .bf16⟩
  | .local _ .vmem, ⟨54, _⟩ => ⟨S1x3, .f32⟩
  | .local _ .vmem, ⟨55, _⟩ => ⟨S4000x3, .f32⟩
  | .local _ .vmem, ⟨56, _⟩ => ⟨S4000x3, .f32⟩
  | .local _ .vmem, ⟨57, _⟩ => ⟨S2000x256, .bf16⟩
  | .local _ .vmem, ⟨58, _⟩ => ⟨S2000x256, .bf16⟩
  | .local _ .vmem, ⟨59, _⟩ => ⟨S256x128, .bf16⟩
  | .local _ .vmem, ⟨60, _⟩ => ⟨S1x128, .f32⟩
  | .local _ .vmem, ⟨61, _⟩ => ⟨S128x1, .bf16⟩
  | .local _ .vmem, ⟨62, _⟩ => ⟨S1x1, .f32⟩
  | .local _ .vmem, ⟨63, _⟩ => ⟨S2000x1, .f32⟩
  | .local _ .vmem, ⟨64, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_c_5 : Ref sig .tc := ⟨.hbm, 60, rfl⟩
abbrev main_v38 : Ref sig .tc := ⟨.hbm, 61, rfl⟩
abbrev main_v39 : Ref sig .tc := ⟨.hbm, 62, rfl⟩
abbrev main_c_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53_0 : Ref sig .tc := ⟨.hbm, 78, rfl⟩
abbrev main_v53_1 : Ref sig .tc := ⟨.hbm, 79, rfl⟩
abbrev main_c_8 : Ref sig .tc := ⟨.hbm, 80, rfl⟩
abbrev main_v54 : Ref sig .tc := ⟨.hbm, 81, rfl⟩
abbrev main_v55 : Ref sig .tc := ⟨.hbm, 82, rfl⟩
abbrev main_c_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_11 : Ref sig .tc := ⟨.hbm, 103, rfl⟩
abbrev main_v74 : Ref sig .tc := ⟨.hbm, 104, rfl⟩
abbrev main_v75 : Ref sig .tc := ⟨.hbm, 105, rfl⟩
abbrev main_c_12 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_13 : Ref sig .tc := ⟨.hbm, 112, rfl⟩
abbrev main_v81 : Ref sig .tc := ⟨.hbm, 113, rfl⟩
abbrev main_v82 : Ref sig .tc := ⟨.hbm, 114, rfl⟩
abbrev main_c_14 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg6_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg4_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg7_0 : Ref sig .tc := ⟨.vmem, 55, rfl⟩
abbrev cc5_stg7_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg5_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem5_1 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem5_1 : DmaSem sig := 34
abbrev cc3_sem6_0 : DmaSem sig := 35
abbrev cc3_sem6_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem4_0 : DmaSem sig := 44
abbrev cc4_sem4_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem7_0 : DmaSem sig := 55
abbrev cc5_sem7_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem5_1 : DmaSem sig := 64

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x3 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x3 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S4000x3 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  shapeCasts_S50000_S50000x1 : S50000.ShapeCasts S50000x1
  bitsLt_bf16_f32 : FTy.bits .bf16 < FTy.bits .f32
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S3x256x256_S1x256x256_0_0_0 : S3x256x256.Slices ![0, 0, 0] S1x256x256
  shapeCasts_S1x256x256_S256x256 : S1x256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S50000x256 : S_.BroadcastsInDim S50000x256 (![] : Fin 0 → Fin S50000x256.rank)
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  slices_S512x256_S256x256_0_0 : S512x256.Slices ![0, 0] S256x256
  slices_S512x256_S256x256_256_0 : S512x256.Slices ![256, 0] S256x256
  shapeCasts_S3_S1x3 : S3.ShapeCasts S1x3
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  broadcasts_S1x256_S4000x256 : S1x256.Broadcasts S4000x256
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  inb_S4000x3_S4000x3_0_0 : ∀ a, (![0, 0] : Fin 2 → Nat) a + S4000x3.size a ≤ S4000x3.size a
  h_S4000x3 : 0 < S4000x3.numel
  shapeCasts_S128_S1x128 : S128.ShapeCasts S1x128
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  bcast_S50000x256_S1x50000x256_1_2 : S50000x256.BroadcastsInDim S1x50000x256 (![1, 2] : Fin 2 → Fin S1x50000x256.rank)
  concatenates_S1x50000x256_S1x50000x256_S1x50000x256_S3x50000x256_d0 : Shape.Concatenates [S1x50000x256, S1x50000x256, S1x50000x256] S3x50000x256 0
  scatter_S50000_S400000x1_S400000_n_0_0_1_wf : ScatterDims.WF S50000 S400000x1 S400000 [] [0] [0] 1
  dot_S2000x256_S256x256_S2000x256_1_0_0_1_n_n_wf : DotDims.WF S2000x256 S256x256 S2000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S4000x256_S256x256_S4000x256_1_0_0_1_n_n_wf : DotDims.WF S4000x256 S256x256 S4000x256 [1] [0] [0] [1] [] []
  dot_S4000x256_S256x3_S4000x3_1_0_0_1_n_n_wf : DotDims.WF S4000x256 S256x3 S4000x3 [1] [0] [0] [1] [] []
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .bf16 = 32 ∨ (Rect.block (s := S50000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .f32 = 32 ∨ (Rect.block (s := S50000x256) S2000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x256.size a ≤ S400000x256.size a
  hwx5_0 : ∀ i : grid5.Coords, EltTy.bits .bf16 = 32 ∨ (Rect.block (s := S400000x256) S4000x256.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x256.size a ≤ S400000x256.size a
  hwx5_1 : ∀ i : grid5.Coords, EltTy.bits .bf16 = 32 ∨ (Rect.block (s := S400000x256) S4000x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .bf16 = 32 ∨ (Rect.block (s := S256x256) S256x256.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .bf16 = 32 ∨ (Rect.block (s := S256x256) S256x256.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x3.size a ≤ S256x3.size a
  hwx5_5 : ∀ i : grid5.Coords, EltTy.bits .bf16 = 32 ∨ (Rect.block (s := S256x3) S256x3.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x3.size a ≤ S1x3.size a
  hwx5_6 : ∀ i : grid5.Coords, EltTy.bits .f32 = 32 ∨ (Rect.block (s := S1x3) S1x3.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S4000x3.size a ≤ S400000x3.size a
  hwx5_7 : ∀ i : grid5.Coords, EltTy.bits .f32 = 32 ∨ (Rect.block (s := S400000x3) S4000x3.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .bf16 = 32 ∨ (Rect.block (s := S50000x256) S2000x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .bf16 = 32 ∨ (Rect.block (s := S256x128) S256x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .bf16 = 32 ∨ (Rect.block (s := S128x1) S128x1.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S50000x1.size a
  hwx6_5 : ∀ i : grid6.Coords, EltTy.bits .f32 = 32 ∨ (Rect.block (s := S50000x1) S2000x1.size (cc6_transform_5 i) (hinb6_5 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x3_S4000x3_1_0_0_1_n_n : DotDims S4000x256 S256x3 S4000x3 where
  lhsContracting := [1]
  rhsContracting := [0]
  lhsNonContracting := [0]
  rhsNonContracting := [1]
  lhsBatch := []
  rhsBatch := []
  wf := dot_S4000x256_S256x3_S4000x3_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v14) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v37_1) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37_1) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53_0) S2000x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v53_1) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v63) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53_1) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S2000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v80) S4000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S4000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v70) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v72) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v73) S256x3.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v89) S1x3.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v90) S4000x3.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v68) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v92) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v94) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v95) S2000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S3x256x256 : Shape := ⟨3, ![3, 256, 256]⟩
abbrev S3x256 : Shape := ⟨2, ![3, 256]⟩
abbrev S512x256 : Shape := ⟨2, ![512, 256]⟩
abbrev S256x3 : Shape := ⟨2, ![256, 3]⟩
abbrev S3 : Shape := ⟨1, ![3]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S1x256 : Shape := ⟨2, ![1, 256]⟩
abbrev S_ : Shape := ⟨0, ![]⟩
abbrev S1x256x256 : Shape := ⟨3, ![1, 256, 256]⟩
abbrev S50000 : Shape := ⟨1, ![50000]⟩
abbrev S450000 : Shape := ⟨1, ![450000]⟩
abbrev S450000x1 : Shape := ⟨2, ![450000, 1]⟩
abbrev S450000x256 : Shape := ⟨2, ![450000, 256]⟩
abbrev S400000x1 : Shape := ⟨2, ![400000, 1]⟩
abbrev S400000x256 : Shape := ⟨2, ![400000, 256]⟩
abbrev S400000x512 : Shape := ⟨2, ![400000, 512]⟩
abbrev S400000x3 : Shape := ⟨2, ![400000, 3]⟩
abbrev S1x3 : Shape := ⟨2, ![1, 3]⟩
abbrev S50000x128 : Shape := ⟨2, ![50000, 128]⟩
abbrev S1x128 : Shape := ⟨2, ![1, 128]⟩
abbrev S50000x1 : Shape := ⟨2, ![50000, 1]⟩
abbrev S1x1 : Shape := ⟨2, ![1, 1]⟩
abbrev S1x50000x256 : Shape := ⟨3, ![1, 50000, 256]⟩
abbrev S3x50000x256 : Shape := ⟨3, ![3, 50000, 256]⟩

abbrev nBuf : Space → Nat
  | .hbm => 255
  | .vmem => 0
  | .smem => 0
  | _ => 0

abbrev hbmTy0_0 (i : Nat) : BufTy := match i % 128 with
  | 0 => ⟨S50000x256, .f32⟩
  | 1 => ⟨S2x400000, .i32⟩
  | 2 => ⟨S256x256, .f32⟩
  | 3 => ⟨S256, .f32⟩
  | 4 => ⟨S3x256x256, .f32⟩
  | 5 => ⟨S3x256, .f32⟩
  | 6 => ⟨S512x256, .f32⟩
  | 7 => ⟨S256, .f32⟩
  | 8 => ⟨S256x3, .f32⟩
  | 9 => ⟨S3, .f32⟩
  | 10 => ⟨S256x128, .f32⟩
  | 11 => ⟨S128, .f32⟩
  | 12 => ⟨S128x1, .f32⟩
  | 13 => ⟨S1, .f32⟩
  | 14 => ⟨S1x400000, .i32⟩
  | 15 => ⟨S400000, .i32⟩
  | 16 => ⟨S1x400000, .i32⟩
  | 17 => ⟨S400000, .i32⟩
  | 18 => ⟨S50000x256, .f32⟩
  | 19 => ⟨S1x256, .f32⟩
  | 20 => ⟨S50000x256, .f32⟩
  | 21 => ⟨S50000x256, .f32⟩
  | 22 => ⟨S_, .f32⟩
  | 23 => ⟨S50000x256, .f32⟩
  | 24 => ⟨S50000x256, .f32⟩
  | 25 => ⟨S1x256x256, .f32⟩
  | 26 => ⟨S256x256, .f32⟩
  | 27 => ⟨S1x256, .f32⟩
  | 28 => ⟨S256, .f32⟩
  | 29 => ⟨S50000x256, .f32⟩
  | 30 => ⟨S50000, .i32⟩
  | 31 => ⟨S450000, .i32⟩
  | 32 => ⟨S450000, .i32⟩
  | 33 => ⟨S_, .f32⟩
  | 34 => ⟨S450000, .f32⟩
  | 35 => ⟨S_, .f32⟩
  | 36 => ⟨S50000, .f32⟩
  | 37 => ⟨S450000x1, .i32⟩
  | 38 => ⟨S50000, .f32⟩
  | 39 => ⟨S_, .f32⟩
  | 40 => ⟨S50000, .f32⟩
  | 41 => ⟨S50000, .f32⟩
  | 42 => ⟨S50000, .f32⟩
  | 43 => ⟨S_, .i32⟩
  | 44 => ⟨S450000, .i32⟩
  | 45 => ⟨S450000, .i1⟩
  | 46 => ⟨S_, .i32⟩
  | 47 => ⟨S450000, .i32⟩
  | 48 => ⟨S450000, .i32⟩
  | 49 => ⟨S450000, .i32⟩
  | 50 => ⟨S450000x1, .i32⟩
  | 51 => ⟨S450000, .f32⟩
  | 52 => ⟨S_, .i32⟩
  | 53 => ⟨S450000, .i32⟩
  | 54 => ⟨S450000, .i1⟩
  | 55 => ⟨S_, .i32⟩
  | 56 => ⟨S450000, .i32⟩
  | 57 => ⟨S450000, .i32⟩
  | 58 => ⟨S450000, .i32⟩
  | 59 => ⟨S450000x1, .i32⟩
  | 60 => ⟨S450000, .f32⟩
  | 61 => ⟨S450000, .f32⟩
  | 62 => ⟨S450000x1, .f32⟩
  | 63 => ⟨S_, .i32⟩
  | 64 => ⟨S450000, .i32⟩
  | 65 => ⟨S450000, .i1⟩
  | 66 => ⟨S_, .i32⟩
  | 67 => ⟨S450000, .i32⟩
  | 68 => ⟨S450000, .i32⟩
  | 69 => ⟨S450000, .i32⟩
  | 70 => ⟨S450000x1, .i32⟩
  | 71 => ⟨S450000x256, .f32⟩
  | 72 => ⟨S450000x256, .f32⟩
  | 73 => ⟨S450000x256, .f32⟩
  | 74 => ⟨S_, .f32⟩
  | 75 => ⟨S50000x256, .f32⟩
  | 76 => ⟨S450000x1, .i32⟩
  | 77 => ⟨S50000x256, .f32⟩
  | 78 => ⟨S1x256, .f32⟩
  | 79 => ⟨S50000x256, .f32⟩
  | 80 => ⟨S50000x256, .f32⟩
  | 81 => ⟨S_, .f32⟩
  | 82 => ⟨S50000x256, .f32⟩
  | 83 => ⟨S50000x256, .f32⟩
  | 84 => ⟨S1x256x256, .f32⟩
  | 85 => ⟨S256x256, .f32⟩
  | 86 => ⟨S1x256, .f32⟩
  | 87 => ⟨S256, .f32⟩
  | 88 => ⟨S50000x256, .f32⟩
  | 89 => ⟨S50000, .i32⟩
  | 90 => ⟨S450000, .i32⟩
  | 91 => ⟨S450000, .i32⟩
  | 92 => ⟨S_, .f32⟩
  | 93 => ⟨S450000, .f32⟩
  | 94 => ⟨S_, .f32⟩
  | 95 => ⟨S50000, .f32⟩
  | 96 => ⟨S450000x1, .i32⟩
  | 97 => ⟨S50000, .f32⟩
  | 98 => ⟨S_, .f32⟩
  | 99 => ⟨S50000, .f32⟩
  | 100 => ⟨S50000, .f32⟩
  | 101 => ⟨S50000, .f32⟩
  | 102 => ⟨S_, .i32⟩
  | 103 => ⟨S450000, .i32⟩
  | 104 => ⟨S450000, .i1⟩
  | 105 => ⟨S_, .i32⟩
  | 106 => ⟨S450000, .i32⟩
  | 107 => ⟨S450000, .i32⟩
  | 108 => ⟨S450000, .i32⟩
  | 109 => ⟨S450000x1, .i32⟩
  | 110 => ⟨S450000, .f32⟩
  | 111 => ⟨S_, .i32⟩
  | 112 => ⟨S450000, .i32⟩
  | 113 => ⟨S450000, .i1⟩
  | 114 => ⟨S_, .i32⟩
  | 115 => ⟨S450000, .i32⟩
  | 116 => ⟨S450000, .i32⟩
  | 117 => ⟨S450000, .i32⟩
  | 118 => ⟨S450000x1, .i32⟩
  | 119 => ⟨S450000, .f32⟩
  | 120 => ⟨S450000, .f32⟩
  | 121 => ⟨S450000x1, .f32⟩
  | 122 => ⟨S_, .i32⟩
  | 123 => ⟨S450000, .i32⟩
  | 124 => ⟨S450000, .i1⟩
  | 125 => ⟨S_, .i32⟩
  | 126 => ⟨S450000, .i32⟩
  | 127 => ⟨S450000, .i32⟩
  | _ => ⟨S50000x256, .f32⟩

abbrev hbmTy0_1 (i : Nat) : BufTy := match i % 128 with
  | 0 => ⟨S450000, .i32⟩
  | 1 => ⟨S450000x1, .i32⟩
  | 2 => ⟨S450000x256, .f32⟩
  | 3 => ⟨S450000x256, .f32⟩
  | 4 => ⟨S450000x256, .f32⟩
  | 5 => ⟨S_, .f32⟩
  | 6 => ⟨S50000x256, .f32⟩
  | 7 => ⟨S450000x1, .i32⟩
  | 8 => ⟨S50000x256, .f32⟩
  | 9 => ⟨S1x256, .f32⟩
  | 10 => ⟨S50000x256, .f32⟩
  | 11 => ⟨S50000x256, .f32⟩
  | 12 => ⟨S_, .f32⟩
  | 13 => ⟨S50000x256, .f32⟩
  | 14 => ⟨S50000x256, .f32⟩
  | 15 => ⟨S1x256x256, .f32⟩
  | 16 => ⟨S256x256, .f32⟩
  | 17 => ⟨S1x256, .f32⟩
  | 18 => ⟨S256, .f32⟩
  | 19 => ⟨S50000x256, .f32⟩
  | 20 => ⟨S50000, .i32⟩
  | 21 => ⟨S450000, .i32⟩
  | 22 => ⟨S450000, .i32⟩
  | 23 => ⟨S_, .f32⟩
  | 24 => ⟨S450000, .f32⟩
  | 25 => ⟨S_, .f32⟩
  | 26 => ⟨S50000, .f32⟩
  | 27 => ⟨S450000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S450000, .i32⟩
  | 35 => ⟨S450000, .i1⟩
  | 36 => ⟨S_, .i32⟩
  | 37 => ⟨S450000, .i32⟩
  | 38 => ⟨S450000, .i32⟩
  | 39 => ⟨S450000, .i32⟩
  | 40 => ⟨S450000x1, .i32⟩
  | 41 => ⟨S450000, .f32⟩
  | 42 => ⟨S_, .i32⟩
  | 43 => ⟨S450000, .i32⟩
  | 44 => ⟨S450000, .i1⟩
  | 45 => ⟨S_, .i32⟩
  | 46 => ⟨S450000, .i32⟩
  | 47 => ⟨S450000, .i32⟩
  | 48 => ⟨S450000, .i32⟩
  | 49 => ⟨S450000x1, .i32⟩
  | 50 => ⟨S450000, .f32⟩
  | 51 => ⟨S450000, .f32⟩
  | 52 => ⟨S450000x1, .f32⟩
  | 53 => ⟨S_, .i32⟩
  | 54 => ⟨S450000, .i32⟩
  | 55 => ⟨S450000, .i1⟩
  | 56 => ⟨S_, .i32⟩
  | 57 => ⟨S450000, .i32⟩
  | 58 => ⟨S450000, .i32⟩
  | 59 => ⟨S450000, .i32⟩
  | 60 => ⟨S450000x1, .i32⟩
  | 61 => ⟨S450000x256, .f32⟩
  | 62 => ⟨S450000x256, .f32⟩
  | 63 => ⟨S450000x256, .f32⟩
  | 64 => ⟨S_, .f32⟩
  | 65 => ⟨S50000x256, .f32⟩
  | 66 => ⟨S450000x1, .i32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000x256, .f32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S400000x256, .f32⟩
  | 92 => ⟨S400000x512, .f32⟩
  | 93 => ⟨S400000x256, .f32⟩
  | 94 => ⟨S1x256, .f32⟩
  | 95 => ⟨S400000x256, .f32⟩
  | 96 => ⟨S400000x256, .f32⟩
  | 97 => ⟨S_, .f32⟩
  | 98 => ⟨S400000x256, .f32⟩
  | 99 => ⟨S400000x256, .f32⟩
  | 100 => ⟨S400000x3, .f32⟩
  | 101 => ⟨S1x3, .f32⟩
  | 102 => ⟨S400000x3, .f32⟩
  | 103 => ⟨S400000x3, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S50000x1, .f32⟩
  | 112 => ⟨S1x1, .f32⟩
  | 113 => ⟨S50000x1, .f32⟩
  | 114 => ⟨S50000x1, .f32⟩
  | 115 => ⟨S50000x1, .f32⟩
  | 116 => ⟨S50000x1, .f32⟩
  | 117 => ⟨S_, .f32⟩
  | 118 => ⟨S50000x1, .f32⟩
  | 119 => ⟨S50000x1, .f32⟩
  | 120 => ⟨S_, .f32⟩
  | 121 => ⟨S50000x1, .f32⟩
  | 122 => ⟨S50000x1, .f32⟩
  | 123 => ⟨S1x50000x256, .f32⟩
  | 124 => ⟨S1x50000x256, .f32⟩
  | 125 => ⟨S1x50000x256, .f32⟩
  | 126 => ⟨S3x50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_8 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_11 : Ref sig .tc := ⟨.hbm, 102, rfl⟩
abbrev main_v71 : Ref sig .tc := ⟨.hbm, 103, rfl⟩
abbrev main_v72 : Ref sig .tc := ⟨.hbm, 104, rfl⟩
abbrev main_c_12 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_13 : Ref sig .tc := ⟨.hbm, 111, rfl⟩
abbrev main_v78 : Ref sig .tc := ⟨.hbm, 112, rfl⟩
abbrev main_v79 : Ref sig .tc := ⟨.hbm, 113, rfl⟩
abbrev main_c_14 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_15 : Ref sig .tc := ⟨.hbm, 122, rfl⟩
abbrev main_v87 : Ref sig .tc := ⟨.hbm, 123, rfl⟩
abbrev main_v88 : Ref sig .tc := ⟨.hbm, 124, rfl⟩
abbrev main_c_16 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_17 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_call2_cst : Ref sig .tc := ⟨.hbm, 140, rfl⟩
abbrev main_call2_v0 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_18 : Ref sig .tc := ⟨.hbm, 151, rfl⟩
abbrev main_v111 : Ref sig .tc := ⟨.hbm, 152, rfl⟩
abbrev main_cst_19 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_20 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_c_21 : Ref sig .tc := ⟨.hbm, 161, rfl⟩
abbrev main_v118 : Ref sig .tc := ⟨.hbm, 162, rfl⟩
abbrev main_v119 : Ref sig .tc := ⟨.hbm, 163, rfl⟩
abbrev main_c_22 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_c_23 : Ref sig .tc := ⟨.hbm, 170, rfl⟩
abbrev main_v125 : Ref sig .tc := ⟨.hbm, 171, rfl⟩
abbrev main_v126 : Ref sig .tc := ⟨.hbm, 172, rfl⟩
abbrev main_c_24 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_c_25 : Ref sig .tc := ⟨.hbm, 181, rfl⟩
abbrev main_v134 : Ref sig .tc := ⟨.hbm, 182, rfl⟩
abbrev main_v135 : Ref sig .tc := ⟨.hbm, 183, rfl⟩
abbrev main_c_26 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_27 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_call3_cst : Ref sig .tc := ⟨.hbm, 199, rfl⟩
abbrev main_call3_v0 : Ref sig .tc := ⟨.hbm, 200, rfl⟩
abbrev main_v149 : Ref sig .tc := ⟨.hbm, 201, rfl⟩
abbrev main_c_28 : Ref sig .tc := ⟨.hbm, 202, rfl⟩
abbrev main_v150 : Ref sig .tc := ⟨.hbm, 203, rfl⟩
abbrev main_v151 : Ref sig .tc := ⟨.hbm, 204, rfl⟩
abbrev main_c_29 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_c_30 : Ref sig .tc := ⟨.hbm, 211, rfl⟩
abbrev main_v157 : Ref sig .tc := ⟨.hbm, 212, rfl⟩
abbrev main_v158 : Ref sig .tc := ⟨.hbm, 213, rfl⟩
abbrev main_c_31 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_call4_cst : Ref sig .tc := ⟨.hbm, 225, rfl⟩
abbrev main_call4_v0 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_call5_cst : Ref sig .tc := ⟨.hbm, 236, rfl⟩
abbrev main_call5_v0 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_cst_32 : Ref sig .tc := ⟨.hbm, 245, rfl⟩
abbrev main_v185 : Ref sig .tc := ⟨.hbm, 246, rfl⟩
abbrev main_v186 : Ref sig .tc := ⟨.hbm, 247, rfl⟩
abbrev main_cst_33 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x256_0_1 : S450000x1.BroadcastsInDim S450000x256 (![0, 1] : Fin 2 → Fin S450000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S400000 : S_.BroadcastsInDim S400000 (![] : Fin 0 → Fin S400000.rank)
  bcast_S400000_S400000x1_0 : S400000.BroadcastsInDim S400000x1 (![0] : Fin 1 → Fin S400000x1.rank)
  concatenates_S400000x256_S400000x256_S400000x512_d1 : Shape.Concatenates [S400000x256, S400000x256] S400000x512 1
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  bcast_S3_S1x3_1 : S3.BroadcastsInDim S1x3 (![1] : Fin 1 → Fin S1x3.rank)
  bcast_S1x3_S400000x3_0_1 : S1x3.BroadcastsInDim S400000x3 (![0, 1] : Fin 2 → Fin S400000x3.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S50000x256_S1x50000x256_1_2 : S50000x256.BroadcastsInDim S1x50000x256 (![1, 2] : Fin 2 → Fin S1x50000x256.rank)
  concatenates_S1x50000x256_S1x50000x256_S1x50000x256_S3x50000x256_d0 : Shape.Concatenates [S1x50000x256, S1x50000x256, S1x50000x256] S3x50000x256 0
  dot_S50000x256_S256x256_S50000x256_1_0_0_1_n_n_wf : DotDims.WF S50000x256 S256x256 S50000x256 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  gather_S50000x256_S400000x1_S400000x256_1_0_n_n_0_1_1256_wf : GatherDims.WF S50000x256 S400000x1 S400000x256 [1] [0] [] [0] [] 1 ![1, 256]
  dot_S400000x512_S512x256_S400000x256_1_0_0_1_n_n_wf : DotDims.WF S400000x512 S512x256 S400000x256 [1] [0] [0] [1] [] []
  dot_S400000x256_S256x3_S400000x3_1_0_0_1_n_n_wf : DotDims.WF S400000x256 S256x3 S400000x3 [1] [0] [0] [1] [] []
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S400000x512_S512x256_S400000x256_1_0_0_1_n_n : DotDims S400000x512 S512x256 S400000x256 where
  lhsContracting := [1]
  rhsContracting := [0]
  lhsNonContracting := [0]
  rhsNonContracting := [1]
  lhsBatch := []
  rhsBatch := []
  wf := dot_S400000x512_S512x256_S400000x256_1_0_0_1_n_n_wf
def dot_S400000x256_S256x3_S400000x3_1_0_0_1_n_n : DotDims S400000x256 S256x3 S400000x3 where
  lhsContracting := [1]
  rhsContracting := [0]
  lhsNonContracting := [0]
  rhsNonContracting := [1]
  lhsBatch := []
  rhsBatch := []
  wf := dot_S400000x256_S256x3_S400000x3_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.K.Reg0.lean ====
import proofs.«159550_j10136122819017_2_alg».proof.Proof.Gen.Kernel.Launch
import proofs.«159550_j10136122819017_2_alg».proof.Proof.Gen.Kernel.Skeleton
import proofs.«159550_j10136122819017_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents of the core when the region is entered: the parameter this region's half is stated at
variable (V : (c : Dev nD) → (b : Ref sig .tc) → Buf (Elt F) ((c : Thread nD τ).loc b))

/-! # Region 0: a linear layer with bias and rectifier, `max (x · W + b) 0`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether it is fetched there or was
    fetched earlier and has not moved since, for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether it is fetched there or was
    fetched earlier and has not moved since, for any proof data whose array is `V`'s and whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether it is fetched there or was
    fetched earlier and has not moved since, for any proof data whose array is `V`'s and whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev r0_0 : Rect S2000x256 := Rect.unit (s := S2000x256) ![0, 0] S2000x256.size inb_S2000x256_S2000x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0
abbrev r0_3 : Rect S2000x256 := Rect.unit (s := S2000x256) ![0, 0] S2000x256.size inb_S2000x256_S2000x256_0_0

/-! ## What the body leaves in the output window's buffer -/

/-- Window 3's staging buffer after the body, from the input windows' blocks: its one store, of the
    payload over the whole blocks loaded. -/
def out0_3 (x0 : Vec F S2000x256 .bf16) (x1 : Vec F S256x256 .bf16) (x2 : Vec F S1x256 .f32) : Vec F S2000x256 .f32 :=
  View.canon [⟨r0_3, k0_pay1 (View.ld x0 r0_0) (View.ld x1 r0_1) (View.ld x2 r0_2)⟩]

/-- The one store takes the whole buffer, so it covers it. -/
theorem cover0_3 (p0 : Vec F S2000x256 .f32) (y : S2000x256.Idx) :
    ∃ pc ∈ ([⟨r0_3, p0⟩] : List (View.Piece (Elt F) S2000x256 .f32)), y ∈ pc.1.set :=
  View.cover_of_tiled [⟨r0_3, p0⟩] S2000x256.size (by rfl) y

/-! ## The body's triple -/

set_option maxHeartbeats 1000000 in
/-- The kernel body on whole staging memrefs, the inputs' at read contents `xW` and the output's at anything,
    runs to the continuation holding the inputs' as they were and the output's at `out0_3` of the inputs'.
    The body reads the output buffer once before it stores to it; what it reads there is not used. -/
theorem sound_kernel0 (c : Dev nD) (E : Set ℕ) (i : grid0.Coords) (arg1 : Memref sig .tc .vmem S2000x256 .bf16) (harg1 : arg1.IsWhole) (arg2 : Memref sig .tc .vmem S256x256 .bf16) (harg2 : arg2.IsWhole) (arg3 : Memref sig .tc .vmem S1x256 .f32) (harg3 : arg3.IsWhole) (arg4 : Memref sig .tc .vmem S2000x256 .f32) (harg4 : arg4.IsWhole)
    (x0 : Vec F S2000x256 .bf16) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_bias_relu_kernel i arg1 harg1 arg2 harg2 arg3 harg3 arg4 harg4) K := by
  simp only [cc0__linear_bias_relu_kernel_eq_skeleton]; unfold cc0__linear_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the
    invariant leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1.lean ====
import proofs.«159550_j10136122819017_2_alg».proof.Proof.Gen.Kernel.Launch
import proofs.«159550_j10136122819017_2_alg».proof.Proof.Gen.Kernel.Skeleton
import proofs.«159550_j10136122819017_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents of the core when the region is entered: the parameter this region's half is stated at
variable (V : (c : Dev nD) → (b : Ref sig .tc) → Buf (Elt F) ((c : Thread nD τ).loc b))

/-! # Region 1: a matrix product scaled row by row, `(h · W) * norm`, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it is fetched there or was
    fetched earlier and has not moved since, for any proof data whose array is `V`'s and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether it is fetched there or was
    fetched earlier and has not moved since, for any proof data whose array is `V`'s and whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether it is fetched there or was
    fetched earlier and has not moved since, for any proof data whose array is `V`'s and whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole block -/

abbrev r1_0 : Rect S2000x256 := Rect.unit (s := S2000x256) ![0, 0] S2000x256.size inb_S2000x256_S2000x256_0_0
abbrev r1_1 : Rect S256x256 := Rect.unit (s := S256x256) ![0, 0] S256x256.size inb_S256x256_S256x256_0_0
abbrev r1_2 : Rect S2000x1 := Rect.unit (s := S2000x1) ![0, 0] S2000x1.size inb_S2000x1_S2000x1_0_0
abbrev r1_3 : Rect S2000x256 := Rect.unit (s := S2000x256) ![0, 0] S2000x256.size inb_S2000x256_S2000x256_0_0

/-! ## What the body leaves in the output window's buffer -/

/-- Window 3's staging buffer after the body, from the input windows' blocks: its one store, of the
    payload over the whole blocks loaded. -/
def out1_3 (x0 : Vec F S2000x256 .f32) (x1 : Vec F S256x256 .bf16) (x2 : Vec F S2000x1 .f32) : Vec F S2000x256 .f32 :=
  View.canon [⟨r1_3, k1_pay1 (View.ld x0 r1_0) (View.ld x1 r1_1) (View.ld x2 r1_2)⟩]

/-- The one store takes the whole buffer, so it covers it. -/
theorem cover1_3 (p0 : Vec F S2000x256 .f32) (y : S2000x256.Idx) :
    ∃ pc ∈ ([⟨r1_3, p0⟩] : List (View.Piece (Elt F) S2000x256 .f32)), y ∈ pc.1.set :=
  View.cover_of_tiled [⟨r1_3, p0⟩] S2000x256.size (by rfl) y

/-! ## The body's triple -/

set_option maxHeartbeats 1000000 in
/-- The kernel body on whole staging memrefs, the inputs' at read contents `xW` and the output's at anything,
    runs to the continuation holding the inputs' as they were and the output's at `out1_3` of the inputs'.
    The body reads the output buffer once before it stores to it; what it reads there is not used. -/
theorem sound_kernel1 (c : Dev nD) (E : Set ℕ) (i : grid1.Coords) (arg1 : Memref sig .tc .vmem S2000x256 .f32) (harg1 : arg1.IsWhole) (arg2 : Memref sig .tc .vmem S256x256 .bf16) (harg2 : arg2.IsWhole) (arg3 : Memref sig .tc .vmem S2000x1 .f32) (harg3 : arg3.IsWhole) (arg4 : Memref sig .tc .vmem S2000x256 .f32) (harg4 : arg4.IsWhole)
    (x0 : Vec F S2000x256 .f32) (x1 : Vec F S256x256 .bf16) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_norm_kernel i arg1 harg1 arg2 harg2 arg3 harg3 arg4 harg4) K := by
  simp only [cc1__matmul_norm_kernel_eq_skeleton]; unfold cc1__matmul_norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the
    invariant leaves the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant
    and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Reg2.lean ====
import proofs.«159550_j10136122819017_2_alg».proof.Proof.Gen.Kernel.Launch
import proofs.«159550_j10136122819017_2_alg».proof.Proof.Gen.Kernel.Skeleton
import proofs.«159550_j10136122819017_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: every statement of this module is at this parameter
variable (V : (c : Dev nD) → (b : Ref sig .tc) → Buf (Elt F) ((c : Thread nD τ).loc b))

/-! # Region 2: one step of the graph convolution (`cc2__gcn_step_kernel`), at the entry contents `V`

Windows: 0 the aggregated rows, 1 the normalised rows, 2 the per-row norm (one column), 3 the bias row,
4 the weight matrix; results 5 (the rectified row `h`) and 6 (`h` times the weights, scaled by the norm). -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the block is the one already held. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): where the window is not
    fetched its block index has not moved, so the block is the one already held. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): where the window is not
    fetched its block index has not moved, so the block is the one already held. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): where the window is not
    fetched its block index has not moved, so the block is the one already held. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): where the window is not
    fetched its block index has not moved, so the block is the one already held. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_0 : Rect S2000x256 := Rect.unit (s := S2000x256) ![0, 0] S2000x256.size inb_S2000x256_S2000x256_0_0
abbrev r2_1 : Rect S2000x1 := Rect.unit (s := S2000x1) ![0, 0] S2000x1.size inb_S2000x1_S2000x1_0_0
abbrev r2_2 : Rect S1x256 := Rect.unit (s := S1x256) ![0, 0] S1x256.size inb_S1x256_S1x256_0_0
abbrev r2_3 : Rect S256x256 := Rect.unit (s := S256x256) ![0, 0] S256x256.size inb_S256x256_S256x256_0_0

/-! ## What the body leaves in each output window's buffer -/

/-- Window 5's staging buffer after the body, from the input windows' blocks: its one store, of the rectified row. -/
def out2_5 (x0 : Vec F S2000x256 .f32) (x1 : Vec F S2000x256 .f32) (x2 : Vec F S2000x1 .f32) (x3 : Vec F S1x256 .f32) : Vec F S2000x256 .f32 :=
  View.canon [⟨r2_0, k2_pay2 (View.ld x0 r2_0) (View.ld x1 r2_0) (View.ld x2 r2_1) (View.ld x3 r2_2)⟩]

/-- Window 6's staging buffer after the body, from the input windows' blocks: its one store, of the product with the
    weights scaled by the norm. -/
def out2_6 (x0 : Vec F S2000x256 .f32) (x1 : Vec F S2000x256 .f32) (x2 : Vec F S2000x1 .f32) (x3 : Vec F S1x256 .f32) (x4 : Vec F S256x256 .bf16) : Vec F S2000x256 .f32 :=
  View.canon [⟨r2_0, k2_pay3 (View.ld x0 r2_0) (View.ld x1 r2_0) (View.ld x2 r2_1) (View.ld x3 r2_2) (View.ld x4 r2_3)⟩]

/-- The one store of window 5 is of the whole buffer, so it covers it. -/
theorem cover2_5 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

/-- The one store of window 6 is of the whole buffer, so it covers it. -/
theorem cover2_6 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

/-! ## The body's triple -/

set_option maxHeartbeats 1000000 in
/-- The kernel body on whole staging memrefs, the inputs' at contents `xW` and the outputs' at anything, runs to the
    continuation holding the inputs' as they were and each output's at `out2_W` of the inputs'. The body reads each
    output's buffer before storing to it; the value read is not used. -/
theorem sound_kernel2 (c : Dev nD) (E : Set ℕ) (i : grid2.Coords)
    (arg1 : Memref sig .tc .vmem S2000x256 .f32) (harg1 : arg1.IsWhole) (arg2 : Memref sig .tc .vmem S2000x256 .f32) (harg2 : arg2.IsWhole)
    (arg3 : Memref sig .tc .vmem S2000x1 .f32) (harg3 : arg3.IsWhole) (arg4 : Memref sig .tc .vmem S1x256 .f32) (harg4 : arg4.IsWhole)
    (arg5 : Memref sig .tc .vmem S256x256 .bf16) (harg5 : arg5.IsWhole) (arg6 : Memref sig .tc .vmem S2000x256 .f32) (harg6 : arg6.IsWhole)
    (arg7 : Memref sig .tc .vmem S2000x256 .f32) (harg7 : arg7.IsWhole)
    (x0 : Vec F S2000x256 .f32) (x1 : Vec F S2000x256 .f32) (x2 : Vec F S2000x1 .f32) (x3 : Vec F S1x256 .f32) (x4 : Vec F S256x256 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3) ∗ owns (c : Thread nD τ) arg7 fullShare (out2_6 x0 x1 x2 x3 x4)) -∗ K ⟨⟩))
      ⊢ wp frame (wpE (defs₀ (F := F)) Variants.none c none) E (cc2__gcn_step_kernel i arg1 harg1 arg2 harg2 arg3 harg3 arg4 harg4 arg5 harg5 arg6 harg6 arg7 harg7) K := by
  simp only [cc2__gcn_step_kernel_eq_skeleton]; unfold cc2__gcn_step_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The pipeline's proof data -/

/-- The proof data of pipeline 2 on core `c`: the arrays as the region finds them (`V`); after the body at point `t`
    each input's buffer at its block and each output's at `out2_W` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' memrefs hold their blocks (`before2_W`), so `sound_kernel2` applies; the
    invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«159550_j10136122819017_2_alg».proof.Proof.Gen.Kernel.Launch
import proofs.«159550_j10136122819017_2_alg».proof.Proof.Gen.Kernel.Skeleton
import proofs.«159550_j10136122819017_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: every statement of this module is at this parameter
variable (V : (c : Dev nD) → (b : Ref sig .tc) → Buf (Elt F) ((c : Thread nD τ).loc b))

/-! # Region 3: one step of the graph convolution (`cc3__gcn_step_kernel`), at the entry contents `V`

Windows: 0 the aggregated rows, 1 the normalised rows, 2 the per-row norm (one column), 3 the bias row,
4 the weight matrix; results 5 (the rectified row `h`) and 6 (`h` times the weights, scaled by the norm). -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, so the block is the one already held. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): where the window is not
    fetched its block index has not moved, so the block is the one already held. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): where the window is not
    fetched its block index has not moved, so the block is the one already held. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): where the window is not
    fetched its block index has not moved, so the block is the one already held. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): where the window is not
    fetched its block index has not moved, so the block is the one already held. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is of a whole buffer -/

abbrev r3_0 : Rect S2000x256 := Rect.unit (s := S2000x256) ![0, 0] S2000x256.size inb_S2000x256_S2000x256_0_0
abbrev r3_1 : Rect S2000x1 := Rect.unit (s := S2000x1) ![0, 0] S2000x1.size inb_S2000x1_S2000x1_0_0
abbrev r3_2 : Rect S1x256 := Rect.unit (s := S1x256) ![0, 0] S1x256.size inb_S1x256_S1x256_0_0
abbrev r3_3 : Rect S256x256 := Rect.unit (s := S256x256) ![0, 0] S256x256.size inb_S256x256_S256x256_0_0

/-! ## What the body leaves in each output window's buffer -/

/-- Window 5's staging buffer after the body, from the input windows' blocks: its one store, of the rectified row. -/
def out3_5 (x0 : Vec F S2000x256 .f32) (x1 : Vec F S2000x256 .f32) (x2 : Vec F S2000x1 .f32) (x3 : Vec F S1x256 .f32) : Vec F S2000x256 .f32 :=
  View.canon [⟨r3_0, k3_pay2 (View.ld x0 r3_0) (View.ld x1 r3_0) (View.ld x2 r3_1) (View.ld x3 r3_2)⟩]

/-- Window 6's staging buffer after the body, from the input windows' blocks: its one store, of the product with the
    weights scaled by the norm. -/
def out3_6 (x0 : Vec F S2000x256 .f32) (x1 : Vec F S2000x256 .f32) (x2 : Vec F S2000x1 .f32) (x3 : Vec F S1x256 .f32) (x4 : Vec F S256x256 .bf16) : Vec F S2000x256 .f32 :=
  View.canon [⟨r3_0, k3_pay3 (View.ld x0 r3_0) (View.ld x1 r3_0) (View.ld x2 r3_1) (View.ld x3 r3_2) (View.ld x4 r3_3)⟩]

/-- The one store of window 5 is of the whole buffer, so it covers it. -/
theorem cover3_5 (p0 : Vec F S2000x256 .f32) (y : S2000x256.Idx) :
    ∃ pc ∈ ([⟨r3_0, p0⟩] : List (View.Piece (Elt F) S2000x256 .f32)), y ∈ pc.1.set :=
  View.cover_of_tiled [⟨r3_0, p0⟩] S2000x256.size (by rfl) y

/-- The one store of window 6 is of the whole buffer, so it covers it. -/
theorem cover3_6 (p0 : Vec F S2000x256 .f32) (y : S2000x256.Idx) :
    ∃ pc ∈ ([⟨r3_0, p0⟩] : List (View.Piece (Elt F) S2000x256 .f32)), y ∈ pc.1.set :=
  View.cover_of_tiled [⟨r3_0, p0⟩] S2000x256.size (by rfl) y

/-! ## The body's triple -/

set_option maxHeartbeats 1000000 in
/-- The kernel body on whole staging memrefs, the inputs' at contents `xW` and the outputs' at anything, runs to the
    continuation holding the inputs' as they were and each output's at `out3_W` of the inputs'. The body reads each
    output's buffer before storing to it; the value read is not used. -/
theorem sound_kernel3 (c : Dev nD) (E : Set ℕ) (i : grid3.Coords)
    (arg1 : Memref sig .tc .vmem S2000x256 .f32) (harg1 : arg1.IsWhole) (arg2 : Memref sig .tc .vmem S2000x256 .f32) (harg2 : arg2.IsWhole)
    (arg3 : Memref sig .tc .vmem S2000x1 .f32) (harg3 : arg3.IsWhole) (arg4 : Memref sig .tc .vmem S1x256 .f32) (harg4 : arg4.IsWhole)
    (arg5 : Memref sig .tc .vmem S256x256 .bf16) (harg5 : arg5.IsWhole) (arg6 : Memref sig .tc .vmem S2000x256 .f32) (harg6 : arg6.IsWhole)
    (arg7 : Memref sig .tc .vmem S2000x256 .f32) (harg7 : arg7.IsWhole)
    (x0 : Vec F S2000x256 .f32) (x1 : Vec F S2000x256 .f32) (x2 : Vec F S2000x1 .f32) (x3 : Vec F S1x256 .f32) (x4 : Vec F S256x256 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3) ∗ owns (c : Thread nD τ) arg7 fullShare (out3_6 x0 x1 x2 x3 x4)) -∗ K ⟨⟩))
      ⊢ wp frame (wpE (defs₀ (F := F)) Variants.none c none) E (cc3__gcn_step_kernel i arg1 harg1 arg2 harg2 arg3 harg3 arg4 harg4 arg5 harg5 arg6 harg6 arg7 harg7) K := by
  simp only [cc3__gcn_step_kernel_eq_skeleton]; unfold cc3__gcn_step_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

/-! ## The pipeline's proof data -/

/-- The proof data of pipeline 3 on core `c`: the arrays as the region finds them (`V`); after the body at point `t`
    each input's buffer at its block and each output's at `out3_W` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1000000 in
/-- The body at any point: the inputs' memrefs hold their blocks (`before3_W`), so `sound_kernel3` applies; the
    invariant and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«159550_j10136122819017_2_alg».proof.Proof.Gen.Kernel.Launch
import proofs.«159550_j10136122819017_2_alg».proof.Proof.Gen.Kernel.Skeleton
import proofs.«159550_j10136122819017_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: every statement of this module is at this parameter
variable (V : (c : Dev nD) → (b : Ref sig .tc) → Buf (Elt F) ((c : Thread nD τ).loc b))

/-! # Region 4: the last step of the graph convolution (`cc4__gcn_final_kernel`), at the entry contents `V`

Windows: 0 the aggregated rows, 1 the normalised rows, 2 the per-row norm (one column), 3 the bias row;
result 4, the rectified row. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): where the window is not
    fetched its block index has not moved, so the block is the one already held. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for any proof
    data whose array is `V`'s (`hA`) and whose body leaves the block in place (`hafter`): where the window is not
    fetched its block index has not moved, so the block is the one already held. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for any proof
    data whose array is `V`'s (`hA`) and whose body leaves the block in place (`hafter`): where the window is not
    fetched its block index has not moved, so the block is the one already held. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for any proof
    data whose array is `V`'s (`hA`) and whose body leaves the block in place (`hafter`): where the window is not
    fetched its block index has not moved, so the block is the one already held. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_0 : Rect S2000x256 := Rect.unit (s := S2000x256) ![0, 0] S2000x256.size inb_S2000x256_S2000x256_0_0
abbrev r4_1 : Rect S2000x1 := Rect.unit (s := S2000x1) ![0, 0] S2000x1.size inb_S2000x1_S2000x1_0_0
abbrev r4_2 : Rect S1x256 := Rect.unit (s := S1x256) ![0, 0] S1x256.size inb_S1x256_S1x256_0_0

/-! ## What the body leaves in the output window's buffer -/

/-- Window 4's staging buffer after the body, from the input windows' blocks: its one store, of the rectified row. -/
def out4_4 (x0 : Vec F S2000x256 .f32) (x1 : Vec F S2000x256 .f32) (x2 : Vec F S2000x1 .f32) (x3 : Vec F S1x256 .f32) : Vec F S2000x256 .f32 :=
  View.canon [⟨r4_0, k4_pay1 (View.ld x0 r4_0) (View.ld x1 r4_0) (View.ld x2 r4_1) (View.ld x3 r4_2)⟩]

/-- The one store of window 4 is of the whole buffer, so it covers it. -/
theorem cover4_4 (p0 : Vec F S2000x256 .f32) (y : S2000x256.Idx) :
    ∃ pc ∈ ([⟨r4_0, p0⟩] : List (View.Piece (Elt F) S2000x256 .f32)), y ∈ pc.1.set :=
  View.cover_of_tiled [⟨r4_0, p0⟩] S2000x256.size (by rfl) y

/-! ## The body's triple -/

set_option maxHeartbeats 1000000 in
/-- The kernel body on whole staging memrefs, the inputs' at contents `xW` and the output's at anything, runs to the
    continuation holding the inputs' as they were and the output's at `out4_4` of the inputs'. The body reads the
    output's buffer before storing to it; the value read is not used. -/
theorem sound_kernel4 (c : Dev nD) (E : Set ℕ) (i : grid4.Coords)
    (arg1 : Memref sig .tc .vmem S2000x256 .f32) (harg1 : arg1.IsWhole) (arg2 : Memref sig .tc .vmem S2000x256 .f32) (harg2 : arg2.IsWhole)
    (arg3 : Memref sig .tc .vmem S2000x1 .f32) (harg3 : arg3.IsWhole) (arg4 : Memref sig .tc .vmem S1x256 .f32) (harg4 : arg4.IsWhole)
    (arg5 : Memref sig .tc .vmem S2000x256 .f32) (harg5 : arg5.IsWhole)
    (x0 : Vec F S2000x256 .f32) (x1 : Vec F S2000x256 .f32) (x2 : Vec F S2000x1 .f32) (x3 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__gcn_final_kernel i arg1 harg1 arg2 harg2 arg3 harg3 arg4 harg4 arg5 harg5) K := by
  simp only [cc4__gcn_final_kernel_eq_skeleton]; unfold cc4__gcn_final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core `c`: the arrays as the region finds them (`V`); after the body at point `t`
    each input's buffer at its block and the output's at `out4_4` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the definition's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

set_option maxHeartbeats 1000000 in
/-- The body at any point: the inputs' memrefs hold their blocks (`before4_W`), so `sound_kernel4` applies; the
    invariant and the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _
    (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«159550_j10136122819017_2_alg».proof.Proof.Gen.Kernel.Launch
import proofs.«159550_j10136122819017_2_alg».proof.Proof.Gen.Kernel.Skeleton
import proofs.«159550_j10136122819017_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the edge head, a two-operand dense layer and a second dense layer, on blocks of 4000 rows

Per window its block at a grid point, read off the array as the region finds it (the parameter `V`);
the contents the body leaves in the output window's buffer as one whole-block piece over the body's
payload; the body's triple; the pipeline's proof data and its body obligation at every point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`). -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s (`hA`) and whose body leaves the block in place (`hafter`). -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store take the whole block -/

abbrev r5_0 : Rect S4000x256 := Rect.unit (s := S4000x256) ![0, 0] S4000x256.size inb_S4000x256_S4000x256_0_0
abbrev r5_1 : Rect S256x256 := Rect.unit (s := S256x256) ![0, 0] S256x256.size inb_S256x256_S256x256_0_0
abbrev r5_2 : Rect S1x256 := Rect.unit (s := S1x256) ![0, 0] S1x256.size inb_S1x256_S1x256_0_0
abbrev r5_3 : Rect S256x3 := Rect.unit (s := S256x3) ![0, 0] S256x3.size inb_S256x3_S256x3_0_0
abbrev r5_4 : Rect S1x3 := Rect.unit (s := S1x3) ![0, 0] S1x3.size inb_S1x3_S1x3_0_0
abbrev r5_5 : Rect S4000x3 := Rect.unit (s := S4000x3) ![0, 0] S4000x3.size inb_S4000x3_S4000x3_0_0

/-! ## What the body leaves in the output window's buffer -/

/-- Window 7's staging buffer after the body, from the input windows' blocks: its one store as a piece over the
    body's payload. -/
def out5_7 (x0 : Vec F S4000x256 .bf16) (x1 : Vec F S4000x256 .bf16) (x2 : Vec F S256x256 .bf16) (x3 : Vec F S256x256 .bf16) (x4 : Vec F S1x256 .f32) (x5 : Vec F S256x3 .bf16) (x6 : Vec F S1x3 .f32) : Vec F S4000x3 .f32 :=
  View.canon [⟨r5_5, k5_pay1 (View.ld x0 r5_0) (View.ld x1 r5_0) (View.ld x2 r5_1) (View.ld x3 r5_1) (View.ld x4 r5_2) (View.ld x5 r5_3) (View.ld x6 r5_4)⟩]

/-- The one store takes the whole block, so it covers the buffer. -/
theorem cover5_7 (p0 : Vec F S4000x3 .f32) (y : S4000x3.Idx) :
    ∃ pc ∈ ([⟨r5_5, p0⟩] : List (View.Piece (Elt F) S4000x3 .f32)), y ∈ pc.1.set :=
  View.cover_of_tiled [⟨r5_5, p0⟩] S4000x3.size (by rfl) y

/-! ## The body's triple -/

set_option maxHeartbeats 1000000 in
/-- The kernel body on whole staging memrefs, the inputs' at read contents `xW` and the output's at anything, runs to
    the continuation holding the inputs' as they were and the output's at `out5_7` of the inputs'. The body reads
    the output's buffer before it stores to it; what it reads there is not used. -/
theorem sound_kernel5 (c : Dev nD) (E : Set ℕ) (i : grid5.Coords) (arg0 : Memref sig .tc .vmem S4000x256 .bf16) (harg0 : arg0.IsWhole) (arg1 : Memref sig .tc .vmem S4000x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x3 .bf16) (harg5 : arg5.IsWhole) (arg6 : Memref sig .tc .vmem S1x3 .f32) (harg6 : arg6.IsWhole) (arg7 : Memref sig .tc .vmem S4000x3 .f32) (harg7 : arg7.IsWhole)
    (x0 : Vec F S4000x256 .bf16) (x1 : Vec F S4000x256 .bf16) (x2 : Vec F S256x256 .bf16) (x3 : Vec F S256x256 .bf16) (x4 : Vec F S1x256 .f32) (x5 : Vec F S256x3 .bf16) (x6 : Vec F S1x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out5_7 x0 x1 x2 x3 x4 x5 x6)) -∗ K ⟨⟩))
      ⊢ wp frame (wpE (defs₀ (F := F)) Variants.none c none) E (cc5__edge_mlp_kernel i arg0 harg0 arg1 harg1 arg2 harg2 arg3 harg3 arg4 harg4 arg5 harg5 arg6 harg6 arg7 harg7) K := by
  simp only [cc5__edge_mlp_kernel_eq_skeleton]; unfold cc5__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of pipeline 5 on core `c`: the arrays as the region finds them (`V`); after the body at
    point `t` each input's buffer at its block and the output's at `out5_7` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
import proofs.«159550_j10136122819017_2_alg».proof.Proof.Gen.Kernel.Launch
import proofs.«159550_j10136122819017_2_alg».proof.Proof.Gen.Kernel.Skeleton
import proofs.«159550_j10136122819017_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the node head, two dense layers and a logistic, on blocks of 2000 rows

Per window its block at a grid point, read off the array as the region finds it (the parameter `V`);
the contents the body leaves in the output window's buffer as one whole-block piece over the body's
payload; the body's triple; the pipeline's proof data and its body obligation at every point. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s (`hA`) and whose body leaves the block in place (`hafter`). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take the whole block -/

abbrev r6_0 : Rect S2000x256 := Rect.unit (s := S2000x256) ![0, 0] S2000x256.size inb_S2000x256_S2000x256_0_0
abbrev r6_1 : Rect S256x128 := Rect.unit (s := S256x128) ![0, 0] S256x128.size inb_S256x128_S256x128_0_0
abbrev r6_2 : Rect S1x128 := Rect.unit (s := S1x128) ![0, 0] S1x128.size inb_S1x128_S1x128_0_0
abbrev r6_3 : Rect S128x1 := Rect.unit (s := S128x1) ![0, 0] S128x1.size inb_S128x1_S128x1_0_0
abbrev r6_4 : Rect S1x1 := Rect.unit (s := S1x1) ![0, 0] S1x1.size inb_S1x1_S1x1_0_0
abbrev r6_5 : Rect S2000x1 := Rect.unit (s := S2000x1) ![0, 0] S2000x1.size inb_S2000x1_S2000x1_0_0

/-! ## What the body leaves in the output window's buffer -/

/-- Window 5's staging buffer after the body, from the input windows' blocks: its one store as a piece over the
    body's payload. -/
def out6_5 (x0 : Vec F S2000x256 .bf16) (x1 : Vec F S256x128 .bf16) (x2 : Vec F S1x128 .f32) (x3 : Vec F S128x1 .bf16) (x4 : Vec F S1x1 .f32) : Vec F S2000x1 .f32 :=
  View.canon [⟨r6_5, k6_pay1 (View.ld x0 r6_0) (View.ld x1 r6_1) (View.ld x2 r6_2) (View.ld x3 r6_3) (View.ld x4 r6_4)⟩]

/-- The one store takes the whole block, so it covers the buffer. -/
theorem cover6_5 (p0 : Vec F S2000x1 .f32) (y : S2000x1.Idx) :
    ∃ pc ∈ ([⟨r6_5, p0⟩] : List (View.Piece (Elt F) S2000x1 .f32)), y ∈ pc.1.set :=
  View.cover_of_tiled [⟨r6_5, p0⟩] S2000x1.size (by rfl) y

/-! ## The body's triple -/

set_option maxHeartbeats 1000000 in
/-- The kernel body on whole staging memrefs, the inputs' at read contents `xW` and the output's at anything, runs to
    the continuation holding the inputs' as they were and the output's at `out6_5` of the inputs'. The body reads
    the output's buffer before it stores to it; what it reads there is not used. -/
theorem sound_kernel6 (c : Dev nD) (E : Set ℕ) (i : grid6.Coords) (arg0 : Memref sig .tc .vmem S2000x256 .bf16) (harg0 : arg0.IsWhole) (arg1 : Memref sig .tc .vmem S256x128 .bf16) (harg1 : arg1.IsWhole) (arg2 : Memref sig .tc .vmem S1x128 .f32) (harg2 : arg2.IsWhole) (arg3 : Memref sig .tc .vmem S128x1 .bf16) (harg3 : arg3.IsWhole) (arg4 : Memref sig .tc .vmem S1x1 .f32) (harg4 : arg4.IsWhole) (arg5 : Memref sig .tc .vmem S2000x1 .f32) (harg5 : arg5.IsWhole)
    (x0 : Vec F S2000x256 .bf16) (x1 : Vec F S256x128 .bf16) (x2 : Vec F S1x128 .f32) (x3 : Vec F S128x1 .bf16) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out6_5 x0 x1 x2 x3 x4)) -∗ K ⟨⟩))
      ⊢ wp frame (wpE (defs₀ (F := F)) Variants.none c none) E (cc6__mlp2_kernel i arg0 harg0 arg1 harg1 arg2 harg2 arg3 harg3 arg4 harg4 arg5 harg5) K := by
  simp only [cc6__mlp2_kernel_eq_skeleton]; unfold cc6__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at
    point `t` each input's buffer at its block and the output's at `out6_5` of the input blocks; the invariant
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Fold.lean ====
import proofs.«159550_j10136122819017_2_alg».proof.Proof.Gen.Kernel.Launch
import proofs.«159550_j10136122819017_2_alg».proof.Proof.Gen.Kernel.Skeleton
import proofs.«159550_j10136122819017_2_alg».proof.Proof.Gen.Kernel.Points
import proofs.«159550_j10136122819017_2_alg».proof.Proof.Gen.Kernel.Regions
import proofs.«159550_j10136122819017_2_alg».proof.Proof.K.Reg0
import proofs.«159550_j10136122819017_2_alg».proof.Proof.K.Reg1
import proofs.«159550_j10136122819017_2_alg».proof.Proof.K.Reg2
import proofs.«159550_j10136122819017_2_alg».proof.Proof.K.Reg3
import proofs.«159550_j10136122819017_2_alg».proof.Proof.K.Reg4
import proofs.«159550_j10136122819017_2_alg».proof.Proof.K.Reg5
import proofs.«159550_j10136122819017_2_alg».proof.Proof.K.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at every boundary of the program

  The program is eight stretches of host operations around seven kernel regions. The contents of a core's buffers at
  the fifteen boundaries are a fold from the launch memory: a host stretch applies its operations one after the other;
  a region leaves each of its arrays at what the region's write-backs make of it (an input array as it was entered, an
  output array the blocks the grid points flushed) and every other buffer as entered. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After host stretch 0: what region 0 is entered from. -/
abbrev W1 : Dev nD → Valuation τ sig (Elt F) := fun c => StableHlo.after hostOps0 (W0 m ρ c)
/-- The same read at the core's references. -/
abbrev B1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)
/-- A buffer host stretch 0 does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After host stretch 1: what region 1 is entered from. -/
abbrev W3 : Dev nD → Valuation τ sig (Elt F) := fun c => StableHlo.after hostOps1 (W2 m ρ c)
/-- The same read at the core's references. -/
abbrev B3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (B3 m ρ) c).arrAt w cfg1.N
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev B4 : (c : Dev nD) → (b : Ref sig .tc) → Buf (Elt F) ((c : Thread nD τ).loc b) := fun c b => W4 m ρ c b
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)
/-- A buffer host stretch 1 does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- After host stretch 2: what region 2 is entered from. -/
abbrev W5 : Dev nD → Valuation τ sig (Elt F) := fun c => StableHlo.after hostOps2 (W4 m ρ c)
/-- The same read at the core's references. -/
abbrev B5 : (c : Dev nD) → (b : Ref sig .tc) → Buf (Elt F) ((c : Thread nD τ).loc b) := fun c b => W5 m ρ c b
/-- After region 2: its arrays at what the pipeline leaves, every other buffer as entered. -/
def W6 (c : Dev nD) : Valuation τ sig (Elt F) :=
  Pipeline.withArrays spec2 c (W5 m ρ c) fun w => (dat2 (B5 m ρ) c).arrAt w cfg2.N
theorem W6_arr (c : Dev nD) (w : Fin cfg2.W) :
    W6 m ρ c (Proc.devRef .tc (Pipeline.arrRef spec2 w)) = (dat2 (B5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev B6 : (c : Dev nD) → (b : Ref sig .tc) → Buf (Elt F) ((c : Thread nD τ).loc b) := fun c b => W6 m ρ c b
theorem hF2 (c : Dev nD) (w : Fin cfg2.W) : (dat2 (B5 m ρ) c).arrAt w cfg2.N = B6 m ρ c (Pipeline.arrRef spec2 w) :=
  (W6_arr m ρ c w).symm
theorem hrest2 (c : Dev nD) : ∀ b, b ∉ Finset.univ.image (Pipeline.arrRef spec2) → B6 m ρ c b = B5 m ρ c b :=
  fun b hb => W6_of_ne m ρ c b fun w e => hb (Finset.mem_image.mpr ⟨w, Finset.mem_univ _, e⟩)
/-- A buffer host stretch 2 does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- After host stretch 3: what region 3 is entered from. -/
abbrev W7 : Dev nD → Valuation τ sig (Elt F) := fun c => StableHlo.after hostOps3 (W6 m ρ c)
/-- The same read at the core's references. -/
abbrev B7 : (c : Dev nD) → (b : Ref sig .tc) → Buf (Elt F) ((c : Thread nD τ).loc b) := fun c b => W7 m ρ c b
/-- After region 3: its arrays at what the pipeline leaves, every other buffer as entered. -/
def W8 (c : Dev nD) : Valuation τ sig (Elt F) :=
  Pipeline.withArrays spec3 c (W7 m ρ c) fun w => (dat3 (B7 m ρ) c).arrAt w cfg3.N
theorem W8_arr (c : Dev nD) (w : Fin cfg3.W) :
    W8 m ρ c (Proc.devRef .tc (Pipeline.arrRef spec3 w)) = (dat3 (B7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev B8 : (c : Dev nD) → (b : Ref sig .tc) → Buf (Elt F) ((c : Thread nD τ).loc b) := fun c b => W8 m ρ c b
theorem hF3 (c : Dev nD) (w : Fin cfg3.W) : (dat3 (B7 m ρ) c).arrAt w cfg3.N = B8 m ρ c (Pipeline.arrRef spec3 w) :=
  (W8_arr m ρ c w).symm
theorem hrest3 (c : Dev nD) : ∀ b, b ∉ Finset.univ.image (Pipeline.arrRef spec3) → B8 m ρ c b = B7 m ρ c b :=
  fun b hb => W8_of_ne m ρ c b fun w e => hb (Finset.mem_image.mpr ⟨w, Finset.mem_univ _, e⟩)
/-- A buffer host stretch 3 does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- After host stretch 4: what region 4 is entered from. -/
abbrev W9 : Dev nD → Valuation τ sig (Elt F) := fun c => StableHlo.after hostOps4 (W8 m ρ c)
/-- The same read at the core's references. -/
abbrev B9 : (c : Dev nD) → (b : Ref sig .tc) → Buf (Elt F) ((c : Thread nD τ).loc b) := fun c b => W9 m ρ c b
/-- After region 4: its arrays at what the pipeline leaves, every other buffer as entered. -/
def W10 (c : Dev nD) : Valuation τ sig (Elt F) :=
  Pipeline.withArrays spec4 c (W9 m ρ c) fun w => (dat4 (B9 m ρ) c).arrAt w cfg4.N
theorem W10_arr (c : Dev nD) (w : Fin cfg4.W) :
    W10 m ρ c (Proc.devRef .tc (Pipeline.arrRef spec4 w)) = (dat4 (B9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev B10 : (c : Dev nD) → (b : Ref sig .tc) → Buf (Elt F) ((c : Thread nD τ).loc b) := fun c b => W10 m ρ c b
theorem hF4 (c : Dev nD) (w : Fin cfg4.W) : (dat4 (B9 m ρ) c).arrAt w cfg4.N = B10 m ρ c (Pipeline.arrRef spec4 w) :=
  (W10_arr m ρ c w).symm
theorem hrest4 (c : Dev nD) : ∀ b, b ∉ Finset.univ.image (Pipeline.arrRef spec4) → B10 m ρ c b = B9 m ρ c b :=
  fun b hb => W10_of_ne m ρ c b fun w e => hb (Finset.mem_image.mpr ⟨w, Finset.mem_univ _, e⟩)
/-- A buffer host stretch 4 does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h

/-- After host stretch 5: what region 5 is entered from. -/
abbrev W11 : Dev nD → Valuation τ sig (Elt F) := fun c => StableHlo.after hostOps5 (W10 m ρ c)
/-- The same read at the core's references. -/
abbrev B11 : (c : Dev nD) → (b : Ref sig .tc) → Buf (Elt F) ((c : Thread nD τ).loc b) := fun c b => W11 m ρ c b
/-- After region 5: its arrays at what the pipeline leaves, every other buffer as entered. -/
def W12 (c : Dev nD) : Valuation τ sig (Elt F) :=
  Pipeline.withArrays spec5 c (W11 m ρ c) fun w => (dat5 (B11 m ρ) c).arrAt w cfg5.N
theorem W12_arr (c : Dev nD) (w : Fin cfg5.W) :
    W12 m ρ c (Proc.devRef .tc (Pipeline.arrRef spec5 w)) = (dat5 (B11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev B12 : (c : Dev nD) → (b : Ref sig .tc) → Buf (Elt F) ((c : Thread nD τ).loc b) := fun c b => W12 m ρ c b
theorem hF5 (c : Dev nD) (w : Fin cfg5.W) : (dat5 (B11 m ρ) c).arrAt w cfg5.N = B12 m ρ c (Pipeline.arrRef spec5 w) :=
  (W12_arr m ρ c w).symm
theorem hrest5 (c : Dev nD) : ∀ b, b ∉ Finset.univ.image (Pipeline.arrRef spec5) → B12 m ρ c b = B11 m ρ c b :=
  fun b hb => W12_of_ne m ρ c b fun w e => hb (Finset.mem_image.mpr ⟨w, Finset.mem_univ _, e⟩)
/-- A buffer host stretch 5 does not write keeps its contents across it. -/
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h

/-- After host stretch 6: what region 6 is entered from. -/
abbrev W13 : Dev nD → Valuation τ sig (Elt F) := fun c => StableHlo.after hostOps6 (W12 m ρ c)
/-- The same read at the core's references. -/
abbrev B13 : (c : Dev nD) → (b : Ref sig .tc) → Buf (Elt F) ((c : Thread nD τ).loc b) := fun c b => W13 m ρ c b
/-- After region 6: its arrays at what the pipeline leaves, every other buffer as entered. -/
def W14 (c : Dev nD) : Valuation τ sig (Elt F) :=
  Pipeline.withArrays spec6 c (W13 m ρ c) fun w => (dat6 (B13 m ρ) c).arrAt w cfg6.N
theorem W14_arr (c : Dev nD) (w : Fin cfg6.W) :
    W14 m ρ c (Proc.devRef .tc (Pipeline.arrRef spec6 w)) = (dat6 (B13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev B14 : (c : Dev nD) → (b : Ref sig .tc) → Buf (Elt F) ((c : Thread nD τ).loc b) := fun c b => W14 m ρ c b
theorem hF6 (c : Dev nD) (w : Fin cfg6.W) : (dat6 (B13 m ρ) c).arrAt w cfg6.N = B14 m ρ c (Pipeline.arrRef spec6 w) :=
  (W14_arr m ρ c w).symm
theorem hrest6 (c : Dev nD) : ∀ b, b ∉ Finset.univ.image (Pipeline.arrRef spec6) → B14 m ρ c b = B13 m ρ c b :=
  fun b hb => W14_of_ne m ρ c b fun w e => hb (Finset.mem_image.mpr ⟨w, Finset.mem_univ _, e⟩)
/-- A buffer host stretch 6 does not write keeps its contents across it. -/
theorem W13_of (c : Dev nD) (r : Ref sig .tc) (h : r ∉ hostOps6_W) : W13 m ρ c (Proc.devRef .tc r) = W12 m ρ c (Proc.devRef .tc r) :=
  StableHlo.after_of_writes_sub hostOps6 _ hostOps6_writes h

/-- After the last host stretch: what the program ends with. -/
abbrev W15 : Dev nD → Valuation τ sig (Elt F) := fun c => StableHlo.after hostOps7 (W14 m ρ c)
theorem W15_of (c : Dev nD) (r : Ref sig .tc) (h : r ∉ hostOps7_W) : W15 m ρ c (Proc.devRef .tc r) = W14 m ρ c (Proc.devRef .tc r) :=
  StableHlo.after_of_writes_sub hostOps7 _ hostOps7_writes h

/-! ## The proof data family -/

/-- No pipeline has a prefetched table. -/
abbrev admH : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) admH p) c
  | ⟨0, _⟩ => fun c => dat0 (B1 m ρ) c
  | ⟨1, _⟩ => fun c => dat1 (B3 m ρ) c
  | ⟨2, _⟩ => fun c => dat2 (B5 m ρ) c
  | ⟨3, _⟩ => fun c => dat3 (B7 m ρ) c
  | ⟨4, _⟩ => fun c => dat4 (B9 m ρ) c
  | ⟨5, _⟩ => fun c => dat5 (B11 m ρ) c
  | ⟨6, _⟩ => fun c => dat6 (B13 m ρ) c

end Cert.Kernel.Hand

end
-- ==== Proof.K.Run.lean ====
import proofs.«159550_j10136122819017_2_alg».proof.Proof.Gen.Kernel.Launch
import proofs.«159550_j10136122819017_2_alg».proof.Proof.Gen.Kernel.Skeleton
import proofs.«159550_j10136122819017_2_alg».proof.Proof.Gen.Kernel.Points
import proofs.«159550_j10136122819017_2_alg».proof.Proof.Gen.Kernel.Regions
import proofs.«159550_j10136122819017_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

  Each region is a segment over the thread state "every unscoped buffer at the boundary's contents, the generator
  register at some state, nothing owed"; each host stretch a segment over the same state. Chained from the launch they
  give: every weakly fair execution terminates, nothing faults, and every unscoped buffer ends at the last boundary's
  contents `W15`. The frame claim and the value claim are both read off that one statement. -/

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes out; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes out; nothing is owed; the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (B3 m ρ c) (B4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and
    comes out; nothing is owed; the kernel has no semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (B5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (B5 m ρ c) (B6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the invariant and
    comes out; nothing is owed; the kernel has no semaphore of its own. -/
def reg3 : Pipeline.RegionSeg (pcfgs (F := F)) admH (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (B7 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (B7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (B7 m ρ c) (B8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split
    out of the unscoped buffers and put back at the exit contents; the generator register goes into the invariant and
    comes out; nothing is owed; the kernel has no semaphore of its own. -/
def reg4 : Pipeline.RegionSeg (pcfgs (F := F)) admH (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (B9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (B9 m ρ c)
  hentry c := by
    rw [Pipeline.ownSems0_none]
    have hsplit := Pipeline.arrays_of_unscopedBufs (p := 4) (pcfgs (F := F)) admH (pdats m ρ) launch4.win launch4.arr_whole c
      ((pdats m ρ 4 c).share_full fun _ => rfl) (B9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m ρ) ((pdats m ρ 4 c).share_full fun _ => rfl)
      (B9 m ρ c) (B10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split
    out of the unscoped buffers and put back at the exit contents; the generator register goes into the invariant and
    comes out; nothing is owed; the kernel has no semaphore of its own. -/
def reg5 : Pipeline.RegionSeg (pcfgs (F := F)) admH (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (B11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (B11 m ρ c)
  hentry c := by
    rw [Pipeline.ownSems0_none]
    have hsplit := Pipeline.arrays_of_unscopedBufs (p := 5) (pcfgs (F := F)) admH (pdats m ρ) launch5.win launch5.arr_whole c
      ((pdats m ρ 5 c).share_full fun _ => rfl) (B11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m ρ) ((pdats m ρ 5 c).share_full fun _ => rfl)
      (B11 m ρ c) (B12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split
    out of the unscoped buffers and put back at the exit contents; the generator register goes into the invariant and
    comes out; nothing is owed; the kernel has no semaphore of its own. -/
def reg6 : Pipeline.RegionSeg (pcfgs (F := F)) admH (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (B13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (B13 m ρ c)
  hentry c := by
    rw [Pipeline.ownSems0_none]
    have hsplit := Pipeline.arrays_of_unscopedBufs (p := 6) (pcfgs (F := F)) admH (pdats m ρ) launch6.win launch6.arr_whole c
      ((pdats m ρ 6 c).share_full fun _ => rfl) (B13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdats m ρ) ((pdats m ρ 6 c).share_full fun _ => rfl)
      (B13 m ρ c) (B14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's fifteen segments in order. -/
abbrev segs : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)) ]

/-- The program is the run of its segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show (iprop(StableHlo.held (c : Thread nD τ) (Pipeline.ucRefs τ sig) (W15 m ρ c) ∗ R c) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.Kernel.Hand

end
-- ==== Proof.K.Frame.lean ====
import proofs.«159550_j10136122819017_2_alg».proof.Proof.Gen.Kernel.Launch
import proofs.«159550_j10136122819017_2_alg».proof.Proof.Gen.Kernel.Skeleton
import proofs.«159550_j10136122819017_2_alg».proof.Proof.Gen.Kernel.Points
import proofs.«159550_j10136122819017_2_alg».proof.Proof.Gen.Kernel.Regions
import proofs.«159550_j10136122819017_2_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame claim

  An argument array is written by no host stretch and is the array of no region's window, so the fold of the buffer
  contents at it walks back, boundary by boundary, to the launch memory. The frame claim is that fact at each of the
  fourteen arguments, read off the run. -/

variable (m : (ℓ : Loc nD τ sig) → Buf (Elt F) ℓ) (ρ : Dev nD → PrngReg)

/-- A reference no host stretch writes and no region has as a window's array ends the program as launched. -/
theorem W15_of_untouched (c : Dev nD) (r : Ref sig .tc)
    (h7 : r ∉ hostOps7_W) (a6 : ∀ w, Pipeline.arrRef spec6 w ≠ r) (h6 : r ∉ hostOps6_W) (a5 : ∀ w, Pipeline.arrRef spec5 w ≠ r)
    (h5 : r ∉ hostOps5_W) (a4 : ∀ w, Pipeline.arrRef spec4 w ≠ r) (h4 : r ∉ hostOps4_W) (a3 : ∀ w, Pipeline.arrRef spec3 w ≠ r)
    (h3 : r ∉ hostOps3_W) (a2 : ∀ w, Pipeline.arrRef spec2 w ≠ r) (h2 : r ∉ hostOps2_W) (a1 : ∀ w, Pipeline.arrRef spec1 w ≠ r)
    (h1 : r ∉ hostOps1_W) (a0 : ∀ w, Pipeline.arrRef spec0 w ≠ r) (h0 : r ∉ hostOps0_W) :
    W15 m ρ c (Proc.devRef .tc r) = m ((c : Thread nD τ).loc r) :=
  (W15_of m ρ c r h7).trans <| (W14_of_ne m ρ c r a6).trans <| (W13_of m ρ c r h6).trans <| (W12_of_ne m ρ c r a5).trans <|
  (W11_of m ρ c r h5).trans <| (W10_of_ne m ρ c r a4).trans <| (W9_of m ρ c r h4).trans <| (W8_of_ne m ρ c r a3).trans <|
  (W7_of m ρ c r h3).trans <| (W6_of_ne m ρ c r a2).trans <| (W5_of m ρ c r h2).trans <| (W4_of_ne m ρ c r a1).trans <|
  (W3_of m ρ c r h1).trans <| (W2_of_ne m ρ c r a0).trans <| (W1_of m ρ c r h0).trans rfl

theorem W15_main_arg0 (c : Dev nD) : W15 m ρ c (Proc.devRef .tc main_arg0) = m ((c : Thread nD τ).loc main_arg0) :=
  W15_of_untouched m ρ c main_arg0 (by decide) (by decide) (by decide) (by decide) (by decide) (by decide) (by decide) (by decide)
    (by decide) (by decide) (by decide) (by decide) (by decide) (by decide) (by decide)
theorem W15_main_arg1 (c : Dev nD) : W15 m ρ c (Proc.devRef .tc main_arg1) = m ((c : Thread nD τ).loc main_arg1) :=
  W15_of_untouched m ρ c main_arg1 (by decide) (by decide) (by decide) (by decide) (by decide) (by decide) (by decide) (by decide)
    (by decide) (by decide) (by decide) (by decide) (by decide) (by decide) (by decide)
theorem W15_main_arg2 (c : Dev nD) : W15 m ρ c (Proc.devRef .tc main_arg2) = m ((c : Thread nD τ).loc main_arg2) :=
  W15_of_untouched m ρ c main_arg2 (by decide) (by decide) (by decide) (by decide) (by decide) (by decide) (by decide) (by decide)
    (by decide) (by decide) (by decide) (by decide) (by decide) (by decide) (by decide)
theorem W15_main_arg3 (c : Dev nD) : W15 m ρ c (Proc.devRef .tc main_arg3) = m ((c : Thread nD τ).loc main_arg3) :=
  W15_of_untouched m ρ c main_arg3 (by decide) (by decide) (by decide) (by decide) (by decide) (by decide) (by decide) (by decide)
    (by decide) (by decide) (by decide) (by decide) (by decide) (by decide) (by decide)
theorem W15_main_arg4 (c : Dev nD) : W15 m ρ c (Proc.devRef .tc main_arg4) = m ((c : Thread nD τ).loc main_arg4) :=
  W15_of_untouched m ρ c main_arg4 (by decide) (by decide) (by decide) (by decide) (by decide) (by decide) (by decide) (by decide)
    (by decide) (by decide) (by decide) (by decide) (by decide) (by decide) (by decide)
theorem W15_main_arg5 (c : Dev nD) : W15 m ρ c (Proc.devRef .tc main_arg5) = m ((c : Thread nD τ).loc main_arg5) :=
  W15_of_untouched m ρ c main_arg5 (by decide) (by decide) (by decide) (by decide) (by decide) (by decide) (by decide) (by decide)
    (by decide) (by decide) (by decide) (by decide) (by decide) (by decide) (by decide)
theorem W15_main_arg6 (c : Dev nD) : W15 m ρ c (Proc.devRef .tc main_arg6) = m ((c : Thread nD τ).loc main_arg6) :=
  W15_of_untouched m ρ c main_arg6 (by decide) (by decide) (by decide) (by decide) (by decide) (by decide) (by decide) (by decide)
    (by decide) (by decide) (by decide) (by decide) (by decide) (by decide) (by decide)
theorem W15_main_arg7 (c : Dev nD) : W15 m ρ c (Proc.devRef .tc main_arg7) = m ((c : Thread nD τ).loc main_arg7) :=
  W15_of_untouched m ρ c main_arg7 (by decide) (by decide) (by decide) (by decide) (by decide) (by decide) (by decide) (by decide)
    (by decide) (by decide) (by decide) (by decide) (by decide) (by decide) (by decide)
theorem W15_main_arg8 (c : Dev nD) : W15 m ρ c (Proc.devRef .tc main_arg8) = m ((c : Thread nD τ).loc main_arg8) :=
  W15_of_untouched m ρ c main_arg8 (by decide) (by decide) (by decide) (by decide) (by decide) (by decide) (by decide) (by decide)
    (by decide) (by decide) (by decide) (by decide) (by decide) (by decide) (by decide)
theorem W15_main_arg9 (c : Dev nD) : W15 m ρ c (Proc.devRef .tc main_arg9) = m ((c : Thread nD τ).loc main_arg9) :=
  W15_of_untouched m ρ c main_arg9 (by decide) (by decide) (by decide) (by decide) (by decide) (by decide) (by decide) (by decide)
    (by decide) (by decide) (by decide) (by decide) (by decide) (by decide) (by decide)
theorem W15_main_arg10 (c : Dev nD) : W15 m ρ c (Proc.devRef .tc main_arg10) = m ((c : Thread nD τ).loc main_arg10) :=
  W15_of_untouched m ρ c main_arg10 (by decide) (by decide) (by decide) (by decide) (by decide) (by decide) (by decide) (by decide)
    (by decide) (by decide) (by decide) (by decide) (by decide) (by decide) (by decide)
theorem W15_main_arg11 (c : Dev nD) : W15 m ρ c (Proc.devRef .tc main_arg11) = m ((c : Thread nD τ).loc main_arg11) :=
  W15_of_untouched m ρ c main_arg11 (by decide) (by decide) (by decide) (by decide) (by decide) (by decide) (by decide) (by decide)
    (by decide) (by decide) (by decide) (by decide) (by decide) (by decide) (by decide)
theorem W15_main_arg12 (c : Dev nD) : W15 m ρ c (Proc.devRef .tc main_arg12) = m ((c : Thread nD τ).loc main_arg12) :=
  W15_of_untouched m ρ c main_arg12 (by decide) (by decide) (by decide) (by decide) (by decide) (by decide) (by decide) (by decide)
    (by decide) (by decide) (by decide) (by decide) (by decide) (by decide) (by decide)
theorem W15_main_arg13 (c : Dev nD) : W15 m ρ c (Proc.devRef .tc main_arg13) = m ((c : Thread nD τ).loc main_arg13) :=
  W15_of_untouched m ρ c main_arg13 (by decide) (by decide) (by decide) (by decide) (by decide) (by decide) (by decide) (by decide)
    (by decide) (by decide) (by decide) (by decide) (by decide) (by decide) (by decide)

/-- THE FRAME: every weakly fair execution terminates, nothing faulting, and the fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c),
      (h c _ (mem_uc main_arg9 (by decide))).trans (W15_main_arg9 m ρ c),
      (h c _ (mem_uc main_arg10 (by decide))).trans (W15_main_arg10 m ρ c),
      (h c _ (mem_uc main_arg11 (by decide))).trans (W15_main_arg11 m ρ c),
      (h c _ (mem_uc main_arg12 (by decide))).trans (W15_main_arg12 m ρ c),
      (h c _ (mem_uc main_arg13 (by decide))).trans (W15_main_arg13 m ρ c)⟩)
    (run_all m ρ)

end Cert.Kernel.Hand

end
-- ==== Proof.KI.Reg0.lean ====
import proofs.«159550_j10136122819017_2_alg».proof.Proof.Gen.KernelIdeal.Launch
import proofs.«159550_j10136122819017_2_alg».proof.Proof.Gen.KernelIdeal.Skeleton
import proofs.«159550_j10136122819017_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents of the core when the region is entered: the parameter this region's half is stated at
variable (V : (c : Dev nD) → (b : Ref sig .tc) → Buf (Elt F) ((c : Thread nD τ).loc b))

/-! # Region 0: a linear layer with bias and rectifier, `max (x · W + b) 0`, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether it is fetched there or was
    fetched earlier and has not moved since, for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether it is fetched there or was
    fetched earlier and has not moved since, for any proof data whose array is `V`'s and whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether it is fetched there or was
    fetched earlier and has not moved since, for any proof data whose array is `V`'s and whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev r0_0 : Rect S2000x256 := Rect.unit (s := S2000x256) ![0, 0] S2000x256.size inb_S2000x256_S2000x256_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0
abbrev r0_3 : Rect S2000x256 := Rect.unit (s := S2000x256) ![0, 0] S2000x256.size inb_S2000x256_S2000x256_0_0

/-! ## What the body leaves in the output window's buffer -/

/-- Window 3's staging buffer after the body, from the input windows' blocks: its one store, of the
    payload over the whole blocks loaded. -/
def out0_3 (x0 : Vec F S2000x256 .bf16) (x1 : Vec F S256x256 .bf16) (x2 : Vec F S1x256 .f32) : Vec F S2000x256 .f32 :=
  View.canon [⟨r0_3, k0_pay1 (View.ld x0 r0_0) (View.ld x1 r0_1) (View.ld x2 r0_2)⟩]

/-- The one store takes the whole buffer, so it covers it. -/
theorem cover0_3 (p0 : Vec F S2000x256 .f32) (y : S2000x256.Idx) :
    ∃ pc ∈ ([⟨r0_3, p0⟩] : List (View.Piece (Elt F) S2000x256 .f32)), y ∈ pc.1.set :=
  View.cover_of_tiled [⟨r0_3, p0⟩] S2000x256.size (by rfl) y

/-! ## The body's triple -/

set_option maxHeartbeats 1000000 in
/-- The kernel body on whole staging memrefs, the inputs' at read contents `xW` and the output's at anything,
    runs to the continuation holding the inputs' as they were and the output's at `out0_3` of the inputs'.
    The body reads the output buffer once before it stores to it; what it reads there is not used. -/
theorem sound_kernel0 (c : Dev nD) (E : Set ℕ) (i : grid0.Coords) (arg1 : Memref sig .tc .vmem S2000x256 .bf16) (harg1 : arg1.IsWhole) (arg2 : Memref sig .tc .vmem S256x256 .bf16) (harg2 : arg2.IsWhole) (arg3 : Memref sig .tc .vmem S1x256 .f32) (harg3 : arg3.IsWhole) (arg4 : Memref sig .tc .vmem S2000x256 .f32) (harg4 : arg4.IsWhole)
    (x0 : Vec F S2000x256 .bf16) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_bias_relu_kernel i arg1 harg1 arg2 harg2 arg3 harg3 arg4 harg4) K := by
  simp only [cc0__linear_bias_relu_kernel_eq_skeleton]; unfold cc0__linear_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the
    invariant leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
import proofs.«159550_j10136122819017_2_alg».proof.Proof.Gen.KernelIdeal.Launch
import proofs.«159550_j10136122819017_2_alg».proof.Proof.Gen.KernelIdeal.Skeleton
import proofs.«159550_j10136122819017_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents of the core when the region is entered: the parameter this region's half is stated at
variable (V : (c : Dev nD) → (b : Ref sig .tc) → Buf (Elt F) ((c : Thread nD τ).loc b))

/-! # Region 1: a matrix product scaled row by row, `(h · W) * norm`, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it is fetched there or was
    fetched earlier and has not moved since, for any proof data whose array is `V`'s and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether it is fetched there or was
    fetched earlier and has not moved since, for any proof data whose array is `V`'s and whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether it is fetched there or was
    fetched earlier and has not moved since, for any proof data whose array is `V`'s and whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole block -/

abbrev r1_0 : Rect S2000x256 := Rect.unit (s := S2000x256) ![0, 0] S2000x256.size inb_S2000x256_S2000x256_0_0
abbrev r1_1 : Rect S256x256 := Rect.unit (s := S256x256) ![0, 0] S256x256.size inb_S256x256_S256x256_0_0
abbrev r1_2 : Rect S2000x1 := Rect.unit (s := S2000x1) ![0, 0] S2000x1.size inb_S2000x1_S2000x1_0_0
abbrev r1_3 : Rect S2000x256 := Rect.unit (s := S2000x256) ![0, 0] S2000x256.size inb_S2000x256_S2000x256_0_0

/-! ## What the body leaves in the output window's buffer -/

/-- Window 3's staging buffer after the body, from the input windows' blocks: its one store, of the
    payload over the whole blocks loaded. -/
def out1_3 (x0 : Vec F S2000x256 .f32) (x1 : Vec F S256x256 .bf16) (x2 : Vec F S2000x1 .f32) : Vec F S2000x256 .f32 :=
  View.canon [⟨r1_3, k1_pay1 (View.ld x0 r1_0) (View.ld x1 r1_1) (View.ld x2 r1_2)⟩]

/-- The one store takes the whole buffer, so it covers it. -/
theorem cover1_3 (p0 : Vec F S2000x256 .f32) (y : S2000x256.Idx) :
    ∃ pc ∈ ([⟨r1_3, p0⟩] : List (View.Piece (Elt F) S2000x256 .f32)), y ∈ pc.1.set :=
  View.cover_of_tiled [⟨r1_3, p0⟩] S2000x256.size (by rfl) y

/-! ## The body's triple -/

set_option maxHeartbeats 1000000 in
/-- The kernel body on whole staging memrefs, the inputs' at read contents `xW` and the output's at anything,
    runs to the continuation holding the inputs' as they were and the output's at `out1_3` of the inputs'.
    The body reads the output buffer once before it stores to it; what it reads there is not used. -/
theorem sound_kernel1 (c : Dev nD) (E : Set ℕ) (i : grid1.Coords) (arg1 : Memref sig .tc .vmem S2000x256 .f32) (harg1 : arg1.IsWhole) (arg2 : Memref sig .tc .vmem S256x256 .bf16) (harg2 : arg2.IsWhole) (arg3 : Memref sig .tc .vmem S2000x1 .f32) (harg3 : arg3.IsWhole) (arg4 : Memref sig .tc .vmem S2000x256 .f32) (harg4 : arg4.IsWhole)
    (x0 : Vec F S2000x256 .f32) (x1 : Vec F S256x256 .bf16) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_norm_kernel i arg1 harg1 arg2 harg2 arg3 harg3 arg4 harg4) K := by
  simp only [cc1__matmul_norm_kernel_eq_skeleton]; unfold cc1__matmul_norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the
    invariant leaves the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant
    and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Reg2.lean ====
import proofs.«159550_j10136122819017_2_alg».proof.Proof.Gen.KernelIdeal.Launch
import proofs.«159550_j10136122819017_2_alg».proof.Proof.Gen.KernelIdeal.Skeleton
import proofs.«159550_j10136122819017_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: every statement of this module is at this parameter
variable (V : (c : Dev nD) → (b : Ref sig .tc) → Buf (Elt F) ((c : Thread nD τ).loc b))

/-! # Region 2: one step of the graph convolution (`cc2__gcn_step_kernel`), at the entry contents `V`

Windows: 0 the aggregated rows, 1 the normalised rows, 2 the per-row norm (one column), 3 the bias row,
4 the weight matrix; results 5 (the rectified row `h`) and 6 (`h` times the weights, scaled by the norm). -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the block is the one already held. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): where the window is not
    fetched its block index has not moved, so the block is the one already held. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): where the window is not
    fetched its block index has not moved, so the block is the one already held. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): where the window is not
    fetched its block index has not moved, so the block is the one already held. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): where the window is not
    fetched its block index has not moved, so the block is the one already held. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_0 : Rect S2000x256 := Rect.unit (s := S2000x256) ![0, 0] S2000x256.size inb_S2000x256_S2000x256_0_0
abbrev r2_1 : Rect S2000x1 := Rect.unit (s := S2000x1) ![0, 0] S2000x1.size inb_S2000x1_S2000x1_0_0
abbrev r2_2 : Rect S1x256 := Rect.unit (s := S1x256) ![0, 0] S1x256.size inb_S1x256_S1x256_0_0
abbrev r2_3 : Rect S256x256 := Rect.unit (s := S256x256) ![0, 0] S256x256.size inb_S256x256_S256x256_0_0

/-! ## What the body leaves in each output window's buffer -/

/-- Window 5's staging buffer after the body, from the input windows' blocks: its one store, of the rectified row. -/
def out2_5 (x0 : Vec F S2000x256 .f32) (x1 : Vec F S2000x256 .f32) (x2 : Vec F S2000x1 .f32) (x3 : Vec F S1x256 .f32) : Vec F S2000x256 .f32 :=
  View.canon [⟨r2_0, k2_pay2 (View.ld x0 r2_0) (View.ld x1 r2_0) (View.ld x2 r2_1) (View.ld x3 r2_2)⟩]

/-- Window 6's staging buffer after the body, from the input windows' blocks: its one store, of the product with the
    weights scaled by the norm. -/
def out2_6 (x0 : Vec F S2000x256 .f32) (x1 : Vec F S2000x256 .f32) (x2 : Vec F S2000x1 .f32) (x3 : Vec F S1x256 .f32) (x4 : Vec F S256x256 .bf16) : Vec F S2000x256 .f32 :=
  View.canon [⟨r2_0, k2_pay3 (View.ld x0 r2_0) (View.ld x1 r2_0) (View.ld x2 r2_1) (View.ld x3 r2_2) (View.ld x4 r2_3)⟩]

/-- The one store of window 5 is of the whole buffer, so it covers it. -/
theorem cover2_5 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

/-- The one store of window 6 is of the whole buffer, so it covers it. -/
theorem cover2_6 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

/-! ## The body's triple -/

set_option maxHeartbeats 1000000 in
/-- The kernel body on whole staging memrefs, the inputs' at contents `xW` and the outputs' at anything, runs to the
    continuation holding the inputs' as they were and each output's at `out2_W` of the inputs'. The body reads each
    output's buffer before storing to it; the value read is not used. -/
theorem sound_kernel2 (c : Dev nD) (E : Set ℕ) (i : grid2.Coords)
    (arg1 : Memref sig .tc .vmem S2000x256 .f32) (harg1 : arg1.IsWhole) (arg2 : Memref sig .tc .vmem S2000x256 .f32) (harg2 : arg2.IsWhole)
    (arg3 : Memref sig .tc .vmem S2000x1 .f32) (harg3 : arg3.IsWhole) (arg4 : Memref sig .tc .vmem S1x256 .f32) (harg4 : arg4.IsWhole)
    (arg5 : Memref sig .tc .vmem S256x256 .bf16) (harg5 : arg5.IsWhole) (arg6 : Memref sig .tc .vmem S2000x256 .f32) (harg6 : arg6.IsWhole)
    (arg7 : Memref sig .tc .vmem S2000x256 .f32) (harg7 : arg7.IsWhole)
    (x0 : Vec F S2000x256 .f32) (x1 : Vec F S2000x256 .f32) (x2 : Vec F S2000x1 .f32) (x3 : Vec F S1x256 .f32) (x4 : Vec F S256x256 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3) ∗ owns (c : Thread nD τ) arg7 fullShare (out2_6 x0 x1 x2 x3 x4)) -∗ K ⟨⟩))
      ⊢ wp frame (wpE (defs₀ (F := F)) Variants.none c none) E (cc2__gcn_step_kernel i arg1 harg1 arg2 harg2 arg3 harg3 arg4 harg4 arg5 harg5 arg6 harg6 arg7 harg7) K := by
  simp only [cc2__gcn_step_kernel_eq_skeleton]; unfold cc2__gcn_step_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The pipeline's proof data -/

/-- The proof data of pipeline 2 on core `c`: the arrays as the region finds them (`V`); after the body at point `t`
    each input's buffer at its block and each output's at `out2_W` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' memrefs hold their blocks (`before2_W`), so `sound_kernel2` applies; the
    invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«159550_j10136122819017_2_alg».proof.Proof.Gen.KernelIdeal.Launch
import proofs.«159550_j10136122819017_2_alg».proof.Proof.Gen.KernelIdeal.Skeleton
import proofs.«159550_j10136122819017_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: every statement of this module is at this parameter
variable (V : (c : Dev nD) → (b : Ref sig .tc) → Buf (Elt F) ((c : Thread nD τ).loc b))

/-! # Region 3: one step of the graph convolution (`cc3__gcn_step_kernel`), at the entry contents `V`

Windows: 0 the aggregated rows, 1 the normalised rows, 2 the per-row norm (one column), 3 the bias row,
4 the weight matrix; results 5 (the rectified row `h`) and 6 (`h` times the weights, scaled by the norm). -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, so the block is the one already held. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): where the window is not
    fetched its block index has not moved, so the block is the one already held. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): where the window is not
    fetched its block index has not moved, so the block is the one already held. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): where the window is not
    fetched its block index has not moved, so the block is the one already held. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): where the window is not
    fetched its block index has not moved, so the block is the one already held. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is of a whole buffer -/

abbrev r3_0 : Rect S2000x256 := Rect.unit (s := S2000x256) ![0, 0] S2000x256.size inb_S2000x256_S2000x256_0_0
abbrev r3_1 : Rect S2000x1 := Rect.unit (s := S2000x1) ![0, 0] S2000x1.size inb_S2000x1_S2000x1_0_0
abbrev r3_2 : Rect S1x256 := Rect.unit (s := S1x256) ![0, 0] S1x256.size inb_S1x256_S1x256_0_0
abbrev r3_3 : Rect S256x256 := Rect.unit (s := S256x256) ![0, 0] S256x256.size inb_S256x256_S256x256_0_0

/-! ## What the body leaves in each output window's buffer -/

/-- Window 5's staging buffer after the body, from the input windows' blocks: its one store, of the rectified row. -/
def out3_5 (x0 : Vec F S2000x256 .f32) (x1 : Vec F S2000x256 .f32) (x2 : Vec F S2000x1 .f32) (x3 : Vec F S1x256 .f32) : Vec F S2000x256 .f32 :=
  View.canon [⟨r3_0, k3_pay2 (View.ld x0 r3_0) (View.ld x1 r3_0) (View.ld x2 r3_1) (View.ld x3 r3_2)⟩]

/-- Window 6's staging buffer after the body, from the input windows' blocks: its one store, of the product with the
    weights scaled by the norm. -/
def out3_6 (x0 : Vec F S2000x256 .f32) (x1 : Vec F S2000x256 .f32) (x2 : Vec F S2000x1 .f32) (x3 : Vec F S1x256 .f32) (x4 : Vec F S256x256 .bf16) : Vec F S2000x256 .f32 :=
  View.canon [⟨r3_0, k3_pay3 (View.ld x0 r3_0) (View.ld x1 r3_0) (View.ld x2 r3_1) (View.ld x3 r3_2) (View.ld x4 r3_3)⟩]

/-- The one store of window 5 is of the whole buffer, so it covers it. -/
theorem cover3_5 (p0 : Vec F S2000x256 .f32) (y : S2000x256.Idx) :
    ∃ pc ∈ ([⟨r3_0, p0⟩] : List (View.Piece (Elt F) S2000x256 .f32)), y ∈ pc.1.set :=
  View.cover_of_tiled [⟨r3_0, p0⟩] S2000x256.size (by rfl) y

/-- The one store of window 6 is of the whole buffer, so it covers it. -/
theorem cover3_6 (p0 : Vec F S2000x256 .f32) (y : S2000x256.Idx) :
    ∃ pc ∈ ([⟨r3_0, p0⟩] : List (View.Piece (Elt F) S2000x256 .f32)), y ∈ pc.1.set :=
  View.cover_of_tiled [⟨r3_0, p0⟩] S2000x256.size (by rfl) y

/-! ## The body's triple -/

set_option maxHeartbeats 1000000 in
/-- The kernel body on whole staging memrefs, the inputs' at contents `xW` and the outputs' at anything, runs to the
    continuation holding the inputs' as they were and each output's at `out3_W` of the inputs'. The body reads each
    output's buffer before storing to it; the value read is not used. -/
theorem sound_kernel3 (c : Dev nD) (E : Set ℕ) (i : grid3.Coords)
    (arg1 : Memref sig .tc .vmem S2000x256 .f32) (harg1 : arg1.IsWhole) (arg2 : Memref sig .tc .vmem S2000x256 .f32) (harg2 : arg2.IsWhole)
    (arg3 : Memref sig .tc .vmem S2000x1 .f32) (harg3 : arg3.IsWhole) (arg4 : Memref sig .tc .vmem S1x256 .f32) (harg4 : arg4.IsWhole)
    (arg5 : Memref sig .tc .vmem S256x256 .bf16) (harg5 : arg5.IsWhole) (arg6 : Memref sig .tc .vmem S2000x256 .f32) (harg6 : arg6.IsWhole)
    (arg7 : Memref sig .tc .vmem S2000x256 .f32) (harg7 : arg7.IsWhole)
    (x0 : Vec F S2000x256 .f32) (x1 : Vec F S2000x256 .f32) (x2 : Vec F S2000x1 .f32) (x3 : Vec F S1x256 .f32) (x4 : Vec F S256x256 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3) ∗ owns (c : Thread nD τ) arg7 fullShare (out3_6 x0 x1 x2 x3 x4)) -∗ K ⟨⟩))
      ⊢ wp frame (wpE (defs₀ (F := F)) Variants.none c none) E (cc3__gcn_step_kernel i arg1 harg1 arg2 harg2 arg3 harg3 arg4 harg4 arg5 harg5 arg6 harg6 arg7 harg7) K := by
  simp only [cc3__gcn_step_kernel_eq_skeleton]; unfold cc3__gcn_step_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

/-! ## The pipeline's proof data -/

/-- The proof data of pipeline 3 on core `c`: the arrays as the region finds them (`V`); after the body at point `t`
    each input's buffer at its block and each output's at `out3_W` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 1000000 in
/-- The body at any point: the inputs' memrefs hold their blocks (`before3_W`), so `sound_kernel3` applies; the
    invariant and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«159550_j10136122819017_2_alg».proof.Proof.Gen.KernelIdeal.Launch
import proofs.«159550_j10136122819017_2_alg».proof.Proof.Gen.KernelIdeal.Skeleton
import proofs.«159550_j10136122819017_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: every statement of this module is at this parameter
variable (V : (c : Dev nD) → (b : Ref sig .tc) → Buf (Elt F) ((c : Thread nD τ).loc b))

/-! # Region 4: the last step of the graph convolution (`cc4__gcn_final_kernel`), at the entry contents `V`

Windows: 0 the aggregated rows, 1 the normalised rows, 2 the per-row norm (one column), 3 the bias row;
result 4, the rectified row. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): where the window is not
    fetched its block index has not moved, so the block is the one already held. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for any proof
    data whose array is `V`'s (`hA`) and whose body leaves the block in place (`hafter`): where the window is not
    fetched its block index has not moved, so the block is the one already held. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for any proof
    data whose array is `V`'s (`hA`) and whose body leaves the block in place (`hafter`): where the window is not
    fetched its block index has not moved, so the block is the one already held. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for any proof
    data whose array is `V`'s (`hA`) and whose body leaves the block in place (`hafter`): where the window is not
    fetched its block index has not moved, so the block is the one already held. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_0 : Rect S2000x256 := Rect.unit (s := S2000x256) ![0, 0] S2000x256.size inb_S2000x256_S2000x256_0_0
abbrev r4_1 : Rect S2000x1 := Rect.unit (s := S2000x1) ![0, 0] S2000x1.size inb_S2000x1_S2000x1_0_0
abbrev r4_2 : Rect S1x256 := Rect.unit (s := S1x256) ![0, 0] S1x256.size inb_S1x256_S1x256_0_0

/-! ## What the body leaves in the output window's buffer -/

/-- Window 4's staging buffer after the body, from the input windows' blocks: its one store, of the rectified row. -/
def out4_4 (x0 : Vec F S2000x256 .f32) (x1 : Vec F S2000x256 .f32) (x2 : Vec F S2000x1 .f32) (x3 : Vec F S1x256 .f32) : Vec F S2000x256 .f32 :=
  View.canon [⟨r4_0, k4_pay1 (View.ld x0 r4_0) (View.ld x1 r4_0) (View.ld x2 r4_1) (View.ld x3 r4_2)⟩]

/-- The one store of window 4 is of the whole buffer, so it covers it. -/
theorem cover4_4 (p0 : Vec F S2000x256 .f32) (y : S2000x256.Idx) :
    ∃ pc ∈ ([⟨r4_0, p0⟩] : List (View.Piece (Elt F) S2000x256 .f32)), y ∈ pc.1.set :=
  View.cover_of_tiled [⟨r4_0, p0⟩] S2000x256.size (by rfl) y

/-! ## The body's triple -/

set_option maxHeartbeats 1000000 in
/-- The kernel body on whole staging memrefs, the inputs' at contents `xW` and the output's at anything, runs to the
    continuation holding the inputs' as they were and the output's at `out4_4` of the inputs'. The body reads the
    output's buffer before storing to it; the value read is not used. -/
theorem sound_kernel4 (c : Dev nD) (E : Set ℕ) (i : grid4.Coords)
    (arg1 : Memref sig .tc .vmem S2000x256 .f32) (harg1 : arg1.IsWhole) (arg2 : Memref sig .tc .vmem S2000x256 .f32) (harg2 : arg2.IsWhole)
    (arg3 : Memref sig .tc .vmem S2000x1 .f32) (harg3 : arg3.IsWhole) (arg4 : Memref sig .tc .vmem S1x256 .f32) (harg4 : arg4.IsWhole)
    (arg5 : Memref sig .tc .vmem S2000x256 .f32) (harg5 : arg5.IsWhole)
    (x0 : Vec F S2000x256 .f32) (x1 : Vec F S2000x256 .f32) (x2 : Vec F S2000x1 .f32) (x3 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__gcn_final_kernel i arg1 harg1 arg2 harg2 arg3 harg3 arg4 harg4 arg5 harg5) K := by
  simp only [cc4__gcn_final_kernel_eq_skeleton]; unfold cc4__gcn_final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core `c`: the arrays as the region finds them (`V`); after the body at point `t`
    each input's buffer at its block and the output's at `out4_4` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the definition's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

set_option maxHeartbeats 1000000 in
/-- The body at any point: the inputs' memrefs hold their blocks (`before4_W`), so `sound_kernel4` applies; the
    invariant and the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _
    (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«159550_j10136122819017_2_alg».proof.Proof.Gen.KernelIdeal.Launch
import proofs.«159550_j10136122819017_2_alg».proof.Proof.Gen.KernelIdeal.Skeleton
import proofs.«159550_j10136122819017_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the edge head, a two-operand dense layer and a second dense layer, on blocks of 4000 rows

Per window its block at a grid point, read off the array as the region finds it (the parameter `V`);
the contents the body leaves in the output window's buffer as one whole-block piece over the body's
payload; the body's triple; the pipeline's proof data and its body obligation at every point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`). -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s (`hA`) and whose body leaves the block in place (`hafter`). -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store take the whole block -/

abbrev r5_0 : Rect S4000x256 := Rect.unit (s := S4000x256) ![0, 0] S4000x256.size inb_S4000x256_S4000x256_0_0
abbrev r5_1 : Rect S256x256 := Rect.unit (s := S256x256) ![0, 0] S256x256.size inb_S256x256_S256x256_0_0
abbrev r5_2 : Rect S1x256 := Rect.unit (s := S1x256) ![0, 0] S1x256.size inb_S1x256_S1x256_0_0
abbrev r5_3 : Rect S256x3 := Rect.unit (s := S256x3) ![0, 0] S256x3.size inb_S256x3_S256x3_0_0
abbrev r5_4 : Rect S1x3 := Rect.unit (s := S1x3) ![0, 0] S1x3.size inb_S1x3_S1x3_0_0
abbrev r5_5 : Rect S4000x3 := Rect.unit (s := S4000x3) ![0, 0] S4000x3.size inb_S4000x3_S4000x3_0_0

/-! ## What the body leaves in the output window's buffer -/

/-- Window 7's staging buffer after the body, from the input windows' blocks: its one store as a piece over the
    body's payload. -/
def out5_7 (x0 : Vec F S4000x256 .bf16) (x1 : Vec F S4000x256 .bf16) (x2 : Vec F S256x256 .bf16) (x3 : Vec F S256x256 .bf16) (x4 : Vec F S1x256 .f32) (x5 : Vec F S256x3 .bf16) (x6 : Vec F S1x3 .f32) : Vec F S4000x3 .f32 :=
  View.canon [⟨r5_5, k5_pay1 (View.ld x0 r5_0) (View.ld x1 r5_0) (View.ld x2 r5_1) (View.ld x3 r5_1) (View.ld x4 r5_2) (View.ld x5 r5_3) (View.ld x6 r5_4)⟩]

/-- The one store takes the whole block, so it covers the buffer. -/
theorem cover5_7 (p0 : Vec F S4000x3 .f32) (y : S4000x3.Idx) :
    ∃ pc ∈ ([⟨r5_5, p0⟩] : List (View.Piece (Elt F) S4000x3 .f32)), y ∈ pc.1.set :=
  View.cover_of_tiled [⟨r5_5, p0⟩] S4000x3.size (by rfl) y

/-! ## The body's triple -/

set_option maxHeartbeats 1000000 in
/-- The kernel body on whole staging memrefs, the inputs' at read contents `xW` and the output's at anything, runs to
    the continuation holding the inputs' as they were and the output's at `out5_7` of the inputs'. The body reads
    the output's buffer before it stores to it; what it reads there is not used. -/
theorem sound_kernel5 (c : Dev nD) (E : Set ℕ) (i : grid5.Coords) (arg0 : Memref sig .tc .vmem S4000x256 .bf16) (harg0 : arg0.IsWhole) (arg1 : Memref sig .tc .vmem S4000x256 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x3 .bf16) (harg5 : arg5.IsWhole) (arg6 : Memref sig .tc .vmem S1x3 .f32) (harg6 : arg6.IsWhole) (arg7 : Memref sig .tc .vmem S4000x3 .f32) (harg7 : arg7.IsWhole)
    (x0 : Vec F S4000x256 .bf16) (x1 : Vec F S4000x256 .bf16) (x2 : Vec F S256x256 .bf16) (x3 : Vec F S256x256 .bf16) (x4 : Vec F S1x256 .f32) (x5 : Vec F S256x3 .bf16) (x6 : Vec F S1x3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out5_7 x0 x1 x2 x3 x4 x5 x6)) -∗ K ⟨⟩))
      ⊢ wp frame (wpE (defs₀ (F := F)) Variants.none c none) E (cc5__edge_mlp_kernel i arg0 harg0 arg1 harg1 arg2 harg2 arg3 harg3 arg4 harg4 arg5 harg5 arg6 harg6 arg7 harg7) K := by
  simp only [cc5__edge_mlp_kernel_eq_skeleton]; unfold cc5__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of pipeline 5 on core `c`: the arrays as the region finds them (`V`); after the body at
    point `t` each input's buffer at its block and the output's at `out5_7` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«159550_j10136122819017_2_alg».proof.Proof.Gen.KernelIdeal.Launch
import proofs.«159550_j10136122819017_2_alg».proof.Proof.Gen.KernelIdeal.Skeleton
import proofs.«159550_j10136122819017_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the node head, two dense layers and a logistic, on blocks of 2000 rows

Per window its block at a grid point, read off the array as the region finds it (the parameter `V`);
the contents the body leaves in the output window's buffer as one whole-block piece over the body's
payload; the body's triple; the pipeline's proof data and its body obligation at every point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s (`hA`) and whose body leaves the block in place (`hafter`). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take the whole block -/

abbrev r6_0 : Rect S2000x256 := Rect.unit (s := S2000x256) ![0, 0] S2000x256.size inb_S2000x256_S2000x256_0_0
abbrev r6_1 : Rect S256x128 := Rect.unit (s := S256x128) ![0, 0] S256x128.size inb_S256x128_S256x128_0_0
abbrev r6_2 : Rect S1x128 := Rect.unit (s := S1x128) ![0, 0] S1x128.size inb_S1x128_S1x128_0_0
abbrev r6_3 : Rect S128x1 := Rect.unit (s := S128x1) ![0, 0] S128x1.size inb_S128x1_S128x1_0_0
abbrev r6_4 : Rect S1x1 := Rect.unit (s := S1x1) ![0, 0] S1x1.size inb_S1x1_S1x1_0_0
abbrev r6_5 : Rect S2000x1 := Rect.unit (s := S2000x1) ![0, 0] S2000x1.size inb_S2000x1_S2000x1_0_0

/-! ## What the body leaves in the output window's buffer -/

/-- Window 5's staging buffer after the body, from the input windows' blocks: its one store as a piece over the
    body's payload. -/
def out6_5 (x0 : Vec F S2000x256 .bf16) (x1 : Vec F S256x128 .bf16) (x2 : Vec F S1x128 .f32) (x3 : Vec F S128x1 .bf16) (x4 : Vec F S1x1 .f32) : Vec F S2000x1 .f32 :=
  View.canon [⟨r6_5, k6_pay1 (View.ld x0 r6_0) (View.ld x1 r6_1) (View.ld x2 r6_2) (View.ld x3 r6_3) (View.ld x4 r6_4)⟩]

/-- The one store takes the whole block, so it covers the buffer. -/
theorem cover6_5 (p0 : Vec F S2000x1 .f32) (y : S2000x1.Idx) :
    ∃ pc ∈ ([⟨r6_5, p0⟩] : List (View.Piece (Elt F) S2000x1 .f32)), y ∈ pc.1.set :=
  View.cover_of_tiled [⟨r6_5, p0⟩] S2000x1.size (by rfl) y

/-! ## The body's triple -/

set_option maxHeartbeats 1000000 in
/-- The kernel body on whole staging memrefs, the inputs' at read contents `xW` and the output's at anything, runs to
    the continuation holding the inputs' as they were and the output's at `out6_5` of the inputs'. The body reads
    the output's buffer before it stores to it; what it reads there is not used. -/
theorem sound_kernel6 (c : Dev nD) (E : Set ℕ) (i : grid6.Coords) (arg0 : Memref sig .tc .vmem S2000x256 .bf16) (harg0 : arg0.IsWhole) (arg1 : Memref sig .tc .vmem S256x128 .bf16) (harg1 : arg1.IsWhole) (arg2 : Memref sig .tc .vmem S1x128 .f32) (harg2 : arg2.IsWhole) (arg3 : Memref sig .tc .vmem S128x1 .bf16) (harg3 : arg3.IsWhole) (arg4 : Memref sig .tc .vmem S1x1 .f32) (harg4 : arg4.IsWhole) (arg5 : Memref sig .tc .vmem S2000x1 .f32) (harg5 : arg5.IsWhole)
    (x0 : Vec F S2000x256 .bf16) (x1 : Vec F S256x128 .bf16) (x2 : Vec F S1x128 .f32) (x3 : Vec F S128x1 .bf16) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out6_5 x0 x1 x2 x3 x4)) -∗ K ⟨⟩))
      ⊢ wp frame (wpE (defs₀ (F := F)) Variants.none c none) E (cc6__mlp2_kernel i arg0 harg0 arg1 harg1 arg2 harg2 arg3 harg3 arg4 harg4 arg5 harg5) K := by
  simp only [cc6__mlp2_kernel_eq_skeleton]; unfold cc6__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at
    point `t` each input's buffer at its block and the output's at `out6_5` of the input blocks; the invariant
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Fold.lean ====
import proofs.«159550_j10136122819017_2_alg».proof.Proof.Gen.KernelIdeal.Launch
import proofs.«159550_j10136122819017_2_alg».proof.Proof.Gen.KernelIdeal.Skeleton
import proofs.«159550_j10136122819017_2_alg».proof.Proof.Gen.KernelIdeal.Points
import proofs.«159550_j10136122819017_2_alg».proof.Proof.Gen.KernelIdeal.Regions
import proofs.«159550_j10136122819017_2_alg».proof.Proof.KI.Reg0
import proofs.«159550_j10136122819017_2_alg».proof.Proof.KI.Reg1
import proofs.«159550_j10136122819017_2_alg».proof.Proof.KI.Reg2
import proofs.«159550_j10136122819017_2_alg».proof.Proof.KI.Reg3
import proofs.«159550_j10136122819017_2_alg».proof.Proof.KI.Reg4
import proofs.«159550_j10136122819017_2_alg».proof.Proof.KI.Reg5
import proofs.«159550_j10136122819017_2_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at every boundary of the program

  The program is eight stretches of host operations around seven kernel regions. The contents of a core's buffers at
  the fifteen boundaries are a fold from the launch memory: a host stretch applies its operations one after the other;
  a region leaves each of its arrays at what the region's write-backs make of it (an input array as it was entered, an
  output array the blocks the grid points flushed) and every other buffer as entered. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After host stretch 0: what region 0 is entered from. -/
abbrev W1 : Dev nD → Valuation τ sig (Elt F) := fun c => StableHlo.after hostOps0 (W0 m ρ c)
/-- The same read at the core's references. -/
abbrev B1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)
/-- A buffer host stretch 0 does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After host stretch 1: what region 1 is entered from. -/
abbrev W3 : Dev nD → Valuation τ sig (Elt F) := fun c => StableHlo.after hostOps1 (W2 m ρ c)
/-- The same read at the core's references. -/
abbrev B3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (B3 m ρ) c).arrAt w cfg1.N
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev B4 : (c : Dev nD) → (b : Ref sig .tc) → Buf (Elt F) ((c : Thread nD τ).loc b) := fun c b => W4 m ρ c b
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)
/-- A buffer host stretch 1 does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- After host stretch 2: what region 2 is entered from. -/
abbrev W5 : Dev nD → Valuation τ sig (Elt F) := fun c => StableHlo.after hostOps2 (W4 m ρ c)
/-- The same read at the core's references. -/
abbrev B5 : (c : Dev nD) → (b : Ref sig .tc) → Buf (Elt F) ((c : Thread nD τ).loc b) := fun c b => W5 m ρ c b
/-- After region 2: its arrays at what the pipeline leaves, every other buffer as entered. -/
def W6 (c : Dev nD) : Valuation τ sig (Elt F) :=
  Pipeline.withArrays spec2 c (W5 m ρ c) fun w => (dat2 (B5 m ρ) c).arrAt w cfg2.N
theorem W6_arr (c : Dev nD) (w : Fin cfg2.W) :
    W6 m ρ c (Proc.devRef .tc (Pipeline.arrRef spec2 w)) = (dat2 (B5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev B6 : (c : Dev nD) → (b : Ref sig .tc) → Buf (Elt F) ((c : Thread nD τ).loc b) := fun c b => W6 m ρ c b
theorem hF2 (c : Dev nD) (w : Fin cfg2.W) : (dat2 (B5 m ρ) c).arrAt w cfg2.N = B6 m ρ c (Pipeline.arrRef spec2 w) :=
  (W6_arr m ρ c w).symm
theorem hrest2 (c : Dev nD) : ∀ b, b ∉ Finset.univ.image (Pipeline.arrRef spec2) → B6 m ρ c b = B5 m ρ c b :=
  fun b hb => W6_of_ne m ρ c b fun w e => hb (Finset.mem_image.mpr ⟨w, Finset.mem_univ _, e⟩)
/-- A buffer host stretch 2 does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- After host stretch 3: what region 3 is entered from. -/
abbrev W7 : Dev nD → Valuation τ sig (Elt F) := fun c => StableHlo.after hostOps3 (W6 m ρ c)
/-- The same read at the core's references. -/
abbrev B7 : (c : Dev nD) → (b : Ref sig .tc) → Buf (Elt F) ((c : Thread nD τ).loc b) := fun c b => W7 m ρ c b
/-- After region 3: its arrays at what the pipeline leaves, every other buffer as entered. -/
def W8 (c : Dev nD) : Valuation τ sig (Elt F) :=
  Pipeline.withArrays spec3 c (W7 m ρ c) fun w => (dat3 (B7 m ρ) c).arrAt w cfg3.N
theorem W8_arr (c : Dev nD) (w : Fin cfg3.W) :
    W8 m ρ c (Proc.devRef .tc (Pipeline.arrRef spec3 w)) = (dat3 (B7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev B8 : (c : Dev nD) → (b : Ref sig .tc) → Buf (Elt F) ((c : Thread nD τ).loc b) := fun c b => W8 m ρ c b
theorem hF3 (c : Dev nD) (w : Fin cfg3.W) : (dat3 (B7 m ρ) c).arrAt w cfg3.N = B8 m ρ c (Pipeline.arrRef spec3 w) :=
  (W8_arr m ρ c w).symm
theorem hrest3 (c : Dev nD) : ∀ b, b ∉ Finset.univ.image (Pipeline.arrRef spec3) → B8 m ρ c b = B7 m ρ c b :=
  fun b hb => W8_of_ne m ρ c b fun w e => hb (Finset.mem_image.mpr ⟨w, Finset.mem_univ _, e⟩)
/-- A buffer host stretch 3 does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- After host stretch 4: what region 4 is entered from. -/
abbrev W9 : Dev nD → Valuation τ sig (Elt F) := fun c => StableHlo.after hostOps4 (W8 m ρ c)
/-- The same read at the core's references. -/
abbrev B9 : (c : Dev nD) → (b : Ref sig .tc) → Buf (Elt F) ((c : Thread nD τ).loc b) := fun c b => W9 m ρ c b
/-- After region 4: its arrays at what the pipeline leaves, every other buffer as entered. -/
def W10 (c : Dev nD) : Valuation τ sig (Elt F) :=
  Pipeline.withArrays spec4 c (W9 m ρ c) fun w => (dat4 (B9 m ρ) c).arrAt w cfg4.N
theorem W10_arr (c : Dev nD) (w : Fin cfg4.W) :
    W10 m ρ c (Proc.devRef .tc (Pipeline.arrRef spec4 w)) = (dat4 (B9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev B10 : (c : Dev nD) → (b : Ref sig .tc) → Buf (Elt F) ((c : Thread nD τ).loc b) := fun c b => W10 m ρ c b
theorem hF4 (c : Dev nD) (w : Fin cfg4.W) : (dat4 (B9 m ρ) c).arrAt w cfg4.N = B10 m ρ c (Pipeline.arrRef spec4 w) :=
  (W10_arr m ρ c w).symm
theorem hrest4 (c : Dev nD) : ∀ b, b ∉ Finset.univ.image (Pipeline.arrRef spec4) → B10 m ρ c b = B9 m ρ c b :=
  fun b hb => W10_of_ne m ρ c b fun w e => hb (Finset.mem_image.mpr ⟨w, Finset.mem_univ _, e⟩)
/-- A buffer host stretch 4 does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h

/-- After host stretch 5: what region 5 is entered from. -/
abbrev W11 : Dev nD → Valuation τ sig (Elt F) := fun c => StableHlo.after hostOps5 (W10 m ρ c)
/-- The same read at the core's references. -/
abbrev B11 : (c : Dev nD) → (b : Ref sig .tc) → Buf (Elt F) ((c : Thread nD τ).loc b) := fun c b => W11 m ρ c b
/-- After region 5: its arrays at what the pipeline leaves, every other buffer as entered. -/
def W12 (c : Dev nD) : Valuation τ sig (Elt F) :=
  Pipeline.withArrays spec5 c (W11 m ρ c) fun w => (dat5 (B11 m ρ) c).arrAt w cfg5.N
theorem W12_arr (c : Dev nD) (w : Fin cfg5.W) :
    W12 m ρ c (Proc.devRef .tc (Pipeline.arrRef spec5 w)) = (dat5 (B11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev B12 : (c : Dev nD) → (b : Ref sig .tc) → Buf (Elt F) ((c : Thread nD τ).loc b) := fun c b => W12 m ρ c b
theorem hF5 (c : Dev nD) (w : Fin cfg5.W) : (dat5 (B11 m ρ) c).arrAt w cfg5.N = B12 m ρ c (Pipeline.arrRef spec5 w) :=
  (W12_arr m ρ c w).symm
theorem hrest5 (c : Dev nD) : ∀ b, b ∉ Finset.univ.image (Pipeline.arrRef spec5) → B12 m ρ c b = B11 m ρ c b :=
  fun b hb => W12_of_ne m ρ c b fun w e => hb (Finset.mem_image.mpr ⟨w, Finset.mem_univ _, e⟩)
/-- A buffer host stretch 5 does not write keeps its contents across it. -/
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h

/-- After host stretch 6: what region 6 is entered from. -/
abbrev W13 : Dev nD → Valuation τ sig (Elt F) := fun c => StableHlo.after hostOps6 (W12 m ρ c)
/-- The same read at the core's references. -/
abbrev B13 : (c : Dev nD) → (b : Ref sig .tc) → Buf (Elt F) ((c : Thread nD τ).loc b) := fun c b => W13 m ρ c b
/-- After region 6: its arrays at what the pipeline leaves, every other buffer as entered. -/
def W14 (c : Dev nD) : Valuation τ sig (Elt F) :=
  Pipeline.withArrays spec6 c (W13 m ρ c) fun w => (dat6 (B13 m ρ) c).arrAt w cfg6.N
theorem W14_arr (c : Dev nD) (w : Fin cfg6.W) :
    W14 m ρ c (Proc.devRef .tc (Pipeline.arrRef spec6 w)) = (dat6 (B13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev B14 : (c : Dev nD) → (b : Ref sig .tc) → Buf (Elt F) ((c : Thread nD τ).loc b) := fun c b => W14 m ρ c b
theorem hF6 (c : Dev nD) (w : Fin cfg6.W) : (dat6 (B13 m ρ) c).arrAt w cfg6.N = B14 m ρ c (Pipeline.arrRef spec6 w) :=
  (W14_arr m ρ c w).symm
theorem hrest6 (c : Dev nD) : ∀ b, b ∉ Finset.univ.image (Pipeline.arrRef spec6) → B14 m ρ c b = B13 m ρ c b :=
  fun b hb => W14_of_ne m ρ c b fun w e => hb (Finset.mem_image.mpr ⟨w, Finset.mem_univ _, e⟩)
/-- A buffer host stretch 6 does not write keeps its contents across it. -/
theorem W13_of (c : Dev nD) (r : Ref sig .tc) (h : r ∉ hostOps6_W) : W13 m ρ c (Proc.devRef .tc r) = W12 m ρ c (Proc.devRef .tc r) :=
  StableHlo.after_of_writes_sub hostOps6 _ hostOps6_writes h

/-- After the last host stretch: what the program ends with. -/
abbrev W15 : Dev nD → Valuation τ sig (Elt F) := fun c => StableHlo.after hostOps7 (W14 m ρ c)
theorem W15_of (c : Dev nD) (r : Ref sig .tc) (h : r ∉ hostOps7_W) : W15 m ρ c (Proc.devRef .tc r) = W14 m ρ c (Proc.devRef .tc r) :=
  StableHlo.after_of_writes_sub hostOps7 _ hostOps7_writes h

/-! ## The proof data family -/

/-- No pipeline has a prefetched table. -/
abbrev admH : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) admH p) c
  | ⟨0, _⟩ => fun c => dat0 (B1 m ρ) c
  | ⟨1, _⟩ => fun c => dat1 (B3 m ρ) c
  | ⟨2, _⟩ => fun c => dat2 (B5 m ρ) c
  | ⟨3, _⟩ => fun c => dat3 (B7 m ρ) c
  | ⟨4, _⟩ => fun c => dat4 (B9 m ρ) c
  | ⟨5, _⟩ => fun c => dat5 (B11 m ρ) c
  | ⟨6, _⟩ => fun c => dat6 (B13 m ρ) c

end Cert.KernelIdeal.Hand

end
-- ==== Proof.KI.Run.lean ====
import proofs.«159550_j10136122819017_2_alg».proof.Proof.Gen.KernelIdeal.Launch
import proofs.«159550_j10136122819017_2_alg».proof.Proof.Gen.KernelIdeal.Skeleton
import proofs.«159550_j10136122819017_2_alg».proof.Proof.Gen.KernelIdeal.Points
import proofs.«159550_j10136122819017_2_alg».proof.Proof.Gen.KernelIdeal.Regions
import proofs.«159550_j10136122819017_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

  Each region is a segment over the thread state "every unscoped buffer at the boundary's contents, the generator
  register at some state, nothing owed"; each host stretch a segment over the same state. Chained from the launch they
  give: every weakly fair execution terminates, nothing faults, and every unscoped buffer ends at the last boundary's
  contents `W15`. The frame claim and the value claim are both read off that one statement. -/

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes out; nothing is owed; the kernel has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes out; nothing is owed; the kernel has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (B3 m ρ c) (B4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and
    comes out; nothing is owed; the kernel has no semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (B5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (B5 m ρ c) (B6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the invariant and
    comes out; nothing is owed; the kernel has no semaphore of its own. -/
def reg3 : Pipeline.RegionSeg (pcfgs (F := F)) admH (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (B7 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (B7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (B7 m ρ c) (B8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split
    out of the unscoped buffers and put back at the exit contents; the generator register goes into the invariant and
    comes out; nothing is owed; the kernel has no semaphore of its own. -/
def reg4 : Pipeline.RegionSeg (pcfgs (F := F)) admH (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (B9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (B9 m ρ c)
  hentry c := by
    rw [Pipeline.ownSems0_none]
    have hsplit := Pipeline.arrays_of_unscopedBufs (p := 4) (pcfgs (F := F)) admH (pdats m ρ) launch4.win launch4.arr_whole c
      ((pdats m ρ 4 c).share_full fun _ => rfl) (B9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m ρ) ((pdats m ρ 4 c).share_full fun _ => rfl)
      (B9 m ρ c) (B10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split
    out of the unscoped buffers and put back at the exit contents; the generator register goes into the invariant and
    comes out; nothing is owed; the kernel has no semaphore of its own. -/
def reg5 : Pipeline.RegionSeg (pcfgs (F := F)) admH (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (B11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (B11 m ρ c)
  hentry c := by
    rw [Pipeline.ownSems0_none]
    have hsplit := Pipeline.arrays_of_unscopedBufs (p := 5) (pcfgs (F := F)) admH (pdats m ρ) launch5.win launch5.arr_whole c
      ((pdats m ρ 5 c).share_full fun _ => rfl) (B11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m ρ) ((pdats m ρ 5 c).share_full fun _ => rfl)
      (B11 m ρ c) (B12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split
    out of the unscoped buffers and put back at the exit contents; the generator register goes into the invariant and
    comes out; nothing is owed; the kernel has no semaphore of its own. -/
def reg6 : Pipeline.RegionSeg (pcfgs (F := F)) admH (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (B13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (B13 m ρ c)
  hentry c := by
    rw [Pipeline.ownSems0_none]
    have hsplit := Pipeline.arrays_of_unscopedBufs (p := 6) (pcfgs (F := F)) admH (pdats m ρ) launch6.win launch6.arr_whole c
      ((pdats m ρ 6 c).share_full fun _ => rfl) (B13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdats m ρ) ((pdats m ρ 6 c).share_full fun _ => rfl)
      (B13 m ρ c) (B14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's fifteen segments in order. -/
abbrev segs : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)) ]

/-- The program is the run of its segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show (iprop(StableHlo.held (c : Thread nD τ) (Pipeline.ucRefs τ sig) (W15 m ρ c) ∗ R c) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.KernelIdeal.Hand

end
-- ==== Proof.KI.Frame.lean ====
import proofs.«159550_j10136122819017_2_alg».proof.Proof.Gen.KernelIdeal.Launch
import proofs.«159550_j10136122819017_2_alg».proof.Proof.Gen.KernelIdeal.Skeleton
import proofs.«159550_j10136122819017_2_alg».proof.Proof.Gen.KernelIdeal.Points
import proofs.«159550_j10136122819017_2_alg».proof.Proof.Gen.KernelIdeal.Regions
import proofs.«159550_j10136122819017_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame claim

  An argument array is written by no host stretch and is the array of no region's window, so the fold of the buffer
  contents at it walks back, boundary by boundary, to the launch memory. The frame claim is that fact at each of the
  fourteen arguments, read off the run. -/

variable (m : (ℓ : Loc nD τ sig) → Buf (Elt F) ℓ) (ρ : Dev nD → PrngReg)

/-- A reference no host stretch writes and no region has as a window's array ends the program as launched. -/
theorem W15_of_untouched (c : Dev nD) (r : Ref sig .tc)
    (h7 : r ∉ hostOps7_W) (a6 : ∀ w, Pipeline.arrRef spec6 w ≠ r) (h6 : r ∉ hostOps6_W) (a5 : ∀ w, Pipeline.arrRef spec5 w ≠ r)
    (h5 : r ∉ hostOps5_W) (a4 : ∀ w, Pipeline.arrRef spec4 w ≠ r) (h4 : r ∉ hostOps4_W) (a3 : ∀ w, Pipeline.arrRef spec3 w ≠ r)
    (h3 : r ∉ hostOps3_W) (a2 : ∀ w, Pipeline.arrRef spec2 w ≠ r) (h2 : r ∉ hostOps2_W) (a1 : ∀ w, Pipeline.arrRef spec1 w ≠ r)
    (h1 : r ∉ hostOps1_W) (a0 : ∀ w, Pipeline.arrRef spec0 w ≠ r) (h0 : r ∉ hostOps0_W) :
    W15 m ρ c (Proc.devRef .tc r) = m ((c : Thread nD τ).loc r) :=
  (W15_of m ρ c r h7).trans <| (W14_of_ne m ρ c r a6).trans <| (W13_of m ρ c r h6).trans <| (W12_of_ne m ρ c r a5).trans <|
  (W11_of m ρ c r h5).trans <| (W10_of_ne m ρ c r a4).trans <| (W9_of m ρ c r h4).trans <| (W8_of_ne m ρ c r a3).trans <|
  (W7_of m ρ c r h3).trans <| (W6_of_ne m ρ c r a2).trans <| (W5_of m ρ c r h2).trans <| (W4_of_ne m ρ c r a1).trans <|
  (W3_of m ρ c r h1).trans <| (W2_of_ne m ρ c r a0).trans <| (W1_of m ρ c r h0).trans rfl

theorem W15_main_arg0 (c : Dev nD) : W15 m ρ c (Proc.devRef .tc main_arg0) = m ((c : Thread nD τ).loc main_arg0) :=
  W15_of_untouched m ρ c main_arg0 (by decide) (by decide) (by decide) (by decide) (by decide) (by decide) (by decide) (by decide)
    (by decide) (by decide) (by decide) (by decide) (by decide) (by decide) (by decide)
theorem W15_main_arg1 (c : Dev nD) : W15 m ρ c (Proc.devRef .tc main_arg1) = m ((c : Thread nD τ).loc main_arg1) :=
  W15_of_untouched m ρ c main_arg1 (by decide) (by decide) (by decide) (by decide) (by decide) (by decide) (by decide) (by decide)
    (by decide) (by decide) (by decide) (by decide) (by decide) (by decide) (by decide)
theorem W15_main_arg2 (c : Dev nD) : W15 m ρ c (Proc.devRef .tc main_arg2) = m ((c : Thread nD τ).loc main_arg2) :=
  W15_of_untouched m ρ c main_arg2 (by decide) (by decide) (by decide) (by decide) (by decide) (by decide) (by decide) (by decide)
    (by decide) (by decide) (by decide) (by decide) (by decide) (by decide) (by decide)
theorem W15_main_arg3 (c : Dev nD) : W15 m ρ c (Proc.devRef .tc main_arg3) = m ((c : Thread nD τ).loc main_arg3) :=
  W15_of_untouched m ρ c main_arg3 (by decide) (by decide) (by decide) (by decide) (by decide) (by decide) (by decide) (by decide)
    (by decide) (by decide) (by decide) (by decide) (by decide) (by decide) (by decide)
theorem W15_main_arg4 (c : Dev nD) : W15 m ρ c (Proc.devRef .tc main_arg4) = m ((c : Thread nD τ).loc main_arg4) :=
  W15_of_untouched m ρ c main_arg4 (by decide) (by decide) (by decide) (by decide) (by decide) (by decide) (by decide) (by decide)
    (by decide) (by decide) (by decide) (by decide) (by decide) (by decide) (by decide)
theorem W15_main_arg5 (c : Dev nD) : W15 m ρ c (Proc.devRef .tc main_arg5) = m ((c : Thread nD τ).loc main_arg5) :=
  W15_of_untouched m ρ c main_arg5 (by decide) (by decide) (by decide) (by decide) (by decide) (by decide) (by decide) (by decide)
    (by decide) (by decide) (by decide) (by decide) (by decide) (by decide) (by decide)
theorem W15_main_arg6 (c : Dev nD) : W15 m ρ c (Proc.devRef .tc main_arg6) = m ((c : Thread nD τ).loc main_arg6) :=
  W15_of_untouched m ρ c main_arg6 (by decide) (by decide) (by decide) (by decide) (by decide) (by decide) (by decide) (by decide)
    (by decide) (by decide) (by decide) (by decide) (by decide) (by decide) (by decide)
theorem W15_main_arg7 (c : Dev nD) : W15 m ρ c (Proc.devRef .tc main_arg7) = m ((c : Thread nD τ).loc main_arg7) :=
  W15_of_untouched m ρ c main_arg7 (by decide) (by decide) (by decide) (by decide) (by decide) (by decide) (by decide) (by decide)
    (by decide) (by decide) (by decide) (by decide) (by decide) (by decide) (by decide)
theorem W15_main_arg8 (c : Dev nD) : W15 m ρ c (Proc.devRef .tc main_arg8) = m ((c : Thread nD τ).loc main_arg8) :=
  W15_of_untouched m ρ c main_arg8 (by decide) (by decide) (by decide) (by decide) (by decide) (by decide) (by decide) (by decide)
    (by decide) (by decide) (by decide) (by decide) (by decide) (by decide) (by decide)
theorem W15_main_arg9 (c : Dev nD) : W15 m ρ c (Proc.devRef .tc main_arg9) = m ((c : Thread nD τ).loc main_arg9) :=
  W15_of_untouched m ρ c main_arg9 (by decide) (by decide) (by decide) (by decide) (by decide) (by decide) (by decide) (by decide)
    (by decide) (by decide) (by decide) (by decide) (by decide) (by decide) (by decide)
theorem W15_main_arg10 (c : Dev nD) : W15 m ρ c (Proc.devRef .tc main_arg10) = m ((c : Thread nD τ).loc main_arg10) :=
  W15_of_untouched m ρ c main_arg10 (by decide) (by decide) (by decide) (by decide) (by decide) (by decide) (by decide) (by decide)
    (by decide) (by decide) (by decide) (by decide) (by decide) (by decide) (by decide)
theorem W15_main_arg11 (c : Dev nD) : W15 m ρ c (Proc.devRef .tc main_arg11) = m ((c : Thread nD τ).loc main_arg11) :=
  W15_of_untouched m ρ c main_arg11 (by decide) (by decide) (by decide) (by decide) (by decide) (by decide) (by decide) (by decide)
    (by decide) (by decide) (by decide) (by decide) (by decide) (by decide) (by decide)
theorem W15_main_arg12 (c : Dev nD) : W15 m ρ c (Proc.devRef .tc main_arg12) = m ((c : Thread nD τ).loc main_arg12) :=
  W15_of_untouched m ρ c main_arg12 (by decide) (by decide) (by decide) (by decide) (by decide) (by decide) (by decide) (by decide)
    (by decide) (by decide) (by decide) (by decide) (by decide) (by decide) (by decide)
theorem W15_main_arg13 (c : Dev nD) : W15 m ρ c (Proc.devRef .tc main_arg13) = m ((c : Thread nD τ).loc main_arg13) :=
  W15_of_untouched m ρ c main_arg13 (by decide) (by decide) (by decide) (by decide) (by decide) (by decide) (by decide) (by decide)
    (by decide) (by decide) (by decide) (by decide) (by decide) (by decide) (by decide)

/-- THE FRAME: every weakly fair execution terminates, nothing faulting, and the fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c),
      (h c _ (mem_uc main_arg9 (by decide))).trans (W15_main_arg9 m ρ c),
      (h c _ (mem_uc main_arg10 (by decide))).trans (W15_main_arg10 m ρ c),
      (h c _ (mem_uc main_arg11 (by decide))).trans (W15_main_arg11 m ρ c),
      (h c _ (mem_uc main_arg12 (by decide))).trans (W15_main_arg12 m ρ c),
      (h c _ (mem_uc main_arg13 (by decide))).trans (W15_main_arg13 m ρ c)⟩)
    (run_all m ρ)

end Cert.KernelIdeal.Hand

end
-- ==== Proof.Spec.Defs.lean ====
/-
  The mathematics of the claim, stated once and free of either program: a three-layer graph convolution with
  symmetric degree normalisation and self loops, an edge head and a node head, over the extended reals.

  An edge list is an array of raw 32-bit words. A GATHER reads row `rowOf b` for a word `b`: a negative word is first
  shifted by the node count, then the word is read signed and clamped into the rows. A SCATTER-ADD adds an update to row
  `tgtOf b` when the word, read signed, is a row, and drops it otherwise. Both programs use exactly these two readings;
  nothing here assumes the words are in range.

  Two spellings of every quantity follow. The FACTORED one normalises per node: with `hn = (h·W)·nrm`,
  `layer h = max (nrm v · (Σ_{e into v} hn[row(src e)] + hn[v]) + b) 0`, the self loop added analytically and the degree
  counted as in-edges plus one. The EDGEWISE one (suffix `R`) extends the edge list by one self loop per node (450000
  entries: the 400000 edges, then node k's loop at position 400000 + k), counts the degree over the extended list and
  scales every gathered row by `nrm[row(src)] · nrm[row(dst)]` before summing. The two agree because `nrm` is a
  non-negative real (the reciprocal square root of a count that is at least one), and multiplication by a non-negative
  real distributes over sums of extended reals.
-/
import Idealize.ShloMosaic.PureOps.Ideal
import Idealize.ShloMosaic.Lib.ValueIdx

noncomputable section

namespace Cert.Spec

open Idealize.ShloMosaic Idealize.ShloMosaic.ValueIdx

/-- A matrix, a vector, a stack of matrices: functions of an index of a literal shape. -/
abbrev Mat (n m : Nat) : Type := (⟨2, ![n, m]⟩ : Shape).Idx → EReal
abbrev Vct (n : Nat) : Type := (⟨1, ![n]⟩ : Shape).Idx → EReal
abbrev Ten (a n m : Nat) : Type := (⟨3, ![a, n, m]⟩ : Shape).Idx → EReal
/-- The edge list: row 0 the sources, row 1 the destinations, as raw words. -/
abbrev Edges : Type := (⟨2, ![2, 400000]⟩ : Shape).Idx → BitVec 32

/-- The row a gather reads for the raw word `b`. -/
def rowOf (b : BitVec 32) : Fin 50000 :=
  ⟨min (Scalar.select (IntOp.cmpi .slt b 0#32) (IntOp.addi b 50000#32) b).toInt.toNat 49999, by omega⟩

/-- The row a scatter-add adds to for the raw word `b`, if any. -/
def tgtOf (b : BitVec 32) : Option (Fin 50000) :=
  if h : 0 ≤ b.toInt ∧ b.toInt < 50000 then some ⟨b.toInt.toNat, by omega⟩ else none

section

variable (EI : Edges)

def src (e : Fin 400000) : BitVec 32 := EI (ix2 0 e)
def dst (e : Fin 400000) : BitVec 32 := EI (ix2 1 e)

/-! ## Factored form -/

/-- The edges whose update lands on node `v`. -/
def inE (v : Fin 50000) : Finset (Fin 400000) := Finset.univ.filter fun e => tgtOf (dst EI e) = some v
/-- In-degree plus the self loop. -/
def deg (v : Fin 50000) : EReal := (∑ _e ∈ inE EI v, (1 : EReal)) + 1
def nrm (v : Fin 50000) : EReal := Ideal.rsqrt (max (deg EI v) 1)

/-- The pre-scaled linear output `(h·W)·nrm`. -/
def hn (h : Fin 50000 → Fin 256 → EReal) (W : Fin 256 → Fin 256 → EReal) (v : Fin 50000) (j : Fin 256) : EReal :=
  (∑ k : Fin 256, h v k * W k j) * nrm EI v
/-- Neighbour sum of gathered rows. -/
def agg (g : Fin 50000 → Fin 256 → EReal) (v : Fin 50000) (j : Fin 256) : EReal :=
  ∑ e ∈ inE EI v, g (rowOf (src EI e)) j
def layer (h : Fin 50000 → Fin 256 → EReal) (W : Fin 256 → Fin 256 → EReal) (b : Fin 256 → EReal) (v : Fin 50000) (j : Fin 256) : EReal :=
  max (nrm EI v * (agg EI (hn EI h W) v j + hn EI h W v j) + b j) 0

/-! ## Edgewise form, over the edge list extended by the self loops -/

def srcR (e : Fin 450000) : BitVec 32 := if h : e.val < 400000 then src EI ⟨e.val, h⟩ else BitVec.ofNat 32 (e.val - 400000)
def dstR (e : Fin 450000) : BitVec 32 := if h : e.val < 400000 then dst EI ⟨e.val, h⟩ else BitVec.ofNat 32 (e.val - 400000)
def inER (v : Fin 50000) : Finset (Fin 450000) := Finset.univ.filter fun e => tgtOf (dstR EI e) = some v
def degR (v : Fin 50000) : EReal := ∑ _e ∈ inER EI v, (1 : EReal)
def nrmR (v : Fin 50000) : EReal := Ideal.rsqrt (max (degR EI v) 1)
def layerR (h : Fin 50000 → Fin 256 → EReal) (W : Fin 256 → Fin 256 → EReal) (b : Fin 256 → EReal) (v : Fin 50000) (j : Fin 256) : EReal :=
  max ((∑ e ∈ inER EI v, (∑ k : Fin 256, h (rowOf (srcR EI e)) k * W k j) * (nrmR EI (rowOf (srcR EI e)) * nrmR EI (rowOf (dstR EI e)))) + b j) 0

end

/-! ## The whole network -/

/-- The fourteen argument arrays. -/
structure Inputs where
  X : Mat 50000 256
  EI : Edges
  Win : Mat 256 256
  bin : Vct 256
  Wg : Ten 3 256 256
  bg : Mat 3 256
  Wh1 : Mat 512 256
  bh1 : Vct 256
  Wh2 : Mat 256 3
  bh2 : Vct 3
  Wp1 : Mat 256 128
  bp1 : Vct 128
  Wp2 : Mat 128 1
  bp2 : Vct 1

variable (I : Inputs)

def h0 (r : Fin 50000) (j : Fin 256) : EReal :=
  max ((∑ k : Fin 256, I.X (ix2 r k) * I.Win (ix2 k j)) + I.bin (ix1 j)) 0
def WgAt (l : Fin 3) (k j : Fin 256) : EReal := I.Wg (ix3 l k j)
def bgAt (l : Fin 3) (j : Fin 256) : EReal := I.bg (ix2 l j)

def h1 : Fin 50000 → Fin 256 → EReal := layer I.EI (h0 I) (WgAt I 0) (bgAt I 0)
def h2 : Fin 50000 → Fin 256 → EReal := layer I.EI (h1 I) (WgAt I 1) (bgAt I 1)
def h3 : Fin 50000 → Fin 256 → EReal := layer I.EI (h2 I) (WgAt I 2) (bgAt I 2)

def h1R : Fin 50000 → Fin 256 → EReal := layerR I.EI (h0 I) (WgAt I 0) (bgAt I 0)
def h2R : Fin 50000 → Fin 256 → EReal := layerR I.EI (h1R I) (WgAt I 1) (bgAt I 1)
def h3R : Fin 50000 → Fin 256 → EReal := layerR I.EI (h2R I) (WgAt I 2) (bgAt I 2)

/-- The edge head with the first weight matrix split into its source half (rows 0–255) and destination half (rows 256–511). -/
def hierOf (h : Fin 50000 → Fin 256 → EReal) (e : Fin 400000) (j : Fin 3) : EReal :=
  (∑ k : Fin 256, (max ((∑ q : Fin 256, h (rowOf (src I.EI e)) q * I.Wh1 (ix2 ⟨q.val, by omega⟩ k))
      + (∑ q : Fin 256, h (rowOf (dst I.EI e)) q * I.Wh1 (ix2 ⟨256 + q.val, by omega⟩ k)) + I.bh1 (ix1 k)) 0) * I.Wh2 (ix2 k j))
    + I.bh2 (ix1 j)
/-- The same over the two gathered rows laid side by side (512 columns) against the whole matrix. -/
def hierOfR (h : Fin 50000 → Fin 256 → EReal) (e : Fin 400000) (j : Fin 3) : EReal :=
  (∑ k : Fin 256, (max ((∑ q : Fin 512, (if hq : q.val < 256 then h (rowOf (src I.EI e)) ⟨q.val, hq⟩
          else h (rowOf (dst I.EI e)) ⟨q.val - 256, by omega⟩) * I.Wh1 (ix2 q k)) + I.bh1 (ix1 k)) 0) * I.Wh2 (ix2 k j))
    + I.bh2 (ix1 j)

/-- The node head's pre-activation. -/
def permPre (h : Fin 50000 → Fin 256 → EReal) (r : Fin 50000) : EReal :=
  (∑ k : Fin 128, (max ((∑ q : Fin 256, h r q * I.Wp1 (ix2 q k)) + I.bp1 (ix1 k)) 0) * I.Wp2 (ix2 k 0)) + I.bp2 (ix1 0)
def permOf (h : Fin 50000 → Fin 256 → EReal) (r : Fin 50000) : EReal := Ideal.logistic (permPre I h r)
/-- The logistic function spelt as one over one plus the exponential of the negation. -/
def permOfR (h : Fin 50000 → Fin 256 → EReal) (r : Fin 50000) : EReal := Ideal.div 1 (1 + Ideal.exp (-(permPre I h r)))

end Cert.Spec

end
-- ==== Proof.KI.NetInputs.lean ====
import proofs.«159550_j10136122819017_2_alg».proof.Proof.KI.Fold
import proofs.«159550_j10136122819017_2_alg».proof.Proof.Spec.Defs

set_option maxRecDepth 16384

noncomputable section

namespace Cert.KernelIdeal.Hand

open Cert.KernelIdeal Cert.KernelIdeal.Gen
open Idealize.ShloMosaic Idealize.ShloMosaic.TcCoe Idealize.ShloMosaic.Tactic

/-- The specification's fourteen argument arrays, read off a launch memory on core `c`. -/
def inputsK (m : (ℓ : Loc nD τ sig) → Buf (Elt Ideal) ℓ) (c : Dev nD) : Cert.Spec.Inputs where
  X := m ((c.tc : Thread nD τ).loc main_arg0)
  EI := m ((c.tc : Thread nD τ).loc main_arg1)
  Win := m ((c.tc : Thread nD τ).loc main_arg2)
  bin := m ((c.tc : Thread nD τ).loc main_arg3)
  Wg := m ((c.tc : Thread nD τ).loc main_arg4)
  bg := m ((c.tc : Thread nD τ).loc main_arg5)
  Wh1 := m ((c.tc : Thread nD τ).loc main_arg6)
  bh1 := m ((c.tc : Thread nD τ).loc main_arg7)
  Wh2 := m ((c.tc : Thread nD τ).loc main_arg8)
  bh2 := m ((c.tc : Thread nD τ).loc main_arg9)
  Wp1 := m ((c.tc : Thread nD τ).loc main_arg10)
  bp1 := m ((c.tc : Thread nD τ).loc main_arg11)
  Wp2 := m ((c.tc : Thread nD τ).loc main_arg12)
  bp2 := m ((c.tc : Thread nD τ).loc main_arg13)

end Cert.KernelIdeal.Hand

end
-- ==== Proof.KI.NetCarry.lean ====
import proofs.«159550_j10136122819017_2_alg».proof.Proof.KI.Fold
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

/-! # Buffers that ride through the program unchanged

  A buffer keeps its contents across a host stretch that does not write it, and across a region of which it is no
  window's array or an input window's array. Chaining these steps carries the edge words, the normaliser and the
  argument arrays from where they are made to where they are read. -/

variable (m : (ℓ : Loc nD τ sig) → Buf (Elt Ideal) ℓ) (ρ : Dev nD → PrngReg)

/-! ## One region and the host stretch after it -/

/-- Across region 0 and host stretch 1, for a buffer neither touches. -/
theorem step3 (c : Dev nD) (r : Ref sig .tc) (h : r ∉ hostOps1_W) (a : ∀ w, Pipeline.arrRef spec0 w ≠ r) :
    W3 m ρ c (Proc.devRef .tc r) = W1 m ρ c (Proc.devRef .tc r) :=
  (W3_of m ρ c r h).trans (W2_of_ne m ρ c r a)
/-- Across region 0 and host stretch 1, for an input window's array the stretch does not write. -/
theorem step3_in (c : Dev nD) (w : Fin cfg0.W) (hin : (cfg0.win w).isOut = false)
    (h : Pipeline.arrRef spec0 w ∉ hostOps1_W) :
    W3 m ρ c (Proc.devRef .tc (Pipeline.arrRef spec0 w)) = W1 m ρ c (Proc.devRef .tc (Pipeline.arrRef spec0 w)) :=
  (W3_of m ρ c _ h).trans <| (W2_arr m ρ c w).trans <|
    ((dat0 (B1 m ρ) c).arrAt_in w hin _).trans (A_eq0 (B1 m ρ) c w)

/-- Across region 1 and host stretch 2, for a buffer neither touches. -/
theorem step5 (c : Dev nD) (r : Ref sig .tc) (h : r ∉ hostOps2_W) (a : ∀ w, Pipeline.arrRef spec1 w ≠ r) :
    W5 m ρ c (Proc.devRef .tc r) = W3 m ρ c (Proc.devRef .tc r) :=
  (W5_of m ρ c r h).trans (W4_of_ne m ρ c r a)
/-- Across region 1 and host stretch 2, for an input window's array the stretch does not write. -/
theorem step5_in (c : Dev nD) (w : Fin cfg1.W) (hin : (cfg1.win w).isOut = false)
    (h : Pipeline.arrRef spec1 w ∉ hostOps2_W) :
    W5 m ρ c (Proc.devRef .tc (Pipeline.arrRef spec1 w)) = W3 m ρ c (Proc.devRef .tc (Pipeline.arrRef spec1 w)) :=
  (W5_of m ρ c _ h).trans <| (W4_arr m ρ c w).trans <|
    ((dat1 (B3 m ρ) c).arrAt_in w hin _).trans (A_eq1 (B3 m ρ) c w)

/-- Across region 2 and host stretch 3, for a buffer neither touches. -/
theorem step7 (c : Dev nD) (r : Ref sig .tc) (h : r ∉ hostOps3_W) (a : ∀ w, Pipeline.arrRef spec2 w ≠ r) :
    W7 m ρ c (Proc.devRef .tc r) = W5 m ρ c (Proc.devRef .tc r) :=
  (W7_of m ρ c r h).trans (W6_of_ne m ρ c r a)
/-- Across region 2 and host stretch 3, for an input window's array the stretch does not write. -/
theorem step7_in (c : Dev nD) (w : Fin cfg2.W) (hin : (cfg2.win w).isOut = false)
    (h : Pipeline.arrRef spec2 w ∉ hostOps3_W) :
    W7 m ρ c (Proc.devRef .tc (Pipeline.arrRef spec2 w)) = W5 m ρ c (Proc.devRef .tc (Pipeline.arrRef spec2 w)) :=
  (W7_of m ρ c _ h).trans <| (W6_arr m ρ c w).trans <|
    ((dat2 (B5 m ρ) c).arrAt_in w hin _).trans (A_eq2 (B5 m ρ) c w)

/-- Across region 3 and host stretch 4, for a buffer neither touches. -/
theorem step9 (c : Dev nD) (r : Ref sig .tc) (h : r ∉ hostOps4_W) (a : ∀ w, Pipeline.arrRef spec3 w ≠ r) :
    W9 m ρ c (Proc.devRef .tc r) = W7 m ρ c (Proc.devRef .tc r) :=
  (W9_of m ρ c r h).trans (W8_of_ne m ρ c r a)
/-- Across region 3 and host stretch 4, for an input window's array the stretch does not write. -/
theorem step9_in (c : Dev nD) (w : Fin cfg3.W) (hin : (cfg3.win w).isOut = false)
    (h : Pipeline.arrRef spec3 w ∉ hostOps4_W) :
    W9 m ρ c (Proc.devRef .tc (Pipeline.arrRef spec3 w)) = W7 m ρ c (Proc.devRef .tc (Pipeline.arrRef spec3 w)) :=
  (W9_of m ρ c _ h).trans <| (W8_arr m ρ c w).trans <|
    ((dat3 (B7 m ρ) c).arrAt_in w hin _).trans (A_eq3 (B7 m ρ) c w)

/-- Across region 4 and host stretch 5, for a buffer neither touches. -/
theorem step11 (c : Dev nD) (r : Ref sig .tc) (h : r ∉ hostOps5_W) (a : ∀ w, Pipeline.arrRef spec4 w ≠ r) :
    W11 m ρ c (Proc.devRef .tc r) = W9 m ρ c (Proc.devRef .tc r) :=
  (W11_of m ρ c r h).trans (W10_of_ne m ρ c r a)
/-- Across region 4 and host stretch 5, for an input window's array the stretch does not write. -/
theorem step11_in (c : Dev nD) (w : Fin cfg4.W) (hin : (cfg4.win w).isOut = false)
    (h : Pipeline.arrRef spec4 w ∉ hostOps5_W) :
    W11 m ρ c (Proc.devRef .tc (Pipeline.arrRef spec4 w)) = W9 m ρ c (Proc.devRef .tc (Pipeline.arrRef spec4 w)) :=
  (W11_of m ρ c _ h).trans <| (W10_arr m ρ c w).trans <|
    ((dat4 (B9 m ρ) c).arrAt_in w hin _).trans (A_eq4 (B9 m ρ) c w)

/-- Across region 5 and host stretch 6, for a buffer neither touches. -/
theorem step13 (c : Dev nD) (r : Ref sig .tc) (h : r ∉ hostOps6_W) (a : ∀ w, Pipeline.arrRef spec5 w ≠ r) :
    W13 m ρ c (Proc.devRef .tc r) = W11 m ρ c (Proc.devRef .tc r) :=
  (W13_of m ρ c r h).trans (W12_of_ne m ρ c r a)
/-- Across region 5 and host stretch 6, for an input window's array the stretch does not write. -/
theorem step13_in (c : Dev nD) (w : Fin cfg5.W) (hin : (cfg5.win w).isOut = false)
    (h : Pipeline.arrRef spec5 w ∉ hostOps6_W) :
    W13 m ρ c (Proc.devRef .tc (Pipeline.arrRef spec5 w)) = W11 m ρ c (Proc.devRef .tc (Pipeline.arrRef spec5 w)) :=
  (W13_of m ρ c _ h).trans <| (W12_arr m ρ c w).trans <|
    ((dat5 (B11 m ρ) c).arrAt_in w hin _).trans (A_eq5 (B11 m ρ) c w)

/-! ## The edge words: made by host stretch 0, no region's array -/
theorem carry5_v1 (c : Dev nD) : W5 m ρ c (Proc.devRef .tc main_v1) = W1 m ρ c (Proc.devRef .tc main_v1) :=
  (step5 m ρ c main_v1 (by decide) (by decide)).trans <|
  (step3 m ρ c main_v1 (by decide) (by decide))
theorem carry7_v1 (c : Dev nD) : W7 m ρ c (Proc.devRef .tc main_v1) = W1 m ρ c (Proc.devRef .tc main_v1) :=
  (step7 m ρ c main_v1 (by decide) (by decide)).trans <|
  (step5 m ρ c main_v1 (by decide) (by decide)).trans <|
  (step3 m ρ c main_v1 (by decide) (by decide))
theorem carry9_v1 (c : Dev nD) : W9 m ρ c (Proc.devRef .tc main_v1) = W1 m ρ c (Proc.devRef .tc main_v1) :=
  (step9 m ρ c main_v1 (by decide) (by decide)).trans <|
  (step7 m ρ c main_v1 (by decide) (by decide)).trans <|
  (step5 m ρ c main_v1 (by decide) (by decide)).trans <|
  (step3 m ρ c main_v1 (by decide) (by decide))
theorem carry11_v1 (c : Dev nD) : W11 m ρ c (Proc.devRef .tc main_v1) = W1 m ρ c (Proc.devRef .tc main_v1) :=
  (step11 m ρ c main_v1 (by decide) (by decide)).trans <|
  (step9 m ρ c main_v1 (by decide) (by decide)).trans <|
  (step7 m ρ c main_v1 (by decide) (by decide)).trans <|
  (step5 m ρ c main_v1 (by decide) (by decide)).trans <|
  (step3 m ρ c main_v1 (by decide) (by decide))
theorem carry5_v3 (c : Dev nD) : W5 m ρ c (Proc.devRef .tc main_v3) = W1 m ρ c (Proc.devRef .tc main_v3) :=
  (step5 m ρ c main_v3 (by decide) (by decide)).trans <|
  (step3 m ρ c main_v3 (by decide) (by decide))
theorem carry7_v3 (c : Dev nD) : W7 m ρ c (Proc.devRef .tc main_v3) = W1 m ρ c (Proc.devRef .tc main_v3) :=
  (step7 m ρ c main_v3 (by decide) (by decide)).trans <|
  (step5 m ρ c main_v3 (by decide) (by decide)).trans <|
  (step3 m ρ c main_v3 (by decide) (by decide))
theorem carry9_v3 (c : Dev nD) : W9 m ρ c (Proc.devRef .tc main_v3) = W1 m ρ c (Proc.devRef .tc main_v3) :=
  (step9 m ρ c main_v3 (by decide) (by decide)).trans <|
  (step7 m ρ c main_v3 (by decide) (by decide)).trans <|
  (step5 m ρ c main_v3 (by decide) (by decide)).trans <|
  (step3 m ρ c main_v3 (by decide) (by decide))
theorem carry11_v3 (c : Dev nD) : W11 m ρ c (Proc.devRef .tc main_v3) = W1 m ρ c (Proc.devRef .tc main_v3) :=
  (step11 m ρ c main_v3 (by decide) (by decide)).trans <|
  (step9 m ρ c main_v3 (by decide) (by decide)).trans <|
  (step7 m ρ c main_v3 (by decide) (by decide)).trans <|
  (step5 m ρ c main_v3 (by decide) (by decide)).trans <|
  (step3 m ρ c main_v3 (by decide) (by decide))

/-! ## The normaliser: made by host stretch 0, an input of regions 1 to 4 (window 2 of each) -/

theorem carry3_v13 (c : Dev nD) : W3 m ρ c (Proc.devRef .tc main_v13) = W1 m ρ c (Proc.devRef .tc main_v13) :=
  step3 m ρ c main_v13 (by decide) (by decide)
theorem carry5_v13 (c : Dev nD) : W5 m ρ c (Proc.devRef .tc main_v13) = W1 m ρ c (Proc.devRef .tc main_v13) :=
  (step5_in m ρ c (2 : Fin cfg1.W) rfl (by decide)).trans (carry3_v13 m ρ c)
theorem carry7_v13 (c : Dev nD) : W7 m ρ c (Proc.devRef .tc main_v13) = W1 m ρ c (Proc.devRef .tc main_v13) :=
  (step7_in m ρ c (2 : Fin cfg2.W) rfl (by decide)).trans (carry5_v13 m ρ c)
theorem carry9_v13 (c : Dev nD) : W9 m ρ c (Proc.devRef .tc main_v13) = W1 m ρ c (Proc.devRef .tc main_v13) :=
  (step9_in m ρ c (2 : Fin cfg3.W) rfl (by decide)).trans (carry7_v13 m ρ c)
theorem carry11_v13 (c : Dev nD) : W11 m ρ c (Proc.devRef .tc main_v13) = W1 m ρ c (Proc.devRef .tc main_v13) :=
  (step11_in m ρ c (2 : Fin cfg4.W) rfl (by decide)).trans (carry9_v13 m ρ c)

/-! ## A buffer nothing touches up to a boundary is as launched -/

theorem carry1_arg (c : Dev nD) (r : Ref sig .tc) (h0 : r ∉ hostOps0_W) :
    W1 m ρ c (Proc.devRef .tc r) = m ((c : Thread nD τ).loc r) :=
  (W1_of m ρ c r h0).trans rfl
theorem carry3_arg (c : Dev nD) (r : Ref sig .tc) (h0 : r ∉ hostOps0_W) (a0 : ∀ w, Pipeline.arrRef spec0 w ≠ r) (h1 : r ∉ hostOps1_W) :
    W3 m ρ c (Proc.devRef .tc r) = m ((c : Thread nD τ).loc r) :=
  (step3 m ρ c r h1 a0).trans (carry1_arg m ρ c r h0)
theorem carry5_arg (c : Dev nD) (r : Ref sig .tc) (h0 : r ∉ hostOps0_W) (a0 : ∀ w, Pipeline.arrRef spec0 w ≠ r) (h1 : r ∉ hostOps1_W) (a1 : ∀ w, Pipeline.arrRef spec1 w ≠ r) (h2 : r ∉ hostOps2_W) :
    W5 m ρ c (Proc.devRef .tc r) = m ((c : Thread nD τ).loc r) :=
  (step5 m ρ c r h2 a1).trans (carry3_arg m ρ c r h0 a0 h1)
theorem carry7_arg (c : Dev nD) (r : Ref sig .tc) (h0 : r ∉ hostOps0_W) (a0 : ∀ w, Pipeline.arrRef spec0 w ≠ r) (h1 : r ∉ hostOps1_W) (a1 : ∀ w, Pipeline.arrRef spec1 w ≠ r) (h2 : r ∉ hostOps2_W) (a2 : ∀ w, Pipeline.arrRef spec2 w ≠ r) (h3 : r ∉ hostOps3_W) :
    W7 m ρ c (Proc.devRef .tc r) = m ((c : Thread nD τ).loc r) :=
  (step7 m ρ c r h3 a2).trans (carry5_arg m ρ c r h0 a0 h1 a1 h2)
theorem carry9_arg (c : Dev nD) (r : Ref sig .tc) (h0 : r ∉ hostOps0_W) (a0 : ∀ w, Pipeline.arrRef spec0 w ≠ r) (h1 : r ∉ hostOps1_W) (a1 : ∀ w, Pipeline.arrRef spec1 w ≠ r) (h2 : r ∉ hostOps2_W) (a2 : ∀ w, Pipeline.arrRef spec2 w ≠ r) (h3 : r ∉ hostOps3_W) (a3 : ∀ w, Pipeline.arrRef spec3 w ≠ r) (h4 : r ∉ hostOps4_W) :
    W9 m ρ c (Proc.devRef .tc r) = m ((c : Thread nD τ).loc r) :=
  (step9 m ρ c r h4 a3).trans (carry7_arg m ρ c r h0 a0 h1 a1 h2 a2 h3)
theorem carry11_arg (c : Dev nD) (r : Ref sig .tc) (h0 : r ∉ hostOps0_W) (a0 : ∀ w, Pipeline.arrRef spec0 w ≠ r) (h1 : r ∉ hostOps1_W) (a1 : ∀ w, Pipeline.arrRef spec1 w ≠ r) (h2 : r ∉ hostOps2_W) (a2 : ∀ w, Pipeline.arrRef spec2 w ≠ r) (h3 : r ∉ hostOps3_W) (a3 : ∀ w, Pipeline.arrRef spec3 w ≠ r) (h4 : r ∉ hostOps4_W) (a4 : ∀ w, Pipeline.arrRef spec4 w ≠ r) (h5 : r ∉ hostOps5_W) :
    W11 m ρ c (Proc.devRef .tc r) = m ((c : Thread nD τ).loc r) :=
  (step11 m ρ c r h5 a4).trans (carry9_arg m ρ c r h0 a0 h1 a1 h2 a2 h3 a3 h4)
theorem carry13_arg (c : Dev nD) (r : Ref sig .tc) (h0 : r ∉ hostOps0_W) (a0 : ∀ w, Pipeline.arrRef spec0 w ≠ r) (h1 : r ∉ hostOps1_W) (a1 : ∀ w, Pipeline.arrRef spec1 w ≠ r) (h2 : r ∉ hostOps2_W) (a2 : ∀ w, Pipeline.arrRef spec2 w ≠ r) (h3 : r ∉ hostOps3_W) (a3 : ∀ w, Pipeline.arrRef spec3 w ≠ r) (h4 : r ∉ hostOps4_W) (a4 : ∀ w, Pipeline.arrRef spec4 w ≠ r) (h5 : r ∉ hostOps5_W) (a5 : ∀ w, Pipeline.arrRef spec5 w ≠ r) (h6 : r ∉ hostOps6_W) :
    W13 m ρ c (Proc.devRef .tc r) = m ((c : Thread nD τ).loc r) :=
  (step13 m ρ c r h6 a5).trans (carry11_arg m ρ c r h0 a0 h1 a1 h2 a2 h3 a3 h4 a4 h5)

end Cert.KernelIdeal.Hand

end
-- ==== Proof.KI.Val0.lean ====
import proofs.«159550_j10136122819017_2_alg».proof.Proof.KI.Reg0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem zero_offsets0 : (![0, 0] : Fin 2 → Nat) = fun _ => 0 := funext fun a => by fin_cases a <;> rfl

/-! ## The block product read at an index -/

theorem blockdot0_lhs0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem blockdot0_lhs1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem blockdot0_rhs0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem blockdot0_rhs1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A [2000,256] × [256,256] product into the zero splat, read at row `p` and column `q`: the sum over the
    contracted axis of the left operand's row times the right operand's column. -/
theorem blockdot0_apply {φ₁ φ₂ : FTy} (a : FVec Ideal S2000x256 φ₁) (b : FVec Ideal S256x256 φ₂) (p : Fin 2000) (q : Fin 256) :
    (matmul dot_S2000x256_S256x256_S2000x256_1_0_0_1_n_n none a b (constant (F := Ideal) S2000x256 .f32 0x00000000#32) : FVec Ideal S2000x256 .f32) (ix2 p q)
      = ∑ k : Fin 256, a (ix2 p k) * b (ix2 k q) := by
  show FloatOps.matmul dot_S2000x256_S256x256_S2000x256_1_0_0_1_n_n none a b (constant (F := Ideal) S2000x256 .f32 0x00000000#32) (ix2 p q) = _
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact blockdot0_lhs0 _ _
    | ⟨1, _⟩ => exact (blockdot0_lhs1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (blockdot0_rhs0 _ _).trans hk
    | ⟨1, _⟩ => exact blockdot0_rhs1 _ _)
  rw [el, er]

/-- A [1,256] row spread over 2000 rows reads, at row `p` and column `q`, the row's column `q`. -/
theorem rowcast0_apply {α : Type} (x : S1x256.Idx → α) (p : Fin 2000) (q : Fin 256) :
    broadcastTo S2000x256 x broadcasts_S1x256_S2000x256 (ix2 p q) = x (ix2 0 q) :=
  broadcastTo_apply x broadcasts_S1x256_S2000x256 (ix2 p q) (ix2 0 q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-! ## The payload read at an index -/

/-- The payload at row `p`, column `q` of the block: `max (x · W + b) 0`. -/
theorem k0_pay1_apply (x0 : Vec Ideal S2000x256 .bf16) (x1 : Vec Ideal S256x256 .bf16) (x2 : Vec Ideal S1x256 .f32)
    (p : Fin 2000) (q : Fin 256) :
    (k0_pay1 (F := Ideal) x0 x1 x2 : S2000x256.Idx → EReal) (ix2 p q)
      = max ((∑ k : Fin 256, (x0 (ix2 p k) : EReal) * (x1 (ix2 k q) : EReal)) + (x2 (ix2 0 q) : EReal)) 0 := by
  unfold k0_pay1
  simp only [shapeCast_self]
  rw [maximumf_apply, addf_apply, broadcast_apply, blockdot0_apply, rowcast0_apply]
  show max _ (Ideal.ofBits .f32 0x00000000#32) = _
  rw [Ideal.ofBits_zero_f32]

/-! ## From the blocks to the array -/

/-- What the region leaves at row `r`, column `j` of its output array, from its three input arrays: row `r` of the
    first times column `j` of the second, plus the third's column `j`, cut below at zero. -/
def lin0At (a0 : S50000x256.Idx → EReal) (a1 : S256x256.Idx → EReal) (a2 : S1x256.Idx → EReal) (r : Fin 50000) (j : Fin 256) : EReal :=
  max ((∑ k : Fin 256, a0 (ix2 r k) * a1 (ix2 k j)) + a2 (ix2 0 j)) 0

/-- The same as one function of the array index. -/
def lin0 (a0 : S50000x256.Idx → EReal) (a1 : S256x256.Idx → EReal) (a2 : S1x256.Idx → EReal) : S50000x256.Idx → EReal :=
  fun i => lin0At a0 a1 a2 (i 0) (i 1)

/-- The payload at row `p`, column `q` of a block is `lin0At` of the arrays at row `r`, column `j`, as soon as the three
    blocks hold the arrays' row `r`, column `j` and bias entry `j` where the payload reads them. -/
theorem k0_pay1_eq_lin0At (a0 : S50000x256.Idx → EReal) (a1 : S256x256.Idx → EReal) (a2 : S1x256.Idx → EReal)
    (x0 : Vec Ideal S2000x256 .bf16) (x1 : Vec Ideal S256x256 .bf16) (x2 : Vec Ideal S1x256 .f32)
    (p : Fin 2000) (q : Fin 256) (r : Fin 50000) (j : Fin 256)
    (h0 : ∀ k : Fin 256, (x0 (ix2 p k) : EReal) = a0 (ix2 r k))
    (h1 : ∀ k : Fin 256, (x1 (ix2 k q) : EReal) = a1 (ix2 k j))
    (h2 : (x2 (ix2 0 q) : EReal) = a2 (ix2 0 j)) :
    (k0_pay1 (F := Ideal) x0 x1 x2 : S2000x256.Idx → EReal) (ix2 p q) = lin0At a0 a1 a2 r j := by
  rw [k0_pay1_apply]
  unfold lin0At
  rw [h2, Finset.sum_congr rfl fun k _ => by rw [h0 k, h1 k]]

/-- The printed index maps, decided over the grid: the output's block and the first input's are block `t` of the rows;
    the weight and the bias are always their one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Val0
variable (V : (c : Dev nD) → (b : Ref sig .tc) → Buf (Elt Ideal) ((c : Thread nD τ).loc b))

/-- The first input's block at point `t` holds rows `2000 t … 2000 t + 1999` of its array. -/
theorem iblk0_0_apply (c : Dev nD) (t : Fin cfg0.N) (p : Fin 2000) (k : Fin 256) (r : Fin 50000) (hr : r.val = t.val * 2000 + p.val) :
    (iblk0 (F := Ideal) V c 0 t : S2000x256.Idx → EReal) (ix2 p k) = (V c (Pipeline.arrRef spec0 0) : S50000x256.Idx → EReal) (ix2 r k) := by
  obtain ⟨e00, e01, -⟩ := idx_facts0 t
  unfold iblk0
  rw [View.read_apply]
  show (V c (Pipeline.arrRef spec0 0) : S50000x256.Idx → EReal) _ = _
  congr 1
  funext a
  apply Fin.ext
  match a with
  | ⟨0, _⟩ => show win0_0.index t (0 : Fin 2) * 2000 + 1 * p.val = r.val; omega
  | ⟨1, _⟩ => show win0_0.index t (1 : Fin 2) * 256 + 1 * k.val = k.val; omega

/-- The weight's block at every point is the whole weight. -/
theorem iblk0_1_apply (c : Dev nD) (t : Fin cfg0.N) (k : Fin 256) (q : Fin 256) :
    (iblk0 (F := Ideal) V c 1 t : S256x256.Idx → EReal) (ix2 k q) = (V c (Pipeline.arrRef spec0 1) : S256x256.Idx → EReal) (ix2 k q) := by
  obtain ⟨-, -, e10, e11, -⟩ := idx_facts0 t
  unfold iblk0
  rw [View.read_apply]
  show (V c (Pipeline.arrRef spec0 1) : S256x256.Idx → EReal) _ = _
  congr 1
  funext a
  apply Fin.ext
  match a with
  | ⟨0, _⟩ => show win0_1.index t (0 : Fin 2) * 256 + 1 * k.val = k.val; omega
  | ⟨1, _⟩ => show win0_1.index t (1 : Fin 2) * 256 + 1 * q.val = q.val; omega

/-- The bias's block at every point is the whole bias. -/
theorem iblk0_2_apply (c : Dev nD) (t : Fin cfg0.N) (q : Fin 256) :
    (iblk0 (F := Ideal) V c 2 t : S1x256.Idx → EReal) (ix2 0 q) = (V c (Pipeline.arrRef spec0 2) : S1x256.Idx → EReal) (ix2 0 q) := by
  obtain ⟨-, -, -, -, e20, e21, -⟩ := idx_facts0 t
  unfold iblk0
  rw [View.read_apply]
  show (V c (Pipeline.arrRef spec0 2) : S1x256.Idx → EReal) _ = _
  congr 1
  funext a
  apply Fin.ext
  match a with
  | ⟨0, _⟩ => show win0_2.index t (0 : Fin 2) * 1 + 1 * 0 = 0; omega
  | ⟨1, _⟩ => show win0_2.index t (1 : Fin 2) * 256 + 1 * q.val = q.val; omega

/-- What point `t` writes back is block `t` of `lin0` of the input arrays as the region finds them. -/
theorem flushed0_3_eq (c : Dev nD) (t : Fin cfg0.N) :
    (dat0 (F := Ideal) V c).flushed 3 t = ((cfg0.win 3).blk t).view.read (Elt Ideal)
      (lin0 (V c (Pipeline.arrRef spec0 0) : S50000x256.Idx → EReal) (V c (Pipeline.arrRef spec0 1) : S256x256.Idx → EReal)
        (V c (Pipeline.arrRef spec0 2) : S1x256.Idx → EReal)) := by
  show (cfg0.win 3).cut (cfg0.grid.coords t) ((dat0 V c).after 3 t) = _
  rw [after0_3]
  unfold out0_3
  rw [View.canon_unit_zero zero_offsets0]
  simp only [View.ld_unit_zero (S := S2000x256) zero_offsets0, View.ld_unit_zero (S := S256x256) zero_offsets0,
    View.ld_unit_zero (S := S1x256) zero_offsets0]
  obtain ⟨-, -, -, -, -, -, e30, e31⟩ := idx_facts0 t
  funext y
  have hx : (cfg0.win 3).xinj (cfg0.grid.coords t) y = (ix2 (y 0) (y 1) : S2000x256.Idx) :=
    funext fun a => by match a with | ⟨0, _⟩ => rfl | ⟨1, _⟩ => rfl
  refine (congrArg (k0_pay1 (F := Ideal) (iblk0 V c 0 t) (iblk0 V c 1 t) (iblk0 V c 2 t) : S2000x256.Idx → EReal) hx).trans ?_
  refine k0_pay1_eq_lin0At _ _ _ _ _ _ (y 0) (y 1) ((((cfg0.win 3).blk t).view.emb y) 0) ((((cfg0.win 3).blk t).view.emb y) 1)
    (fun k => ?_) (fun k => ?_) ?_
  · refine iblk0_0_apply V c t (y 0) k _ ?_
    show win0_3.index t (0 : Fin 2) * 2000 + 1 * (y 0).val = t.val * 2000 + (y 0).val
    omega
  · refine (iblk0_1_apply V c t k (y 1)).trans ?_
    congr 1
    funext a
    apply Fin.ext
    match a with
    | ⟨0, _⟩ => rfl
    | ⟨1, _⟩ => show (y 1).val = win0_3.index t (1 : Fin 2) * 256 + 1 * (y 1).val; omega
  · refine (iblk0_2_apply V c t (y 1)).trans ?_
    congr 1
    funext a
    apply Fin.ext
    match a with
    | ⟨0, _⟩ => rfl
    | ⟨1, _⟩ => show (y 1).val = win0_3.index t (1 : Fin 2) * 256 + 1 * (y 1).val; omega

/-- Row `r` of the output array is in the block of point `r / 2000`, so the blocks cover the array and it ends holding
    `lin0` of the input arrays. -/
theorem final0_3 (c : Dev nD) :
    (dat0 (F := Ideal) V c).arrAt 3 cfg0.N
      = lin0 (V c (Pipeline.arrRef spec0 0) : S50000x256.Idx → EReal) (V c (Pipeline.arrRef spec0 1) : S256x256.Idx → EReal)
          (V c (Pipeline.arrRef spec0 2) : S1x256.Idx → EReal) :=
  (dat0 (F := Ideal) V c).arrAt_eq_of_cover 3 _ (fun t _ => flushed0_3_eq V c t) fun i => by
    have hi0 : (i 0).val < 50000 := (i 0).isLt
    have hi1 : (i 1).val < 256 := (i 1).isLt
    obtain ⟨t, ht⟩ : ∃ t : Fin cfg0.N, t.val = (i 0).val / 2000 :=
      ⟨⟨(i 0).val / 2000, Nat.lt_of_lt_of_eq (by omega : (i 0).val / 2000 < 25) N_0.symm⟩, rfl⟩
    obtain ⟨-, -, -, -, -, -, e30, e31⟩ := idx_facts0 t
    refine ⟨t, flush0_3 t, ?_⟩
    show i ∈ ((View.whole main_v17).slice (win0_3.rect t)).set
    rw [View.set_slice_whole, Rect.mem_set_unit]
    intro a
    match a with
    | ⟨0, _⟩ =>
      show win0_3.index t (0 : Fin 2) * 2000 ≤ (i 0).val ∧ (i 0).val < win0_3.index t (0 : Fin 2) * 2000 + 2000
      omega
    | ⟨1, _⟩ =>
      show win0_3.index t (1 : Fin 2) * 256 ≤ (i 1).val ∧ (i 1).val < win0_3.index t (1 : Fin 2) * 256 + 256
      omega

/-- The output array after the region, index by index, from the region's input arrays, named: for any three
    functions `A0`, `A1`, `A2` that ARE the input arrays as the region finds them,
    `out (r, j) = max ((∑ k, A0 (r, k) * A1 (k, j)) + A2 (0, j)) 0`. -/
theorem final0_3_apply_of (c : Dev nD) (r : Fin 50000) (j : Fin 256)
    (A0 : S50000x256.Idx → EReal) (A1 : S256x256.Idx → EReal) (A2 : S1x256.Idx → EReal)
    (h0 : (V c (Pipeline.arrRef spec0 0) : S50000x256.Idx → EReal) = A0)
    (h1 : (V c (Pipeline.arrRef spec0 1) : S256x256.Idx → EReal) = A1)
    (h2 : (V c (Pipeline.arrRef spec0 2) : S1x256.Idx → EReal) = A2) :
    ((dat0 (F := Ideal) V c).arrAt 3 cfg0.N : S50000x256.Idx → EReal) (ix2 r j)
      = max ((∑ k : Fin 256, A0 (ix2 r k) * A1 (ix2 k j)) + A2 (ix2 0 j)) 0 := by
  subst h0 h1 h2
  exact congrFun (final0_3 V c) (ix2 r j)

/-- The same at the input arrays themselves, `A<i> := V c (Pipeline.arrRef spec0 <i>)` read as extended reals:
    `out (r, j) = max ((∑ k, A0 (r, k) * A1 (k, j)) + A2 (0, j)) 0`. -/
theorem final0_3_apply (c : Dev nD) (r : Fin 50000) (j : Fin 256) :
    type_of% (final0_3_apply_of V c r j _ _ _ rfl rfl rfl) :=
  final0_3_apply_of V c r j _ _ _ rfl rfl rfl

end Val0

end Cert.KernelIdeal.Hand

end
-- ==== Proof.KI.Val1.lean ====
import proofs.«159550_j10136122819017_2_alg».proof.Proof.KI.Reg1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem zero_offsets1 : (![0, 0] : Fin 2 → Nat) = fun _ => 0 := funext fun a => by fin_cases a <;> rfl

/-! ## The block product read at an index -/

theorem blockdot1_lhs0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem blockdot1_lhs1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem blockdot1_rhs0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem blockdot1_rhs1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A [2000,256] × [256,256] product into the zero splat, read at row `p` and column `q`: the sum over the
    contracted axis of the left operand's row times the right operand's column. -/
theorem blockdot1_apply {φ₁ φ₂ : FTy} (a : FVec Ideal S2000x256 φ₁) (b : FVec Ideal S256x256 φ₂) (p : Fin 2000) (q : Fin 256) :
    (matmul dot_S2000x256_S256x256_S2000x256_1_0_0_1_n_n none a b (constant (F := Ideal) S2000x256 .f32 0x00000000#32) : FVec Ideal S2000x256 .f32) (ix2 p q)
      = ∑ k : Fin 256, a (ix2 p k) * b (ix2 k q) := by
  show FloatOps.matmul dot_S2000x256_S256x256_S2000x256_1_0_0_1_n_n none a b (constant (F := Ideal) S2000x256 .f32 0x00000000#32) (ix2 p q) = _
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact blockdot1_lhs0 _ _
    | ⟨1, _⟩ => exact (blockdot1_lhs1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (blockdot1_rhs0 _ _).trans hk
    | ⟨1, _⟩ => exact blockdot1_rhs1 _ _)
  rw [el, er]

/-- A [2000,1] column spread over 256 columns reads, at row `p` and column `q`, the column's row `p`. -/
theorem colcast1_apply {α : Type} (x : S2000x1.Idx → α) (p : Fin 2000) (q : Fin 256) :
    broadcastTo S2000x256 x broadcasts_S2000x1_S2000x256 (ix2 p q) = x (ix2 p 0) :=
  broadcastTo_apply x broadcasts_S2000x1_S2000x256 (ix2 p q) (ix2 p 0) (fun a => match a with
    | ⟨0, _⟩ => by show p.val = if (2000 : Nat) = 1 then 0 else p.val; rw [if_neg (by decide)]
    | ⟨1, _⟩ => by show (0 : Nat) = if (1 : Nat) = 1 then 0 else _; rw [if_pos rfl])

/-! ## The payload read at an index -/

/-- The payload at row `p`, column `q` of the block: `(h · W) * norm` (the change of format of `h` before the
    product is the identity on extended reals). -/
theorem k1_pay1_apply (x0 : Vec Ideal S2000x256 .f32) (x1 : Vec Ideal S256x256 .bf16) (x2 : Vec Ideal S2000x1 .f32)
    (p : Fin 2000) (q : Fin 256) :
    (k1_pay1 (F := Ideal) x0 x1 x2 : S2000x256.Idx → EReal) (ix2 p q)
      = (∑ k : Fin 256, (x0 (ix2 p k) : EReal) * (x1 (ix2 k q) : EReal)) * (x2 (ix2 p 0) : EReal) := by
  unfold k1_pay1
  simp only [shapeCast_self]
  rw [mulf_apply, blockdot1_apply, colcast1_apply]
  rfl

/-! ## From the blocks to the array -/

/-- What the region leaves at row `r`, column `j` of its output array, from its three input arrays: row `r` of the
    first times column `j` of the second, scaled by the third's row `r`. -/
def mm1At (a0 : S50000x256.Idx → EReal) (a1 : S256x256.Idx → EReal) (a2 : S50000x1.Idx → EReal) (r : Fin 50000) (j : Fin 256) : EReal :=
  (∑ k : Fin 256, a0 (ix2 r k) * a1 (ix2 k j)) * a2 (ix2 r 0)

/-- The same as one function of the array index. -/
def mm1 (a0 : S50000x256.Idx → EReal) (a1 : S256x256.Idx → EReal) (a2 : S50000x1.Idx → EReal) : S50000x256.Idx → EReal :=
  fun i => mm1At a0 a1 a2 (i 0) (i 1)

/-- The payload at row `p`, column `q` of a block is `mm1At` of the arrays at row `r`, column `j`, as soon as the three
    blocks hold the arrays' row `r`, column `j` and scale entry `r` where the payload reads them. -/
theorem k1_pay1_eq_mm1At (a0 : S50000x256.Idx → EReal) (a1 : S256x256.Idx → EReal) (a2 : S50000x1.Idx → EReal)
    (x0 : Vec Ideal S2000x256 .f32) (x1 : Vec Ideal S256x256 .bf16) (x2 : Vec Ideal S2000x1 .f32)
    (p : Fin 2000) (q : Fin 256) (r : Fin 50000) (j : Fin 256)
    (h0 : ∀ k : Fin 256, (x0 (ix2 p k) : EReal) = a0 (ix2 r k))
    (h1 : ∀ k : Fin 256, (x1 (ix2 k q) : EReal) = a1 (ix2 k j))
    (h2 : (x2 (ix2 p 0) : EReal) = a2 (ix2 r 0)) :
    (k1_pay1 (F := Ideal) x0 x1 x2 : S2000x256.Idx → EReal) (ix2 p q) = mm1At a0 a1 a2 r j := by
  rw [k1_pay1_apply]
  unfold mm1At
  rw [h2, Finset.sum_congr rfl fun k _ => by rw [h0 k, h1 k]]

/-- The printed index maps, decided over the grid: the output's block, the first input's and the scale's are block `t`
    of the rows; the weight is always its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

section Val1
variable (V : (c : Dev nD) → (b : Ref sig .tc) → Buf (Elt Ideal) ((c : Thread nD τ).loc b))

/-- The first input's block at point `t` holds rows `2000 t … 2000 t + 1999` of its array. -/
theorem iblk1_0_apply (c : Dev nD) (t : Fin cfg1.N) (p : Fin 2000) (k : Fin 256) (r : Fin 50000) (hr : r.val = t.val * 2000 + p.val) :
    (iblk1 (F := Ideal) V c 0 t : S2000x256.Idx → EReal) (ix2 p k) = (V c (Pipeline.arrRef spec1 0) : S50000x256.Idx → EReal) (ix2 r k) := by
  obtain ⟨e00, e01, -⟩ := idx_facts1 t
  unfold iblk1
  rw [View.read_apply]
  show (V c (Pipeline.arrRef spec1 0) : S50000x256.Idx → EReal) _ = _
  congr 1
  funext a
  apply Fin.ext
  match a with
  | ⟨0, _⟩ => show win1_0.index t (0 : Fin 2) * 2000 + 1 * p.val = r.val; omega
  | ⟨1, _⟩ => show win1_0.index t (1 : Fin 2) * 256 + 1 * k.val = k.val; omega

/-- The weight's block at every point is the whole weight. -/
theorem iblk1_1_apply (c : Dev nD) (t : Fin cfg1.N) (k : Fin 256) (q : Fin 256) :
    (iblk1 (F := Ideal) V c 1 t : S256x256.Idx → EReal) (ix2 k q) = (V c (Pipeline.arrRef spec1 1) : S256x256.Idx → EReal) (ix2 k q) := by
  obtain ⟨-, -, e10, e11, -⟩ := idx_facts1 t
  unfold iblk1
  rw [View.read_apply]
  show (V c (Pipeline.arrRef spec1 1) : S256x256.Idx → EReal) _ = _
  congr 1
  funext a
  apply Fin.ext
  match a with
  | ⟨0, _⟩ => show win1_1.index t (0 : Fin 2) * 256 + 1 * k.val = k.val; omega
  | ⟨1, _⟩ => show win1_1.index t (1 : Fin 2) * 256 + 1 * q.val = q.val; omega

/-- The scale's block at point `t` holds rows `2000 t … 2000 t + 1999` of its one-column array. -/
theorem iblk1_2_apply (c : Dev nD) (t : Fin cfg1.N) (p : Fin 2000) (r : Fin 50000) (hr : r.val = t.val * 2000 + p.val) :
    (iblk1 (F := Ideal) V c 2 t : S2000x1.Idx → EReal) (ix2 p 0) = (V c (Pipeline.arrRef spec1 2) : S50000x1.Idx → EReal) (ix2 r 0) := by
  obtain ⟨-, -, -, -, e20, e21, -⟩ := idx_facts1 t
  unfold iblk1
  rw [View.read_apply]
  show (V c (Pipeline.arrRef spec1 2) : S50000x1.Idx → EReal) _ = _
  congr 1
  funext a
  apply Fin.ext
  match a with
  | ⟨0, _⟩ => show win1_2.index t (0 : Fin 2) * 2000 + 1 * p.val = r.val; omega
  | ⟨1, _⟩ => show win1_2.index t (1 : Fin 2) * 1 + 1 * 0 = 0; omega

/-- What point `t` writes back is block `t` of `mm1` of the input arrays as the region finds them. -/
theorem flushed1_3_eq (c : Dev nD) (t : Fin cfg1.N) :
    (dat1 (F := Ideal) V c).flushed 3 t = ((cfg1.win 3).blk t).view.read (Elt Ideal)
      (mm1 (V c (Pipeline.arrRef spec1 0) : S50000x256.Idx → EReal) (V c (Pipeline.arrRef spec1 1) : S256x256.Idx → EReal)
        (V c (Pipeline.arrRef spec1 2) : S50000x1.Idx → EReal)) := by
  show (cfg1.win 3).cut (cfg1.grid.coords t) ((dat1 V c).after 3 t) = _
  rw [after1_3]
  unfold out1_3
  rw [View.canon_unit_zero zero_offsets1]
  simp only [View.ld_unit_zero (S := S2000x256) zero_offsets1, View.ld_unit_zero (S := S256x256) zero_offsets1,
    View.ld_unit_zero (S := S2000x1) zero_offsets1]
  obtain ⟨-, -, -, -, -, -, e30, e31⟩ := idx_facts1 t
  funext y
  have hx : (cfg1.win 3).xinj (cfg1.grid.coords t) y = (ix2 (y 0) (y 1) : S2000x256.Idx) :=
    funext fun a => by match a with | ⟨0, _⟩ => rfl | ⟨1, _⟩ => rfl
  refine (congrArg (k1_pay1 (F := Ideal) (iblk1 V c 0 t) (iblk1 V c 1 t) (iblk1 V c 2 t) : S2000x256.Idx → EReal) hx).trans ?_
  refine k1_pay1_eq_mm1At _ _ _ _ _ _ (y 0) (y 1) ((((cfg1.win 3).blk t).view.emb y) 0) ((((cfg1.win 3).blk t).view.emb y) 1)
    (fun k => ?_) (fun k => ?_) ?_
  · refine iblk1_0_apply V c t (y 0) k _ ?_
    show win1_3.index t (0 : Fin 2) * 2000 + 1 * (y 0).val = t.val * 2000 + (y 0).val
    omega
  · refine (iblk1_1_apply V c t k (y 1)).trans ?_
    congr 1
    funext a
    apply Fin.ext
    match a with
    | ⟨0, _⟩ => rfl
    | ⟨1, _⟩ => show (y 1).val = win1_3.index t (1 : Fin 2) * 256 + 1 * (y 1).val; omega
  · refine iblk1_2_apply V c t (y 0) _ ?_
    show win1_3.index t (0 : Fin 2) * 2000 + 1 * (y 0).val = t.val * 2000 + (y 0).val
    omega

/-- Row `r` of the output array is in the block of point `r / 2000`, so the blocks cover the array and it ends holding
    `mm1` of the input arrays. -/
theorem final1_3 (c : Dev nD) :
    (dat1 (F := Ideal) V c).arrAt 3 cfg1.N
      = mm1 (V c (Pipeline.arrRef spec1 0) : S50000x256.Idx → EReal) (V c (Pipeline.arrRef spec1 1) : S256x256.Idx → EReal)
          (V c (Pipeline.arrRef spec1 2) : S50000x1.Idx → EReal) :=
  (dat1 (F := Ideal) V c).arrAt_eq_of_cover 3 _ (fun t _ => flushed1_3_eq V c t) fun i => by
    have hi0 : (i 0).val < 50000 := (i 0).isLt
    have hi1 : (i 1).val < 256 := (i 1).isLt
    obtain ⟨t, ht⟩ : ∃ t : Fin cfg1.N, t.val = (i 0).val / 2000 :=
      ⟨⟨(i 0).val / 2000, Nat.lt_of_lt_of_eq (by omega : (i 0).val / 2000 < 25) N_1.symm⟩, rfl⟩
    obtain ⟨-, -, -, -, -, -, e30, e31⟩ := idx_facts1 t
    refine ⟨t, flush1_3 t, ?_⟩
    show i ∈ ((View.whole main_v21).slice (win1_3.rect t)).set
    rw [View.set_slice_whole, Rect.mem_set_unit]
    intro a
    match a with
    | ⟨0, _⟩ =>
      show win1_3.index t (0 : Fin 2) * 2000 ≤ (i 0).val ∧ (i 0).val < win1_3.index t (0 : Fin 2) * 2000 + 2000
      omega
    | ⟨1, _⟩ =>
      show win1_3.index t (1 : Fin 2) * 256 ≤ (i 1).val ∧ (i 1).val < win1_3.index t (1 : Fin 2) * 256 + 256
      omega

/-- The output array after the region, index by index, from the region's input arrays, named: for any three
    functions `A0`, `A1`, `A2` that ARE the input arrays as the region finds them,
    `out (r, j) = (∑ k, A0 (r, k) * A1 (k, j)) * A2 (r, 0)`. -/
theorem final1_3_apply_of (c : Dev nD) (r : Fin 50000) (j : Fin 256)
    (A0 : S50000x256.Idx → EReal) (A1 : S256x256.Idx → EReal) (A2 : S50000x1.Idx → EReal)
    (h0 : (V c (Pipeline.arrRef spec1 0) : S50000x256.Idx → EReal) = A0)
    (h1 : (V c (Pipeline.arrRef spec1 1) : S256x256.Idx → EReal) = A1)
    (h2 : (V c (Pipeline.arrRef spec1 2) : S50000x1.Idx → EReal) = A2) :
    ((dat1 (F := Ideal) V c).arrAt 3 cfg1.N : S50000x256.Idx → EReal) (ix2 r j)
      = (∑ k : Fin 256, A0 (ix2 r k) * A1 (ix2 k j)) * A2 (ix2 r 0) := by
  subst h0 h1 h2
  exact congrFun (final1_3 V c) (ix2 r j)

/-- The same at the input arrays themselves, `A<i> := V c (Pipeline.arrRef spec1 <i>)` read as extended reals:
    `out (r, j) = (∑ k, A0 (r, k) * A1 (k, j)) * A2 (r, 0)`. -/
theorem final1_3_apply (c : Dev nD) (r : Fin 50000) (j : Fin 256) :
    type_of% (final1_3_apply_of V c r j _ _ _ rfl rfl rfl) :=
  final1_3_apply_of V c r j _ _ _ rfl rfl rfl

end Val1

end Cert.KernelIdeal.Hand

end
-- ==== Proof.Spec.Index.lean ====
/-
  The host's gather and scatter-add of a node table, read at one index, for the dimension numbers this network uses:
  a ROW gather (result row `e` is the operand's row at the start index `idx[e, 0]`, read signed and clamped into the
  rows), its flat form over a vector, and the ROW scatter-add (update row `e` is added to the operand's row `idx[e, 0]`
  when that word, read signed, is a row, and dropped otherwise) with its flat form. The lemmas take any dimension-number
  record whose fields are the stated lists, so one statement serves every record with those fields. Beside them: a
  gather's row after the negative-index normalisation is `rowOf`, an in-range word is its own row and target, and a
  two-piece concatenation and an iota read at an index.
-/
import proofs.«159550_j10136122819017_2_alg».proof.Proof.Spec.Defs
import Idealize.ShloMosaic.PureOps.ShapeOps
import Idealize.ShloMosaic.PureOps.Dims
import Idealize.ShloMosaic.PureOps.Contract
import Idealize.ShloMosaic.PureOps.Ideal
import Idealize.ShloMosaic.Lib.ValueIdx
import Idealize.ShloMosaic.Lib.Pipeline.Value

noncomputable section

open scoped BigOperators

namespace Cert.Spec

open Idealize.ShloMosaic Idealize.ShloMosaic.ValueIdx

section Gather
variable {α : Type}

/-- The row gather's dimension numbers. -/
abbrev gRows (E : Nat) (wf : GatherDims.WF ⟨2, ![50000, 256]⟩ ⟨2, ![E, 1]⟩ ⟨2, ![E, 256]⟩ [1] [0] [] [0] [] 1 ![1, 256]) :
    GatherDims ⟨2, ![50000, 256]⟩ ⟨2, ![E, 1]⟩ ⟨2, ![E, 256]⟩ where
  offsetDims := [1]
  collapsedSliceDims := [0]
  operandBatchingDims := []
  startIndicesBatchingDims := []
  startIndexMap := [0]
  indexVectorDim := 1
  sliceSizes := ![1, 256]
  wf := wf

/-- Along the rows the operand index is the clamped start index: nothing is batched, and a collapsed axis has no offset. -/
theorem gRows_coord0 {E : Nat} (wf) (idx : IVec ⟨2, ![E, 1]⟩ 32) (e : Fin E) (j : Fin 256) :
    (gRows E wf).start (ix2 e j) idx 0 + (gRows E wf).batchCoord (ix2 e j) 0 + (gRows E wf).offCoord (ix2 e j) 0
      = min (idx (ix2 e 0)).toInt.toNat 49999 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gRows E wf).startIndexMap from List.mem_singleton.mpr rfl)]
  have hsi : (gRows E wf).siIdx (ix2 e j) ⟨List.idxOf (0 : Fin 2) (gRows E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Along the columns the operand index is the result's column: no start index, the offset axis. -/
theorem gRows_coord1 {E : Nat} (wf) (idx : IVec ⟨2, ![E, 1]⟩ 32) (e : Fin E) (j : Fin 256) :
    (gRows E wf).start (ix2 e j) idx 1 + (gRows E wf).batchCoord (ix2 e j) 1 + (gRows E wf).offCoord (ix2 e j) 1
      = j.val := by
  rw [GatherDims.batchCoord_eq_zero _ _ _ List.not_mem_nil]
  unfold GatherDims.start
  rw [dif_neg (show ¬ (1 : Fin 2) ∈ (gRows E wf).startIndexMap from (by decide : ¬ (1 : Fin 2) ∈ ([0] : List (Fin 2))))]
  unfold GatherDims.offCoord
  rw [dif_pos (show (1 : Fin 2) ∈ (gRows E wf).sKept from (GatherDims.mem_sKept _ _).2 ⟨(by decide : ¬ (1 : Fin 2) ∈ ([0] : List (Fin 2))), List.not_mem_nil⟩)]
  simp only [Nat.zero_add]
  rfl

/-- THE ROW GATHER READ AT `(e, j)`: column `j` of the operand's row at the start index `idx[e, 0]`, read signed and
    clamped into `[0, 49999]`. -/
theorem gather_rows_apply {E : Nat} (d : GatherDims ⟨2, ![50000, 256]⟩ ⟨2, ![E, 1]⟩ ⟨2, ![E, 256]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, 256])
    (x : (⟨2, ![50000, 256]⟩ : Shape).Idx → α) (idx : IVec ⟨2, ![E, 1]⟩ 32) (e : Fin E) (j : Fin 256) :
    Host.gather d x idx (ix2 e j) = x (ix2 ⟨min (idx (ix2 e 0)).toInt.toNat 49999, by omega⟩ j) := by
  obtain ⟨od, cd, ob, sb, sm, iv, ss, wf⟩ := d
  simp only at ho hc hb hsb hm hv hs
  subst ho hc hb hsb hm hv hs
  unfold Host.gather
  congr 1
  funext a
  refine Fin.ext ?_
  match a with
  | ⟨0, _⟩ => exact gRows_coord0 wf idx e j
  | ⟨1, _⟩ => exact gRows_coord1 wf idx e j

end Gather

section Scatter

/-- The row scatter's dimension numbers. -/
abbrev sRows (E : Nat) (wf : ScatterDims.WF ⟨2, ![50000, 256]⟩ ⟨2, ![E, 1]⟩ ⟨2, ![E, 256]⟩ [1] [0] [0] 1) :
    ScatterDims ⟨2, ![50000, 256]⟩ ⟨2, ![E, 1]⟩ ⟨2, ![E, 256]⟩ where
  updateWindowDims := [1]
  insertedWindowDims := [0]
  scatterDimsToOperandDims := [0]
  indexVectorDim := 1
  wf := wf

/-- Along the rows the window starts at the word `idx[e, 0]`, read signed. -/
theorem sRows_start0 {E : Nat} (wf) (idx : IVec ⟨2, ![E, 1]⟩ 32) (e : Fin E) (j : Fin 256) :
    (sRows E wf).start (ix2 e j) idx 0 = (idx (ix2 e 0)).toInt := by
  unfold ScatterDims.start
  rw [dif_pos (show (0 : Fin 2) ∈ (sRows E wf).scatterDimsToOperandDims from List.mem_singleton.mpr rfl)]
  have hsi : (sRows E wf).siIdx (ix2 e j) ⟨List.idxOf (0 : Fin 2) (sRows E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- Along the columns the window starts at zero. -/
theorem sRows_start1 {E : Nat} (wf) (idx : IVec ⟨2, ![E, 1]⟩ 32) (e : Fin E) (j : Fin 256) :
    (sRows E wf).start (ix2 e j) idx 1 = 0 := by
  unfold ScatterDims.start
  rw [dif_neg (show ¬ (1 : Fin 2) ∈ (sRows E wf).scatterDimsToOperandDims from
    (by decide : ¬ (1 : Fin 2) ∈ ([0] : List (Fin 2))))]

/-- The rows are an inserted axis: no window coordinate. -/
theorem sRows_window0 {E : Nat} (wf) (e : Fin E) (j : Fin 256) :
    (sRows E wf).window (ix2 e j) 0 = 0 := by
  unfold ScatterDims.window
  rw [dif_neg (show ¬ (0 : Fin 2) ∈ (sRows E wf).sKept from
    (by decide : ¬ (0 : Fin 2) ∈ (⟨2, ![50000, 256]⟩ : Shape).kept [0]))]

/-- The columns are the window axis: the update's column. -/
theorem sRows_window1 {E : Nat} (wf) (e : Fin E) (j : Fin 256) :
    (sRows E wf).window (ix2 e j) 1 = j.val := by
  unfold ScatterDims.window
  rw [dif_pos (show (1 : Fin 2) ∈ (sRows E wf).sKept from
    (by decide : (1 : Fin 2) ∈ (⟨2, ![50000, 256]⟩ : Shape).kept [0]))]
  rfl

/-- THE ROW SCATTER'S RESULT INDEX of update `(e, j)`: row `idx[e, 0]` read signed, column `j`, when that word is a
    row; none otherwise. -/
theorem scatter_rows_resultIdx {E : Nat} (d : ScatterDims ⟨2, ![50000, 256]⟩ ⟨2, ![E, 1]⟩ ⟨2, ![E, 256]⟩)
    (hu : d.updateWindowDims = [1]) (hi : d.insertedWindowDims = [0]) (hd : d.scatterDimsToOperandDims = [0])
    (hv : d.indexVectorDim = 1) (idx : IVec ⟨2, ![E, 1]⟩ 32) (e : Fin E) (j : Fin 256) :
    d.resultIdx? (ix2 e j) idx
      = if h : 0 ≤ (idx (ix2 e 0)).toInt ∧ (idx (ix2 e 0)).toInt < 50000 then
          some (ix2 ⟨(idx (ix2 e 0)).toInt.toNat, by omega⟩ j) else none := by
  obtain ⟨uw, iw, sd, iv, wf⟩ := d
  simp only at hu hi hd hv
  subst hu hi hd hv
  have s0 := sRows_start0 wf idx e j
  have s1 := sRows_start1 wf idx e j
  have w0 := sRows_window0 wf e j
  have w1 := sRows_window1 wf e j
  unfold ScatterDims.resultIdx?
  by_cases h : 0 ≤ (idx (ix2 e 0)).toInt ∧ (idx (ix2 e 0)).toInt < 50000
  · have hall : ∀ a : Fin 2, 0 ≤ (sRows E wf).start (ix2 e j) idx a + ((sRows E wf).window (ix2 e j) a : Int) ∧
        (sRows E wf).start (ix2 e j) idx a + ((sRows E wf).window (ix2 e j) a : Int) < ((⟨2, ![50000, 256]⟩ : Shape).size a : Int) := by
      intro a
      match a with
      | ⟨0, _⟩ =>
        show 0 ≤ (sRows E wf).start (ix2 e j) idx 0 + ((sRows E wf).window (ix2 e j) 0 : Int) ∧
          (sRows E wf).start (ix2 e j) idx 0 + ((sRows E wf).window (ix2 e j) 0 : Int) < (50000 : Int)
        rw [s0, w0]; omega
      | ⟨1, _⟩ =>
        show 0 ≤ (sRows E wf).start (ix2 e j) idx 1 + ((sRows E wf).window (ix2 e j) 1 : Int) ∧
          (sRows E wf).start (ix2 e j) idx 1 + ((sRows E wf).window (ix2 e j) 1 : Int) < (256 : Int)
        rw [s1, w1]; omega
    rw [dif_pos h, dif_pos hall]
    congr 1
    funext a
    refine Fin.ext ?_
    match a with
    | ⟨0, _⟩ =>
      show ((sRows E wf).start (ix2 e j) idx 0 + ((sRows E wf).window (ix2 e j) 0 : Int)).toNat = (idx (ix2 e 0)).toInt.toNat
      rw [s0, w0]; simp
    | ⟨1, _⟩ =>
      show ((sRows E wf).start (ix2 e j) idx 1 + ((sRows E wf).window (ix2 e j) 1 : Int)).toNat = j.val
      rw [s1, w1]; simp
  · rw [dif_neg h, dif_neg]
    intro hall
    have := hall 0
    rw [s0, w0] at this
    exact h (by simpa using this)

end Scatter

section ScatterAdd
variable {φ : FTy}

/-- An index of a matrix determines its row and its column. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

/-- The row scatter's result index in the specification's words: the target row of the word, beside the column. -/
theorem scatter_rows_resultIdx_tgt {E : Nat} (d : ScatterDims ⟨2, ![50000, 256]⟩ ⟨2, ![E, 1]⟩ ⟨2, ![E, 256]⟩)
    (hu : d.updateWindowDims = [1]) (hi : d.insertedWindowDims = [0]) (hd : d.scatterDimsToOperandDims = [0])
    (hv : d.indexVectorDim = 1) (idx : IVec ⟨2, ![E, 1]⟩ 32) (e : Fin E) (c : Fin 256) :
    d.resultIdx? (ix2 e c) idx = (tgtOf (idx (ix2 e 0))).map fun r => ix2 r c := by
  rw [scatter_rows_resultIdx d hu hi hd hv idx e c]
  unfold tgtOf
  split_ifs <;> rfl

/-- An update `(e, c)` lands on `(v, j)` exactly when edge `e`'s word targets row `v` and the column is `j`. -/
theorem scatter_rows_lands_iff {E : Nat} (d : ScatterDims ⟨2, ![50000, 256]⟩ ⟨2, ![E, 1]⟩ ⟨2, ![E, 256]⟩)
    (hu : d.updateWindowDims = [1]) (hi : d.insertedWindowDims = [0]) (hd : d.scatterDimsToOperandDims = [0])
    (hv : d.indexVectorDim = 1) (idx : IVec ⟨2, ![E, 1]⟩ 32) (e : Fin E) (c : Fin 256) (v : Fin 50000) (j : Fin 256) :
    d.resultIdx? (ix2 e c) idx = some (ix2 v j) ↔ tgtOf (idx (ix2 e 0)) = some v ∧ c = j := by
  rw [scatter_rows_resultIdx_tgt d hu hi hd hv idx e c, Option.map_eq_some_iff]
  constructor
  · rintro ⟨r, hr, hrc⟩
    obtain ⟨rfl, rfl⟩ := ix2_inj.1 hrc
    exact ⟨hr, rfl⟩
  · rintro ⟨hr, rfl⟩
    exact ⟨v, hr, rfl⟩

/-- THE ROW SCATTER-ADD READ AT `(v, j)`: the operand's element plus column `j` of every update row whose word targets
    row `v`. -/
theorem scatterAdd_rows_apply {E : Nat} (d : ScatterDims ⟨2, ![50000, 256]⟩ ⟨2, ![E, 1]⟩ ⟨2, ![E, 256]⟩)
    (hu : d.updateWindowDims = [1]) (hi : d.insertedWindowDims = [0]) (hd : d.scatterDimsToOperandDims = [0])
    (hv : d.indexVectorDim = 1) (x : FVec Ideal ⟨2, ![50000, 256]⟩ φ) (idx : IVec ⟨2, ![E, 1]⟩ 32)
    (upd : FVec Ideal ⟨2, ![E, 256]⟩ φ) (v : Fin 50000) (j : Fin 256) :
    Host.scatterAdd (F := Ideal) d x idx upd (ix2 v j)
      = x (ix2 v j) + ∑ e ∈ Finset.univ.filter (fun e : Fin E => tgtOf (idx (ix2 e 0)) = some v), upd (ix2 e j) := by
  show x (ix2 v j) + ∑ jj ∈ Finset.univ.filter (fun jj => d.resultIdx? jj idx = some (ix2 v j)), upd jj = _
  congr 1
  rw [Finset.sum_filter, sum_idx2, Finset.sum_filter]
  refine Finset.sum_congr rfl fun e _ => ?_
  by_cases ht : tgtOf (idx (ix2 e 0)) = some v
  · rw [if_pos ht]
    rw [Finset.sum_congr rfl (fun c _ => if_congr (scatter_rows_lands_iff d hu hi hd hv idx e c v j) rfl rfl)]
    simp only [ht, true_and]
    rw [Finset.sum_ite_eq' Finset.univ j (fun c => upd (ix2 e c)), if_pos (Finset.mem_univ j)]
  · rw [if_neg ht]
    refine Finset.sum_eq_zero fun c _ => ?_
    rw [if_neg]
    rw [scatter_rows_lands_iff d hu hi hd hv idx e c v j]
    exact fun h => ht h.1

end ScatterAdd

section Flat
variable {α : Type} {φ : FTy}

/-- The flat scatter's dimension numbers. -/
abbrev sFlat (E : Nat) (wf : ScatterDims.WF ⟨1, ![50000]⟩ ⟨2, ![E, 1]⟩ ⟨1, ![E]⟩ [] [0] [0] 1) :
    ScatterDims ⟨1, ![50000]⟩ ⟨2, ![E, 1]⟩ ⟨1, ![E]⟩ where
  updateWindowDims := []
  insertedWindowDims := [0]
  scatterDimsToOperandDims := [0]
  indexVectorDim := 1
  wf := wf

/-- The window starts at the word `idx[e, 0]`, read signed. -/
theorem sFlat_start0 {E : Nat} (wf) (idx : IVec ⟨2, ![E, 1]⟩ 32) (e : Fin E) :
    (sFlat E wf).start (ix1 e) idx 0 = (idx (ix2 e 0)).toInt := by
  unfold ScatterDims.start
  rw [dif_pos (show (0 : Fin 1) ∈ (sFlat E wf).scatterDimsToOperandDims from List.mem_singleton.mpr rfl)]
  have hsi : (sFlat E wf).siIdx (ix1 e) ⟨List.idxOf (0 : Fin 1) (sFlat E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one axis is inserted: no window coordinate. -/
theorem sFlat_window0 {E : Nat} (wf) (e : Fin E) :
    (sFlat E wf).window (ix1 e) 0 = 0 := by
  unfold ScatterDims.window
  rw [dif_neg (show ¬ (0 : Fin 1) ∈ (sFlat E wf).sKept from
    (by decide : ¬ (0 : Fin 1) ∈ (⟨1, ![50000]⟩ : Shape).kept [0]))]

/-- THE FLAT SCATTER'S RESULT INDEX of update `e`: element `idx[e, 0]` read signed, when that word is an element; none
    otherwise. -/
theorem scatter_flat_resultIdx {E : Nat} (d : ScatterDims ⟨1, ![50000]⟩ ⟨2, ![E, 1]⟩ ⟨1, ![E]⟩)
    (hu : d.updateWindowDims = []) (hi : d.insertedWindowDims = [0]) (hd : d.scatterDimsToOperandDims = [0])
    (hv : d.indexVectorDim = 1) (idx : IVec ⟨2, ![E, 1]⟩ 32) (e : Fin E) :
    d.resultIdx? (ix1 e) idx
      = if h : 0 ≤ (idx (ix2 e 0)).toInt ∧ (idx (ix2 e 0)).toInt < 50000 then
          some (ix1 ⟨(idx (ix2 e 0)).toInt.toNat, by omega⟩) else none := by
  obtain ⟨uw, iw, sd, iv, wf⟩ := d
  simp only at hu hi hd hv
  subst hu hi hd hv
  have s0 := sFlat_start0 wf idx e
  have w0 := sFlat_window0 wf e
  unfold ScatterDims.resultIdx?
  by_cases h : 0 ≤ (idx (ix2 e 0)).toInt ∧ (idx (ix2 e 0)).toInt < 50000
  · have hall : ∀ a : Fin 1, 0 ≤ (sFlat E wf).start (ix1 e) idx a + ((sFlat E wf).window (ix1 e) a : Int) ∧
        (sFlat E wf).start (ix1 e) idx a + ((sFlat E wf).window (ix1 e) a : Int) < ((⟨1, ![50000]⟩ : Shape).size a : Int) := by
      intro a
      match a with
      | ⟨0, _⟩ =>
        show 0 ≤ (sFlat E wf).start (ix1 e) idx 0 + ((sFlat E wf).window (ix1 e) 0 : Int) ∧
          (sFlat E wf).start (ix1 e) idx 0 + ((sFlat E wf).window (ix1 e) 0 : Int) < (50000 : Int)
        rw [s0, w0]; omega
    rw [dif_pos h, dif_pos hall]
    congr 1
    funext a
    refine Fin.ext ?_
    match a with
    | ⟨0, _⟩ =>
      show ((sFlat E wf).start (ix1 e) idx 0 + ((sFlat E wf).window (ix1 e) 0 : Int)).toNat = (idx (ix2 e 0)).toInt.toNat
      rw [s0, w0]; simp
  · rw [dif_neg h, dif_neg]
    intro hall
    have := hall 0
    rw [s0, w0] at this
    exact h (by simpa using this)

/-- An index of a vector determines its coordinate. -/
theorem ix1_inj {n : Nat} {a a' : Fin n} : ix1 a = ix1 a' ↔ a = a' :=
  ⟨fun h => congrFun h 0, fun h => h ▸ rfl⟩

/-- The flat scatter's result index in the specification's words: the target of the word. -/
theorem scatter_flat_resultIdx_tgt {E : Nat} (d : ScatterDims ⟨1, ![50000]⟩ ⟨2, ![E, 1]⟩ ⟨1, ![E]⟩)
    (hu : d.updateWindowDims = []) (hi : d.insertedWindowDims = [0]) (hd : d.scatterDimsToOperandDims = [0])
    (hv : d.indexVectorDim = 1) (idx : IVec ⟨2, ![E, 1]⟩ 32) (e : Fin E) :
    d.resultIdx? (ix1 e) idx = (tgtOf (idx (ix2 e 0))).map fun r => ix1 r := by
  rw [scatter_flat_resultIdx d hu hi hd hv idx e]
  unfold tgtOf
  split_ifs <;> rfl

/-- Update `e` lands on element `v` exactly when its word targets `v`. -/
theorem scatter_flat_lands_iff {E : Nat} (d : ScatterDims ⟨1, ![50000]⟩ ⟨2, ![E, 1]⟩ ⟨1, ![E]⟩)
    (hu : d.updateWindowDims = []) (hi : d.insertedWindowDims = [0]) (hd : d.scatterDimsToOperandDims = [0])
    (hv : d.indexVectorDim = 1) (idx : IVec ⟨2, ![E, 1]⟩ 32) (e : Fin E) (v : Fin 50000) :
    d.resultIdx? (ix1 e) idx = some (ix1 v) ↔ tgtOf (idx (ix2 e 0)) = some v := by
  rw [scatter_flat_resultIdx_tgt d hu hi hd hv idx e, Option.map_eq_some_iff]
  constructor
  · rintro ⟨r, hr, hrc⟩
    obtain rfl := ix1_inj.1 hrc
    exact hr
  · intro hr
    exact ⟨v, hr, rfl⟩

/-- A sum over a vector's indices is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- THE FLAT SCATTER-ADD READ AT `v`: the operand's element plus every update whose word targets `v`. -/
theorem scatterAdd_flat_apply {E : Nat} (d : ScatterDims ⟨1, ![50000]⟩ ⟨2, ![E, 1]⟩ ⟨1, ![E]⟩)
    (hu : d.updateWindowDims = []) (hi : d.insertedWindowDims = [0]) (hd : d.scatterDimsToOperandDims = [0])
    (hv : d.indexVectorDim = 1) (x : FVec Ideal ⟨1, ![50000]⟩ φ) (idx : IVec ⟨2, ![E, 1]⟩ 32)
    (upd : FVec Ideal ⟨1, ![E]⟩ φ) (v : Fin 50000) :
    Host.scatterAdd (F := Ideal) d x idx upd (ix1 v)
      = x (ix1 v) + ∑ e ∈ Finset.univ.filter (fun e : Fin E => tgtOf (idx (ix2 e 0)) = some v), upd (ix1 e) := by
  show x (ix1 v) + ∑ jj ∈ Finset.univ.filter (fun jj => d.resultIdx? jj idx = some (ix1 v)), upd jj = _
  congr 1
  rw [Finset.sum_filter, sum_idx1, Finset.sum_filter]
  exact Finset.sum_congr rfl fun e _ => if_congr (scatter_flat_lands_iff d hu hi hd hv idx e v) rfl rfl

/-- The flat gather's dimension numbers. -/
abbrev gFlat (E : Nat) (wf : GatherDims.WF ⟨1, ![50000]⟩ ⟨2, ![E, 1]⟩ ⟨1, ![E]⟩ [] [0] [] [0] [] 1 ![1]) :
    GatherDims ⟨1, ![50000]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start index `idx[e, 0]`, read signed and clamped into
    `[0, 49999]`. -/
theorem gather_flat_apply {E : Nat} (d : GatherDims ⟨1, ![50000]⟩ ⟨2, ![E, 1]⟩ ⟨1, ![E]⟩)
    (ho : d.offsetDims = []) (hc : d.collapsedSliceDims = [0]) (hb : d.operandBatchingDims = [])
    (hsb : d.startIndicesBatchingDims = []) (hm : d.startIndexMap = [0]) (hv : d.indexVectorDim = 1)
    (hs : d.sliceSizes = ![1])
    (x : (⟨1, ![50000]⟩ : Shape).Idx → α) (idx : IVec ⟨2, ![E, 1]⟩ 32) (e : Fin E) :
    Host.gather d x idx (ix1 e) = x (ix1 ⟨min (idx (ix2 e 0)).toInt.toNat 49999, by omega⟩) := by
  obtain ⟨od, cd, ob, sb, sm, iv, ss, wf⟩ := d
  simp only at ho hc hb hsb hm hv hs
  subst ho hc hb hsb hm hv hs
  unfold Host.gather
  congr 1
  funext a
  obtain rfl : a = 0 := Subsingleton.elim _ _
  refine Fin.ext ?_
  show (gFlat E wf).start (ix1 e) idx 0 + (gFlat E wf).batchCoord (ix1 e) 0 + (gFlat E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gFlat E wf).startIndexMap from List.mem_singleton.mpr rfl)]
  have hsi : (gFlat E wf).siIdx (ix1 e) ⟨List.idxOf (0 : Fin 1) (gFlat E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Flat

section Words

/-- The gather's row after the negative-index normalisation is `rowOf`. -/
theorem rowOf_eq (b : BitVec 32) :
    (⟨min (Scalar.select (IntOp.cmpi .slt b 0#32) (IntOp.addi b 50000#32) b).toInt.toNat 49999, by omega⟩ : Fin 50000)
      = rowOf b := rfl

/-- A word that reads as a non-negative integer is not shifted by the normalisation. -/
theorem norm_of_nonneg (b : BitVec 32) (h : 0 ≤ b.toInt) :
    Scalar.select (IntOp.cmpi .slt b 0#32) (IntOp.addi b 50000#32) b = b := by
  have hs : b.slt 0#32 = false := by
    unfold BitVec.slt
    rw [decide_eq_false_iff_not, BitVec.toInt_zero]
    omega
  unfold Scalar.select IntOp.cmpi
  simp only [hs]
  rw [if_neg (by decide)]

/-- The word of a natural below the node count reads as that natural. -/
theorem toInt_ofNat_node (k : Nat) (hk : k < 50000) : (BitVec.ofNat 32 k).toInt = (k : Int) := by
  rw [BitVec.toInt_eq_toNat_cond, BitVec.toNat_ofNat, Nat.mod_eq_of_lt (by omega)]
  split <;> omega

/-- A word in range is its own row. -/
theorem rowOf_of_inRange (b : BitVec 32) (h0 : 0 ≤ b.toInt) (h1 : b.toInt < 50000) :
    rowOf b = ⟨b.toInt.toNat, by omega⟩ := by
  unfold rowOf
  refine Fin.ext ?_
  show min (Scalar.select (IntOp.cmpi .slt b 0#32) (IntOp.addi b 50000#32) b).toInt.toNat 49999 = b.toInt.toNat
  rw [norm_of_nonneg b h0]
  omega

/-- The row of node `k`'s own word is `k`. -/
theorem rowOf_ofNat (k : Fin 50000) : rowOf (BitVec.ofNat 32 k.val) = k := by
  have ht := toInt_ofNat_node k.val k.isLt
  rw [rowOf_of_inRange _ (by omega) (by omega)]
  refine Fin.ext ?_
  show (BitVec.ofNat 32 k.val).toInt.toNat = k.val
  omega

/-- The target of node `k`'s own word is `k`. -/
theorem tgtOf_ofNat (k : Fin 50000) : tgtOf (BitVec.ofNat 32 k.val) = some k := by
  have ht := toInt_ofNat_node k.val k.isLt
  unfold tgtOf
  rw [dif_pos (by omega)]
  refine congrArg some (Fin.ext ?_)
  show (BitVec.ofNat 32 k.val).toInt.toNat = k.val
  omega

/-- A word that targets a row is in range … -/
theorem tgtOf_eq_some_iff (b : BitVec 32) (v : Fin 50000) :
    tgtOf b = some v ↔ 0 ≤ b.toInt ∧ b.toInt < 50000 ∧ b.toInt.toNat = v.val := by
  unfold tgtOf
  constructor
  · intro h
    split at h
    · next hr =>
      have := congrArg Fin.val (Option.some.inj h)
      exact ⟨hr.1, hr.2, this⟩
    · exact absurd h (by simp)
  · rintro ⟨h0, h1, hv⟩
    rw [dif_pos ⟨h0, h1⟩]
    exact congrArg some (Fin.ext hv)

/-- … and then it is its own row: a gather at a word that a scatter-add accepts reads the row the scatter-add adds to. -/
theorem tgtOf_eq_some_rowOf (b : BitVec 32) (v : Fin 50000) (h : tgtOf b = some v) : rowOf b = v := by
  obtain ⟨h0, h1, hv⟩ := (tgtOf_eq_some_iff b v).1 h
  rw [rowOf_of_inRange b h0 h1]
  exact Fin.ext hv

end Words

section Lists
variable {α : Type}

/-- THE EDGE LIST EXTENDED BY THE SELF LOOPS, read at `e`: the first piece below 400000, the second piece at
    `e − 400000` from there on. -/
theorem concat_flat_apply (a : (⟨1, ![400000]⟩ : Shape).Idx → α) (b : (⟨1, ![50000]⟩ : Shape).Idx → α)
    (h : Shape.Concatenates [⟨1, ![400000]⟩, ⟨1, ![50000]⟩] ⟨1, ![450000]⟩ 0) (e : Fin 450000) :
    concatenate ⟨1, ![450000]⟩ 0 [⟨⟨1, ![400000]⟩, a⟩, ⟨⟨1, ![50000]⟩, b⟩] h (ix1 e)
      = if he : e.val < 400000 then a (ix1 ⟨e.val, he⟩) else b (ix1 ⟨e.val - 400000, by omega⟩) := by
  split
  · next he =>
    exact concatenate_pair_apply_left 0 a b h (ix1 e) rfl (ix1 ⟨e.val, he⟩)
      (fun c => by match c with | ⟨0, _⟩ => rfl)
  · next he =>
    refine concatenate_pair_apply_right 0 a b h (ix1 e) rfl rfl (ix1 ⟨e.val - 400000, by omega⟩)
      (fun c hc => absurd (Subsingleton.elim _ _) hc) ?_
    show e.val - 400000 + 400000 = e.val
    omega

/-- TWO 256-COLUMN MATRICES SIDE BY SIDE, read at `(e, q)`: the first below column 256, the second at column
    `q − 256` from there on. -/
theorem concat_cols_apply (a b : (⟨2, ![400000, 256]⟩ : Shape).Idx → α)
    (h : Shape.Concatenates [⟨2, ![400000, 256]⟩, ⟨2, ![400000, 256]⟩] ⟨2, ![400000, 512]⟩ 1)
    (e : Fin 400000) (q : Fin 512) :
    concatenate ⟨2, ![400000, 512]⟩ 1 [⟨⟨2, ![400000, 256]⟩, a⟩, ⟨⟨2, ![400000, 256]⟩, b⟩] h (ix2 e q)
      = if hq : q.val < 256 then a (ix2 e ⟨q.val, hq⟩) else b (ix2 e ⟨q.val - 256, by omega⟩) := by
  split
  · next hq =>
    exact concatenate_pair_apply_left 1 a b h (ix2 e q) rfl (ix2 e ⟨q.val, hq⟩)
      (fun c => by match c with | ⟨0, _⟩ => rfl | ⟨1, _⟩ => rfl)
  · next hq =>
    refine concatenate_pair_apply_right 1 a b h (ix2 e q) rfl rfl (ix2 e ⟨q.val - 256, by omega⟩)
      (fun c hc => ?_) ?_
    · match c with
      | ⟨0, _⟩ => rfl
      | ⟨1, _⟩ => exact absurd rfl hc
    · show q.val - 256 + 256 = q.val
      omega

/-- The node iota reads the node's own word. -/
theorem iota_node_apply (k : Fin 50000) : iotaInDim ⟨1, ![50000]⟩ 32 0 (ix1 k) = BitVec.ofNat 32 k.val := rfl

/-- An index vector viewed as a one-column matrix reads its entry. -/
theorem broadcast_col_apply {E : Nat} (x : (⟨1, ![E]⟩ : Shape).Idx → α)
    (h : (⟨1, ![E]⟩ : Shape).BroadcastsInDim ⟨2, ![E, 1]⟩ ![0]) (e : Fin E) :
    broadcastInDim ⟨2, ![E, 1]⟩ ![0] h x (ix2 e 0) = x (ix1 e) := by
  refine broadcastInDim_apply _ h x (ix2 e 0) (ix1 e) fun a => ?_
  match a with
  | ⟨0, _⟩ =>
    show e.val = if E = 1 then 0 else e.val
    split
    · have := e.isLt; omega
    · rfl

/-- Row `r` of a two-row array, sliced out as a one-row array, reads that row. -/
theorem slice_row_apply {n : Nat} (r : Nat) (hr : r < 2) (x : (⟨2, ![2, n]⟩ : Shape).Idx → α)
    (h : (⟨2, ![2, n]⟩ : Shape).Slices ![r, 0] ⟨2, ![1, n]⟩) (e : Fin n) :
    extractStridedSlice ⟨2, ![1, n]⟩ ![r, 0] x h (ix2 0 e) = x (ix2 ⟨r, hr⟩ e) := by
  refine extractStridedSlice_apply _ x h (ix2 0 e) (ix2 ⟨r, hr⟩ e) fun a => ?_
  match a with
  | ⟨0, _⟩ => show r = r + 0; omega
  | ⟨1, _⟩ => show e.val = 0 + e.val; omega

/-- A one-row matrix viewed as a vector reads the row's entry. -/
theorem shapeCast_row_to_vec_apply {n : Nat} (x : (⟨2, ![1, n]⟩ : Shape).Idx → α)
    (h : (⟨2, ![1, n]⟩ : Shape).ShapeCasts ⟨1, ![n]⟩) (e : Fin n) :
    shapeCast ⟨1, ![n]⟩ x h (ix1 e) = x (ix2 0 e) := by
  refine shapeCast_apply x h (ix1 e) (ix2 0 e) ?_
  rw [Shape.rowMajor_val_two, Shape.rowMajor_val_one]
  show 0 * n + e.val = e.val
  omega

/-- A vector viewed as a one-column matrix reads its entry. -/
theorem shapeCast_vec_to_col_apply {n : Nat} (x : (⟨1, ![n]⟩ : Shape).Idx → α)
    (h : (⟨1, ![n]⟩ : Shape).ShapeCasts ⟨2, ![n, 1]⟩) (e : Fin n) :
    shapeCast ⟨2, ![n, 1]⟩ x h (ix2 e 0) = x (ix1 e) := by
  refine shapeCast_apply x h (ix2 e 0) (ix1 e) ?_
  rw [Shape.rowMajor_val_two, Shape.rowMajor_val_one]
  show e.val = e.val * 1 + 0
  omega

/-- A vector viewed as a one-row matrix reads its entry. -/
theorem shapeCast_vec_to_row_apply {n : Nat} (x : (⟨1, ![n]⟩ : Shape).Idx → α)
    (h : (⟨1, ![n]⟩ : Shape).ShapeCasts ⟨2, ![1, n]⟩) (j : Fin n) :
    shapeCast ⟨2, ![1, n]⟩ x h (ix2 0 j) = x (ix1 j) := by
  refine shapeCast_apply x h (ix2 0 j) (ix1 j) ?_
  rw [Shape.rowMajor_val_two, Shape.rowMajor_val_one]
  show j.val = 0 * n + j.val
  omega

end Lists

end Cert.Spec

end
-- ==== Proof.Spec.Consts.lean ====
/-
  The float constants both programs spell, as the extended reals their bit patterns denote: the one word `1.0`
  (the zero word is the library's `Ideal.ofBits_zero_f32`). Stated once, so that no other module unfolds the
  pattern reading.
-/
import Idealize.ShloMosaic.PureOps.Ideal
import Idealize.ShloMosaic.PureOps.Ideal.Laws

noncomputable section

namespace Cert.Spec

open Idealize.ShloMosaic

/-- The word `0x3F800000` denotes `1`. -/
theorem ofBits_one_f32 : Ideal.ofBits .f32 0x3F800000#32 = 1 := by
  simp [Ideal.ofBits, Ideal.ieee, -EReal.coe_mul]; norm_num

end Cert.Spec

end
-- ==== Proof.KI.Net0.lean ====
import proofs.«159550_j10136122819017_2_alg».proof.Proof.KI.Fold
import proofs.«159550_j10136122819017_2_alg».proof.Proof.KI.NetInputs
import proofs.«159550_j10136122819017_2_alg».proof.Proof.KI.NetCarry
import proofs.«159550_j10136122819017_2_alg».proof.Proof.KI.Val0
import proofs.«159550_j10136122819017_2_alg».proof.Proof.KI.Val1
import proofs.«159550_j10136122819017_2_alg».proof.Proof.Spec.Defs
import proofs.«159550_j10136122819017_2_alg».proof.Proof.Spec.Index
import proofs.«159550_j10136122819017_2_alg».proof.Proof.Spec.Consts
import Idealize.ShloMosaic.Lib.ValueIdx
import Idealize.ShloMosaic.Lib.Pipeline.Value
import Idealize.ShloMosaic.Lib.ValueLayout
import Idealize.ShloMosaic.Lib.StableHlo.Run
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

open Idealize.ShloMosaic.ValueIdx Idealize.ShloMosaic.StableHlo

/-! ## The normaliser as the host spells it -/

/-- The normaliser over the destination words `w3`: ones scattered onto zeros at the destinations, plus one, at least
    one, reciprocal square root, as a column. -/
abbrev normTerm (w3 : S400000.Idx → BitVec 32) : S50000x1.Idx → EReal :=
  shapeCast S50000x1
    (Host.rsqrt (F := Ideal)
      (maximumf
        (addf
          (Host.scatterAdd (F := Ideal) scatter_S50000_S400000x1_S400000_n_0_0_1
            (broadcastInDim S50000 ![] bcast_S_S50000 (constant (F := Ideal) S_ .f32 0x00000000#32))
            (broadcastInDim S400000x1 ![0] bcast_S400000_S400000x1_0 w3)
            (broadcastInDim S400000 ![] bcast_S_S400000 (constant (F := Ideal) S_ .f32 0x3F800000#32)))
          (broadcastInDim S50000 ![] bcast_S_S50000 (constant (F := Ideal) S_ .f32 0x3F800000#32)))
        (broadcastInDim S50000 ![] bcast_S_S50000 (constant (F := Ideal) S_ .f32 0x3F800000#32)) : FVec Ideal S50000 .f32))
    shapeCasts_S50000_S50000x1

/-- A vector of words broadcast to a one-column matrix reads its own entry. -/
theorem bcast_col_apply (w3 : S400000.Idx → BitVec 32) (e : Fin 400000) :
    broadcastInDim S400000x1 ![0] bcast_S400000_S400000x1_0 w3 (ix2 e 0) = w3 (ix1 e) :=
  broadcastInDim_apply _ _ _ _ (ix1 e) fun a => by
    match a with
    | ⟨0, _⟩ => rw [if_neg (by show ¬ ((400000 : ℕ) = 1); omega)]; rfl

/-- The host's reciprocal square root read at an index. -/
theorem hostRsqrt_apply {s : Shape} {φ : FTy} (x : FVec Ideal s φ) (i : s.Idx) :
    Host.rsqrt (F := Ideal) x i = Ideal.rsqrt (x i) := rfl

theorem normTerm_apply (w3 : S400000.Idx → BitVec 32) (v : Fin 50000) :
    normTerm w3 (ix2 v 0)
      = Ideal.rsqrt (max ((∑ _e ∈ Finset.univ.filter (fun e : Fin 400000 => Cert.Spec.tgtOf (w3 (ix1 e)) = some v), (1 : EReal)) + 1) 1) := by
  have hone : ∀ (T : Shape) (h : S_.BroadcastsInDim T ![]) (j : T.Idx),
      broadcastInDim T ![] h (constant (F := Ideal) S_ .f32 0x3F800000#32) j = (1 : EReal) := fun T h j => by
    rw [broadcastInDim_scalar_apply, constant_apply, Cert.Spec.ofBits_one_f32]
  have hzero : ∀ (T : Shape) (h : S_.BroadcastsInDim T ![]) (j : T.Idx),
      broadcastInDim T ![] h (constant (F := Ideal) S_ .f32 0x00000000#32) j = (0 : EReal) := fun T h j => by
    rw [broadcastInDim_scalar_apply, constant_apply, Ideal.ofBits_zero_f32]
  refine (shapeCast_apply _ _ (ix2 v 0) (ix1 v) (by
    rw [Shape.rowMajor_val_one, Shape.rowMajor_val_two]
    show v.val = v.val * 1 + 0
    omega)).trans ?_
  rw [hostRsqrt_apply, maximumf_apply, addf_apply, hone, Cert.Spec.scatterAdd_flat_apply _ rfl rfl rfl rfl, hzero, zero_add]
  refine congrArg (fun s => Ideal.rsqrt (max (s + 1) 1)) ?_
  exact Finset.sum_congr (Finset.filter_congr fun e _ => by rw [bcast_col_apply]) fun e _ => hone _ _ _

/-! ## Host stretch 0 over any entry contents -/

section Stretch0
variable (V : Valuation τ sig (Elt Ideal))

set_option maxHeartbeats 400000 in
theorem after0_v1 : (StableHlo.after hostOps0 V (Proc.devRef .tc main_v1) : S400000.Idx → BitVec 32)
    = shapeCast S400000 (extractStridedSlice S1x400000 ![0, 0] (V (Proc.devRef .tc main_arg1) : S2x400000.Idx → BitVec 32)
        slices_S2x400000_S1x400000_0_0) shapeCasts_S1x400000_S400000 := by
  after_results
  rfl

set_option maxHeartbeats 400000 in
theorem after0_v3 : (StableHlo.after hostOps0 V (Proc.devRef .tc main_v3) : S400000.Idx → BitVec 32)
    = shapeCast S400000 (extractStridedSlice S1x400000 ![1, 0] (V (Proc.devRef .tc main_arg1) : S2x400000.Idx → BitVec 32)
        slices_S2x400000_S1x400000_1_0) shapeCasts_S1x400000_S400000 := by
  after_results
  rfl

/-- Row 0 of the edge list, flattened, reads the list at `(0, e)`: the source words. -/
theorem after0_v1_apply (e : Fin 400000) :
    (StableHlo.after hostOps0 V (Proc.devRef .tc main_v1) : S400000.Idx → BitVec 32) (ix1 e)
      = (V (Proc.devRef .tc main_arg1) : S2x400000.Idx → BitVec 32) (ix2 0 e) := by
  rw [after0_v1, shapeCast_1a_a_apply]
  exact extractStridedSlice_apply _ _ _ _ _ fun a => by
    match a with
    | ⟨0, _⟩ => rfl
    | ⟨1, _⟩ => show e.val = 0 + e.val; omega

/-- Row 1 of the edge list, flattened, reads the list at `(1, e)`: the destination words. -/
theorem after0_v3_apply (e : Fin 400000) :
    (StableHlo.after hostOps0 V (Proc.devRef .tc main_v3) : S400000.Idx → BitVec 32) (ix1 e)
      = (V (Proc.devRef .tc main_arg1) : S2x400000.Idx → BitVec 32) (ix2 1 e) := by
  rw [after0_v3, shapeCast_1a_a_apply]
  exact extractStridedSlice_apply _ _ _ _ _ fun a => by
    match a with
    | ⟨0, _⟩ => rfl
    | ⟨1, _⟩ => show e.val = 0 + e.val; omega

set_option maxHeartbeats 400000 in
theorem after0_v13 : (StableHlo.after hostOps0 V (Proc.devRef .tc main_v13) : S50000x1.Idx → EReal)
    = normTerm (StableHlo.after hostOps0 V (Proc.devRef .tc main_v3) : S400000.Idx → BitVec 32) := by
  rw [after0_v3]
  after_results
  rfl

set_option maxHeartbeats 400000 in
theorem after0_v14 : (StableHlo.after hostOps0 V (Proc.devRef .tc main_v14) : S50000x256.Idx → EReal)
    = (truncf (F := Ideal) .bf16 (V (Proc.devRef .tc main_arg0) : FVec Ideal S50000x256 .f32) bitsLt_bf16_f32 : FVec Ideal S50000x256 .bf16) := by
  after_results

set_option maxHeartbeats 400000 in
theorem after0_v15 : (StableHlo.after hostOps0 V (Proc.devRef .tc main_v15) : S256x256.Idx → EReal)
    = (truncf (F := Ideal) .bf16 (V (Proc.devRef .tc main_arg2) : FVec Ideal S256x256 .f32) bitsLt_bf16_f32 : FVec Ideal S256x256 .bf16) := by
  after_results

set_option maxHeartbeats 400000 in
theorem after0_v16 : (StableHlo.after hostOps0 V (Proc.devRef .tc main_v16) : S1x256.Idx → EReal)
    = shapeCast S1x256 (V (Proc.devRef .tc main_arg3) : S256.Idx → EReal) shapeCasts_S256_S1x256 := by
  after_results
  rfl
end Stretch0

/-! ## Host stretch 1 over any entry contents -/

section Stretch1
variable (V : Valuation τ sig (Elt Ideal))

set_option maxHeartbeats 400000 in
theorem after1_v20 : (StableHlo.after hostOps1 V (Proc.devRef .tc main_v20) : S256x256.Idx → EReal)
    = shapeCast S256x256 (extractStridedSlice S1x256x256 ![0, 0, 0]
        (truncf (F := Ideal) .bf16 (V (Proc.devRef .tc main_arg4) : FVec Ideal S3x256x256 .f32) bitsLt_bf16_f32 : FVec Ideal S3x256x256 .bf16)
        slices_S3x256x256_S1x256x256_0_0_0) shapeCasts_S1x256x256_S256x256 := by
  after_results
  rfl

/-- Matrix 0 of the stack of layer weights reads the stack at `(0, k, j)`. -/
theorem after1_v20_apply (k j : Fin 256) :
    (StableHlo.after hostOps1 V (Proc.devRef .tc main_v20) : S256x256.Idx → EReal) (ix2 k j)
      = (V (Proc.devRef .tc main_arg4) : S3x256x256.Idx → EReal) (ix3 0 k j) := by
  rw [after1_v20, shapeCast_1ab_ab_apply]
  refine (extractStridedSlice_apply _ _ _ _ (ix3 0 k j) fun a => ?_).trans (truncf_apply _ _ _)
  match a with
  | ⟨0, _⟩ => rfl
  | ⟨1, _⟩ => show k.val = 0 + k.val; omega
  | ⟨2, _⟩ => show j.val = 0 + j.val; omega
end Stretch1

/-! # The first stretch of the network on the kernel side

  From the launch memory to the first layer's pre-scaled linear output: the edge words and the normaliser after host
  stretch 0, the input layer after region 0, the first layer's weight matrix after host stretch 1, and
  `(h0 · W_0) · nrm` after region 1. -/

variable (m : (ℓ : Loc nD τ sig) → Buf (Elt Ideal) ℓ) (ρ : Dev nD → PrngReg) (c : Dev nD)

local notation "I" => inputsK m c

theorem net_src (e : Fin 400000) :
    (W1 m ρ c (Proc.devRef .tc main_v1) : S400000.Idx → BitVec 32) (ix1 e) = Cert.Spec.src (inputsK m c).EI e :=
  after0_v1_apply (W0 m ρ c) e

theorem net_dst (e : Fin 400000) :
    (W1 m ρ c (Proc.devRef .tc main_v3) : S400000.Idx → BitVec 32) (ix1 e) = Cert.Spec.dst (inputsK m c).EI e :=
  after0_v3_apply (W0 m ρ c) e

theorem net_norm (v : Fin 50000) :
    (W1 m ρ c (Proc.devRef .tc main_v13) : S50000x1.Idx → EReal) (ix2 v 0) = Cert.Spec.nrm (inputsK m c).EI v := by
  refine (congrFun (after0_v13 (W0 m ρ c)) (ix2 v 0)).trans ?_
  rw [normTerm_apply]
  unfold Cert.Spec.nrm Cert.Spec.deg Cert.Spec.inE
  refine congrArg (fun s => Ideal.rsqrt (max (s + 1) 1)) ?_
  exact Finset.sum_congr (Finset.filter_congr fun e _ =>
    Iff.of_eq (congrArg (fun b => Cert.Spec.tgtOf b = some v) (net_dst m ρ c e))) fun _ _ => rfl

theorem net_x (r : Fin 50000) (k : Fin 256) :
    (W1 m ρ c (Proc.devRef .tc main_v14) : S50000x256.Idx → EReal) (ix2 r k) = (inputsK m c).X (ix2 r k) :=
  congrFun (after0_v14 (W0 m ρ c)) (ix2 r k)

theorem net_win (k j : Fin 256) :
    (W1 m ρ c (Proc.devRef .tc main_v15) : S256x256.Idx → EReal) (ix2 k j) = (inputsK m c).Win (ix2 k j) :=
  congrFun (after0_v15 (W0 m ρ c)) (ix2 k j)

theorem net_bin (j : Fin 256) :
    (W1 m ρ c (Proc.devRef .tc main_v16) : S1x256.Idx → EReal) (ix2 0 j) = (inputsK m c).bin (ix1 j) :=
  (congrFun (after0_v16 (W0 m ρ c)) (ix2 0 j)).trans (shapeCast_a_1a_apply _ _ 0 j)

/-- The input layer: region 0's output is `max (X · W_in + b_in) 0`. -/
theorem net_h0 (r : Fin 50000) (j : Fin 256) :
    (W2 m ρ c (Proc.devRef .tc main_v17) : S50000x256.Idx → EReal) (ix2 r j) = Cert.Spec.h0 (inputsK m c) r j := by
  have hA0 : (B1 m ρ c (Pipeline.arrRef spec0 0) : S50000x256.Idx → EReal) = (inputsK m c).X :=
    funext fun i => by rw [eq_ix2 i]; exact net_x m ρ c _ _
  have hA1 : (B1 m ρ c (Pipeline.arrRef spec0 1) : S256x256.Idx → EReal) = (inputsK m c).Win :=
    funext fun i => by rw [eq_ix2 i]; exact net_win m ρ c _ _
  have hA2 : (B1 m ρ c (Pipeline.arrRef spec0 2) : S1x256.Idx → EReal)
      = (W1 m ρ c (Proc.devRef .tc main_v16) : S1x256.Idx → EReal) := rfl
  refine (congrFun (W2_arr m ρ c 3) (ix2 r j)).trans ?_
  refine (final0_3_apply_of (B1 m ρ) c r j _ _ _ hA0 hA1 hA2).trans ?_
  rw [net_bin]
  rfl

theorem net_wg0 (k j : Fin 256) :
    (W3 m ρ c (Proc.devRef .tc main_v20) : S256x256.Idx → EReal) (ix2 k j) = Cert.Spec.WgAt (inputsK m c) 0 k j := by
  refine (after1_v20_apply (W2 m ρ c) k j).trans ?_
  exact congrFun ((W2_of_ne m ρ c main_arg4 (by decide)).trans (carry1_arg m ρ c main_arg4 (by decide))) (ix3 0 k j)

/-- The first layer's pre-scaled linear output: region 1's output is `(h0 · W_0) · nrm`. -/
theorem net_hn0 (r : Fin 50000) (j : Fin 256) :
    (W4 m ρ c (Proc.devRef .tc main_v21) : S50000x256.Idx → EReal) (ix2 r j)
      = Cert.Spec.hn (inputsK m c).EI (Cert.Spec.h0 (inputsK m c)) (Cert.Spec.WgAt (inputsK m c) 0) r j := by
  have hA0 : (B3 m ρ c (Pipeline.arrRef spec1 0) : S50000x256.Idx → EReal)
      = fun i => Cert.Spec.h0 (inputsK m c) (i 0) (i 1) :=
    funext fun i => by
      rw [eq_ix2 i]
      exact (congrFun (W3_of m ρ c main_v17 (by decide)) _).trans (net_h0 m ρ c _ _)
  have hA1 : (B3 m ρ c (Pipeline.arrRef spec1 1) : S256x256.Idx → EReal)
      = fun i => Cert.Spec.WgAt (inputsK m c) 0 (i 0) (i 1) :=
    funext fun i => by rw [eq_ix2 i]; exact net_wg0 m ρ c _ _
  have hA2 : (B3 m ρ c (Pipeline.arrRef spec1 2) : S50000x1.Idx → EReal)
      = fun i => Cert.Spec.nrm (inputsK m c).EI (i 0) :=
    funext fun i => by
      have hi : i = ix2 (i 0) (0 : Fin 1) := by
        funext d
        match d with
        | ⟨0, _⟩ => rfl
        | ⟨1, _⟩ => exact Subsingleton.elim (α := Fin 1) _ _
      rw [hi]
      exact (congrFun (carry3_v13 m ρ c) _).trans (net_norm m ρ c _)
  refine (congrFun (W4_arr m ρ c 3) (ix2 r j)).trans ?_
  refine (final1_3_apply_of (B3 m ρ) c r j (fun i => Cert.Spec.h0 (inputsK m c) (i 0) (i 1))
    (fun i => Cert.Spec.WgAt (inputsK m c) 0 (i 0) (i 1)) (fun i => Cert.Spec.nrm (inputsK m c).EI (i 0)) hA0 hA1 hA2).trans ?_
  unfold Cert.Spec.hn
  rfl

end Cert.KernelIdeal.Hand

end
-- ==== Proof.KI.NetAgg.lean ====
import proofs.«159550_j10136122819017_2_alg».proof.Proof.KI.Fold
import proofs.«159550_j10136122819017_2_alg».proof.Proof.KI.NetCarry
import proofs.«159550_j10136122819017_2_alg».proof.Proof.Spec.Defs
import proofs.«159550_j10136122819017_2_alg».proof.Proof.Spec.Index
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx

/-! # What the three layers share

  A scatter-add into zeros of gathered rows is the specification's neighbour sum; the converted weight stack reads the
  argument's elements. -/

variable (m : (ℓ : Loc nD τ sig) → Buf (Elt Ideal) ℓ) (ρ : Dev nD → PrngReg)

/-- A SCATTER-ADD INTO ZEROS OF GATHERED ROWS IS THE NEIGHBOUR SUM: when the scatter's words are the edges' destination
    words, the gather's start indices are the edges' source words with a negative word shifted by the node count, and the gathered table
    is `G`, element `(v, j)` of the result is `Σ_{e into v} G[row(src e)][j]`. -/
theorem agg_of_reads (d : ScatterDims S50000x256 S400000x1 S400000x256)
    (hu : d.updateWindowDims = [1]) (hi : d.insertedWindowDims = [0]) (hd : d.scatterDimsToOperandDims = [0])
    (hv : d.indexVectorDim = 1)
    (g : GatherDims S50000x256 S400000x1 S400000x256)
    (ho : g.offsetDims = [1]) (hc : g.collapsedSliceDims = [0]) (hb : g.operandBatchingDims = [])
    (hsb : g.startIndicesBatchingDims = []) (hm : g.startIndexMap = [0]) (hgv : g.indexVectorDim = 1)
    (hs : g.sliceSizes = ![1, 256])
    (x : FVec Ideal S50000x256 .f32) (idx sidx : IVec S400000x1 32) (tbl : FVec Ideal S50000x256 .f32)
    (EI : Cert.Spec.Edges) (G : Fin 50000 → Fin 256 → EReal)
    (hx : ∀ (v : Fin 50000) (j : Fin 256), x (ix2 v j) = 0)
    (hidx : ∀ e : Fin 400000, idx (ix2 e 0) = Cert.Spec.dst EI e)
    (hsidx : ∀ e : Fin 400000, sidx (ix2 e 0) = Scalar.select (IntOp.cmpi .slt (Cert.Spec.src EI e) 0#32)
      (IntOp.addi (Cert.Spec.src EI e) 50000#32) (Cert.Spec.src EI e))
    (htbl : ∀ (r : Fin 50000) (j : Fin 256), tbl (ix2 r j) = G r j) (v : Fin 50000) (j : Fin 256) :
    Host.scatterAdd (F := Ideal) d x idx (Host.gather g tbl sidx) (ix2 v j) = Cert.Spec.agg EI G v j := by
  rw [Cert.Spec.scatterAdd_rows_apply d hu hi hd hv, hx, zero_add]
  unfold Cert.Spec.agg Cert.Spec.inE
  simp only [hidx]
  refine Finset.sum_congr rfl fun e _ => ?_
  have hrow : (⟨min (sidx (ix2 e 0)).toInt.toNat 49999, by omega⟩ : Fin 50000) = Cert.Spec.rowOf (Cert.Spec.src EI e) := by
    refine Fin.ext ?_
    show min (sidx (ix2 e 0)).toInt.toNat 49999 = _
    rw [hsidx e]
    rfl
  rw [Cert.Spec.gather_rows_apply g ho hc hb hsb hm hgv hs, hrow, htbl]

/-- The converted weight stack's buffer after host stretch 1. -/
theorem v18_eq (c : Dev nD) :
    (W3 m ρ c (Proc.devRef .tc main_v18) : S3x256x256.Idx → EReal) =
      (truncf (F := Ideal) .bf16 (W2 m ρ c (Proc.devRef .tc main_arg4) : FVec Ideal S3x256x256 .f32) bitsLt_bf16_f32 :
        FVec Ideal S3x256x256 .bf16) := by
  show StableHlo.after hostOps1 (W2 m ρ c) (Proc.devRef .tc main_v18) = _
  after_results

/-- The converted weight stack at an index: the argument's element (a format change is the identity on extended reals). -/
theorem w3_v18_apply (c : Dev nD) (l : Fin 3) (k j : Fin 256) :
    (W3 m ρ c (Proc.devRef .tc main_v18) : S3x256x256.Idx → EReal) (ix3 l k j)
      = (m ((c : Thread nD τ).loc main_arg4) : S3x256x256.Idx → EReal) (ix3 l k j) := by
  rw [v18_eq, truncf_apply, W2_of_ne m ρ c main_arg4 (by decide), carry1_arg m ρ c main_arg4 (by decide)]

/-- A broadcast zero constant reads zero. -/
theorem zeros_apply (v : Fin 50000) (j : Fin 256) :
    (broadcastInDim S50000x256 ![] bcast_S_S50000x256 (constant (F := Ideal) S_ .f32 0x00000000#32) : S50000x256.Idx → EReal)
      (ix2 v j) = 0 := by
  refine (broadcastInDim_apply _ _ _ (ix2 v j) ix0 (fun a => a.elim0)).trans ?_
  rw [constant_apply]
  exact Ideal.ofBits_zero_f32

end Cert.KernelIdeal.Hand

end
-- ==== Proof.KI.Val2.lean ====
import proofs.«159550_j10136122819017_2_alg».proof.Proof.KI.Reg2
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! # Region 2 at the ideal values: each result array as one function of the region's input arrays -/

/-- A one-column array broadcast along the second axis reads, at `(p, c)`, the column at row `p`. -/
theorem broadcastTo_a1_ab_apply_r2 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The rectified row at an index: the norm of the row times the sum of the two inputs, plus the bias, cut at zero. -/
theorem k2_pay2_apply (v0 v2 : Vec Ideal S2000x256 .f32) (v4 : Vec Ideal S2000x1 .f32) (v6 : Vec Ideal S1x256 .f32) (p : Fin 2000) (q : Fin 256) :
    (k2_pay2 (F := Ideal) v0 v2 v4 v6 : S2000x256.Idx → EReal) (ix2 p q)
      = max ((v4 : S2000x1.Idx → EReal) (ix2 p (0 : Fin 1)) * ((v0 : S2000x256.Idx → EReal) (ix2 p q) + (v2 : S2000x256.Idx → EReal) (ix2 p q))
          + (v6 : S1x256.Idx → EReal) (ix2 (0 : Fin 1) q)) 0 := by
  unfold k2_pay2 k2_pay1
  simp only [shapeCast_self]
  rw [maximumf_apply, addf_apply, mulf_apply, addf_apply, broadcast_apply]
  rw [broadcastTo_a1_ab_apply_r2, broadcastTo_1b_ab_apply]
  exact congrArg (max _) Ideal.ofBits_zero_f32

/-- The left operand's index of the contraction, coordinate by coordinate: the result's row, … -/
theorem dot2_lhs_0 (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
/-- … and the contracted coordinate. -/
theorem dot2_lhs_1 (j : S2000x256.Idx) (k : dot_S2000x256_S256x256_S2000x256_1_0_0_1_n_n.contr.Idx) :
    (dot_S2000x256_S256x256_S2000x256_1_0_0_1_n_n.lhsIdx j k 1).val = (k ⟨0, by decide⟩).val :=
  dot_S2000x256_S256x256_S2000x256_1_0_0_1_n_n.lhsIdx_val_of_single rfl j k
/-- The right operand's index of the contraction: the contracted coordinate, … -/
theorem dot2_rhs_0 (j : S2000x256.Idx) (k : dot_S2000x256_S256x256_S2000x256_1_0_0_1_n_n.contr.Idx) :
    (dot_S2000x256_S256x256_S2000x256_1_0_0_1_n_n.rhsIdx j k 0).val = (k ⟨0, by decide⟩).val :=
  dot_S2000x256_S256x256_S2000x256_1_0_0_1_n_n.rhsIdx_val_of_single rfl j k
/-- … and the result's column. -/
theorem dot2_rhs_1 (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The second result at an index: the rectified row times the weights' column, summed over the 256 features, scaled by
    the row's norm. -/
theorem k2_pay3_apply (v0 v2 : Vec Ideal S2000x256 .f32) (v4 : Vec Ideal S2000x1 .f32) (v6 : Vec Ideal S1x256 .f32) (v16 : Vec Ideal S256x256 .bf16)
    (p : Fin 2000) (q : Fin 256) :
    (k2_pay3 (F := Ideal) v0 v2 v4 v6 v16 : S2000x256.Idx → EReal) (ix2 p q)
      = (∑ k : Fin 256, max ((v4 : S2000x1.Idx → EReal) (ix2 p (0 : Fin 1)) * ((v0 : S2000x256.Idx → EReal) (ix2 p k) + (v2 : S2000x256.Idx → EReal) (ix2 p k))
            + (v6 : S1x256.Idx → EReal) (ix2 (0 : Fin 1) k)) 0 * (v16 : S256x256.Idx → EReal) (ix2 k q))
          * (v4 : S2000x1.Idx → EReal) (ix2 p (0 : Fin 1)) := by
  unfold k2_pay3 k2_pay1
  simp only [shapeCast_self]
  rw [mulf_apply, broadcastTo_a1_ab_apply_r2]
  congr 1
  refine (Ideal.matmul_constant_zero_apply (φ₁ := .bf16) (φ₂ := .bf16) dot_S2000x256_S256x256_S2000x256_1_0_0_1_n_n none _ _ (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k)
      = (ix2 p k : S2000x256.Idx) := funext fun a => Fin.ext (by
    match a with
    | ⟨0, _⟩ => exact dot2_lhs_0 _ _
    | ⟨1, _⟩ => exact (dot2_lhs_1 _ _).trans hk)
  have er : dot_S2000x256_S256x256_S2000x256_1_0_0_1_n_n.rhsIdx (ix2 p q) ((contrEquiv1 dot_S2000x256_S256x256_S2000x256_1_0_0_1_n_n 256 rfl rfl).symm k)
      = (ix2 k q : S256x256.Idx) := funext fun a => Fin.ext (by
    match a with
    | ⟨0, _⟩ => exact (dot2_rhs_0 _ _).trans hk
    | ⟨1, _⟩ => exact dot2_rhs_1 _ _)
  rw [el, er, truncf_apply, k2_pay2_apply]

/-! ## From the blocks to the arrays -/

-- the buffer contents of the core when the region is entered, at the ideal values
variable (V : (c : Dev nD) → (b : Ref sig .tc) → Buf (Elt Ideal) ((c : Thread nD τ).loc b))

theorem hz_r2 : (![0, 0] : Fin 2 → Nat) = fun _ => 0 := funext fun a => by fin_cases a <;> rfl

/-- The block index maps over the grid: the row windows (0, 1, 2 and the results 5, 6) are at block `t` of the rows and
    block 0 of the columns at point `t`; the bias row and the weights are at block (0, 0) throughout. -/
theorem idx_facts_r2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Window 0's block at point `t` is rows `2000 t … 2000 t + 1999` of its array. -/
theorem iblk2_0_apply (c : Dev nD) (t : Fin cfg2.N) (x : S2000x256.Idx) (k : S50000x256.Idx)
    (hk0 : (k 0).val = 2000 * t.val + (x 0).val) (hk1 : (k 1).val = (x 1).val) :
    (iblk2 (F := Ideal) V c 0 t : S2000x256.Idx → EReal) x = ((V c (Pipeline.arrRef spec2 0)) : S50000x256.Idx → EReal) k := by
  obtain ⟨e0, e1, -⟩ := idx_facts_r2 t
  unfold iblk2
  rw [View.read_apply]
  show ((V c (Pipeline.arrRef spec2 0)) : S50000x256.Idx → EReal) _ = ((V c (Pipeline.arrRef spec2 0)) : S50000x256.Idx → EReal) _
  congr 1
  funext a
  apply Fin.ext
  match a with
  | ⟨0, _⟩ => show win2_0.index t (0 : Fin 2) * 2000 + 1 * (x 0).val = (k 0).val; rw [e0, hk0]; omega
  | ⟨1, _⟩ => show win2_0.index t (1 : Fin 2) * 256 + 1 * (x 1).val = (k 1).val; rw [e1, hk1]; omega

/-- Window 1's block at point `t` is rows `2000 t … 2000 t + 1999` of its array. -/
theorem iblk2_1_apply (c : Dev nD) (t : Fin cfg2.N) (x : S2000x256.Idx) (k : S50000x256.Idx)
    (hk0 : (k 0).val = 2000 * t.val + (x 0).val) (hk1 : (k 1).val = (x 1).val) :
    (iblk2 (F := Ideal) V c 1 t : S2000x256.Idx → EReal) x = ((V c (Pipeline.arrRef spec2 1)) : S50000x256.Idx → EReal) k := by
  obtain ⟨-, -, e0, e1, -⟩ := idx_facts_r2 t
  unfold iblk2
  rw [View.read_apply]
  show ((V c (Pipeline.arrRef spec2 1)) : S50000x256.Idx → EReal) _ = ((V c (Pipeline.arrRef spec2 1)) : S50000x256.Idx → EReal) _
  congr 1
  funext a
  apply Fin.ext
  match a with
  | ⟨0, _⟩ => show win2_1.index t (0 : Fin 2) * 2000 + 1 * (x 0).val = (k 0).val; rw [e0, hk0]; omega
  | ⟨1, _⟩ => show win2_1.index t (1 : Fin 2) * 256 + 1 * (x 1).val = (k 1).val; rw [e1, hk1]; omega

/-- Window 2's block at point `t` is rows `2000 t … 2000 t + 1999` of the norm column. -/
theorem iblk2_2_apply (c : Dev nD) (t : Fin cfg2.N) (x : S2000x1.Idx) (k : S50000x1.Idx)
    (hk0 : (k 0).val = 2000 * t.val + (x 0).val) (hk1 : (k 1).val = (x 1).val) :
    (iblk2 (F := Ideal) V c 2 t : S2000x1.Idx → EReal) x = ((V c (Pipeline.arrRef spec2 2)) : S50000x1.Idx → EReal) k := by
  obtain ⟨-, -, -, -, e0, e1, -⟩ := idx_facts_r2 t
  unfold iblk2
  rw [View.read_apply]
  show ((V c (Pipeline.arrRef spec2 2)) : S50000x1.Idx → EReal) _ = ((V c (Pipeline.arrRef spec2 2)) : S50000x1.Idx → EReal) _
  congr 1
  funext a
  apply Fin.ext
  match a with
  | ⟨0, _⟩ => show win2_2.index t (0 : Fin 2) * 2000 + 1 * (x 0).val = (k 0).val; rw [e0, hk0]; omega
  | ⟨1, _⟩ => show win2_2.index t (1 : Fin 2) * 1 + 1 * (x 1).val = (k 1).val; rw [e1, hk1]; omega

/-- Window 3's block at every point is the whole bias row. -/
theorem iblk2_3_apply (c : Dev nD) (t : Fin cfg2.N) (x : S1x256.Idx) (k : S1x256.Idx)
    (hk0 : (k 0).val = (x 0).val) (hk1 : (k 1).val = (x 1).val) :
    (iblk2 (F := Ideal) V c 3 t : S1x256.Idx → EReal) x = ((V c (Pipeline.arrRef spec2 3)) : S1x256.Idx → EReal) k := by
  obtain ⟨-, -, -, -, -, -, e0, e1, -⟩ := idx_facts_r2 t
  unfold iblk2
  rw [View.read_apply]
  show ((V c (Pipeline.arrRef spec2 3)) : S1x256.Idx → EReal) _ = ((V c (Pipeline.arrRef spec2 3)) : S1x256.Idx → EReal) _
  congr 1
  funext a
  apply Fin.ext
  match a with
  | ⟨0, _⟩ => show win2_3.index t (0 : Fin 2) * 1 + 1 * (x 0).val = (k 0).val; rw [e0, hk0]; omega
  | ⟨1, _⟩ => show win2_3.index t (1 : Fin 2) * 256 + 1 * (x 1).val = (k 1).val; rw [e1, hk1]; omega

/-- Window 4's block at every point is the whole weight matrix. -/
theorem iblk2_4_apply (c : Dev nD) (t : Fin cfg2.N) (x : S256x256.Idx) (k : S256x256.Idx)
    (hk0 : (k 0).val = (x 0).val) (hk1 : (k 1).val = (x 1).val) :
    (iblk2 (F := Ideal) V c 4 t : S256x256.Idx → EReal) x = ((V c (Pipeline.arrRef spec2 4)) : S256x256.Idx → EReal) k := by
  obtain ⟨-, -, -, -, -, -, -, -, e0, e1, -⟩ := idx_facts_r2 t
  unfold iblk2
  rw [View.read_apply]
  show ((V c (Pipeline.arrRef spec2 4)) : S256x256.Idx → EReal) _ = ((V c (Pipeline.arrRef spec2 4)) : S256x256.Idx → EReal) _
  congr 1
  funext a
  apply Fin.ext
  match a with
  | ⟨0, _⟩ => show win2_4.index t (0 : Fin 2) * 256 + 1 * (x 0).val = (k 0).val; rw [e0, hk0]; omega
  | ⟨1, _⟩ => show win2_4.index t (1 : Fin 2) * 256 + 1 * (x 1).val = (k 1).val; rw [e1, hk1]; omega

/-! ### The first result (window 5): the rectified rows -/

/-- The first result as one function of the input arrays, index by index. -/
def G2_5 (A0 A1 : S50000x256.Idx → EReal) (A2 : S50000x1.Idx → EReal) (A3 : S1x256.Idx → EReal) : S50000x256.Idx → EReal :=
  fun i => max (A2 (ix2 (i 0 : Fin 50000) (0 : Fin 1)) * (A0 i + A1 i) + A3 (ix2 (0 : Fin 1) (i 1 : Fin 256))) 0

/-- What point `t` writes back to window 5's array is block `t` of that function of the input arrays. -/
theorem flushed2_5_eq (c : Dev nD) (t : Fin cfg2.N) :
    (dat2 (F := Ideal) V c).flushed 5 t = ((cfg2.win 5).blk t).view.read (Elt Ideal) (G2_5 (V c (Pipeline.arrRef spec2 0)) (V c (Pipeline.arrRef spec2 1)) (V c (Pipeline.arrRef spec2 2)) (V c (Pipeline.arrRef spec2 3))) := by
  obtain ⟨-, -, -, -, -, -, -, -, -, -, e0, e1, -⟩ := idx_facts_r2 t
  show (cfg2.win 5).cut (cfg2.grid.coords t) ((dat2 V c).after 5 t) = _
  rw [after2_5]
  unfold out2_5
  rw [View.canon_unit_zero hz_r2]
  simp only [View.ld_unit_zero (S := S2000x256) hz_r2, View.ld_unit_zero (S := S2000x1) hz_r2, View.ld_unit_zero (S := S1x256) hz_r2]
  funext y
  obtain ⟨p, q, rfl⟩ : ∃ (p : Fin 2000) (q : Fin 256), y = ix2 p q := ⟨y 0, y 1, eq_ix2 y⟩
  show (k2_pay2 (F := Ideal) (iblk2 V c 0 t) (iblk2 V c 1 t) (iblk2 V c 2 t) (iblk2 V c 3 t) : S2000x256.Idx → EReal) (ix2 p q)
    = G2_5 (V c (Pipeline.arrRef spec2 0)) (V c (Pipeline.arrRef spec2 1)) (V c (Pipeline.arrRef spec2 2)) (V c (Pipeline.arrRef spec2 3)) (((cfg2.win 5).blk t).view.emb (ix2 p q))
  refine (k2_pay2_apply _ _ _ _ p q).trans ?_
  have i0 : ((((cfg2.win 5).blk t).view.emb (ix2 p q)) 0).val = 2000 * t.val + p.val := by
    show win2_5.index t (0 : Fin 2) * 2000 + 1 * p.val = _; rw [e0]; omega
  have i1 : ((((cfg2.win 5).blk t).view.emb (ix2 p q)) 1).val = q.val := by
    show win2_5.index t (1 : Fin 2) * 256 + 1 * q.val = _; rw [e1]; omega
  unfold G2_5
  rw [iblk2_0_apply V c t (ix2 p q) _ i0 i1, iblk2_1_apply V c t (ix2 p q) _ i0 i1,
    iblk2_2_apply V c t (ix2 p (0 : Fin 1)) (ix2 ((((cfg2.win 5).blk t).view.emb (ix2 p q)) 0 : Fin 50000) (0 : Fin 1)) i0 rfl,
    iblk2_3_apply V c t (ix2 (0 : Fin 1) q) (ix2 (0 : Fin 1) ((((cfg2.win 5).blk t).view.emb (ix2 p q)) 1 : Fin 256)) rfl i1]

/-- An index of window 5's array is in point `t`'s block iff each coordinate is in the block's range on its axis. -/
theorem mem_blk2_5 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v37_0).slice (win2_5.rect t)).set ↔ _
  rw [View.set_slice_whole, Rect.mem_set_unit]
  exact Iff.rfl

/-- Every index of window 5's array is in the block of the point its row falls in: row `r` is in block `r / 2000`. -/
theorem covered2_5 (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, -, -, e0, e1, -⟩ := idx_facts_r2 t
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; rw [e0, ht]; omega
  | ⟨1, _⟩ => show win2_5.index t (1 : Fin 2) * 256 ≤ (i 1).val ∧ (i 1).val < win2_5.index t (1 : Fin 2) * 256 + 256; rw [e1]; omega

/-- Window 5's array after the region is that function of the input arrays. -/
theorem final2_5 (c : Dev nD) : (dat2 (F := Ideal) V c).arrAt 5 cfg2.N = G2_5 (V c (Pipeline.arrRef spec2 0)) (V c (Pipeline.arrRef spec2 1)) (V c (Pipeline.arrRef spec2 2)) (V c (Pipeline.arrRef spec2 3)) :=
  (dat2 V c).arrAt_eq_of_cover 5 (G2_5 (V c (Pipeline.arrRef spec2 0)) (V c (Pipeline.arrRef spec2 1)) (V c (Pipeline.arrRef spec2 2)) (V c (Pipeline.arrRef spec2 3))) (fun t _ => flushed2_5_eq V c t) covered2_5

/-- Window 5's array after the region, at row `r` and column `j`, the input arrays named (`h0 … h3`: whatever the
    region finds in them; `rfl` leaves them as they are). -/
theorem final2_5_apply_of (c : Dev nD) (r : Fin 50000) (j : Fin 256)
    (A0 A1 : S50000x256.Idx → EReal) (A2 : S50000x1.Idx → EReal) (A3 : S1x256.Idx → EReal)
    (h0 : V c (Pipeline.arrRef spec2 0) = A0) (h1 : V c (Pipeline.arrRef spec2 1) = A1)
    (h2 : V c (Pipeline.arrRef spec2 2) = A2) (h3 : V c (Pipeline.arrRef spec2 3) = A3) :
    ((dat2 (F := Ideal) V c).arrAt 5 cfg2.N : S50000x256.Idx → EReal) (ix2 r j)
      = max (A2 (ix2 r (0 : Fin 1)) * (A0 (ix2 r j) + A1 (ix2 r j)) + A3 (ix2 (0 : Fin 1) j)) 0 := by
  subst h0 h1 h2 h3
  exact congrFun (final2_5 V c) (ix2 r j)

/-- The same at the region's input arrays themselves. -/
theorem final2_5_apply (c : Dev nD) (r : Fin 50000) (j : Fin 256) : type_of% (final2_5_apply_of V c r j _ _ _ _ rfl rfl rfl rfl) :=
  final2_5_apply_of V c r j _ _ _ _ rfl rfl rfl rfl

/-! ### The second result (window 6): the rectified rows times the weights, scaled by the norm -/

/-- The second result as one function of the input arrays, index by index. -/
def G2_6 (A0 A1 : S50000x256.Idx → EReal) (A2 : S50000x1.Idx → EReal) (A3 : S1x256.Idx → EReal) (A4 : S256x256.Idx → EReal) : S50000x256.Idx → EReal :=
  fun i => (∑ k : Fin 256, max (A2 (ix2 (i 0 : Fin 50000) (0 : Fin 1)) * (A0 (ix2 (i 0 : Fin 50000) k) + A1 (ix2 (i 0 : Fin 50000) k)) + A3 (ix2 (0 : Fin 1) k)) 0
      * A4 (ix2 k (i 1 : Fin 256))) * A2 (ix2 (i 0 : Fin 50000) (0 : Fin 1))

/-- The second payload at an index of a block whose inputs are the arrays' rows at `i`: that function at `i`. -/
theorem point2_6 (x0 x1 : Vec Ideal S2000x256 .f32) (x2 : Vec Ideal S2000x1 .f32) (x3 : Vec Ideal S1x256 .f32) (x4 : Vec Ideal S256x256 .bf16)
    (A0 A1 : S50000x256.Idx → EReal) (A2 : S50000x1.Idx → EReal) (A3 : S1x256.Idx → EReal) (A4 : S256x256.Idx → EReal)
    (p : Fin 2000) (q : Fin 256) (i : S50000x256.Idx)
    (h0 : ∀ k : Fin 256, (x0 : S2000x256.Idx → EReal) (ix2 p k) = A0 (ix2 (i 0 : Fin 50000) k))
    (h1 : ∀ k : Fin 256, (x1 : S2000x256.Idx → EReal) (ix2 p k) = A1 (ix2 (i 0 : Fin 50000) k))
    (h2 : (x2 : S2000x1.Idx → EReal) (ix2 p (0 : Fin 1)) = A2 (ix2 (i 0 : Fin 50000) (0 : Fin 1)))
    (h3 : ∀ k : Fin 256, (x3 : S1x256.Idx → EReal) (ix2 (0 : Fin 1) k) = A3 (ix2 (0 : Fin 1) k))
    (h4 : ∀ k : Fin 256, (x4 : S256x256.Idx → EReal) (ix2 k q) = A4 (ix2 k (i 1 : Fin 256))) :
    (k2_pay3 (F := Ideal) x0 x1 x2 x3 x4 : S2000x256.Idx → EReal) (ix2 p q) = G2_6 A0 A1 A2 A3 A4 i := by
  rw [k2_pay3_apply]
  unfold G2_6
  rw [h2]
  refine congrArg (· * A2 (ix2 (i 0 : Fin 50000) (0 : Fin 1))) (Finset.sum_congr rfl fun k _ => ?_)
  rw [h0, h1, h3, h4]

/-- What point `t` writes back to window 6's array is block `t` of that function of the input arrays. -/
theorem flushed2_6_eq (c : Dev nD) (t : Fin cfg2.N) :
    (dat2 (F := Ideal) V c).flushed 6 t = ((cfg2.win 6).blk t).view.read (Elt Ideal) (G2_6 (V c (Pipeline.arrRef spec2 0)) (V c (Pipeline.arrRef spec2 1)) (V c (Pipeline.arrRef spec2 2)) (V c (Pipeline.arrRef spec2 3)) (V c (Pipeline.arrRef spec2 4))) := by
  obtain ⟨-, -, -, -, -, -, -, -, -, -, -, -, e0, e1⟩ := idx_facts_r2 t
  show (cfg2.win 6).cut (cfg2.grid.coords t) ((dat2 V c).after 6 t) = _
  rw [after2_6]
  unfold out2_6
  rw [View.canon_unit_zero hz_r2]
  simp only [View.ld_unit_zero (S := S2000x256) hz_r2, View.ld_unit_zero (S := S2000x1) hz_r2, View.ld_unit_zero (S := S1x256) hz_r2,
    View.ld_unit_zero (S := S256x256) hz_r2]
  funext y
  obtain ⟨p, q, rfl⟩ : ∃ (p : Fin 2000) (q : Fin 256), y = ix2 p q := ⟨y 0, y 1, eq_ix2 y⟩
  show (k2_pay3 (F := Ideal) (iblk2 V c 0 t) (iblk2 V c 1 t) (iblk2 V c 2 t) (iblk2 V c 3 t) (iblk2 V c 4 t) : S2000x256.Idx → EReal) (ix2 p q)
    = G2_6 (V c (Pipeline.arrRef spec2 0)) (V c (Pipeline.arrRef spec2 1)) (V c (Pipeline.arrRef spec2 2)) (V c (Pipeline.arrRef spec2 3)) (V c (Pipeline.arrRef spec2 4)) (((cfg2.win 6).blk t).view.emb (ix2 p q))
  have i0 : ((((cfg2.win 6).blk t).view.emb (ix2 p q)) 0).val = 2000 * t.val + p.val := by
    show win2_6.index t (0 : Fin 2) * 2000 + 1 * p.val = _; rw [e0]; omega
  have i1 : ((((cfg2.win 6).blk t).view.emb (ix2 p q)) 1).val = q.val := by
    show win2_6.index t (1 : Fin 2) * 256 + 1 * q.val = _; rw [e1]; omega
  exact point2_6 _ _ _ _ _ _ _ _ _ _ p q _
    (fun k => iblk2_0_apply V c t (ix2 p k) _ i0 rfl) (fun k => iblk2_1_apply V c t (ix2 p k) _ i0 rfl)
    (iblk2_2_apply V c t (ix2 p (0 : Fin 1)) _ i0 rfl) (fun k => iblk2_3_apply V c t (ix2 (0 : Fin 1) k) _ rfl rfl)
    (fun k => iblk2_4_apply V c t (ix2 k q) _ rfl i1)

/-- An index of window 6's array is in point `t`'s block iff each coordinate is in the block's range on its axis. -/
theorem mem_blk2_6 (t : Fin cfg2.N) (i : S50000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v37_1).slice (win2_6.rect t)).set ↔ _
  rw [View.set_slice_whole, Rect.mem_set_unit]
  exact Iff.rfl

/-- Every index of window 6's array is in the block of the point its row falls in: row `r` is in block `r / 2000`. -/
theorem covered2_6 (i : S50000x256.Idx) : ∃ t : Fin cfg2.N, (cfg2.win 6).flush t = true ∧ i ∈ ((cfg2.win 6).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, -, -, -, -, e0, e1⟩ := idx_facts_r2 t
  refine ⟨t, flush2_6 t, ?_⟩
  rw [mem_blk2_6]
  intro a
  match a with
  | ⟨0, _⟩ => show win2_6.index t (0 : Fin 2) * 2000 ≤ (i 0).val ∧ (i 0).val < win2_6.index t (0 : Fin 2) * 2000 + 2000; rw [e0, ht]; omega
  | ⟨1, _⟩ => show win2_6.index t (1 : Fin 2) * 256 ≤ (i 1).val ∧ (i 1).val < win2_6.index t (1 : Fin 2) * 256 + 256; rw [e1]; omega

/-- Window 6's array after the region is that function of the input arrays. -/
theorem final2_6 (c : Dev nD) : (dat2 (F := Ideal) V c).arrAt 6 cfg2.N = G2_6 (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 6 (G2_6 (V c (Pipeline.arrRef spec2 0)) (V c (Pipeline.arrRef spec2 1)) (V c (Pipeline.arrRef spec2 2)) (V c (Pipeline.arrRef spec2 3)) (V c (Pipeline.arrRef spec2 4))) (fun t _ => flushed2_6_eq V c t) covered2_6

/-- Window 6's array after the region, at row `r` and column `j`, the input arrays named (`h0 … h4`: whatever the
    region finds in them; `rfl` leaves them as they are). -/
theorem final2_6_apply_of (c : Dev nD) (r : Fin 50000) (j : Fin 256)
    (A0 A1 : S50000x256.Idx → EReal) (A2 : S50000x1.Idx → EReal) (A3 : S1x256.Idx → EReal) (A4 : S256x256.Idx → EReal)
    (h0 : V c (Pipeline.arrRef spec2 0) = A0) (h1 : V c (Pipeline.arrRef spec2 1) = A1)
    (h2 : V c (Pipeline.arrRef spec2 2) = A2) (h3 : V c (Pipeline.arrRef spec2 3) = A3) (h4 : V c (Pipeline.arrRef spec2 4) = A4) :
    ((dat2 (F := Ideal) V c).arrAt 6 cfg2.N : S50000x256.Idx → EReal) (ix2 r j)
      = (∑ k : Fin 256, max (A2 (ix2 r (0 : Fin 1)) * (A0 (ix2 r k) + A1 (ix2 r k)) + A3 (ix2 (0 : Fin 1) k)) 0 * A4 (ix2 k j)) * A2 (ix2 r (0 : Fin 1)) := by
  subst h0 h1 h2 h3 h4
  exact congrFun (final2_6 V c) (ix2 r j)

/-- The same at the region's input arrays themselves. -/
theorem final2_6_apply (c : Dev nD) (r : Fin 50000) (j : Fin 256) : type_of% (final2_6_apply_of V c r j _ _ _ _ _ rfl rfl rfl rfl rfl) :=
  final2_6_apply_of V c r j _ _ _ _ _ rfl rfl rfl rfl rfl

end Cert.KernelIdeal.Hand
end
-- ==== Proof.KI.Net1.lean ====
import proofs.«159550_j10136122819017_2_alg».proof.Proof.KI.Fold
import proofs.«159550_j10136122819017_2_alg».proof.Proof.KI.NetCarry
import proofs.«159550_j10136122819017_2_alg».proof.Proof.KI.NetInputs
import proofs.«159550_j10136122819017_2_alg».proof.Proof.KI.Net0
import proofs.«159550_j10136122819017_2_alg».proof.Proof.KI.NetAgg
import proofs.«159550_j10136122819017_2_alg».proof.Proof.KI.Val2
import proofs.«159550_j10136122819017_2_alg».proof.Proof.Spec.Defs
import proofs.«159550_j10136122819017_2_alg».proof.Proof.Spec.Index
import proofs.«159550_j10136122819017_2_alg».proof.Proof.Spec.Consts
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx

/-! # Layer 0 to layer 1: the neighbour sum, the layer's output and the next pre-scaled linear output

  Host stretch 2 gathers the rows of layer 0's pre-scaled linear output at the edges' source words and scatter-adds them
  at the destination words into zeros: the neighbour sum. Region 2 adds the node's own row, scales by the normaliser,
  adds the bias and cuts at zero — layer 1's output — and multiplies by layer 1's weights and the normaliser again. -/

variable (m : (ℓ : Loc nD τ sig) → Buf (Elt Ideal) ℓ) (ρ : Dev nD → PrngReg)

/-- The edge words' source row after host stretch 2's normalisation: a negative word shifted by the node count. -/
abbrev srcWords4 (c : Dev nD) : S400000.Idx → BitVec 32 :=
  select (cmpi .slt (W4 m ρ c (Proc.devRef .tc main_v1) : S400000.Idx → BitVec 32)
      (broadcastInDim S400000 ![] bcast_S_S400000 (constantI S_ 32 0#32)))
    (addi (W4 m ρ c (Proc.devRef .tc main_v1) : S400000.Idx → BitVec 32)
      (broadcastInDim S400000 ![] bcast_S_S400000 (constantI S_ 32 50000#32)))
    (W4 m ρ c (Proc.devRef .tc main_v1) : S400000.Idx → BitVec 32)

/-- The neighbour sum's buffer after host stretch 2: the scatter-add into zeros, at the destination words, of the rows of
    the pre-scaled linear output gathered at the normalised source words. -/
theorem v31_eq (c : Dev nD) :
    (W5 m ρ c (Proc.devRef .tc main_v31) : S50000x256.Idx → EReal) =
      Host.scatterAdd (F := Ideal) scatter_S50000x256_S400000x1_S400000x256_1_0_0_1
        (broadcastInDim S50000x256 ![] bcast_S_S50000x256 (constant (F := Ideal) S_ .f32 0x00000000#32))
        (broadcastInDim S400000x1 ![0] bcast_S400000_S400000x1_0 (W4 m ρ c (Proc.devRef .tc main_v3) : S400000.Idx → BitVec 32))
        (Host.gather gather_S50000x256_S400000x1_S400000x256_1_0_n_n_0_1_1256
          (W4 m ρ c (Proc.devRef .tc main_v21) : S50000x256.Idx → EReal)
          (broadcastInDim S400000x1 ![0] bcast_S400000_S400000x1_0 (srcWords4 m ρ c))) := by
  show StableHlo.after hostOps2 (W4 m ρ c) (Proc.devRef .tc main_v31) = _
  after_results

/-- The source words ride unchanged from host stretch 0 to region 1's exit … -/
theorem w4_v1 (c : Dev nD) : W4 m ρ c (Proc.devRef .tc main_v1) = W1 m ρ c (Proc.devRef .tc main_v1) :=
  (W5_of m ρ c main_v1 (by decide)).symm.trans (carry5_v1 m ρ c)
/-- … and so do the destination words. -/
theorem w4_v3 (c : Dev nD) : W4 m ρ c (Proc.devRef .tc main_v3) = W1 m ρ c (Proc.devRef .tc main_v3) :=
  (W5_of m ρ c main_v3 (by decide)).symm.trans (carry5_v3 m ρ c)

/-- An argument array is as launched when region 1 is left. -/
theorem w4_arg (c : Dev nD) (r : Ref sig .tc) (h0 : r ∉ hostOps0_W) (a0 : ∀ w, Pipeline.arrRef spec0 w ≠ r)
    (h1 : r ∉ hostOps1_W) (a1 : ∀ w, Pipeline.arrRef spec1 w ≠ r) :
    W4 m ρ c (Proc.devRef .tc r) = m ((c : Thread nD τ).loc r) :=
  (W4_of_ne m ρ c r a1).trans (carry3_arg m ρ c r h0 a0 h1)

/-- The bias row's buffer after host stretch 2: row 0 of the bias table, as a vector, as a one-row matrix. -/
theorem v36_eq (c : Dev nD) :
    (W5 m ρ c (Proc.devRef .tc main_v36) : S1x256.Idx → EReal) =
      shapeCast S1x256 (shapeCast S256 (extractStridedSlice S1x256 ![0, 0]
        (W4 m ρ c (Proc.devRef .tc main_arg5) : S3x256.Idx → EReal) slices_S3x256_S1x256_0_0) shapeCasts_S1x256_S256)
        shapeCasts_S256_S1x256 := by
  show StableHlo.after hostOps2 (W4 m ρ c) (Proc.devRef .tc main_v36) = _
  after_results
  rfl

/-- The next layer's weights' buffer after host stretch 2: matrix 1 of the converted stack. -/
theorem v35_eq (c : Dev nD) :
    (W5 m ρ c (Proc.devRef .tc main_v35) : S256x256.Idx → EReal) =
      shapeCast S256x256 (extractStridedSlice S1x256x256 ![1, 0, 0]
        (W4 m ρ c (Proc.devRef .tc main_v18) : S3x256x256.Idx → EReal) slices_S3x256x256_S1x256x256_1_0_0)
        shapeCasts_S1x256x256_S256x256 := by
  show StableHlo.after hostOps2 (W4 m ρ c) (Proc.devRef .tc main_v35) = _
  after_results
  rfl

/-! ## The reads, from what the earlier stretches left -/

section Of
variable (I : Cert.Spec.Inputs) (c : Dev nD)
  (hsrc : ∀ e : Fin 400000, (W1 m ρ c (Proc.devRef .tc main_v1) : S400000.Idx → BitVec 32) (ix1 e) = Cert.Spec.src I.EI e)
  (hdst : ∀ e : Fin 400000, (W1 m ρ c (Proc.devRef .tc main_v3) : S400000.Idx → BitVec 32) (ix1 e) = Cert.Spec.dst I.EI e)
  (hnorm : ∀ v : Fin 50000, (W1 m ρ c (Proc.devRef .tc main_v13) : S50000x1.Idx → EReal) (ix2 v 0) = Cert.Spec.nrm I.EI v)
  (hhn0 : ∀ (r : Fin 50000) (j : Fin 256), (W4 m ρ c (Proc.devRef .tc main_v21) : S50000x256.Idx → EReal) (ix2 r j)
    = Cert.Spec.hn I.EI (Cert.Spec.h0 I) (Cert.Spec.WgAt I 0) r j)
  (hbg : I.bg = m ((c : Thread nD τ).loc main_arg5)) (hWg : I.Wg = m ((c : Thread nD τ).loc main_arg4))

include hsrc hdst hhn0 in
/-- The neighbour sum of layer 0's pre-scaled linear output, given the edge words and that output. -/
theorem agg0_of (v : Fin 50000) (j : Fin 256) :
    (W5 m ρ c (Proc.devRef .tc main_v31) : S50000x256.Idx → EReal) (ix2 v j)
      = Cert.Spec.agg I.EI (Cert.Spec.hn I.EI (Cert.Spec.h0 I) (Cert.Spec.WgAt I 0)) v j := by
  rw [v31_eq]
  refine agg_of_reads _ rfl rfl rfl rfl _ rfl rfl rfl rfl rfl rfl rfl _ _ _ _ I.EI _ zeros_apply ?_ ?_ hhn0 v j
  · intro e
    rw [Cert.Spec.broadcast_col_apply, w4_v3]
    exact hdst e
  · intro e
    rw [Cert.Spec.broadcast_col_apply]
    show Scalar.select (IntOp.cmpi .slt ((W4 m ρ c (Proc.devRef .tc main_v1) : S400000.Idx → BitVec 32) (ix1 e)) 0#32)
        (IntOp.addi ((W4 m ρ c (Proc.devRef .tc main_v1) : S400000.Idx → BitVec 32) (ix1 e)) 50000#32)
        ((W4 m ρ c (Proc.devRef .tc main_v1) : S400000.Idx → BitVec 32) (ix1 e)) = _
    rw [w4_v1, hsrc e]

include hbg in
/-- Layer 0's bias. -/
theorem b0_of (j : Fin 256) :
    (W5 m ρ c (Proc.devRef .tc main_v36) : S1x256.Idx → EReal) (ix2 0 j) = Cert.Spec.bgAt I 0 j := by
  rw [v36_eq]
  refine (shapeCast_a_1a_apply _ _ 0 j).trans ((shapeCast_1a_a_apply _ _ j).trans
    ((slice2_axis0_apply 0 _ _ 0 j 0 rfl).trans ?_))
  rw [w4_arg m ρ c main_arg5 (by decide) (by decide) (by decide) (by decide)]
  unfold Cert.Spec.bgAt
  rw [hbg]

include hWg in
/-- Layer 1's weights. -/
theorem w1_of (k j : Fin 256) :
    (W5 m ρ c (Proc.devRef .tc main_v35) : S256x256.Idx → EReal) (ix2 k j) = Cert.Spec.WgAt I 1 k j := by
  rw [v35_eq]
  refine (shapeCast_1ab_ab_apply _ _ k j).trans ((extractStridedSlice_apply _ _ _ _ (ix3 1 k j) (fun a => ?_)).trans ?_)
  · match a with
    | ⟨0, _⟩ => rfl
    | ⟨1, _⟩ => exact (Nat.zero_add _).symm
    | ⟨2, _⟩ => exact (Nat.zero_add _).symm
  · rw [W4_of_ne m ρ c main_v18 (by decide), w3_v18_apply]
    unfold Cert.Spec.WgAt
    rw [hWg]

include hsrc hdst hnorm hhn0 hbg in
/-- What region 2 computes in each row before the matrix product, its four input arrays being the neighbour sum, the
    pre-scaled linear output, the normaliser and the bias row: layer 1's output. -/
theorem pre1_of (A0 A1 : S50000x256.Idx → EReal) (A2 : S50000x1.Idx → EReal) (A3 : S1x256.Idx → EReal)
    (h0 : (W5 m ρ c (Proc.devRef .tc main_v31) : S50000x256.Idx → EReal) = A0)
    (h1 : (W5 m ρ c (Proc.devRef .tc main_v21) : S50000x256.Idx → EReal) = A1)
    (h2 : (W5 m ρ c (Proc.devRef .tc main_v13) : S50000x1.Idx → EReal) = A2)
    (h3 : (W5 m ρ c (Proc.devRef .tc main_v36) : S1x256.Idx → EReal) = A3) (r : Fin 50000) (k : Fin 256) :
    max (A2 (ix2 r 0) * (A0 (ix2 r k) + A1 (ix2 r k)) + A3 (ix2 0 k)) 0 = Cert.Spec.h1 I r k := by
  subst h0 h1 h2 h3
  rw [agg0_of m ρ I c hsrc hdst hhn0, b0_of m ρ I c hbg, carry5_v13, hnorm, W5_of m ρ c main_v21 (by decide), hhn0]
  rfl

include hsrc hdst hnorm hhn0 hbg in
/-- Region 2's first result is layer 1's output. -/
theorem h1_of (r : Fin 50000) (j : Fin 256) :
    (W6 m ρ c (Proc.devRef .tc main_v37_0) : S50000x256.Idx → EReal) (ix2 r j) = Cert.Spec.h1 I r j := by
  have e : (W6 m ρ c (Proc.devRef .tc main_v37_0) : S50000x256.Idx → EReal)
      = ((dat2 (F := Ideal) (B5 m ρ) c).arrAt 5 cfg2.N : S50000x256.Idx → EReal) := W6_arr m ρ c 5
  rw [e, final2_5_apply_of (B5 m ρ) c r j _ _ _ _ rfl rfl rfl rfl]
  exact pre1_of m ρ I c hsrc hdst hnorm hhn0 hbg _ _ _ _ rfl rfl rfl rfl r j

include hsrc hdst hnorm hhn0 hbg hWg in
/-- Region 2's second result is layer 1's pre-scaled linear output. -/
theorem hn1_of (r : Fin 50000) (j : Fin 256) :
    (W6 m ρ c (Proc.devRef .tc main_v37_1) : S50000x256.Idx → EReal) (ix2 r j)
      = Cert.Spec.hn I.EI (Cert.Spec.h1 I) (Cert.Spec.WgAt I 1) r j := by
  have e : (W6 m ρ c (Proc.devRef .tc main_v37_1) : S50000x256.Idx → EReal)
      = ((dat2 (F := Ideal) (B5 m ρ) c).arrAt 6 cfg2.N : S50000x256.Idx → EReal) := W6_arr m ρ c 6
  rw [e, final2_6_apply_of (B5 m ρ) c r j _ _ _ _ _ rfl rfl rfl rfl rfl]
  unfold Cert.Spec.hn
  refine congrArg₂ (· * ·) (Finset.sum_congr rfl fun k _ => congrArg₂ (· * ·) ?_ ?_) ?_
  · exact pre1_of m ρ I c hsrc hdst hnorm hhn0 hbg _ _ _ _ rfl rfl rfl rfl r k
  · exact w1_of m ρ I c hWg k j
  · exact (congrFun (carry5_v13 m ρ c) (ix2 r 0)).trans (hnorm r)
end Of

/-! ## At the launch memory's own inputs -/

variable (c : Dev nD)

theorem net_agg0 (v : Fin 50000) (j : Fin 256) :
    (W5 m ρ c (Proc.devRef .tc main_v31) : S50000x256.Idx → EReal) (ix2 v j)
      = Cert.Spec.agg (inputsK m c).EI (Cert.Spec.hn (inputsK m c).EI (Cert.Spec.h0 (inputsK m c)) (Cert.Spec.WgAt (inputsK m c) 0)) v j :=
  agg0_of m ρ (inputsK m c) c (net_src m ρ c) (net_dst m ρ c) (net_hn0 m ρ c) v j

theorem net_b0 (j : Fin 256) :
    (W5 m ρ c (Proc.devRef .tc main_v36) : S1x256.Idx → EReal) (ix2 0 j) = Cert.Spec.bgAt (inputsK m c) 0 j :=
  b0_of m ρ (inputsK m c) c rfl j

theorem net_w1 (k j : Fin 256) :
    (W5 m ρ c (Proc.devRef .tc main_v35) : S256x256.Idx → EReal) (ix2 k j) = Cert.Spec.WgAt (inputsK m c) 1 k j :=
  w1_of m ρ (inputsK m c) c rfl k j

theorem net_h1 (r : Fin 50000) (j : Fin 256) :
    (W6 m ρ c (Proc.devRef .tc main_v37_0) : S50000x256.Idx → EReal) (ix2 r j) = Cert.Spec.h1 (inputsK m c) r j :=
  h1_of m ρ (inputsK m c) c (net_src m ρ c) (net_dst m ρ c) (net_norm m ρ c) (net_hn0 m ρ c) rfl r j

theorem net_hn1 (r : Fin 50000) (j : Fin 256) :
    (W6 m ρ c (Proc.devRef .tc main_v37_1) : S50000x256.Idx → EReal) (ix2 r j)
      = Cert.Spec.hn (inputsK m c).EI (Cert.Spec.h1 (inputsK m c)) (Cert.Spec.WgAt (inputsK m c) 1) r j :=
  hn1_of m ρ (inputsK m c) c (net_src m ρ c) (net_dst m ρ c) (net_norm m ρ c) (net_hn0 m ρ c) rfl rfl r j

end Cert.KernelIdeal.Hand

end
-- ==== Proof.KI.Val3.lean ====
import proofs.«159550_j10136122819017_2_alg».proof.Proof.KI.Reg3
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! # Region 3 at the ideal values: each result array as one function of the region's input arrays -/

/-- A one-column array broadcast along the second axis reads, at `(p, c)`, the column at row `p`. -/
theorem broadcastTo_a1_ab_apply_r3 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The rectified row at an index: the norm of the row times the sum of the two inputs, plus the bias, cut at zero. -/
theorem k3_pay2_apply (v0 v2 : Vec Ideal S2000x256 .f32) (v4 : Vec Ideal S2000x1 .f32) (v6 : Vec Ideal S1x256 .f32) (p : Fin 2000) (q : Fin 256) :
    (k3_pay2 (F := Ideal) v0 v2 v4 v6 : S2000x256.Idx → EReal) (ix2 p q)
      = max ((v4 : S2000x1.Idx → EReal) (ix2 p (0 : Fin 1)) * ((v0 : S2000x256.Idx → EReal) (ix2 p q) + (v2 : S2000x256.Idx → EReal) (ix2 p q))
          + (v6 : S1x256.Idx → EReal) (ix2 (0 : Fin 1) q)) 0 := by
  unfold k3_pay2 k3_pay1
  simp only [shapeCast_self]
  rw [maximumf_apply, addf_apply, mulf_apply, addf_apply, broadcast_apply]
  rw [broadcastTo_a1_ab_apply_r3, broadcastTo_1b_ab_apply]
  exact congrArg (max _) Ideal.ofBits_zero_f32

/-- The left operand's index of the contraction, coordinate by coordinate: the result's row, … -/
theorem dot3_lhs_0 (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
/-- … and the contracted coordinate. -/
theorem dot3_lhs_1 (j : S2000x256.Idx) (k : dot_S2000x256_S256x256_S2000x256_1_0_0_1_n_n.contr.Idx) :
    (dot_S2000x256_S256x256_S2000x256_1_0_0_1_n_n.lhsIdx j k 1).val = (k ⟨0, by decide⟩).val :=
  dot_S2000x256_S256x256_S2000x256_1_0_0_1_n_n.lhsIdx_val_of_single rfl j k
/-- The right operand's index of the contraction: the contracted coordinate, … -/
theorem dot3_rhs_0 (j : S2000x256.Idx) (k : dot_S2000x256_S256x256_S2000x256_1_0_0_1_n_n.contr.Idx) :
    (dot_S2000x256_S256x256_S2000x256_1_0_0_1_n_n.rhsIdx j k 0).val = (k ⟨0, by decide⟩).val :=
  dot_S2000x256_S256x256_S2000x256_1_0_0_1_n_n.rhsIdx_val_of_single rfl j k
/-- … and the result's column. -/
theorem dot3_rhs_1 (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The second result at an index: the rectified row times the weights' column, summed over the 256 features, scaled by
    the row's norm. -/
theorem k3_pay3_apply (v0 v2 : Vec Ideal S2000x256 .f32) (v4 : Vec Ideal S2000x1 .f32) (v6 : Vec Ideal S1x256 .f32) (v16 : Vec Ideal S256x256 .bf16)
    (p : Fin 2000) (q : Fin 256) :
    (k3_pay3 (F := Ideal) v0 v2 v4 v6 v16 : S2000x256.Idx → EReal) (ix2 p q)
      = (∑ k : Fin 256, max ((v4 : S2000x1.Idx → EReal) (ix2 p (0 : Fin 1)) * ((v0 : S2000x256.Idx → EReal) (ix2 p k) + (v2 : S2000x256.Idx → EReal) (ix2 p k))
            + (v6 : S1x256.Idx → EReal) (ix2 (0 : Fin 1) k)) 0 * (v16 : S256x256.Idx → EReal) (ix2 k q))
          * (v4 : S2000x1.Idx → EReal) (ix2 p (0 : Fin 1)) := by
  unfold k3_pay3 k3_pay1
  simp only [shapeCast_self]
  rw [mulf_apply, broadcastTo_a1_ab_apply_r3]
  congr 1
  refine (Ideal.matmul_constant_zero_apply (φ₁ := .bf16) (φ₂ := .bf16) dot_S2000x256_S256x256_S2000x256_1_0_0_1_n_n none _ _ (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k)
      = (ix2 p k : S2000x256.Idx) := funext fun a => Fin.ext (by
    match a with
    | ⟨0, _⟩ => exact dot3_lhs_0 _ _
    | ⟨1, _⟩ => exact (dot3_lhs_1 _ _).trans hk)
  have er : dot_S2000x256_S256x256_S2000x256_1_0_0_1_n_n.rhsIdx (ix2 p q) ((contrEquiv1 dot_S2000x256_S256x256_S2000x256_1_0_0_1_n_n 256 rfl rfl).symm k)
      = (ix2 k q : S256x256.Idx) := funext fun a => Fin.ext (by
    match a with
    | ⟨0, _⟩ => exact (dot3_rhs_0 _ _).trans hk
    | ⟨1, _⟩ => exact dot3_rhs_1 _ _)
  rw [el, er, truncf_apply, k3_pay2_apply]

/-! ## From the blocks to the arrays -/

-- the buffer contents of the core when the region is entered, at the ideal values
variable (V : (c : Dev nD) → (b : Ref sig .tc) → Buf (Elt Ideal) ((c : Thread nD τ).loc b))

theorem hz_r3 : (![0, 0] : Fin 2 → Nat) = fun _ => 0 := funext fun a => by fin_cases a <;> rfl

/-- The block index maps over the grid: the row windows (0, 1, 2 and the results 5, 6) are at block `t` of the rows and
    block 0 of the columns at point `t`; the bias row and the weights are at block (0, 0) throughout. -/
theorem idx_facts_r3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Window 0's block at point `t` is rows `2000 t … 2000 t + 1999` of its array. -/
theorem iblk3_0_apply (c : Dev nD) (t : Fin cfg3.N) (x : S2000x256.Idx) (k : S50000x256.Idx)
    (hk0 : (k 0).val = 2000 * t.val + (x 0).val) (hk1 : (k 1).val = (x 1).val) :
    (iblk3 (F := Ideal) V c 0 t : S2000x256.Idx → EReal) x = ((V c (Pipeline.arrRef spec3 0)) : S50000x256.Idx → EReal) k := by
  obtain ⟨e0, e1, -⟩ := idx_facts_r3 t
  unfold iblk3
  rw [View.read_apply]
  show ((V c (Pipeline.arrRef spec3 0)) : S50000x256.Idx → EReal) _ = ((V c (Pipeline.arrRef spec3 0)) : S50000x256.Idx → EReal) _
  congr 1
  funext a
  apply Fin.ext
  match a with
  | ⟨0, _⟩ => show win3_0.index t (0 : Fin 2) * 2000 + 1 * (x 0).val = (k 0).val; rw [e0, hk0]; omega
  | ⟨1, _⟩ => show win3_0.index t (1 : Fin 2) * 256 + 1 * (x 1).val = (k 1).val; rw [e1, hk1]; omega

/-- Window 1's block at point `t` is rows `2000 t … 2000 t + 1999` of its array. -/
theorem iblk3_1_apply (c : Dev nD) (t : Fin cfg3.N) (x : S2000x256.Idx) (k : S50000x256.Idx)
    (hk0 : (k 0).val = 2000 * t.val + (x 0).val) (hk1 : (k 1).val = (x 1).val) :
    (iblk3 (F := Ideal) V c 1 t : S2000x256.Idx → EReal) x = ((V c (Pipeline.arrRef spec3 1)) : S50000x256.Idx → EReal) k := by
  obtain ⟨-, -, e0, e1, -⟩ := idx_facts_r3 t
  unfold iblk3
  rw [View.read_apply]
  show ((V c (Pipeline.arrRef spec3 1)) : S50000x256.Idx → EReal) _ = ((V c (Pipeline.arrRef spec3 1)) : S50000x256.Idx → EReal) _
  congr 1
  funext a
  apply Fin.ext
  match a with
  | ⟨0, _⟩ => show win3_1.index t (0 : Fin 2) * 2000 + 1 * (x 0).val = (k 0).val; rw [e0, hk0]; omega
  | ⟨1, _⟩ => show win3_1.index t (1 : Fin 2) * 256 + 1 * (x 1).val = (k 1).val; rw [e1, hk1]; omega

/-- Window 2's block at point `t` is rows `2000 t … 2000 t + 1999` of the norm column. -/
theorem iblk3_2_apply (c : Dev nD) (t : Fin cfg3.N) (x : S2000x1.Idx) (k : S50000x1.Idx)
    (hk0 : (k 0).val = 2000 * t.val + (x 0).val) (hk1 : (k 1).val = (x 1).val) :
    (iblk3 (F := Ideal) V c 2 t : S2000x1.Idx → EReal) x = ((V c (Pipeline.arrRef spec3 2)) : S50000x1.Idx → EReal) k := by
  obtain ⟨-, -, -, -, e0, e1, -⟩ := idx_facts_r3 t
  unfold iblk3
  rw [View.read_apply]
  show ((V c (Pipeline.arrRef spec3 2)) : S50000x1.Idx → EReal) _ = ((V c (Pipeline.arrRef spec3 2)) : S50000x1.Idx → EReal) _
  congr 1
  funext a
  apply Fin.ext
  match a with
  | ⟨0, _⟩ => show win3_2.index t (0 : Fin 2) * 2000 + 1 * (x 0).val = (k 0).val; rw [e0, hk0]; omega
  | ⟨1, _⟩ => show win3_2.index t (1 : Fin 2) * 1 + 1 * (x 1).val = (k 1).val; rw [e1, hk1]; omega

/-- Window 3's block at every point is the whole bias row. -/
theorem iblk3_3_apply (c : Dev nD) (t : Fin cfg3.N) (x : S1x256.Idx) (k : S1x256.Idx)
    (hk0 : (k 0).val = (x 0).val) (hk1 : (k 1).val = (x 1).val) :
    (iblk3 (F := Ideal) V c 3 t : S1x256.Idx → EReal) x = ((V c (Pipeline.arrRef spec3 3)) : S1x256.Idx → EReal) k := by
  obtain ⟨-, -, -, -, -, -, e0, e1, -⟩ := idx_facts_r3 t
  unfold iblk3
  rw [View.read_apply]
  show ((V c (Pipeline.arrRef spec3 3)) : S1x256.Idx → EReal) _ = ((V c (Pipeline.arrRef spec3 3)) : S1x256.Idx → EReal) _
  congr 1
  funext a
  apply Fin.ext
  match a with
  | ⟨0, _⟩ => show win3_3.index t (0 : Fin 2) * 1 + 1 * (x 0).val = (k 0).val; rw [e0, hk0]; omega
  | ⟨1, _⟩ => show win3_3.index t (1 : Fin 2) * 256 + 1 * (x 1).val = (k 1).val; rw [e1, hk1]; omega

/-- Window 4's block at every point is the whole weight matrix. -/
theorem iblk3_4_apply (c : Dev nD) (t : Fin cfg3.N) (x : S256x256.Idx) (k : S256x256.Idx)
    (hk0 : (k 0).val = (x 0).val) (hk1 : (k 1).val = (x 1).val) :
    (iblk3 (F := Ideal) V c 4 t : S256x256.Idx → EReal) x = ((V c (Pipeline.arrRef spec3 4)) : S256x256.Idx → EReal) k := by
  obtain ⟨-, -, -, -, -, -, -, -, e0, e1, -⟩ := idx_facts_r3 t
  unfold iblk3
  rw [View.read_apply]
  show ((V c (Pipeline.arrRef spec3 4)) : S256x256.Idx → EReal) _ = ((V c (Pipeline.arrRef spec3 4)) : S256x256.Idx → EReal) _
  congr 1
  funext a
  apply Fin.ext
  match a with
  | ⟨0, _⟩ => show win3_4.index t (0 : Fin 2) * 256 + 1 * (x 0).val = (k 0).val; rw [e0, hk0]; omega
  | ⟨1, _⟩ => show win3_4.index t (1 : Fin 2) * 256 + 1 * (x 1).val = (k 1).val; rw [e1, hk1]; omega

/-! ### The first result (window 5): the rectified rows -/

/-- The first result as one function of the input arrays, index by index. -/
def G3_5 (A0 A1 : S50000x256.Idx → EReal) (A2 : S50000x1.Idx → EReal) (A3 : S1x256.Idx → EReal) : S50000x256.Idx → EReal :=
  fun i => max (A2 (ix2 (i 0 : Fin 50000) (0 : Fin 1)) * (A0 i + A1 i) + A3 (ix2 (0 : Fin 1) (i 1 : Fin 256))) 0

/-- The payload at an index of a block whose inputs are the arrays' rows at `i`: that function at `i`. -/
theorem point3_5 (x0 x1 : Vec Ideal S2000x256 .f32) (x2 : Vec Ideal S2000x1 .f32) (x3 : Vec Ideal S1x256 .f32)
    (A0 A1 : S50000x256.Idx → EReal) (A2 : S50000x1.Idx → EReal) (A3 : S1x256.Idx → EReal)
    (p : Fin 2000) (q : Fin 256) (i : S50000x256.Idx)
    (h0 : (x0 : S2000x256.Idx → EReal) (ix2 p q) = A0 i) (h1 : (x1 : S2000x256.Idx → EReal) (ix2 p q) = A1 i)
    (h2 : (x2 : S2000x1.Idx → EReal) (ix2 p (0 : Fin 1)) = A2 (ix2 (i 0 : Fin 50000) (0 : Fin 1)))
    (h3 : (x3 : S1x256.Idx → EReal) (ix2 (0 : Fin 1) q) = A3 (ix2 (0 : Fin 1) (i 1 : Fin 256))) :
    (k3_pay2 (F := Ideal) x0 x1 x2 x3 : S2000x256.Idx → EReal) (ix2 p q) = G3_5 A0 A1 A2 A3 i := by
  rw [k3_pay2_apply, h0, h1, h2, h3]
  rfl

/-- What point `t` writes back to window 5's array is block `t` of that function of the input arrays. -/
theorem flushed3_5_eq (c : Dev nD) (t : Fin cfg3.N) :
    (dat3 (F := Ideal) V c).flushed 5 t = ((cfg3.win 5).blk t).view.read (Elt Ideal) (G3_5 (V c (Pipeline.arrRef spec3 0)) (V c (Pipeline.arrRef spec3 1)) (V c (Pipeline.arrRef spec3 2)) (V c (Pipeline.arrRef spec3 3))) := by
  obtain ⟨-, -, -, -, -, -, -, -, -, -, e0, e1, -⟩ := idx_facts_r3 t
  show (cfg3.win 5).cut (cfg3.grid.coords t) ((dat3 V c).after 5 t) = _
  rw [after3_5]
  unfold out3_5
  rw [View.canon_unit_zero hz_r3]
  simp only [View.ld_unit_zero (S := S2000x256) hz_r3, View.ld_unit_zero (S := S2000x1) hz_r3, View.ld_unit_zero (S := S1x256) hz_r3]
  funext y
  obtain ⟨p, q, rfl⟩ : ∃ (p : Fin 2000) (q : Fin 256), y = ix2 p q := ⟨y 0, y 1, eq_ix2 y⟩
  show (k3_pay2 (F := Ideal) (iblk3 V c 0 t) (iblk3 V c 1 t) (iblk3 V c 2 t) (iblk3 V c 3 t) : S2000x256.Idx → EReal) (ix2 p q)
    = G3_5 (V c (Pipeline.arrRef spec3 0)) (V c (Pipeline.arrRef spec3 1)) (V c (Pipeline.arrRef spec3 2)) (V c (Pipeline.arrRef spec3 3)) (((cfg3.win 5).blk t).view.emb (ix2 p q))
  have i0 : ((((cfg3.win 5).blk t).view.emb (ix2 p q)) 0).val = 2000 * t.val + p.val := by
    show win3_5.index t (0 : Fin 2) * 2000 + 1 * p.val = _; rw [e0]; omega
  have i1 : ((((cfg3.win 5).blk t).view.emb (ix2 p q)) 1).val = q.val := by
    show win3_5.index t (1 : Fin 2) * 256 + 1 * q.val = _; rw [e1]; omega
  exact point3_5 _ _ _ _ _ _ _ _ p q _
    (iblk3_0_apply V c t (ix2 p q) _ i0 i1) (iblk3_1_apply V c t (ix2 p q) _ i0 i1)
    (iblk3_2_apply V c t (ix2 p (0 : Fin 1)) _ i0 rfl) (iblk3_3_apply V c t (ix2 (0 : Fin 1) q) _ rfl i1)

/-- An index of window 5's array is in point `t`'s block iff each coordinate is in the block's range on its axis. -/
theorem mem_blk3_5 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v53_0).slice (win3_5.rect t)).set ↔ _
  rw [View.set_slice_whole, Rect.mem_set_unit]
  exact Iff.rfl

/-- Every index of window 5's array is in the block of the point its row falls in: row `r` is in block `r / 2000`. -/
theorem covered3_5 (i : S50000x256.Idx) : ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, -, -, e0, e1, -⟩ := idx_facts_r3 t
  refine ⟨t, flush3_5 t, ?_⟩
  rw [mem_blk3_5]
  intro a
  match a with
  | ⟨0, _⟩ => show win3_5.index t (0 : Fin 2) * 2000 ≤ (i 0).val ∧ (i 0).val < win3_5.index t (0 : Fin 2) * 2000 + 2000; rw [e0, ht]; omega
  | ⟨1, _⟩ => show win3_5.index t (1 : Fin 2) * 256 ≤ (i 1).val ∧ (i 1).val < win3_5.index t (1 : Fin 2) * 256 + 256; rw [e1]; omega

/-- Window 5's array after the region is that function of the input arrays. -/
theorem final3_5 (c : Dev nD) : (dat3 (F := Ideal) V c).arrAt 5 cfg3.N = G3_5 (V c (Pipeline.arrRef spec3 0)) (V c (Pipeline.arrRef spec3 1)) (V c (Pipeline.arrRef spec3 2)) (V c (Pipeline.arrRef spec3 3)) :=
  (dat3 V c).arrAt_eq_of_cover 5 (G3_5 (V c (Pipeline.arrRef spec3 0)) (V c (Pipeline.arrRef spec3 1)) (V c (Pipeline.arrRef spec3 2)) (V c (Pipeline.arrRef spec3 3))) (fun t _ => flushed3_5_eq V c t) covered3_5

/-- Window 5's array after the region, at row `r` and column `j`, the input arrays named (`h0 … h3`: whatever the
    region finds in them; `rfl` leaves them as they are). -/
theorem final3_5_apply_of (c : Dev nD) (r : Fin 50000) (j : Fin 256)
    (A0 A1 : S50000x256.Idx → EReal) (A2 : S50000x1.Idx → EReal) (A3 : S1x256.Idx → EReal)
    (h0 : V c (Pipeline.arrRef spec3 0) = A0) (h1 : V c (Pipeline.arrRef spec3 1) = A1)
    (h2 : V c (Pipeline.arrRef spec3 2) = A2) (h3 : V c (Pipeline.arrRef spec3 3) = A3) :
    ((dat3 (F := Ideal) V c).arrAt 5 cfg3.N : S50000x256.Idx → EReal) (ix2 r j)
      = max (A2 (ix2 r (0 : Fin 1)) * (A0 (ix2 r j) + A1 (ix2 r j)) + A3 (ix2 (0 : Fin 1) j)) 0 := by
  subst h0 h1 h2 h3
  exact congrFun (final3_5 V c) (ix2 r j)

/-- The same at the region's input arrays themselves. -/
theorem final3_5_apply (c : Dev nD) (r : Fin 50000) (j : Fin 256) : type_of% (final3_5_apply_of V c r j _ _ _ _ rfl rfl rfl rfl) :=
  final3_5_apply_of V c r j _ _ _ _ rfl rfl rfl rfl

/-! ### The second result (window 6): the rectified rows times the weights, scaled by the norm -/

/-- The second result as one function of the input arrays, index by index. -/
def G3_6 (A0 A1 : S50000x256.Idx → EReal) (A2 : S50000x1.Idx → EReal) (A3 : S1x256.Idx → EReal) (A4 : S256x256.Idx → EReal) : S50000x256.Idx → EReal :=
  fun i => (∑ k : Fin 256, max (A2 (ix2 (i 0 : Fin 50000) (0 : Fin 1)) * (A0 (ix2 (i 0 : Fin 50000) k) + A1 (ix2 (i 0 : Fin 50000) k)) + A3 (ix2 (0 : Fin 1) k)) 0
      * A4 (ix2 k (i 1 : Fin 256))) * A2 (ix2 (i 0 : Fin 50000) (0 : Fin 1))

/-- The second payload at an index of a block whose inputs are the arrays' rows at `i`: that function at `i`. -/
theorem point3_6 (x0 x1 : Vec Ideal S2000x256 .f32) (x2 : Vec Ideal S2000x1 .f32) (x3 : Vec Ideal S1x256 .f32) (x4 : Vec Ideal S256x256 .bf16)
    (A0 A1 : S50000x256.Idx → EReal) (A2 : S50000x1.Idx → EReal) (A3 : S1x256.Idx → EReal) (A4 : S256x256.Idx → EReal)
    (p : Fin 2000) (q : Fin 256) (i : S50000x256.Idx)
    (h0 : ∀ k : Fin 256, (x0 : S2000x256.Idx → EReal) (ix2 p k) = A0 (ix2 (i 0 : Fin 50000) k))
    (h1 : ∀ k : Fin 256, (x1 : S2000x256.Idx → EReal) (ix2 p k) = A1 (ix2 (i 0 : Fin 50000) k))
    (h2 : (x2 : S2000x1.Idx → EReal) (ix2 p (0 : Fin 1)) = A2 (ix2 (i 0 : Fin 50000) (0 : Fin 1)))
    (h3 : ∀ k : Fin 256, (x3 : S1x256.Idx → EReal) (ix2 (0 : Fin 1) k) = A3 (ix2 (0 : Fin 1) k))
    (h4 : ∀ k : Fin 256, (x4 : S256x256.Idx → EReal) (ix2 k q) = A4 (ix2 k (i 1 : Fin 256))) :
    (k3_pay3 (F := Ideal) x0 x1 x2 x3 x4 : S2000x256.Idx → EReal) (ix2 p q) = G3_6 A0 A1 A2 A3 A4 i := by
  rw [k3_pay3_apply]
  unfold G3_6
  rw [h2]
  refine congrArg (· * A2 (ix2 (i 0 : Fin 50000) (0 : Fin 1))) (Finset.sum_congr rfl fun k _ => ?_)
  rw [h0, h1, h3, h4]

/-- What point `t` writes back to window 6's array is block `t` of that function of the input arrays. -/
theorem flushed3_6_eq (c : Dev nD) (t : Fin cfg3.N) :
    (dat3 (F := Ideal) V c).flushed 6 t = ((cfg3.win 6).blk t).view.read (Elt Ideal) (G3_6 (V c (Pipeline.arrRef spec3 0)) (V c (Pipeline.arrRef spec3 1)) (V c (Pipeline.arrRef spec3 2)) (V c (Pipeline.arrRef spec3 3)) (V c (Pipeline.arrRef spec3 4))) := by
  obtain ⟨-, -, -, -, -, -, -, -, -, -, -, -, e0, e1⟩ := idx_facts_r3 t
  show (cfg3.win 6).cut (cfg3.grid.coords t) ((dat3 V c).after 6 t) = _
  rw [after3_6]
  unfold out3_6
  rw [View.canon_unit_zero hz_r3]
  simp only [View.ld_unit_zero (S := S2000x256) hz_r3, View.ld_unit_zero (S := S2000x1) hz_r3, View.ld_unit_zero (S := S1x256) hz_r3,
    View.ld_unit_zero (S := S256x256) hz_r3]
  funext y
  obtain ⟨p, q, rfl⟩ : ∃ (p : Fin 2000) (q : Fin 256), y = ix2 p q := ⟨y 0, y 1, eq_ix2 y⟩
  show (k3_pay3 (F := Ideal) (iblk3 V c 0 t) (iblk3 V c 1 t) (iblk3 V c 2 t) (iblk3 V c 3 t) (iblk3 V c 4 t) : S2000x256.Idx → EReal) (ix2 p q)
    = G3_6 (V c (Pipeline.arrRef spec3 0)) (V c (Pipeline.arrRef spec3 1)) (V c (Pipeline.arrRef spec3 2)) (V c (Pipeline.arrRef spec3 3)) (V c (Pipeline.arrRef spec3 4)) (((cfg3.win 6).blk t).view.emb (ix2 p q))
  have i0 : ((((cfg3.win 6).blk t).view.emb (ix2 p q)) 0).val = 2000 * t.val + p.val := by
    show win3_6.index t (0 : Fin 2) * 2000 + 1 * p.val = _; rw [e0]; omega
  have i1 : ((((cfg3.win 6).blk t).view.emb (ix2 p q)) 1).val = q.val := by
    show win3_6.index t (1 : Fin 2) * 256 + 1 * q.val = _; rw [e1]; omega
  exact point3_6 _ _ _ _ _ _ _ _ _ _ p q _
    (fun k => iblk3_0_apply V c t (ix2 p k) _ i0 rfl) (fun k => iblk3_1_apply V c t (ix2 p k) _ i0 rfl)
    (iblk3_2_apply V c t (ix2 p (0 : Fin 1)) _ i0 rfl) (fun k => iblk3_3_apply V c t (ix2 (0 : Fin 1) k) _ rfl rfl)
    (fun k => iblk3_4_apply V c t (ix2 k q) _ rfl i1)

/-- An index of window 6's array is in point `t`'s block iff each coordinate is in the block's range on its axis. -/
theorem mem_blk3_6 (t : Fin cfg3.N) (i : S50000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v53_1).slice (win3_6.rect t)).set ↔ _
  rw [View.set_slice_whole, Rect.mem_set_unit]
  exact Iff.rfl

/-- Every index of window 6's array is in the block of the point its row falls in: row `r` is in block `r / 2000`. -/
theorem covered3_6 (i : S50000x256.Idx) : ∃ t : Fin cfg3.N, (cfg3.win 6).flush t = true ∧ i ∈ ((cfg3.win 6).blk t).view.set := by
  have hi0 : (i 0).val < 50000 := (i 0).isLt
  have hi1 : (i 1).val < 256 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, -, -, -, -, e0, e1⟩ := idx_facts_r3 t
  refine ⟨t, flush3_6 t, ?_⟩
  rw [mem_blk3_6]
  intro a
  match a with
  | ⟨0, _⟩ => show win3_6.index t (0 : Fin 2) * 2000 ≤ (i 0).val ∧ (i 0).val < win3_6.index t (0 : Fin 2) * 2000 + 2000; rw [e0, ht]; omega
  | ⟨1, _⟩ => show win3_6.index t (1 : Fin 2) * 256 ≤ (i 1).val ∧ (i 1).val < win3_6.index t (1 : Fin 2) * 256 + 256; rw [e1]; omega

/-- Window 6's array after the region is that function of the input arrays. -/
theorem final3_6 (c : Dev nD) : (dat3 (F := Ideal) V c).arrAt 6 cfg3.N = G3_6 (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 6 (G3_6 (V c (Pipeline.arrRef spec3 0)) (V c (Pipeline.arrRef spec3 1)) (V c (Pipeline.arrRef spec3 2)) (V c (Pipeline.arrRef spec3 3)) (V c (Pipeline.arrRef spec3 4))) (fun t _ => flushed3_6_eq V c t) covered3_6

/-- Window 6's array after the region, at row `r` and column `j`, the input arrays named (`h0 … h4`: whatever the
    region finds in them; `rfl` leaves them as they are). -/
theorem final3_6_apply_of (c : Dev nD) (r : Fin 50000) (j : Fin 256)
    (A0 A1 : S50000x256.Idx → EReal) (A2 : S50000x1.Idx → EReal) (A3 : S1x256.Idx → EReal) (A4 : S256x256.Idx → EReal)
    (h0 : V c (Pipeline.arrRef spec3 0) = A0) (h1 : V c (Pipeline.arrRef spec3 1) = A1)
    (h2 : V c (Pipeline.arrRef spec3 2) = A2) (h3 : V c (Pipeline.arrRef spec3 3) = A3) (h4 : V c (Pipeline.arrRef spec3 4) = A4) :
    ((dat3 (F := Ideal) V c).arrAt 6 cfg3.N : S50000x256.Idx → EReal) (ix2 r j)
      = (∑ k : Fin 256, max (A2 (ix2 r (0 : Fin 1)) * (A0 (ix2 r k) + A1 (ix2 r k)) + A3 (ix2 (0 : Fin 1) k)) 0 * A4 (ix2 k j)) * A2 (ix2 r (0 : Fin 1)) := by
  subst h0 h1 h2 h3 h4
  exact congrFun (final3_6 V c) (ix2 r j)

/-- The same at the region's input arrays themselves. -/
theorem final3_6_apply (c : Dev nD) (r : Fin 50000) (j : Fin 256) : type_of% (final3_6_apply_of V c r j _ _ _ _ _ rfl rfl rfl rfl rfl) :=
  final3_6_apply_of V c r j _ _ _ _ _ rfl rfl rfl rfl rfl

end Cert.KernelIdeal.Hand
end
-- ==== Proof.KI.Net2.lean ====
import proofs.«159550_j10136122819017_2_alg».proof.Proof.KI.Fold
import proofs.«159550_j10136122819017_2_alg».proof.Proof.KI.NetCarry
import proofs.«159550_j10136122819017_2_alg».proof.Proof.KI.NetInputs
import proofs.«159550_j10136122819017_2_alg».proof.Proof.KI.Net0
import proofs.«159550_j10136122819017_2_alg».proof.Proof.KI.NetAgg
import proofs.«159550_j10136122819017_2_alg».proof.Proof.KI.Net1
import proofs.«159550_j10136122819017_2_alg».proof.Proof.KI.Val3
import proofs.«159550_j10136122819017_2_alg».proof.Proof.Spec.Defs
import proofs.«159550_j10136122819017_2_alg».proof.Proof.Spec.Index
import proofs.«159550_j10136122819017_2_alg».proof.Proof.Spec.Consts
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx

/-! # Layer 1 to layer 2: the neighbour sum, the layer's output and the next pre-scaled linear output

  Host stretch 3 gathers the rows of layer 1's pre-scaled linear output at the edges' source words and scatter-adds them
  at the destination words into zeros: the neighbour sum. Region 3 adds the node's own row, scales by the normaliser,
  adds the bias and cuts at zero — layer 2's output — and multiplies by layer 2's weights and the normaliser again. -/

/-- The edge words' source row, normalised: a negative word shifted by the node count. -/
abbrev srcWordsOf (w1 : S400000.Idx → BitVec 32) : S400000.Idx → BitVec 32 :=
  select (cmpi .slt w1 (broadcastInDim S400000 ![] bcast_S_S400000 (constantI S_ 32 0#32)))
    (addi w1 (broadcastInDim S400000 ![] bcast_S_S400000 (constantI S_ 32 50000#32))) w1

/-! ## Host stretch 3 over any entry contents -/

section Stretch3
variable (V : Valuation τ sig (Elt Ideal))

set_option maxHeartbeats 400000 in
/-- The neighbour sum's buffer after host stretch 3: the scatter-add into zeros, at the destination words, of the rows of
    the pre-scaled linear output gathered at the normalised source words. -/
theorem after3_v47 :
    (StableHlo.after hostOps3 V (Proc.devRef .tc main_v47) : S50000x256.Idx → EReal) =
      Host.scatterAdd (F := Ideal) scatter_S50000x256_S400000x1_S400000x256_1_0_0_1
        (broadcastInDim S50000x256 ![] bcast_S_S50000x256 (constant (F := Ideal) S_ .f32 0x00000000#32))
        (broadcastInDim S400000x1 ![0] bcast_S400000_S400000x1_0 (V (Proc.devRef .tc main_v3) : S400000.Idx → BitVec 32))
        (Host.gather gather_S50000x256_S400000x1_S400000x256_1_0_n_n_0_1_1256
          (V (Proc.devRef .tc main_v37_1) : S50000x256.Idx → EReal)
          (broadcastInDim S400000x1 ![0] bcast_S400000_S400000x1_0 (srcWordsOf (V (Proc.devRef .tc main_v1) : S400000.Idx → BitVec 32)))) := by
  after_results

/-- The bias row's buffer after host stretch 3: row 1 of the bias table, as a vector, as a one-row matrix. -/
theorem after3_v52 :
    (StableHlo.after hostOps3 V (Proc.devRef .tc main_v52) : S1x256.Idx → EReal) =
      shapeCast S1x256 (shapeCast S256 (extractStridedSlice S1x256 ![1, 0]
        (V (Proc.devRef .tc main_arg5) : S3x256.Idx → EReal) slices_S3x256_S1x256_1_0) shapeCasts_S1x256_S256)
        shapeCasts_S256_S1x256 := by
  after_results
  rfl

/-- The next layer's weights' buffer after host stretch 3: matrix 2 of the converted stack. -/
theorem after3_v51 :
    (StableHlo.after hostOps3 V (Proc.devRef .tc main_v51) : S256x256.Idx → EReal) =
      shapeCast S256x256 (extractStridedSlice S1x256x256 ![2, 0, 0]
        (V (Proc.devRef .tc main_v18) : S3x256x256.Idx → EReal) slices_S3x256x256_S1x256x256_2_0_0)
        shapeCasts_S1x256x256_S256x256 := by
  after_results
  rfl

end Stretch3

variable (m : (ℓ : Loc nD τ sig) → Buf (Elt Ideal) ℓ) (ρ : Dev nD → PrngReg)

/-- The source words ride unchanged from host stretch 0 to region 2's exit … -/
theorem w6_v1 (c : Dev nD) : W6 m ρ c (Proc.devRef .tc main_v1) = W1 m ρ c (Proc.devRef .tc main_v1) :=
  (W7_of m ρ c main_v1 (by decide)).symm.trans (carry7_v1 m ρ c)
/-- … and so do the destination words. -/
theorem w6_v3 (c : Dev nD) : W6 m ρ c (Proc.devRef .tc main_v3) = W1 m ρ c (Proc.devRef .tc main_v3) :=
  (W7_of m ρ c main_v3 (by decide)).symm.trans (carry7_v3 m ρ c)

/-- An argument array is as launched when region 2 is left. -/
theorem w6_arg (c : Dev nD) (r : Ref sig .tc) (h0 : r ∉ hostOps0_W) (a0 : ∀ w, Pipeline.arrRef spec0 w ≠ r)
    (h1 : r ∉ hostOps1_W) (a1 : ∀ w, Pipeline.arrRef spec1 w ≠ r) (h2 : r ∉ hostOps2_W) (a2 : ∀ w, Pipeline.arrRef spec2 w ≠ r) :
    W6 m ρ c (Proc.devRef .tc r) = m ((c : Thread nD τ).loc r) :=
  (W6_of_ne m ρ c r a2).trans (carry5_arg m ρ c r h0 a0 h1 a1 h2)

/-! ## The reads, from what the earlier stretches left -/

section Of
variable (I : Cert.Spec.Inputs) (c : Dev nD)
  (hsrc : ∀ e : Fin 400000, (W1 m ρ c (Proc.devRef .tc main_v1) : S400000.Idx → BitVec 32) (ix1 e) = Cert.Spec.src I.EI e)
  (hdst : ∀ e : Fin 400000, (W1 m ρ c (Proc.devRef .tc main_v3) : S400000.Idx → BitVec 32) (ix1 e) = Cert.Spec.dst I.EI e)
  (hnorm : ∀ v : Fin 50000, (W1 m ρ c (Proc.devRef .tc main_v13) : S50000x1.Idx → EReal) (ix2 v 0) = Cert.Spec.nrm I.EI v)
  (hhn1 : ∀ (r : Fin 50000) (j : Fin 256), (W6 m ρ c (Proc.devRef .tc main_v37_1) : S50000x256.Idx → EReal) (ix2 r j)
    = Cert.Spec.hn I.EI (Cert.Spec.h1 I) (Cert.Spec.WgAt I 1) r j)
  (hbg : I.bg = m ((c : Thread nD τ).loc main_arg5)) (hWg : I.Wg = m ((c : Thread nD τ).loc main_arg4))

include hsrc hdst hhn1 in
/-- The neighbour sum of layer 1's pre-scaled linear output, given the edge words and that output. -/
theorem net_agg1_of (v : Fin 50000) (j : Fin 256) :
    (W7 m ρ c (Proc.devRef .tc main_v47) : S50000x256.Idx → EReal) (ix2 v j)
      = Cert.Spec.agg I.EI (Cert.Spec.hn I.EI (Cert.Spec.h1 I) (Cert.Spec.WgAt I 1)) v j := by
  refine (congrFun (after3_v47 (W6 m ρ c)) (ix2 v j)).trans ?_
  refine agg_of_reads _ rfl rfl rfl rfl _ rfl rfl rfl rfl rfl rfl rfl _ _ _ _ I.EI _ zeros_apply ?_ ?_ hhn1 v j
  · intro e
    rw [Cert.Spec.broadcast_col_apply, w6_v3]
    exact hdst e
  · intro e
    rw [Cert.Spec.broadcast_col_apply]
    show Scalar.select (IntOp.cmpi .slt ((W6 m ρ c (Proc.devRef .tc main_v1) : S400000.Idx → BitVec 32) (ix1 e)) 0#32)
        (IntOp.addi ((W6 m ρ c (Proc.devRef .tc main_v1) : S400000.Idx → BitVec 32) (ix1 e)) 50000#32)
        ((W6 m ρ c (Proc.devRef .tc main_v1) : S400000.Idx → BitVec 32) (ix1 e)) = _
    rw [w6_v1, hsrc e]

include hbg in
/-- Layer 1's bias. -/
theorem net_b1_of (j : Fin 256) :
    (W7 m ρ c (Proc.devRef .tc main_v52) : S1x256.Idx → EReal) (ix2 0 j) = Cert.Spec.bgAt I 1 j := by
  refine (congrFun (after3_v52 (W6 m ρ c)) (ix2 0 j)).trans ?_
  refine (shapeCast_a_1a_apply _ _ 0 j).trans ((shapeCast_1a_a_apply _ _ j).trans
    ((slice2_axis0_apply 1 _ _ 0 j 1 rfl).trans ?_))
  rw [w6_arg m ρ c main_arg5 (by decide) (by decide) (by decide) (by decide) (by decide) (by decide)]
  unfold Cert.Spec.bgAt
  rw [hbg]

include hWg in
/-- Layer 2's weights. -/
theorem net_w2_of (k j : Fin 256) :
    (W7 m ρ c (Proc.devRef .tc main_v51) : S256x256.Idx → EReal) (ix2 k j) = Cert.Spec.WgAt I 2 k j := by
  refine (congrFun (after3_v51 (W6 m ρ c)) (ix2 k j)).trans ?_
  refine (shapeCast_1ab_ab_apply _ _ k j).trans ((extractStridedSlice_apply _ _ _ _ (ix3 2 k j) (fun a => ?_)).trans ?_)
  · match a with
    | ⟨0, _⟩ => rfl
    | ⟨1, _⟩ => exact (Nat.zero_add _).symm
    | ⟨2, _⟩ => exact (Nat.zero_add _).symm
  · rw [(W6_of_ne m ρ c main_v18 (by decide)).trans (step5 m ρ c main_v18 (by decide) (by decide)), w3_v18_apply]
    unfold Cert.Spec.WgAt
    rw [hWg]

include hsrc hdst hnorm hhn1 hbg in
/-- What region 3 computes in each row before the matrix product, its four input arrays being the neighbour sum, the
    pre-scaled linear output, the normaliser and the bias row: layer 2's output. -/
theorem pre2_of (A0 A1 : S50000x256.Idx → EReal) (A2 : S50000x1.Idx → EReal) (A3 : S1x256.Idx → EReal)
    (h0 : (W7 m ρ c (Proc.devRef .tc main_v47) : S50000x256.Idx → EReal) = A0)
    (h1 : (W7 m ρ c (Proc.devRef .tc main_v37_1) : S50000x256.Idx → EReal) = A1)
    (h2 : (W7 m ρ c (Proc.devRef .tc main_v13) : S50000x1.Idx → EReal) = A2)
    (h3 : (W7 m ρ c (Proc.devRef .tc main_v52) : S1x256.Idx → EReal) = A3) (r : Fin 50000) (k : Fin 256) :
    max (A2 (ix2 r 0) * (A0 (ix2 r k) + A1 (ix2 r k)) + A3 (ix2 0 k)) 0 = Cert.Spec.h2 I r k := by
  subst h0 h1 h2 h3
  rw [net_agg1_of m ρ I c hsrc hdst hhn1, net_b1_of m ρ I c hbg, carry7_v13, hnorm, W7_of m ρ c main_v37_1 (by decide), hhn1]
  rfl

include hsrc hdst hnorm hhn1 hbg in
/-- Region 3's first result is layer 2's output. -/
theorem net_h2_of (r : Fin 50000) (j : Fin 256) :
    (W8 m ρ c (Proc.devRef .tc main_v53_0) : S50000x256.Idx → EReal) (ix2 r j) = Cert.Spec.h2 I r j := by
  have e : (W8 m ρ c (Proc.devRef .tc main_v53_0) : S50000x256.Idx → EReal)
      = ((dat3 (F := Ideal) (B7 m ρ) c).arrAt 5 cfg3.N : S50000x256.Idx → EReal) := W8_arr m ρ c 5
  rw [e, final3_5_apply_of (B7 m ρ) c r j _ _ _ _ rfl rfl rfl rfl]
  exact pre2_of m ρ I c hsrc hdst hnorm hhn1 hbg _ _ _ _ rfl rfl rfl rfl r j

include hsrc hdst hnorm hhn1 hbg hWg in
/-- Region 3's second result is layer 2's pre-scaled linear output. -/
theorem net_hn2_of (r : Fin 50000) (j : Fin 256) :
    (W8 m ρ c (Proc.devRef .tc main_v53_1) : S50000x256.Idx → EReal) (ix2 r j)
      = Cert.Spec.hn I.EI (Cert.Spec.h2 I) (Cert.Spec.WgAt I 2) r j := by
  have e : (W8 m ρ c (Proc.devRef .tc main_v53_1) : S50000x256.Idx → EReal)
      = ((dat3 (F := Ideal) (B7 m ρ) c).arrAt 6 cfg3.N : S50000x256.Idx → EReal) := W8_arr m ρ c 6
  rw [e, final3_6_apply_of (B7 m ρ) c r j _ _ _ _ _ rfl rfl rfl rfl rfl]
  unfold Cert.Spec.hn
  refine congrArg₂ (· * ·) (Finset.sum_congr rfl fun k _ => congrArg₂ (· * ·) ?_ ?_) ?_
  · exact pre2_of m ρ I c hsrc hdst hnorm hhn1 hbg _ _ _ _ rfl rfl rfl rfl r k
  · exact net_w2_of m ρ I c hWg k j
  · exact (congrFun (carry7_v13 m ρ c) (ix2 r 0)).trans (hnorm r)
end Of

/-! ## At the launch memory's own inputs -/

variable (c : Dev nD)

theorem net_b1 (j : Fin 256) :
    (W7 m ρ c (Proc.devRef .tc main_v52) : S1x256.Idx → EReal) (ix2 0 j) = Cert.Spec.bgAt (inputsK m c) 1 j :=
  net_b1_of m ρ (inputsK m c) c rfl j

theorem net_w2 (k j : Fin 256) :
    (W7 m ρ c (Proc.devRef .tc main_v51) : S256x256.Idx → EReal) (ix2 k j) = Cert.Spec.WgAt (inputsK m c) 2 k j :=
  net_w2_of m ρ (inputsK m c) c rfl k j

theorem net_agg1 (v : Fin 50000) (j : Fin 256) :
    (W7 m ρ c (Proc.devRef .tc main_v47) : S50000x256.Idx → EReal) (ix2 v j)
      = Cert.Spec.agg (inputsK m c).EI (Cert.Spec.hn (inputsK m c).EI (Cert.Spec.h1 (inputsK m c)) (Cert.Spec.WgAt (inputsK m c) 1)) v j :=
  net_agg1_of m ρ (inputsK m c) c (net_src m ρ c) (net_dst m ρ c) (net_hn1 m ρ c) v j

theorem net_h2 (r : Fin 50000) (j : Fin 256) :
    (W8 m ρ c (Proc.devRef .tc main_v53_0) : S50000x256.Idx → EReal) (ix2 r j) = Cert.Spec.h2 (inputsK m c) r j :=
  net_h2_of m ρ (inputsK m c) c (net_src m ρ c) (net_dst m ρ c) (net_norm m ρ c) (net_hn1 m ρ c) rfl r j

theorem net_hn2 (r : Fin 50000) (j : Fin 256) :
    (W8 m ρ c (Proc.devRef .tc main_v53_1) : S50000x256.Idx → EReal) (ix2 r j)
      = Cert.Spec.hn (inputsK m c).EI (Cert.Spec.h2 (inputsK m c)) (Cert.Spec.WgAt (inputsK m c) 2) r j :=
  net_hn2_of m ρ (inputsK m c) c (net_src m ρ c) (net_dst m ρ c) (net_norm m ρ c) (net_hn1 m ρ c) rfl rfl r j

end Cert.KernelIdeal.Hand

end
-- ==== Proof.KI.Val4.lean ====
import proofs.«159550_j10136122819017_2_alg».proof.Proof.KI.Reg4
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! # Region 4 at the ideal values: each result array as one function of the region's input arrays -/

/-- A one-column array broadcast along the second axis reads, at `(p, c)`, the column at row `p`. -/
theorem broadcastTo_a1_ab_apply_r4 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The rectified row at an index: the norm of the row times the sum of the two inputs, plus the bias, cut at zero. -/
theorem k4_pay1_apply (v0 v2 : Vec Ideal S2000x256 .f32) (v4 : Vec Ideal S2000x1 .f32) (v6 : Vec Ideal S1x256 .f32) (p : Fin 2000) (q : Fin 256) :
    (k4_pay1 (F := Ideal) v0 v2 v4 v6 : S2000x256.Idx → EReal) (ix2 p q)
      = max ((v4 : S2000x1.Idx → EReal) (ix2 p (0 : Fin 1)) * ((v0 : S2000x256.Idx → EReal) (ix2 p q) + (v2 : S2000x256.Idx → EReal) (ix2 p q))
          + (v6 : S1x256.Idx → EReal) (ix2 (0 : Fin 1) q)) 0 := by
  unfold k4_pay1
  simp only [shapeCast_self]
  rw [maximumf_apply, addf_apply, mulf_apply, addf_apply, broadcast_apply]
  rw [broadcastTo_a1_ab_apply_r4, broadcastTo_1b_ab_apply]
  exact congrArg (max _) Ideal.ofBits_zero_f32

/-! ## From the blocks to the array -/

-- the buffer contents of the core when the region is entered, at the ideal values
variable (V : (c : Dev nD) → (b : Ref sig .tc) → Buf (Elt Ideal) ((c : Thread nD τ).loc b))

theorem hz_r4 : (![0, 0] : Fin 2 → Nat) = fun _ => 0 := funext fun a => by fin_cases a <;> rfl

/-- The block index maps over the grid: the row windows (0, 1, 2 and the result 4) are at block `t` of the rows and
    block 0 of the columns at point `t`; the bias row is at block (0, 0) throughout. -/
theorem idx_facts_r4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Window 0's block at point `t` is rows `2000 t … 2000 t + 1999` of its array. -/
theorem iblk4_0_apply (c : Dev nD) (t : Fin cfg4.N) (x : S2000x256.Idx) (k : S50000x256.Idx)
    (hk0 : (k 0).val = 2000 * t.val + (x 0).val) (hk1 : (k 1).val = (x 1).val) :
    (iblk4 (F := Ideal) V c 0 t : S2000x256.Idx → EReal) x = ((V c (Pipeline.arrRef spec4 0)) : S50000x256.Idx → EReal) k := by
  obtain ⟨e0, e1, -⟩ := idx_facts_r4 t
  unfold iblk4
  rw [View.read_apply]
  show ((V c (Pipeline.arrRef spec4 0)) : S50000x256.Idx → EReal) _ = ((V c (Pipeline.arrRef spec4 0)) : S50000x256.Idx → EReal) _
  congr 1
  funext a
  apply Fin.ext
  match a with
  | ⟨0, _⟩ => show win4_0.index t (0 : Fin 2) * 2000 + 1 * (x 0).val = (k 0).val; rw [e0, hk0]; omega
  | ⟨1, _⟩ => show win4_0.index t (1 : Fin 2) * 256 + 1 * (x 1).val = (k 1).val; rw [e1, hk1]; omega

/-- Window 1's block at point `t` is rows `2000 t … 2000 t + 1999` of its array. -/
theorem iblk4_1_apply (c : Dev nD) (t : Fin cfg4.N) (x : S2000x256.Idx) (k : S50000x256.Idx)
    (hk0 : (k 0).val = 2000 * t.val + (x 0).val) (hk1 : (k 1).val = (x 1).val) :
    (iblk4 (F := Ideal) V c 1 t : S2000x256.Idx → EReal) x = ((V c (Pipeline.arrRef spec4 1)) : S50000x256.Idx → EReal) k := by
  obtain ⟨-, -, e0, e1, -⟩ := idx_facts_r4 t
  unfold iblk4
  rw [View.read_apply]
  show ((V c (Pipeline.arrRef spec4 1)) : S50000x256.Idx → EReal) _ = ((V c (Pipeline.arrRef spec4 1)) : S50000x256.Idx → EReal) _
  congr 1
  funext a
  apply Fin.ext
  match a with
  | ⟨0, _⟩ => show win4_1.index t (0 : Fin 2) * 2000 + 1 * (x 0).val = (k 0).val; rw [e0, hk0]; omega
  | ⟨1, _⟩ => show win4_1.index t (1 : Fin 2) * 256 + 1 * (x 1).val = (k 1).val; rw [e1, hk1]; omega

/-- Window 2's block at point `t` is rows `2000 t … 2000 t + 1999` of the norm column. -/
theorem iblk4_2_apply (c : Dev nD) (t : Fin cfg4.N) (x : S2000x1.Idx) (k : S50000x1.Idx)
    (hk0 : (k 0).val = 2000 * t.val + (x 0).val) (hk1 : (k 1).val = (x 1).val) :
    (iblk4 (F := Ideal) V c 2 t : S2000x1.Idx → EReal) x = ((V c (Pipeline.arrRef spec4 2)) : S50000x1.Idx → EReal) k := by
  obtain ⟨-, -, -, -, e0, e1, -⟩ := idx_facts_r4 t
  unfold iblk4
  rw [View.read_apply]
  show ((V c (Pipeline.arrRef spec4 2)) : S50000x1.Idx → EReal) _ = ((V c (Pipeline.arrRef spec4 2)) : S50000x1.Idx → EReal) _
  congr 1
  funext a
  apply Fin.ext
  match a with
  | ⟨0, _⟩ => show win4_2.index t (0 : Fin 2) * 2000 + 1 * (x 0).val = (k 0).val; rw [e0, hk0]; omega
  | ⟨1, _⟩ => show win4_2.index t (1 : Fin 2) * 1 + 1 * (x 1).val = (k 1).val; rw [e1, hk1]; omega

/-- Window 3's block at every point is the whole bias row. -/
theorem iblk4_3_apply (c : Dev nD) (t : Fin cfg4.N) (x : S1x256.Idx) (k : S1x256.Idx)
    (hk0 : (k 0).val = (x 0).val) (hk1 : (k 1).val = (x 1).val) :
    (iblk4 (F := Ideal) V c 3 t : S1x256.Idx → EReal) x = ((V c (Pipeline.arrRef spec4 3)) : S1x256.Idx → EReal) k := by
  obtain ⟨-, -, -, -, -, -, e0, e1, -⟩ := idx_facts_r4 t
  unfold iblk4
  rw [View.read_apply]
  show ((V c (Pipeline.arrRef spec4 3)) : S1x256.Idx → EReal) _ = ((V c (Pipeline.arrRef spec4 3)) : S1x256.Idx → EReal) _
  congr 1
  funext a
  apply Fin.ext
  match a with
  | ⟨0, _⟩ => show win4_3.index t (0 : Fin 2) * 1 + 1 * (x 0).val = (k 0).val; rw [e0, hk0]; omega
  | ⟨1, _⟩ => show win4_3.index t (1 : Fin 2) * 256 + 1 * (x 1).val = (k 1).val; rw [e1, hk1]; omega

/-! ### The result (window 4): the rectified rows -/

/-- The result as one function of the input arrays, index by index. -/
def G4_4 (A0 A1 : S50000x256.Idx → EReal) (A2 : S50000x1.Idx → EReal) (A3 : S1x256.Idx → EReal) : S50000x256.Idx → EReal :=
  fun i => max (A2 (ix2 (i 0 : Fin 50000) (0 : Fin 1)) * (A0 i + A1 i) + A3 (ix2 (0 : Fin 1) (i 1 : Fin 256))) 0

/-- The payload at an index of a block whose inputs are the arrays' rows at `i`: that function at `i`. -/
theorem point4_4 (x0 x1 : Vec Ideal S2000x256 .f32) (x2 : Vec Ideal S2000x1 .f32) (x3 : Vec Ideal S1x256 .f32)
    (A0 A1 : S50000x256.Idx → EReal) (A2 : S50000x1.Idx → EReal) (A3 : S1x256.Idx → EReal)
    (p : Fin 2000) (q : Fin 256) (i : S50000x256.Idx)
    (h0 : (x0 : S2000x256.Idx → EReal) (ix2 p q) = A0 i) (h1 : (x1 : S2000x256.Idx → EReal) (ix2 p q) = A1 i)
    (h2 : (x2 : S2000x1.Idx → EReal) (ix2 p (0 : Fin 1)) = A2 (ix2 (i 0 : Fin 50000) (0 : Fin 1)))
    (h3 : (x3 : S1x256.Idx → EReal) (ix2 (0 : Fin 1) q) = A3 (ix2 (0 : Fin 1) (i 1 : Fin 256))) :
    (k4_pay1 (F := Ideal) x0 x1 x2 x3 : S2000x256.Idx → EReal) (ix2 p q) = G4_4 A0 A1 A2 A3 i := by
  rw [k4_pay1_apply, h0, h1, h2, h3]
  rfl

/-- What point `t` writes back to window 4's array is block `t` of that function of the input arrays. -/
theorem flushed4_4_eq (c : Dev nD) (t : Fin cfg4.N) :
    (dat4 (F := Ideal) V c).flushed 4 t = ((cfg4.win 4).blk t).view.read (Elt Ideal) (G4_4 (V c (Pipeline.arrRef spec4 0)) (V c (Pipeline.arrRef spec4 1)) (V c (Pipeline.arrRef spec4 2)) (V c (Pipeline.arrRef spec4 3))) := by
  obtain ⟨-, -, -, -, -, -, -, -, e0, e1⟩ := idx_facts_r4 t
  show (cfg4.win 4).cut (cfg4.grid.coords t) ((dat4 V c).after 4 t) = _
  rw [after4_4]
  unfold out4_4
  rw [View.canon_unit_zero hz_r4]
  simp only [View.ld_unit_zero (S := S2000x256) hz_r4, View.ld_unit_zero (S := S2000x1) hz_r4, View.ld_unit_zero (S := S1x256) hz_r4]
  funext y
  obtain ⟨p, q, rfl⟩ : ∃ (p : Fin 2000) (q : Fin 256), y = ix2 p q := ⟨y 0, y 1, eq_ix2 y⟩
  show (k4_pay1 (F := Ideal) (iblk4 V c 0 t) (iblk4 V c 1 t) (iblk4 V c 2 t) (iblk4 V c 3 t) : S2000x256.Idx → EReal) (ix2 p q)
    = G4_4 (V c (Pipeline.arrRef spec4 0)) (V c (Pipeline.arrRef spec4 1)) (V c (Pipeline.arrRef spec4 2)) (V c (Pipeline.arrRef spec4 3)) (((cfg4.win 4).blk t).view.emb (ix2 p q))
  have i0 : ((((cfg4.win 4).blk t).view.emb (ix2 p q)) 0).val = 2000 * t.val + p.val := by
    show win4_4.index t (0 : Fin 2) * 2000 + 1 * p.val = _; rw [e0]; omega
  have i1 : ((((cfg4.win 4).blk t).view.emb (ix2 p q)) 1).val = q.val := by
    show win4_4.index t (1 : Fin 2) * 256 + 1 * q.val = _; rw [e1]; omega
  exact point4_4 _ _ _ _ _ _ _ _ p q _
    (iblk4_0_apply V c t (ix2 p q) _ i0 i1) (iblk4_1_apply V c t (ix2 p q) _ i0 i1)
    (iblk4_2_apply V c t (ix2 p (0 : Fin 1)) _ i0 rfl) (iblk4_3_apply V c t (ix2 (0 : Fin 1) q) _ rfl i1)

/-- An index of window 4's array is in point `t`'s block iff each coordinate is in the block's range on its axis. -/
theorem mem_blk4_4 (t : Fin cfg4.N) (i : S50000x256.Idx) :
    i ∈ ((cfg4.win 4).blk t).view.set ↔ ∀ a : Fin 2, win4_4.index t a * S2000x256.size a ≤ (i a).val ∧ (i a).val < win4_4.index t a * S2000x256.size a + S2000x256.size a := by
  show i ∈ ((View.whole main_v67).slice (win4_4.rect t)).set ↔ _
  rw [View.set_slice_whole, Rect.mem_set_unit]
  exact Iff.rfl

/-- Every index of window 4's array is in the block of the point its row falls in: row `r` is in block `r / 2000`. -/
theorem covered4_4 (i : S50000x256.Idx) : ∃ t : Fin cfg4.N, (cfg4.win 4).flush t = true ∧ i ∈ ((cfg4.win 4).blk t).view.set := by
  have hi0 : (i 0).val < 50000 := (i 0).isLt
  have hi1 : (i 1).val < 256 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, -, -, -, -, e0, e1⟩ := idx_facts_r4 t
  refine ⟨t, flush4_4 t, ?_⟩
  rw [mem_blk4_4]
  intro a
  match a with
  | ⟨0, _⟩ => show win4_4.index t (0 : Fin 2) * 2000 ≤ (i 0).val ∧ (i 0).val < win4_4.index t (0 : Fin 2) * 2000 + 2000; rw [e0, ht]; omega
  | ⟨1, _⟩ => show win4_4.index t (1 : Fin 2) * 256 ≤ (i 1).val ∧ (i 1).val < win4_4.index t (1 : Fin 2) * 256 + 256; rw [e1]; omega

/-- Window 4's array after the region is that function of the input arrays. -/
theorem final4_4 (c : Dev nD) : (dat4 (F := Ideal) V c).arrAt 4 cfg4.N = G4_4 (V c (Pipeline.arrRef spec4 0)) (V c (Pipeline.arrRef spec4 1)) (V c (Pipeline.arrRef spec4 2)) (V c (Pipeline.arrRef spec4 3)) :=
  (dat4 V c).arrAt_eq_of_cover 4 (G4_4 (V c (Pipeline.arrRef spec4 0)) (V c (Pipeline.arrRef spec4 1)) (V c (Pipeline.arrRef spec4 2)) (V c (Pipeline.arrRef spec4 3))) (fun t _ => flushed4_4_eq V c t) covered4_4

/-- Window 4's array after the region, at row `r` and column `j`, the input arrays named (`h0 … h3`: whatever the
    region finds in them; `rfl` leaves them as they are). -/
theorem final4_4_apply_of (c : Dev nD) (r : Fin 50000) (j : Fin 256)
    (A0 A1 : S50000x256.Idx → EReal) (A2 : S50000x1.Idx → EReal) (A3 : S1x256.Idx → EReal)
    (h0 : V c (Pipeline.arrRef spec4 0) = A0) (h1 : V c (Pipeline.arrRef spec4 1) = A1)
    (h2 : V c (Pipeline.arrRef spec4 2) = A2) (h3 : V c (Pipeline.arrRef spec4 3) = A3) :
    ((dat4 (F := Ideal) V c).arrAt 4 cfg4.N : S50000x256.Idx → EReal) (ix2 r j)
      = max (A2 (ix2 r (0 : Fin 1)) * (A0 (ix2 r j) + A1 (ix2 r j)) + A3 (ix2 (0 : Fin 1) j)) 0 := by
  subst h0 h1 h2 h3
  exact congrFun (final4_4 V c) (ix2 r j)

/-- The same at the region's input arrays themselves. -/
theorem final4_4_apply (c : Dev nD) (r : Fin 50000) (j : Fin 256) : type_of% (final4_4_apply_of V c r j _ _ _ _ rfl rfl rfl rfl) :=
  final4_4_apply_of V c r j _ _ _ _ rfl rfl rfl rfl

end Cert.KernelIdeal.Hand
end
-- ==== Proof.KI.Net3.lean ====
import proofs.«159550_j10136122819017_2_alg».proof.Proof.KI.Fold
import proofs.«159550_j10136122819017_2_alg».proof.Proof.KI.NetCarry
import proofs.«159550_j10136122819017_2_alg».proof.Proof.KI.NetInputs
import proofs.«159550_j10136122819017_2_alg».proof.Proof.KI.Net0
import proofs.«159550_j10136122819017_2_alg».proof.Proof.KI.NetAgg
import proofs.«159550_j10136122819017_2_alg».proof.Proof.KI.Val4
import proofs.«159550_j10136122819017_2_alg».proof.Proof.Spec.Defs
import proofs.«159550_j10136122819017_2_alg».proof.Proof.Spec.Index
import proofs.«159550_j10136122819017_2_alg».proof.Proof.Spec.Consts
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx

/-! # Layer 2 to layer 3: the neighbour sum and the layer's output

  Host stretch 4 gathers the rows of layer 2's pre-scaled linear output at the edges' source words and scatter-adds them
  at the destination words into zeros: the neighbour sum. Region 4 adds the node's own row, scales by the normaliser,
  adds the bias and cuts at zero: layer 3's output, the last layer's. -/

variable (m : (ℓ : Loc nD τ sig) → Buf (Elt Ideal) ℓ) (ρ : Dev nD → PrngReg)

/-- The edge words' source row after host stretch 4's normalisation: a negative word shifted by the node count. -/
abbrev srcWords8 (c : Dev nD) : S400000.Idx → BitVec 32 :=
  select (cmpi .slt (W8 m ρ c (Proc.devRef .tc main_v1) : S400000.Idx → BitVec 32)
      (broadcastInDim S400000 ![] bcast_S_S400000 (constantI S_ 32 0#32)))
    (addi (W8 m ρ c (Proc.devRef .tc main_v1) : S400000.Idx → BitVec 32)
      (broadcastInDim S400000 ![] bcast_S_S400000 (constantI S_ 32 50000#32)))
    (W8 m ρ c (Proc.devRef .tc main_v1) : S400000.Idx → BitVec 32)

set_option maxHeartbeats 400000 in
/-- The neighbour sum's buffer after host stretch 4: the scatter-add into zeros, at the destination words, of the rows of
    the pre-scaled linear output gathered at the normalised source words. -/
theorem v63_eq (c : Dev nD) :
    (W9 m ρ c (Proc.devRef .tc main_v63) : S50000x256.Idx → EReal) =
      Host.scatterAdd (F := Ideal) scatter_S50000x256_S400000x1_S400000x256_1_0_0_1
        (broadcastInDim S50000x256 ![] bcast_S_S50000x256 (constant (F := Ideal) S_ .f32 0x00000000#32))
        (broadcastInDim S400000x1 ![0] bcast_S400000_S400000x1_0 (W8 m ρ c (Proc.devRef .tc main_v3) : S400000.Idx → BitVec 32))
        (Host.gather gather_S50000x256_S400000x1_S400000x256_1_0_n_n_0_1_1256
          (W8 m ρ c (Proc.devRef .tc main_v53_1) : S50000x256.Idx → EReal)
          (broadcastInDim S400000x1 ![0] bcast_S400000_S400000x1_0 (srcWords8 m ρ c))) := by
  show StableHlo.after hostOps4 (W8 m ρ c) (Proc.devRef .tc main_v63) = _
  after_results

/-- The source words ride unchanged from host stretch 0 to region 3's exit … -/
theorem w8_v1 (c : Dev nD) : W8 m ρ c (Proc.devRef .tc main_v1) = W1 m ρ c (Proc.devRef .tc main_v1) :=
  (W9_of m ρ c main_v1 (by decide)).symm.trans (carry9_v1 m ρ c)
/-- … and so do the destination words. -/
theorem w8_v3 (c : Dev nD) : W8 m ρ c (Proc.devRef .tc main_v3) = W1 m ρ c (Proc.devRef .tc main_v3) :=
  (W9_of m ρ c main_v3 (by decide)).symm.trans (carry9_v3 m ρ c)

/-- An argument array is as launched when region 3 is left. -/
theorem w8_arg (c : Dev nD) (r : Ref sig .tc) (h0 : r ∉ hostOps0_W) (a0 : ∀ w, Pipeline.arrRef spec0 w ≠ r)
    (h1 : r ∉ hostOps1_W) (a1 : ∀ w, Pipeline.arrRef spec1 w ≠ r) (h2 : r ∉ hostOps2_W) (a2 : ∀ w, Pipeline.arrRef spec2 w ≠ r)
    (h3 : r ∉ hostOps3_W) (a3 : ∀ w, Pipeline.arrRef spec3 w ≠ r) :
    W8 m ρ c (Proc.devRef .tc r) = m ((c : Thread nD τ).loc r) :=
  (W8_of_ne m ρ c r a3).trans (carry7_arg m ρ c r h0 a0 h1 a1 h2 a2 h3)

/-- The bias row's buffer after host stretch 4: row 2 of the bias table, as a vector, as a one-row matrix. -/
theorem v66_eq (c : Dev nD) :
    (W9 m ρ c (Proc.devRef .tc main_v66) : S1x256.Idx → EReal) =
      shapeCast S1x256 (shapeCast S256 (extractStridedSlice S1x256 ![2, 0]
        (W8 m ρ c (Proc.devRef .tc main_arg5) : S3x256.Idx → EReal) slices_S3x256_S1x256_2_0) shapeCasts_S1x256_S256)
        shapeCasts_S256_S1x256 := by
  show StableHlo.after hostOps4 (W8 m ρ c) (Proc.devRef .tc main_v66) = _
  after_results
  rfl

/-! ## The reads, from what the earlier stretches left -/

section Of
variable (I : Cert.Spec.Inputs) (c : Dev nD)
  (hsrc : ∀ e : Fin 400000, (W1 m ρ c (Proc.devRef .tc main_v1) : S400000.Idx → BitVec 32) (ix1 e) = Cert.Spec.src I.EI e)
  (hdst : ∀ e : Fin 400000, (W1 m ρ c (Proc.devRef .tc main_v3) : S400000.Idx → BitVec 32) (ix1 e) = Cert.Spec.dst I.EI e)
  (hnorm : ∀ v : Fin 50000, (W1 m ρ c (Proc.devRef .tc main_v13) : S50000x1.Idx → EReal) (ix2 v 0) = Cert.Spec.nrm I.EI v)
  (hhn2 : ∀ (r : Fin 50000) (j : Fin 256), (W8 m ρ c (Proc.devRef .tc main_v53_1) : S50000x256.Idx → EReal) (ix2 r j)
    = Cert.Spec.hn I.EI (Cert.Spec.h2 I) (Cert.Spec.WgAt I 2) r j)
  (hbg : I.bg = m ((c : Thread nD τ).loc main_arg5))

include hsrc hdst hhn2 in
/-- The neighbour sum of layer 2's pre-scaled linear output, given the edge words and that output. -/
theorem agg2_of (v : Fin 50000) (j : Fin 256) :
    (W9 m ρ c (Proc.devRef .tc main_v63) : S50000x256.Idx → EReal) (ix2 v j)
      = Cert.Spec.agg I.EI (Cert.Spec.hn I.EI (Cert.Spec.h2 I) (Cert.Spec.WgAt I 2)) v j := by
  rw [v63_eq]
  refine agg_of_reads _ rfl rfl rfl rfl _ rfl rfl rfl rfl rfl rfl rfl _ _ _ _ I.EI _ zeros_apply ?_ ?_ hhn2 v j
  · intro e
    rw [Cert.Spec.broadcast_col_apply, w8_v3]
    exact hdst e
  · intro e
    rw [Cert.Spec.broadcast_col_apply]
    show Scalar.select (IntOp.cmpi .slt ((W8 m ρ c (Proc.devRef .tc main_v1) : S400000.Idx → BitVec 32) (ix1 e)) 0#32)
        (IntOp.addi ((W8 m ρ c (Proc.devRef .tc main_v1) : S400000.Idx → BitVec 32) (ix1 e)) 50000#32)
        ((W8 m ρ c (Proc.devRef .tc main_v1) : S400000.Idx → BitVec 32) (ix1 e)) = _
    rw [w8_v1, hsrc e]

include hbg in
/-- Layer 2's bias. -/
theorem b2_of (j : Fin 256) :
    (W9 m ρ c (Proc.devRef .tc main_v66) : S1x256.Idx → EReal) (ix2 0 j) = Cert.Spec.bgAt I 2 j := by
  rw [v66_eq]
  refine (shapeCast_a_1a_apply _ _ 0 j).trans ((shapeCast_1a_a_apply _ _ j).trans
    ((slice2_axis0_apply 2 _ _ 0 j 2 rfl).trans ?_))
  rw [w8_arg m ρ c main_arg5 (by decide) (by decide) (by decide) (by decide) (by decide) (by decide) (by decide) (by decide)]
  unfold Cert.Spec.bgAt
  rw [hbg]

include hsrc hdst hnorm hhn2 hbg in
/-- What region 4 computes in each row, its four input arrays being the neighbour sum, the pre-scaled linear output,
    the normaliser and the bias row: layer 3's output. -/
theorem pre3_of (A0 A1 : S50000x256.Idx → EReal) (A2 : S50000x1.Idx → EReal) (A3 : S1x256.Idx → EReal)
    (h0 : (W9 m ρ c (Proc.devRef .tc main_v63) : S50000x256.Idx → EReal) = A0)
    (h1 : (W9 m ρ c (Proc.devRef .tc main_v53_1) : S50000x256.Idx → EReal) = A1)
    (h2 : (W9 m ρ c (Proc.devRef .tc main_v13) : S50000x1.Idx → EReal) = A2)
    (h3 : (W9 m ρ c (Proc.devRef .tc main_v66) : S1x256.Idx → EReal) = A3) (r : Fin 50000) (k : Fin 256) :
    max (A2 (ix2 r 0) * (A0 (ix2 r k) + A1 (ix2 r k)) + A3 (ix2 0 k)) 0 = Cert.Spec.h3 I r k := by
  subst h0 h1 h2 h3
  rw [agg2_of m ρ I c hsrc hdst hhn2, b2_of m ρ I c hbg, carry9_v13, hnorm, W9_of m ρ c main_v53_1 (by decide), hhn2]
  rfl

include hsrc hdst hnorm hhn2 hbg in
/-- Region 4's result is layer 3's output. -/
theorem h3_of (r : Fin 50000) (j : Fin 256) :
    (W10 m ρ c (Proc.devRef .tc main_v67) : S50000x256.Idx → EReal) (ix2 r j) = Cert.Spec.h3 I r j := by
  have e : (W10 m ρ c (Proc.devRef .tc main_v67) : S50000x256.Idx → EReal)
      = ((dat4 (F := Ideal) (B9 m ρ) c).arrAt 4 cfg4.N : S50000x256.Idx → EReal) := W10_arr m ρ c 4
  rw [e, final4_4_apply_of (B9 m ρ) c r j _ _ _ _ rfl rfl rfl rfl]
  exact pre3_of m ρ I c hsrc hdst hnorm hhn2 hbg _ _ _ _ rfl rfl rfl rfl r j
end Of

/-! ## At the launch memory's own inputs -/

variable (c : Dev nD)

/-- Layer 3's output after region 4, given layer 2's pre-scaled linear output after region 3. -/
theorem net_h3_of
    (hhn2 : ∀ (r : Fin 50000) (j : Fin 256), (W8 m ρ c (Proc.devRef .tc main_v53_1) : S50000x256.Idx → EReal) (ix2 r j)
      = Cert.Spec.hn (inputsK m c).EI (Cert.Spec.h2 (inputsK m c)) (Cert.Spec.WgAt (inputsK m c) 2) r j)
    (r : Fin 50000) (j : Fin 256) :
    (W10 m ρ c (Proc.devRef .tc main_v67) : S50000x256.Idx → EReal) (ix2 r j) = Cert.Spec.h3 (inputsK m c) r j :=
  h3_of m ρ (inputsK m c) c (net_src m ρ c) (net_dst m ρ c) (net_norm m ρ c) hhn2 rfl r j

/-- The neighbour sum after host stretch 4, given layer 2's pre-scaled linear output after region 3. -/
theorem net_agg2_of
    (hhn2 : ∀ (r : Fin 50000) (j : Fin 256), (W8 m ρ c (Proc.devRef .tc main_v53_1) : S50000x256.Idx → EReal) (ix2 r j)
      = Cert.Spec.hn (inputsK m c).EI (Cert.Spec.h2 (inputsK m c)) (Cert.Spec.WgAt (inputsK m c) 2) r j)
    (v : Fin 50000) (j : Fin 256) :
    (W9 m ρ c (Proc.devRef .tc main_v63) : S50000x256.Idx → EReal) (ix2 v j)
      = Cert.Spec.agg (inputsK m c).EI (Cert.Spec.hn (inputsK m c).EI (Cert.Spec.h2 (inputsK m c)) (Cert.Spec.WgAt (inputsK m c) 2)) v j :=
  agg2_of m ρ (inputsK m c) c (net_src m ρ c) (net_dst m ρ c) hhn2 v j

theorem net_b2 (j : Fin 256) :
    (W9 m ρ c (Proc.devRef .tc main_v66) : S1x256.Idx → EReal) (ix2 0 j) = Cert.Spec.bgAt (inputsK m c) 2 j :=
  b2_of m ρ (inputsK m c) c rfl j

end Cert.KernelIdeal.Hand

end
-- ==== Proof.KI.Val5.lean ====
import proofs.«159550_j10136122819017_2_alg».proof.Proof.KI.Reg5
import Idealize.ShloMosaic.Lib.ValueIdx
import Idealize.ShloMosaic.Lib.Pipeline.Value
import Idealize.ShloMosaic.Lib.ValueLayout
import Idealize.ShloMosaic.PureOps.Ideal.Laws

/-! # Region 5 at the extended reals: the output array as one function of the input arrays

The body's payload read at one index of its block (the two first-layer block products added, the row
bias, the positive part, the second block product and its bias); what a grid point writes back as the
block of one whole-array function; the blocks of 4000 rows cover the 400000 rows, so the array ends
holding that function. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The block products at an index -/

theorem dot5a_apply_lhs0 (i : S4000x256.Idx) (q : dot_S4000x256_S256x256_S4000x256_1_0_0_1_n_n.contr.Idx) : (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem dot5a_apply_rhs1 (i : S4000x256.Idx) (q : dot_S4000x256_S256x256_S4000x256_1_0_0_1_n_n.contr.Idx) : (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl
/-- A block product read at an index: row `p` of the left operand against column `k` of the right one, summed
    over the one contracted axis. -/
theorem dot5a_apply (a : FVec Ideal S4000x256 .bf16) (b : FVec Ideal S256x256 .bf16) (p : Fin 4000) (k : Fin 256) :
    (matmul dot_S4000x256_S256x256_S4000x256_1_0_0_1_n_n none a b (constant (F := Ideal) S4000x256 .f32 0x00000000#32) : S4000x256.Idx → EReal) (ix2 p k)
      = ∑ q : Fin 256, a (ix2 p q) * b (ix2 q k) := by
  simp only [matmul]
  rw [Ideal.matmul_constant_zero_apply, ← Equiv.sum_comp (contrEquiv1 dot_S4000x256_S256x256_S4000x256_1_0_0_1_n_n 256 rfl rfl).symm]
  refine Finset.sum_congr rfl fun q _ => ?_
  have hk := contrEquiv1_symm_val dot_S4000x256_S256x256_S4000x256_1_0_0_1_n_n 256 rfl rfl q
  have el : dot_S4000x256_S256x256_S4000x256_1_0_0_1_n_n.lhsIdx (ix2 p k) ((contrEquiv1 dot_S4000x256_S256x256_S4000x256_1_0_0_1_n_n 256 rfl rfl).symm q) = ix2 p q := funext fun a => Fin.ext (by
    match a with
    | ⟨0, _⟩ => exact dot5a_apply_lhs0 _ _
    | ⟨1, _⟩ => exact (dot_S4000x256_S256x256_S4000x256_1_0_0_1_n_n.lhsIdx_val_of_single rfl _ _).trans hk)
  have er : dot_S4000x256_S256x256_S4000x256_1_0_0_1_n_n.rhsIdx (ix2 p k) ((contrEquiv1 dot_S4000x256_S256x256_S4000x256_1_0_0_1_n_n 256 rfl rfl).symm q) = ix2 q k := funext fun a => Fin.ext (by
    match a with
    | ⟨0, _⟩ => exact (dot_S4000x256_S256x256_S4000x256_1_0_0_1_n_n.rhsIdx_val_of_single rfl _ _).trans hk
    | ⟨1, _⟩ => exact dot5a_apply_rhs1 _ _)
  rw [el, er]

theorem dot5b_apply_lhs0 (i : S4000x3.Idx) (q : dot_S4000x256_S256x3_S4000x3_1_0_0_1_n_n.contr.Idx) : (dot_S4000x256_S256x3_S4000x3_1_0_0_1_n_n.lhsIdx i q 0).val = (i 0).val := by
  unfold DotDims.lhsIdx
  rw [dif_neg (show ¬(0 : Fin S4000x256.rank) ∈ dot_S4000x256_S256x3_S4000x3_1_0_0_1_n_n.lhsBatch by decide), dif_pos (show (0 : Fin S4000x256.rank) ∈ dot_S4000x256_S256x3_S4000x3_1_0_0_1_n_n.lhsNonContracting by decide)]
  rfl
theorem dot5b_apply_rhs1 (i : S4000x3.Idx) (q : dot_S4000x256_S256x3_S4000x3_1_0_0_1_n_n.contr.Idx) : (dot_S4000x256_S256x3_S4000x3_1_0_0_1_n_n.rhsIdx i q 1).val = (i 1).val := by
  unfold DotDims.rhsIdx
  rw [dif_neg (show ¬(1 : Fin S256x3.rank) ∈ dot_S4000x256_S256x3_S4000x3_1_0_0_1_n_n.rhsBatch by decide), dif_pos (show (1 : Fin S256x3.rank) ∈ dot_S4000x256_S256x3_S4000x3_1_0_0_1_n_n.rhsNonContracting by decide)]
  rfl
/-- A block product read at an index: row `p` of the left operand against column `k` of the right one, summed
    over the one contracted axis. -/
theorem dot5b_apply (a : FVec Ideal S4000x256 .bf16) (b : FVec Ideal S256x3 .bf16) (p : Fin 4000) (k : Fin 3) :
    (matmul dot_S4000x256_S256x3_S4000x3_1_0_0_1_n_n none a b (constant (F := Ideal) S4000x3 .f32 0x00000000#32) : S4000x3.Idx → EReal) (ix2 p k)
      = ∑ q : Fin 256, a (ix2 p q) * b (ix2 q k) := by
  simp only [matmul]
  rw [Ideal.matmul_constant_zero_apply, ← Equiv.sum_comp (contrEquiv1 dot_S4000x256_S256x3_S4000x3_1_0_0_1_n_n 256 rfl rfl).symm]
  refine Finset.sum_congr rfl fun q _ => ?_
  have hk := contrEquiv1_symm_val dot_S4000x256_S256x3_S4000x3_1_0_0_1_n_n 256 rfl rfl q
  have el : dot_S4000x256_S256x3_S4000x3_1_0_0_1_n_n.lhsIdx (ix2 p k) ((contrEquiv1 dot_S4000x256_S256x3_S4000x3_1_0_0_1_n_n 256 rfl rfl).symm q) = ix2 p q := funext fun a => Fin.ext (by
    match a with
    | ⟨0, _⟩ => exact dot5b_apply_lhs0 _ _
    | ⟨1, _⟩ => exact (dot_S4000x256_S256x3_S4000x3_1_0_0_1_n_n.lhsIdx_val_of_single rfl _ _).trans hk)
  have er : dot_S4000x256_S256x3_S4000x3_1_0_0_1_n_n.rhsIdx (ix2 p k) ((contrEquiv1 dot_S4000x256_S256x3_S4000x3_1_0_0_1_n_n 256 rfl rfl).symm q) = ix2 q k := funext fun a => Fin.ext (by
    match a with
    | ⟨0, _⟩ => exact (dot_S4000x256_S256x3_S4000x3_1_0_0_1_n_n.rhsIdx_val_of_single rfl _ _).trans hk
    | ⟨1, _⟩ => exact dot5b_apply_rhs1 _ _)
  rw [el, er]

/-! ## The payload at an index -/

/-- The body's payload at row `p` of its block: the two first-layer rows against each of the 256 columns, added,
    plus the bias, the positive part, against the second layer's column `j` plus its bias. -/
theorem pay5_apply (x0 : Vec Ideal S4000x256 .bf16) (x1 : Vec Ideal S4000x256 .bf16) (x2 : Vec Ideal S256x256 .bf16)
    (x3 : Vec Ideal S256x256 .bf16) (x4 : Vec Ideal S1x256 .f32) (x5 : Vec Ideal S256x3 .bf16) (x6 : Vec Ideal S1x3 .f32)
    (p : Fin 4000) (j : Fin 3) :
    (k5_pay1 x0 x1 x2 x3 x4 x5 x6 : S4000x3.Idx → EReal) (ix2 p j)
      = (∑ k : Fin 256, (max ((∑ q : Fin 256, x0 (ix2 p q) * x2 (ix2 q k)) + (∑ q : Fin 256, x1 (ix2 p q) * x3 (ix2 q k)) + x4 (ix2 0 k)) 0) * x5 (ix2 k j)) + x6 (ix2 0 j) := by
  unfold k5_pay1
  simp only [shapeCast_self]
  show (addf (matmul dot_S4000x256_S256x3_S4000x3_1_0_0_1_n_n none _ x5 (constant (F := Ideal) S4000x3 .f32 0x00000000#32))
    (broadcastTo S4000x3 x6 broadcasts_S1x3_S4000x3) : S4000x3.Idx → EReal) (ix2 p j) = _
  rw [addf_apply, dot5b_apply, broadcastTo_1b_ab_apply]
  refine congrArg (· + _) (Finset.sum_congr rfl fun k _ => ?_)
  rw [truncf_apply, maximumf_apply, addf_apply, addf_apply, dot5a_apply, dot5a_apply, broadcast_apply, broadcastTo_1b_ab_apply]
  show max _ (Ideal.ofBits .f32 0x00000000#32) * _ = _
  rw [Ideal.ofBits_zero_f32]

/-- The same at any index of the block. -/
theorem pay5_at (x0 : Vec Ideal S4000x256 .bf16) (x1 : Vec Ideal S4000x256 .bf16) (x2 : Vec Ideal S256x256 .bf16)
    (x3 : Vec Ideal S256x256 .bf16) (x4 : Vec Ideal S1x256 .f32) (x5 : Vec Ideal S256x3 .bf16) (x6 : Vec Ideal S1x3 .f32)
    (y : S4000x3.Idx) :
    (k5_pay1 x0 x1 x2 x3 x4 x5 x6 : S4000x3.Idx → EReal) y
      = (∑ k : Fin 256, (max ((∑ q : Fin 256, x0 (ix2 (n0 := 4000) (y 0) q) * x2 (ix2 q k)) + (∑ q : Fin 256, x1 (ix2 (n0 := 4000) (y 0) q) * x3 (ix2 q k)) + x4 (ix2 0 k)) 0) * x5 (ix2 (n1 := 3) k (y 1))) + x6 (ix2 (n1 := 3) 0 (y 1)) :=
  (congrArg (k5_pay1 x0 x1 x2 x3 x4 x5 x6 : S4000x3.Idx → EReal) (eq_ix2 y)).trans (pay5_apply x0 x1 x2 x3 x4 x5 x6 (y 0) (y 1))

/-! ## The whole-array function -/

/-- Window 0's array as the region finds it, at its shape. -/
abbrev A5_0 (V : (c : Dev nD) → (b : Ref sig .tc) → Buf (Elt Ideal) ((c : Thread nD τ).loc b)) (c : Dev nD) : S400000x256.Idx → EReal := V c (Pipeline.arrRef spec5 0)
/-- Window 1's array as the region finds it, at its shape. -/
abbrev A5_1 (V : (c : Dev nD) → (b : Ref sig .tc) → Buf (Elt Ideal) ((c : Thread nD τ).loc b)) (c : Dev nD) : S400000x256.Idx → EReal := V c (Pipeline.arrRef spec5 1)
/-- Window 2's array as the region finds it, at its shape. -/
abbrev A5_2 (V : (c : Dev nD) → (b : Ref sig .tc) → Buf (Elt Ideal) ((c : Thread nD τ).loc b)) (c : Dev nD) : S256x256.Idx → EReal := V c (Pipeline.arrRef spec5 2)
/-- Window 3's array as the region finds it, at its shape. -/
abbrev A5_3 (V : (c : Dev nD) → (b : Ref sig .tc) → Buf (Elt Ideal) ((c : Thread nD τ).loc b)) (c : Dev nD) : S256x256.Idx → EReal := V c (Pipeline.arrRef spec5 3)
/-- Window 4's array as the region finds it, at its shape. -/
abbrev A5_4 (V : (c : Dev nD) → (b : Ref sig .tc) → Buf (Elt Ideal) ((c : Thread nD τ).loc b)) (c : Dev nD) : S1x256.Idx → EReal := V c (Pipeline.arrRef spec5 4)
/-- Window 5's array as the region finds it, at its shape. -/
abbrev A5_5 (V : (c : Dev nD) → (b : Ref sig .tc) → Buf (Elt Ideal) ((c : Thread nD τ).loc b)) (c : Dev nD) : S256x3.Idx → EReal := V c (Pipeline.arrRef spec5 5)
/-- Window 6's array as the region finds it, at its shape. -/
abbrev A5_6 (V : (c : Dev nD) → (b : Ref sig .tc) → Buf (Elt Ideal) ((c : Thread nD τ).loc b)) (c : Dev nD) : S1x3.Idx → EReal := V c (Pipeline.arrRef spec5 6)

/-- The edge head as one function of the region's seven input arrays: at edge `e`, the source and destination rows
    each against its first-layer matrix, added, plus the bias, the positive part, against column `j` of the second
    layer plus its bias. -/
def G5 (A0 : S400000x256.Idx → EReal) (A1 : S400000x256.Idx → EReal) (A2 : S256x256.Idx → EReal) (A3 : S256x256.Idx → EReal)
    (A4 : S1x256.Idx → EReal) (A5 : S256x3.Idx → EReal) (A6 : S1x3.Idx → EReal) : S400000x3.Idx → EReal := fun i =>
  (∑ k : Fin 256, (max ((∑ q : Fin 256, A0 (ix2 (n0 := 400000) (i 0) q) * A2 (ix2 q k)) + (∑ q : Fin 256, A1 (ix2 (n0 := 400000) (i 0) q) * A3 (ix2 q k)) + A4 (ix2 0 k)) 0) * A5 (ix2 (n1 := 3) k (i 1))) + A6 (ix2 (n1 := 3) 0 (i 1))

/-- `G5` read at an index given by its coordinates. -/
theorem G5_apply (A0 : S400000x256.Idx → EReal) (A1 : S400000x256.Idx → EReal) (A2 : S256x256.Idx → EReal) (A3 : S256x256.Idx → EReal)
    (A4 : S1x256.Idx → EReal) (A5 : S256x3.Idx → EReal) (A6 : S1x3.Idx → EReal) (e : Fin 400000) (j : Fin 3) :
    G5 A0 A1 A2 A3 A4 A5 A6 (ix2 e j) = (∑ k : Fin 256, (max ((∑ q : Fin 256, A0 (ix2 e q) * A2 (ix2 q k)) + (∑ q : Fin 256, A1 (ix2 e q) * A3 (ix2 q k)) + A4 (ix2 0 k)) 0) * A5 (ix2 k j)) + A6 (ix2 0 j) := rfl

/-! ## The windows' block indices -/

/-- The windows' block indices at every grid point: the row windows (0, 1 and 7) at the point's number, the
    others at block 0. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

theorem hz5 : (![0, 0] : Fin 2 → Nat) = fun _ => 0 := funext fun a => by fin_cases a <;> rfl

/-! ## The input blocks as parts of their arrays -/

/-- Row `p` of window 0's block at point `t` is row `4000 t + p` of its array. -/
theorem iblk5_0_row (V : (c : Dev nD) → (b : Ref sig .tc) → Buf (Elt Ideal) ((c : Thread nD τ).loc b)) (c : Dev nD) (t : Fin cfg5.N) (p : Fin 4000) (q : Fin 256) (r : Fin 400000)
    (hr : r.val = t.val * 4000 + p.val) :
    (iblk5 V c 0 t : S4000x256.Idx → EReal) (ix2 p q) = A5_0 V c (ix2 r q) := by
  obtain ⟨e0, e1, -⟩ := idx_facts5 t
  show A5_0 V c (((cfg5.win 0).blk t).view.emb (ix2 p q)) = _
  refine congrArg (A5_0 V c) (funext fun a => Fin.ext ?_)
  match a with
  | ⟨0, _⟩ => show win5_0.index t (0 : Fin 2) * 4000 + 1 * p.val = r.val; rw [e0, hr]; omega
  | ⟨1, _⟩ => show win5_0.index t (1 : Fin 2) * 256 + 1 * q.val = q.val; rw [e1]; omega

/-- Row `p` of window 1's block at point `t` is row `4000 t + p` of its array. -/
theorem iblk5_1_row (V : (c : Dev nD) → (b : Ref sig .tc) → Buf (Elt Ideal) ((c : Thread nD τ).loc b)) (c : Dev nD) (t : Fin cfg5.N) (p : Fin 4000) (q : Fin 256) (r : Fin 400000)
    (hr : r.val = t.val * 4000 + p.val) :
    (iblk5 V c 1 t : S4000x256.Idx → EReal) (ix2 p q) = A5_1 V c (ix2 r q) := by
  obtain ⟨-, -, e0, e1, -⟩ := idx_facts5 t
  show A5_1 V c (((cfg5.win 1).blk t).view.emb (ix2 p q)) = _
  refine congrArg (A5_1 V c) (funext fun a => Fin.ext ?_)
  match a with
  | ⟨0, _⟩ => show win5_1.index t (0 : Fin 2) * 4000 + 1 * p.val = r.val; rw [e0, hr]; omega
  | ⟨1, _⟩ => show win5_1.index t (1 : Fin 2) * 256 + 1 * q.val = q.val; rw [e1]; omega

/-- The other input windows hold their whole arrays at every point. -/
theorem iblk5_2_eq (V : (c : Dev nD) → (b : Ref sig .tc) → Buf (Elt Ideal) ((c : Thread nD τ).loc b)) (c : Dev nD) (t : Fin cfg5.N) : (iblk5 V c 2 t : S256x256.Idx → EReal) = A5_2 V c := by
  obtain ⟨-, -, -, -, e0, e1, -⟩ := idx_facts5 t
  funext x
  show A5_2 V c (((cfg5.win 2).blk t).view.emb x) = _
  refine congrArg (A5_2 V c) (funext fun a => Fin.ext ?_)
  match a with
  | ⟨0, _⟩ => show win5_2.index t (0 : Fin 2) * 256 + 1 * (x 0).val = (x 0).val; rw [e0]; omega
  | ⟨1, _⟩ => show win5_2.index t (1 : Fin 2) * 256 + 1 * (x 1).val = (x 1).val; rw [e1]; omega
theorem iblk5_3_eq (V : (c : Dev nD) → (b : Ref sig .tc) → Buf (Elt Ideal) ((c : Thread nD τ).loc b)) (c : Dev nD) (t : Fin cfg5.N) : (iblk5 V c 3 t : S256x256.Idx → EReal) = A5_3 V c := by
  obtain ⟨-, -, -, -, -, -, e0, e1, -⟩ := idx_facts5 t
  funext x
  show A5_3 V c (((cfg5.win 3).blk t).view.emb x) = _
  refine congrArg (A5_3 V c) (funext fun a => Fin.ext ?_)
  match a with
  | ⟨0, _⟩ => show win5_3.index t (0 : Fin 2) * 256 + 1 * (x 0).val = (x 0).val; rw [e0]; omega
  | ⟨1, _⟩ => show win5_3.index t (1 : Fin 2) * 256 + 1 * (x 1).val = (x 1).val; rw [e1]; omega
theorem iblk5_4_eq (V : (c : Dev nD) → (b : Ref sig .tc) → Buf (Elt Ideal) ((c : Thread nD τ).loc b)) (c : Dev nD) (t : Fin cfg5.N) : (iblk5 V c 4 t : S1x256.Idx → EReal) = A5_4 V c := by
  obtain ⟨-, -, -, -, -, -, -, -, e0, e1, -⟩ := idx_facts5 t
  funext x
  show A5_4 V c (((cfg5.win 4).blk t).view.emb x) = _
  refine congrArg (A5_4 V c) (funext fun a => Fin.ext ?_)
  match a with
  | ⟨0, _⟩ => show win5_4.index t (0 : Fin 2) * 1 + 1 * (x 0).val = (x 0).val; rw [e0]; omega
  | ⟨1, _⟩ => show win5_4.index t (1 : Fin 2) * 256 + 1 * (x 1).val = (x 1).val; rw [e1]; omega
theorem iblk5_5_eq (V : (c : Dev nD) → (b : Ref sig .tc) → Buf (Elt Ideal) ((c : Thread nD τ).loc b)) (c : Dev nD) (t : Fin cfg5.N) : (iblk5 V c 5 t : S256x3.Idx → EReal) = A5_5 V c := by
  obtain ⟨-, -, -, -, -, -, -, -, -, -, e0, e1, -⟩ := idx_facts5 t
  funext x
  show A5_5 V c (((cfg5.win 5).blk t).view.emb x) = _
  refine congrArg (A5_5 V c) (funext fun a => Fin.ext ?_)
  match a with
  | ⟨0, _⟩ => show win5_5.index t (0 : Fin 2) * 256 + 1 * (x 0).val = (x 0).val; rw [e0]; omega
  | ⟨1, _⟩ => show win5_5.index t (1 : Fin 2) * 3 + 1 * (x 1).val = (x 1).val; rw [e1]; omega
theorem iblk5_6_eq (V : (c : Dev nD) → (b : Ref sig .tc) → Buf (Elt Ideal) ((c : Thread nD τ).loc b)) (c : Dev nD) (t : Fin cfg5.N) : (iblk5 V c 6 t : S1x3.Idx → EReal) = A5_6 V c := by
  obtain ⟨-, -, -, -, -, -, -, -, -, -, -, -, e0, e1, -⟩ := idx_facts5 t
  funext x
  show A5_6 V c (((cfg5.win 6).blk t).view.emb x) = _
  refine congrArg (A5_6 V c) (funext fun a => Fin.ext ?_)
  match a with
  | ⟨0, _⟩ => show win5_6.index t (0 : Fin 2) * 1 + 1 * (x 0).val = (x 0).val; rw [e0]; omega
  | ⟨1, _⟩ => show win5_6.index t (1 : Fin 2) * 3 + 1 * (x 1).val = (x 1).val; rw [e1]; omega

/-- A row of the output's block at point `t` is row `4000 t + p` of its array, at the same column. -/
theorem blk5_7_emb (t : Fin cfg5.N) (y : S4000x3.Idx) :
    (((cfg5.win 7).blk t).view.emb y (0 : Fin 2)).val = t.val * 4000 + (y 0).val
      ∧ (((cfg5.win 7).blk t).view.emb y (1 : Fin 2)).val = (y 1).val := by
  obtain ⟨-, -, -, -, -, -, -, -, -, -, -, -, -, -, e0, e1⟩ := idx_facts5 t
  constructor
  · show win5_7.index t (0 : Fin 2) * 4000 + 1 * (y 0).val = _; rw [e0]; omega
  · show win5_7.index t (1 : Fin 2) * 3 + 1 * (y 1).val = _; rw [e1]; omega

/-! ## What a grid point writes back -/

/-- Point `t` writes back block `t` of `G5` of the arrays as the region finds them. -/
theorem flushed5_7_eq (V : (c : Dev nD) → (b : Ref sig .tc) → Buf (Elt Ideal) ((c : Thread nD τ).loc b)) (c : Dev nD) (t : Fin cfg5.N) :
    (dat5 (F := Ideal) V c).flushed 7 t = ((cfg5.win 7).blk t).view.read (Elt Ideal)
      (G5 (A5_0 V c) (A5_1 V c) (A5_2 V c) (A5_3 V c) (A5_4 V c) (A5_5 V c) (A5_6 V c)) := by
  show (cfg5.win 7).cut (cfg5.grid.coords t) ((dat5 V c).after 7 t) = _
  rw [after5_7]
  unfold out5_7
  rw [View.canon_unit_zero hz5]
  simp only [View.ld_unit_zero (S := S4000x256) hz5, View.ld_unit_zero (S := S256x256) hz5, View.ld_unit_zero (S := S1x256) hz5,
    View.ld_unit_zero (S := S256x3) hz5, View.ld_unit_zero (S := S1x3) hz5]
  funext y
  show (k5_pay1 (iblk5 V c 0 t) (iblk5 V c 1 t) (iblk5 V c 2 t) (iblk5 V c 3 t) (iblk5 V c 4 t) (iblk5 V c 5 t) (iblk5 V c 6 t) : S4000x3.Idx → EReal) y
    = G5 (A5_0 V c) (A5_1 V c) (A5_2 V c) (A5_3 V c) (A5_4 V c) (A5_5 V c) (A5_6 V c) (((cfg5.win 7).blk t).view.emb y)
  rw [pay5_at, iblk5_2_eq, iblk5_3_eq, iblk5_4_eq, iblk5_5_eq, iblk5_6_eq]
  obtain ⟨h0, h1⟩ := blk5_7_emb t y
  have H0 : ∀ q : Fin 256, (iblk5 V c 0 t : S4000x256.Idx → EReal) (ix2 (n0 := 4000) (y 0) q)
      = A5_0 V c (ix2 (n0 := 400000) (((cfg5.win 7).blk t).view.emb y 0) q) := fun q => iblk5_0_row V c t _ q _ h0
  have H1 : ∀ q : Fin 256, (iblk5 V c 1 t : S4000x256.Idx → EReal) (ix2 (n0 := 4000) (y 0) q)
      = A5_1 V c (ix2 (n0 := 400000) (((cfg5.win 7).blk t).view.emb y 0) q) := fun q => iblk5_1_row V c t _ q _ h0
  have H7 : (((cfg5.win 7).blk t).view.emb y 1 : Fin 3) = y 1 := Fin.ext h1
  simp only [H0, H1]
  unfold G5
  rw [H7]

/-! ## The blocks cover the array -/

/-- An index of the array is in point `t`'s block iff each coordinate is in the block's range on its axis. -/
theorem mem_blk5_7 (t : Fin cfg5.N) (i : S400000x3.Idx) :
    i ∈ ((cfg5.win 7).blk t).view.set ↔ ∀ a : Fin 2, win5_7.index t a * S4000x3.size a ≤ (i a).val ∧ (i a).val < win5_7.index t a * S4000x3.size a + S4000x3.size a := by
  show i ∈ ((View.whole main_v90).slice (win5_7.rect t)).set ↔ _
  rw [View.set_slice_whole, Rect.mem_set_unit]
  exact Iff.rfl

/-- Row `e` is in the block of point `e / 4000`. -/
theorem covered5_7 (i : S400000x3.Idx) : ∃ t : Fin cfg5.N, (cfg5.win 7).flush t = true ∧ i ∈ ((cfg5.win 7).blk t).view.set := by
  have hi0 : (i 0).val < 400000 := (i 0).isLt
  have hi1 : (i 1).val < 3 := (i 1).isLt
  have hN : cfg5.N = 100 := N_5
  have ht : (i 0).val / 4000 < cfg5.N := by rw [hN]; omega
  obtain ⟨-, -, -, -, -, -, -, -, -, -, -, -, -, -, e0, e1⟩ := idx_facts5 ⟨(i 0).val / 4000, ht⟩
  refine ⟨⟨(i 0).val / 4000, ht⟩, flush5_7 _, ?_⟩
  rw [mem_blk5_7]
  intro a
  match a with
  | ⟨0, _⟩ =>
    show win5_7.index ⟨(i 0).val / 4000, ht⟩ (0 : Fin 2) * 4000 ≤ (i 0).val ∧ (i 0).val < win5_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win5_7.index ⟨(i 0).val / 4000, ht⟩ (1 : Fin 2) * 3 ≤ (i 1).val ∧ (i 1).val < win5_7.index ⟨(i 0).val / 4000, ht⟩ (1 : Fin 2) * 3 + 3
    rw [e1]; omega

/-! ## The array after the region -/

/-- The output array after the region is `G5` of the input arrays as the region finds them. -/
theorem final5_7 (V : (c : Dev nD) → (b : Ref sig .tc) → Buf (Elt Ideal) ((c : Thread nD τ).loc b)) (c : Dev nD) :
    (dat5 (F := Ideal) V c).arrAt 7 cfg5.N = G5 (A5_0 V c) (A5_1 V c) (A5_2 V c) (A5_3 V c) (A5_4 V c) (A5_5 V c) (A5_6 V c) :=
  (dat5 (F := Ideal) V c).arrAt_eq_of_cover 7 _ (fun t _ => flushed5_7_eq V c t) covered5_7

set_option maxHeartbeats 400000 in
/-- Index by index, over the input arrays named at their shapes: entry `(e, j)` of the output is the second layer's sum
    over the 256 hidden units, each the positive part of the two first-layer sums over the 256 features plus the bias,
    plus the second bias. -/
theorem final5_7_apply_of (V : (c : Dev nD) → (b : Ref sig .tc) → Buf (Elt Ideal) ((c : Thread nD τ).loc b)) (c : Dev nD) (e : Fin 400000) (j : Fin 3)
    (A0 : S400000x256.Idx → EReal) (A1 : S400000x256.Idx → EReal) (A2 : S256x256.Idx → EReal) (A3 : S256x256.Idx → EReal)
    (A4 : S1x256.Idx → EReal) (A5 : S256x3.Idx → EReal) (A6 : S1x3.Idx → EReal)
    (h0 : (V c (Pipeline.arrRef spec5 0) : S400000x256.Idx → EReal) = A0) (h1 : (V c (Pipeline.arrRef spec5 1) : S400000x256.Idx → EReal) = A1)
    (h2 : (V c (Pipeline.arrRef spec5 2) : S256x256.Idx → EReal) = A2) (h3 : (V c (Pipeline.arrRef spec5 3) : S256x256.Idx → EReal) = A3)
    (h4 : (V c (Pipeline.arrRef spec5 4) : S1x256.Idx → EReal) = A4) (h5 : (V c (Pipeline.arrRef spec5 5) : S256x3.Idx → EReal) = A5)
    (h6 : (V c (Pipeline.arrRef spec5 6) : S1x3.Idx → EReal) = A6) :
    ((dat5 (F := Ideal) V c).arrAt 7 cfg5.N : S400000x3.Idx → EReal) (ix2 e j)
      = (∑ k : Fin 256, (max ((∑ q : Fin 256, A0 (ix2 e q) * A2 (ix2 q k)) + (∑ q : Fin 256, A1 (ix2 e q) * A3 (ix2 q k)) + A4 (ix2 0 k)) 0) * A5 (ix2 k j)) + A6 (ix2 0 j) := by
  subst h0 h1 h2 h3 h4 h5 h6
  exact (congrFun (final5_7 V c) (ix2 e j)).trans (G5_apply _ _ _ _ _ _ _ e j)

/-- The same at the arrays themselves. -/
theorem final5_7_apply (V : (c : Dev nD) → (b : Ref sig .tc) → Buf (Elt Ideal) ((c : Thread nD τ).loc b)) (c : Dev nD) (e : Fin 400000) (j : Fin 3) :
    type_of% (final5_7_apply_of V c e j _ _ _ _ _ _ _ rfl rfl rfl rfl rfl rfl rfl) :=
  final5_7_apply_of V c e j _ _ _ _ _ _ _ rfl rfl rfl rfl rfl rfl rfl

end Cert.KernelIdeal.Hand

end
-- ==== Proof.KI.Net4.lean ====
import proofs.«159550_j10136122819017_2_alg».proof.Proof.KI.Fold
import proofs.«159550_j10136122819017_2_alg».proof.Proof.KI.NetInputs
import proofs.«159550_j10136122819017_2_alg».proof.Proof.KI.NetCarry
import proofs.«159550_j10136122819017_2_alg».proof.Proof.KI.Val5
import proofs.«159550_j10136122819017_2_alg».proof.Proof.Spec.Defs
import proofs.«159550_j10136122819017_2_alg».proof.Proof.Spec.Index
import proofs.«159550_j10136122819017_2_alg».proof.Proof.Spec.Consts
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.StableHlo
open Idealize.ShloMosaic.Pipeline (Dat)
open Idealize.ShloMosaic.ValueIdx

/-! # Host stretch 5 and region 5: the edge head

  Host stretch 5 prepares the edge head's operands from the third layer's node features and the head's weights: the
  features in the narrower format, their rows gathered at each edge's source and destination, the two halves of the
  first weight matrix, the second weight matrix, and the two biases as one-row matrices. Region 5 then computes the
  head edge by edge. Read index by index this is the specification's `hierOf` over the third layer's features. -/

/-! ## Host stretch 5 read at an index, over any buffer contents -/

/-- A scalar word spread over the edges reads the word. -/
theorem n4_splat_edges_apply (w : BitVec 32) (e : Fin 400000) :
    broadcastInDim S400000 ![] bcast_S_S400000 (constantI S_ 32 w) (ix1 e) = w :=
  broadcastInDim_apply _ bcast_S_S400000 (constantI S_ 32 w) (ix1 e) (fun a => a.elim0) (fun a => a.elim0)

/-- A row gather at the edge words `w`, a negative word first shifted by the node count: row `rowOf (w e)`. -/
theorem n4_norm_gather_apply {α : Type} (x : S50000x256.Idx → α) (w : S400000.Idx → BitVec 32) (e : Fin 400000) (q : Fin 256) :
    Host.gather gather_S50000x256_S400000x1_S400000x256_1_0_n_n_0_1_1256 x
      (broadcastInDim S400000x1 ![0] bcast_S400000_S400000x1_0
        (select (cmpi .slt w (broadcastInDim S400000 ![] bcast_S_S400000 (constantI S_ 32 0#32)))
          (addi w (broadcastInDim S400000 ![] bcast_S_S400000 (constantI S_ 32 50000#32))) w)) (ix2 e q)
      = x (ix2 (Cert.Spec.rowOf (w (ix1 e))) q) := by
  have hw : broadcastInDim S400000x1 ![0] bcast_S400000_S400000x1_0
        (select (cmpi .slt w (broadcastInDim S400000 ![] bcast_S_S400000 (constantI S_ 32 0#32)))
          (addi w (broadcastInDim S400000 ![] bcast_S_S400000 (constantI S_ 32 50000#32))) w) (ix2 e 0)
      = Scalar.select (IntOp.cmpi .slt (w (ix1 e)) 0#32) (IntOp.addi (w (ix1 e)) 50000#32) (w (ix1 e)) := by
    rw [Cert.Spec.broadcast_col_apply, select_apply]
    show Scalar.select (IntOp.cmpi .slt (w (ix1 e)) (broadcastInDim S400000 ![] bcast_S_S400000 (constantI S_ 32 0#32) (ix1 e)))
      (IntOp.addi (w (ix1 e)) (broadcastInDim S400000 ![] bcast_S_S400000 (constantI S_ 32 50000#32) (ix1 e))) (w (ix1 e)) = _
    rw [n4_splat_edges_apply, n4_splat_edges_apply]
  rw [Cert.Spec.gather_rows_apply _ rfl rfl rfl rfl rfl rfl rfl]
  simp only [hw]
  rfl

/-- The node features in the narrower format: the same extended reals. -/
theorem n4_host5_v68 (V : Valuation τ sig (Elt Ideal)) (r : Fin 50000) (q : Fin 256) :
    (StableHlo.after hostOps5 V (Proc.devRef .tc main_v68) : S50000x256.Idx → EReal) (ix2 r q)
      = (V (Proc.devRef .tc main_v67) : S50000x256.Idx → EReal) (ix2 r q) := by
  after_results_simp
  rfl

/-- The source rows gathered: row `rowOf` of the source word. -/
theorem n4_host5_v80 (V : Valuation τ sig (Elt Ideal)) (e : Fin 400000) (q : Fin 256) :
    (StableHlo.after hostOps5 V (Proc.devRef .tc main_v80) : S400000x256.Idx → EReal) (ix2 e q)
      = (V (Proc.devRef .tc main_v67) : S50000x256.Idx → EReal)
          (ix2 (Cert.Spec.rowOf ((V (Proc.devRef .tc main_v1) : S400000.Idx → BitVec 32) (ix1 e))) q) := by
  after_results_simp
  exact n4_norm_gather_apply _ _ e q

/-- The destination rows gathered: row `rowOf` of the destination word. -/
theorem n4_host5_v87 (V : Valuation τ sig (Elt Ideal)) (e : Fin 400000) (q : Fin 256) :
    (StableHlo.after hostOps5 V (Proc.devRef .tc main_v87) : S400000x256.Idx → EReal) (ix2 e q)
      = (V (Proc.devRef .tc main_v67) : S50000x256.Idx → EReal)
          (ix2 (Cert.Spec.rowOf ((V (Proc.devRef .tc main_v3) : S400000.Idx → BitVec 32) (ix1 e))) q) := by
  after_results_simp
  exact n4_norm_gather_apply _ _ e q

/-- The upper half of the first head matrix: rows 0 to 255. -/
theorem n4_host5_v70 (V : Valuation τ sig (Elt Ideal)) (q : Fin 256) (k : Fin 256) :
    (StableHlo.after hostOps5 V (Proc.devRef .tc main_v70) : S256x256.Idx → EReal) (ix2 q k)
      = (V (Proc.devRef .tc main_arg6) : S512x256.Idx → EReal) (ix2 ⟨q.val, by omega⟩ k) := by
  after_results_simp
  exact extractStridedSlice_apply _ _ slices_S512x256_S256x256_0_0 (ix2 q k) (ix2 ⟨q.val, by omega⟩ k) (fun a => match a with
    | ⟨0, _⟩ => by show q.val = 0 + q.val; omega
    | ⟨1, _⟩ => by show k.val = 0 + k.val; omega)

/-- The lower half of the first head matrix: rows 256 to 511. -/
theorem n4_host5_v72 (V : Valuation τ sig (Elt Ideal)) (q : Fin 256) (k : Fin 256) :
    (StableHlo.after hostOps5 V (Proc.devRef .tc main_v72) : S256x256.Idx → EReal) (ix2 q k)
      = (V (Proc.devRef .tc main_arg6) : S512x256.Idx → EReal) (ix2 ⟨256 + q.val, by omega⟩ k) := by
  after_results_simp
  exact extractStridedSlice_apply _ _ slices_S512x256_S256x256_256_0 (ix2 q k) (ix2 ⟨256 + q.val, by omega⟩ k) (fun a => match a with
    | ⟨0, _⟩ => by show 256 + q.val = 256 + q.val; rfl
    | ⟨1, _⟩ => by show k.val = 0 + k.val; omega)

/-- The second head matrix in the narrower format. -/
theorem n4_host5_v73 (V : Valuation τ sig (Elt Ideal)) (k : Fin 256) (j : Fin 3) :
    (StableHlo.after hostOps5 V (Proc.devRef .tc main_v73) : S256x3.Idx → EReal) (ix2 k j)
      = (V (Proc.devRef .tc main_arg8) : S256x3.Idx → EReal) (ix2 k j) := by
  after_results_simp
  rfl

/-- The first head bias as a one-row matrix. -/
theorem n4_host5_v88 (V : Valuation τ sig (Elt Ideal)) (k : Fin 256) :
    (StableHlo.after hostOps5 V (Proc.devRef .tc main_v88) : S1x256.Idx → EReal) (ix2 0 k)
      = (V (Proc.devRef .tc main_arg7) : S256.Idx → EReal) (ix1 k) := by
  after_results_simp
  exact Cert.Spec.shapeCast_vec_to_row_apply _ _ _

/-- The second head bias as a one-row matrix. -/
theorem n4_host5_v89 (V : Valuation τ sig (Elt Ideal)) (j : Fin 3) :
    (StableHlo.after hostOps5 V (Proc.devRef .tc main_v89) : S1x3.Idx → EReal) (ix2 0 j)
      = (V (Proc.devRef .tc main_arg9) : S3.Idx → EReal) (ix1 j) := by
  after_results_simp
  exact Cert.Spec.shapeCast_vec_to_row_apply _ _ _

/-! ## What region 5 is entered with -/

section Net4
variable (m : (ℓ : Loc nD τ sig) → Buf (Elt Ideal) ℓ) (ρ : Dev nD → PrngReg) (c : Dev nD)

/-- The source words when host stretch 5 starts are those made by host stretch 0. -/
theorem n4_v1_at10 : W10 m ρ c (Proc.devRef .tc main_v1) = W1 m ρ c (Proc.devRef .tc main_v1) :=
  (W10_of_ne m ρ c main_v1 (by decide)).trans (carry9_v1 m ρ c)
/-- The destination words likewise. -/
theorem n4_v3_at10 : W10 m ρ c (Proc.devRef .tc main_v3) = W1 m ρ c (Proc.devRef .tc main_v3) :=
  (W10_of_ne m ρ c main_v3 (by decide)).trans (carry9_v3 m ρ c)
/-- An argument array nothing has written when host stretch 5 starts is as launched. -/
theorem n4_arg_at10 (r : Ref sig .tc) (h0 : r ∉ hostOps0_W) (a0 : ∀ w, Pipeline.arrRef spec0 w ≠ r) (h1 : r ∉ hostOps1_W)
    (a1 : ∀ w, Pipeline.arrRef spec1 w ≠ r) (h2 : r ∉ hostOps2_W) (a2 : ∀ w, Pipeline.arrRef spec2 w ≠ r) (h3 : r ∉ hostOps3_W)
    (a3 : ∀ w, Pipeline.arrRef spec3 w ≠ r) (h4 : r ∉ hostOps4_W) (a4 : ∀ w, Pipeline.arrRef spec4 w ≠ r) :
    W10 m ρ c (Proc.devRef .tc r) = m ((c : Thread nD τ).loc r) :=
  (W10_of_ne m ρ c r a4).trans (carry9_arg m ρ c r h0 a0 h1 a1 h2 a2 h3 a3 h4)

theorem n4_arg6_at10 : W10 m ρ c (Proc.devRef .tc main_arg6) = m ((c : Thread nD τ).loc main_arg6) :=
  n4_arg_at10 m ρ c main_arg6 (by decide) (by decide) (by decide) (by decide) (by decide) (by decide) (by decide) (by decide) (by decide) (by decide)
theorem n4_arg7_at10 : W10 m ρ c (Proc.devRef .tc main_arg7) = m ((c : Thread nD τ).loc main_arg7) :=
  n4_arg_at10 m ρ c main_arg7 (by decide) (by decide) (by decide) (by decide) (by decide) (by decide) (by decide) (by decide) (by decide) (by decide)
theorem n4_arg8_at10 : W10 m ρ c (Proc.devRef .tc main_arg8) = m ((c : Thread nD τ).loc main_arg8) :=
  n4_arg_at10 m ρ c main_arg8 (by decide) (by decide) (by decide) (by decide) (by decide) (by decide) (by decide) (by decide) (by decide) (by decide)
theorem n4_arg9_at10 : W10 m ρ c (Proc.devRef .tc main_arg9) = m ((c : Thread nD τ).loc main_arg9) :=
  n4_arg_at10 m ρ c main_arg9 (by decide) (by decide) (by decide) (by decide) (by decide) (by decide) (by decide) (by decide) (by decide) (by decide)

/-! ### The seven operands, index by index -/

section Reads
variable (hsrc : ∀ e : Fin 400000, (W1 m ρ c (Proc.devRef .tc main_v1) : S400000.Idx → BitVec 32) (ix1 e) = Cert.Spec.src (inputsK m c).EI e)
  (hdst : ∀ e : Fin 400000, (W1 m ρ c (Proc.devRef .tc main_v3) : S400000.Idx → BitVec 32) (ix1 e) = Cert.Spec.dst (inputsK m c).EI e)
  (hh3 : ∀ (r : Fin 50000) (q : Fin 256), (W10 m ρ c (Proc.devRef .tc main_v67) : S50000x256.Idx → EReal) (ix2 r q) = Cert.Spec.h3 (inputsK m c) r q)
include hsrc hh3 in
/-- Window 0: the third layer's features at each edge's source row. -/
theorem n4_w11_v80 (e : Fin 400000) (q : Fin 256) :
    (W11 m ρ c (Proc.devRef .tc main_v80) : S400000x256.Idx → EReal) (ix2 e q)
      = Cert.Spec.h3 (inputsK m c) (Cert.Spec.rowOf (Cert.Spec.src (inputsK m c).EI e)) q := by
  refine (n4_host5_v80 (W10 m ρ c) e q).trans ?_
  have hw : (W10 m ρ c (Proc.devRef .tc main_v1) : S400000.Idx → BitVec 32) (ix1 e) = Cert.Spec.src (inputsK m c).EI e :=
    (congrFun (n4_v1_at10 m ρ c) (ix1 e)).trans (hsrc e)
  rw [hw]
  exact hh3 _ q
include hdst hh3 in
/-- Window 1: the third layer's features at each edge's destination row. -/
theorem n4_w11_v87 (e : Fin 400000) (q : Fin 256) :
    (W11 m ρ c (Proc.devRef .tc main_v87) : S400000x256.Idx → EReal) (ix2 e q)
      = Cert.Spec.h3 (inputsK m c) (Cert.Spec.rowOf (Cert.Spec.dst (inputsK m c).EI e)) q := by
  refine (n4_host5_v87 (W10 m ρ c) e q).trans ?_
  have hw : (W10 m ρ c (Proc.devRef .tc main_v3) : S400000.Idx → BitVec 32) (ix1 e) = Cert.Spec.dst (inputsK m c).EI e :=
    (congrFun (n4_v3_at10 m ρ c) (ix1 e)).trans (hdst e)
  rw [hw]
  exact hh3 _ q
end Reads

/-- Window 2: rows 0 to 255 of the first head matrix. -/
theorem n4_w11_v70 (q k : Fin 256) :
    (W11 m ρ c (Proc.devRef .tc main_v70) : S256x256.Idx → EReal) (ix2 q k) = (inputsK m c).Wh1 (ix2 ⟨q.val, by omega⟩ k) :=
  (n4_host5_v70 (W10 m ρ c) q k).trans (congrFun (n4_arg6_at10 m ρ c) _)
/-- Window 3: rows 256 to 511 of the first head matrix. -/
theorem n4_w11_v72 (q k : Fin 256) :
    (W11 m ρ c (Proc.devRef .tc main_v72) : S256x256.Idx → EReal) (ix2 q k) = (inputsK m c).Wh1 (ix2 ⟨256 + q.val, by omega⟩ k) :=
  (n4_host5_v72 (W10 m ρ c) q k).trans (congrFun (n4_arg6_at10 m ρ c) _)
/-- Window 4: the first head bias. -/
theorem n4_w11_v88 (k : Fin 256) :
    (W11 m ρ c (Proc.devRef .tc main_v88) : S1x256.Idx → EReal) (ix2 0 k) = (inputsK m c).bh1 (ix1 k) :=
  (n4_host5_v88 (W10 m ρ c) k).trans (congrFun (n4_arg7_at10 m ρ c) _)
/-- Window 5: the second head matrix. -/
theorem n4_w11_v73 (k : Fin 256) (j : Fin 3) :
    (W11 m ρ c (Proc.devRef .tc main_v73) : S256x3.Idx → EReal) (ix2 k j) = (inputsK m c).Wh2 (ix2 k j) :=
  (n4_host5_v73 (W10 m ρ c) k j).trans (congrFun (n4_arg8_at10 m ρ c) _)
/-- Window 6: the second head bias. -/
theorem n4_w11_v89 (j : Fin 3) :
    (W11 m ρ c (Proc.devRef .tc main_v89) : S1x3.Idx → EReal) (ix2 0 j) = (inputsK m c).bh2 (ix1 j) :=
  (n4_host5_v89 (W10 m ρ c) j).trans (congrFun (n4_arg9_at10 m ρ c) _)

/-! ## The edge head after region 5 -/

/-- The edge head's array after region 5 is the specification's `hierOf` over the third layer, for any reading of the
    edge words and of the third layer's features that is the specification's. -/
theorem net_hier_of
    (hsrc : ∀ e : Fin 400000, (W1 m ρ c (Proc.devRef .tc main_v1) : S400000.Idx → BitVec 32) (ix1 e) = Cert.Spec.src (inputsK m c).EI e)
    (hdst : ∀ e : Fin 400000, (W1 m ρ c (Proc.devRef .tc main_v3) : S400000.Idx → BitVec 32) (ix1 e) = Cert.Spec.dst (inputsK m c).EI e)
    (hh3 : ∀ (r : Fin 50000) (q : Fin 256), (W10 m ρ c (Proc.devRef .tc main_v67) : S50000x256.Idx → EReal) (ix2 r q) = Cert.Spec.h3 (inputsK m c) r q)
    (e : Fin 400000) (j : Fin 3) :
    (W12 m ρ c (Proc.devRef .tc main_v90) : S400000x3.Idx → EReal) (ix2 e j)
      = Cert.Spec.hierOf (inputsK m c) (Cert.Spec.h3 (inputsK m c)) e j := by
  refine (congrFun (W12_arr m ρ c 7) (ix2 e j)).trans ?_
  refine (final5_7_apply_of (B11 m ρ) c e j
    (W11 m ρ c (Proc.devRef .tc main_v80)) (W11 m ρ c (Proc.devRef .tc main_v87)) (W11 m ρ c (Proc.devRef .tc main_v70))
    (W11 m ρ c (Proc.devRef .tc main_v72)) (W11 m ρ c (Proc.devRef .tc main_v88)) (W11 m ρ c (Proc.devRef .tc main_v73))
    (W11 m ρ c (Proc.devRef .tc main_v89)) rfl rfl rfl rfl rfl rfl rfl).trans ?_
  unfold Cert.Spec.hierOf
  simp only [n4_w11_v80 m ρ c hsrc hh3, n4_w11_v87 m ρ c hdst hh3, n4_w11_v70 m ρ c, n4_w11_v72 m ρ c, n4_w11_v88 m ρ c,
    n4_w11_v73 m ρ c, n4_w11_v89 m ρ c]

end Net4

end Cert.KernelIdeal.Hand

end
-- ==== Proof.KI.Val6.lean ====
import proofs.«159550_j10136122819017_2_alg».proof.Proof.KI.Reg6
import Idealize.ShloMosaic.Lib.ValueIdx
import Idealize.ShloMosaic.Lib.Pipeline.Value
import Idealize.ShloMosaic.Lib.ValueLayout
import Idealize.ShloMosaic.PureOps.Ideal.Laws

/-! # Region 6 at the extended reals: the output array as one function of the input arrays

The body's payload read at one index of its block (two block products, the row biases, the positive
part, the logistic); what a grid point writes back as the block of one whole-array function; the
blocks of 2000 rows cover the 50000 rows, so the array ends holding that function. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The block products at an index -/

theorem dot6a_apply_lhs0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dot6a_apply_rhs1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl
/-- A block product read at an index: row `p` of the left operand against column `k` of the right one, summed
    over the one contracted axis. -/
theorem dot6a_apply (a : FVec Ideal S2000x256 .bf16) (b : FVec Ideal S256x128 .bf16) (p : Fin 2000) (k : Fin 128) :
    (matmul dot_S2000x256_S256x128_S2000x128_1_0_0_1_n_n none a b (constant (F := Ideal) S2000x128 .f32 0x00000000#32) : S2000x128.Idx → EReal) (ix2 p k)
      = ∑ q : Fin 256, a (ix2 p q) * b (ix2 q k) := by
  simp only [matmul]
  rw [Ideal.matmul_constant_zero_apply, ← Equiv.sum_comp (contrEquiv1 dot_S2000x256_S256x128_S2000x128_1_0_0_1_n_n 256 rfl rfl).symm]
  refine Finset.sum_congr rfl fun q _ => ?_
  have hk := contrEquiv1_symm_val dot_S2000x256_S256x128_S2000x128_1_0_0_1_n_n 256 rfl rfl q
  have el : dot_S2000x256_S256x128_S2000x128_1_0_0_1_n_n.lhsIdx (ix2 p k) ((contrEquiv1 dot_S2000x256_S256x128_S2000x128_1_0_0_1_n_n 256 rfl rfl).symm q) = ix2 p q := funext fun a => Fin.ext (by
    match a with
    | ⟨0, _⟩ => exact dot6a_apply_lhs0 _ _
    | ⟨1, _⟩ => exact (dot_S2000x256_S256x128_S2000x128_1_0_0_1_n_n.lhsIdx_val_of_single rfl _ _).trans hk)
  have er : dot_S2000x256_S256x128_S2000x128_1_0_0_1_n_n.rhsIdx (ix2 p k) ((contrEquiv1 dot_S2000x256_S256x128_S2000x128_1_0_0_1_n_n 256 rfl rfl).symm q) = ix2 q k := funext fun a => Fin.ext (by
    match a with
    | ⟨0, _⟩ => exact (dot_S2000x256_S256x128_S2000x128_1_0_0_1_n_n.rhsIdx_val_of_single rfl _ _).trans hk
    | ⟨1, _⟩ => exact dot6a_apply_rhs1 _ _)
  rw [el, er]

theorem dot6b_apply_lhs0 (i : S2000x1.Idx) (q : dot_S2000x128_S128x1_S2000x1_1_0_0_1_n_n.contr.Idx) : (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem dot6b_apply_rhs1 (i : S2000x1.Idx) (q : dot_S2000x128_S128x1_S2000x1_1_0_0_1_n_n.contr.Idx) : (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl
/-- A block product read at an index: row `p` of the left operand against column `k` of the right one, summed
    over the one contracted axis. -/
theorem dot6b_apply (a : FVec Ideal S2000x128 .bf16) (b : FVec Ideal S128x1 .bf16) (p : Fin 2000) (k : Fin 1) :
    (matmul dot_S2000x128_S128x1_S2000x1_1_0_0_1_n_n none a b (constant (F := Ideal) S2000x1 .f32 0x00000000#32) : S2000x1.Idx → EReal) (ix2 p k)
      = ∑ q : Fin 128, a (ix2 p q) * b (ix2 q k) := by
  simp only [matmul]
  rw [Ideal.matmul_constant_zero_apply, ← Equiv.sum_comp (contrEquiv1 dot_S2000x128_S128x1_S2000x1_1_0_0_1_n_n 128 rfl rfl).symm]
  refine Finset.sum_congr rfl fun q _ => ?_
  have hk := contrEquiv1_symm_val dot_S2000x128_S128x1_S2000x1_1_0_0_1_n_n 128 rfl rfl q
  have el : dot_S2000x128_S128x1_S2000x1_1_0_0_1_n_n.lhsIdx (ix2 p k) ((contrEquiv1 dot_S2000x128_S128x1_S2000x1_1_0_0_1_n_n 128 rfl rfl).symm q) = ix2 p q := funext fun a => Fin.ext (by
    match a with
    | ⟨0, _⟩ => exact dot6b_apply_lhs0 _ _
    | ⟨1, _⟩ => exact (dot_S2000x128_S128x1_S2000x1_1_0_0_1_n_n.lhsIdx_val_of_single rfl _ _).trans hk)
  have er : dot_S2000x128_S128x1_S2000x1_1_0_0_1_n_n.rhsIdx (ix2 p k) ((contrEquiv1 dot_S2000x128_S128x1_S2000x1_1_0_0_1_n_n 128 rfl rfl).symm q) = ix2 q k := funext fun a => Fin.ext (by
    match a with
    | ⟨0, _⟩ => exact (dot_S2000x128_S128x1_S2000x1_1_0_0_1_n_n.rhsIdx_val_of_single rfl _ _).trans hk
    | ⟨1, _⟩ => exact dot6b_apply_rhs1 _ _)
  rw [el, er]

/-! ## The payload at an index -/

/-- The body's payload at row `p` of its block: the first layer's row against each of the 128 columns plus its
    bias, the positive part, against the second layer's column plus its bias, through the logistic. -/
theorem pay6_apply (x0 : Vec Ideal S2000x256 .bf16) (x1 : Vec Ideal S256x128 .bf16) (x2 : Vec Ideal S1x128 .f32)
    (x3 : Vec Ideal S128x1 .bf16) (x4 : Vec Ideal S1x1 .f32) (p : Fin 2000) (j : Fin 1) :
    (k6_pay1 x0 x1 x2 x3 x4 : S2000x1.Idx → EReal) (ix2 p j)
      = Ideal.logistic ((∑ k : Fin 128, (max ((∑ q : Fin 256, x0 (ix2 p q) * x1 (ix2 q k)) + x2 (ix2 0 k)) 0) * x3 (ix2 k j)) + x4 (ix2 0 j)) := by
  unfold k6_pay1
  simp only [shapeCast_self]
  show Ideal.logistic (addf (matmul dot_S2000x128_S128x1_S2000x1_1_0_0_1_n_n none _ x3 (constant (F := Ideal) S2000x1 .f32 0x00000000#32))
    (broadcastTo S2000x1 x4 broadcasts_S1x1_S2000x1) (ix2 p j)) = _
  rw [addf_apply, dot6b_apply, broadcastTo_1b_ab_apply]
  refine congrArg Ideal.logistic (congrArg (· + _) (Finset.sum_congr rfl fun k _ => ?_))
  rw [truncf_apply, maximumf_apply, addf_apply, dot6a_apply, broadcast_apply, broadcastTo_1b_ab_apply]
  show max _ (Ideal.ofBits .f32 0x00000000#32) * _ = _
  rw [Ideal.ofBits_zero_f32]

/-- The same at any index of the block. -/
theorem pay6_at (x0 : Vec Ideal S2000x256 .bf16) (x1 : Vec Ideal S256x128 .bf16) (x2 : Vec Ideal S1x128 .f32)
    (x3 : Vec Ideal S128x1 .bf16) (x4 : Vec Ideal S1x1 .f32) (y : S2000x1.Idx) :
    (k6_pay1 x0 x1 x2 x3 x4 : S2000x1.Idx → EReal) y
      = Ideal.logistic ((∑ k : Fin 128, (max ((∑ q : Fin 256, x0 (ix2 (n0 := 2000) (y 0) q) * x1 (ix2 q k)) + x2 (ix2 0 k)) 0) * x3 (ix2 (n1 := 1) k (y 1))) + x4 (ix2 (n1 := 1) 0 (y 1))) :=
  (congrArg (k6_pay1 x0 x1 x2 x3 x4 : S2000x1.Idx → EReal) (eq_ix2 y)).trans (pay6_apply x0 x1 x2 x3 x4 (y 0) (y 1))

/-! ## The whole-array function -/

/-- Window 0's array as the region finds it, at its shape. -/
abbrev A6_0 (V : (c : Dev nD) → (b : Ref sig .tc) → Buf (Elt Ideal) ((c : Thread nD τ).loc b)) (c : Dev nD) : S50000x256.Idx → EReal := V c (Pipeline.arrRef spec6 0)
/-- Window 1's array as the region finds it, at its shape. -/
abbrev A6_1 (V : (c : Dev nD) → (b : Ref sig .tc) → Buf (Elt Ideal) ((c : Thread nD τ).loc b)) (c : Dev nD) : S256x128.Idx → EReal := V c (Pipeline.arrRef spec6 1)
/-- Window 2's array as the region finds it, at its shape. -/
abbrev A6_2 (V : (c : Dev nD) → (b : Ref sig .tc) → Buf (Elt Ideal) ((c : Thread nD τ).loc b)) (c : Dev nD) : S1x128.Idx → EReal := V c (Pipeline.arrRef spec6 2)
/-- Window 3's array as the region finds it, at its shape. -/
abbrev A6_3 (V : (c : Dev nD) → (b : Ref sig .tc) → Buf (Elt Ideal) ((c : Thread nD τ).loc b)) (c : Dev nD) : S128x1.Idx → EReal := V c (Pipeline.arrRef spec6 3)
/-- Window 4's array as the region finds it, at its shape. -/
abbrev A6_4 (V : (c : Dev nD) → (b : Ref sig .tc) → Buf (Elt Ideal) ((c : Thread nD τ).loc b)) (c : Dev nD) : S1x1.Idx → EReal := V c (Pipeline.arrRef spec6 4)

/-- The node head as one function of the region's five input arrays: at row `r`, the first layer's row against each
    of the 128 columns plus its bias, the positive part, against the second layer's column plus its bias, through the
    logistic. -/
def G6 (A0 : S50000x256.Idx → EReal) (A1 : S256x128.Idx → EReal) (A2 : S1x128.Idx → EReal) (A3 : S128x1.Idx → EReal)
    (A4 : S1x1.Idx → EReal) : S50000x1.Idx → EReal := fun i =>
  Ideal.logistic ((∑ k : Fin 128, (max ((∑ q : Fin 256, A0 (ix2 (n0 := 50000) (i 0) q) * A1 (ix2 q k)) + A2 (ix2 0 k)) 0) * A3 (ix2 (n1 := 1) k (i 1))) + A4 (ix2 (n1 := 1) 0 (i 1)))

/-- `G6` read at an index given by its coordinates. -/
theorem G6_apply (A0 : S50000x256.Idx → EReal) (A1 : S256x128.Idx → EReal) (A2 : S1x128.Idx → EReal) (A3 : S128x1.Idx → EReal)
    (A4 : S1x1.Idx → EReal) (r : Fin 50000) (j : Fin 1) :
    G6 A0 A1 A2 A3 A4 (ix2 r j)
      = Ideal.logistic ((∑ k : Fin 128, (max ((∑ q : Fin 256, A0 (ix2 r q) * A1 (ix2 q k)) + A2 (ix2 0 k)) 0) * A3 (ix2 k j)) + A4 (ix2 0 j)) := rfl

/-! ## The windows' block indices -/

/-- The windows' block indices at every grid point: the row windows (0 and 5) at the point's number, the
    others at block 0. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

theorem hz6 : (![0, 0] : Fin 2 → Nat) = fun _ => 0 := funext fun a => by fin_cases a <;> rfl

/-! ## The input blocks as parts of their arrays -/

/-- Row `p` of window 0's block at point `t` is row `2000 t + p` of its array. -/
theorem iblk6_0_row (V : (c : Dev nD) → (b : Ref sig .tc) → Buf (Elt Ideal) ((c : Thread nD τ).loc b)) (c : Dev nD) (t : Fin cfg6.N) (p : Fin 2000) (q : Fin 256) (r : Fin 50000)
    (hr : r.val = t.val * 2000 + p.val) :
    (iblk6 V c 0 t : S2000x256.Idx → EReal) (ix2 p q) = A6_0 V c (ix2 r q) := by
  obtain ⟨e00, e01, -⟩ := idx_facts6 t
  show A6_0 V c (((cfg6.win 0).blk t).view.emb (ix2 p q)) = _
  refine congrArg (A6_0 V c) (funext fun a => Fin.ext ?_)
  match a with
  | ⟨0, _⟩ => show win6_0.index t (0 : Fin 2) * 2000 + 1 * p.val = r.val; rw [e00, hr]; omega
  | ⟨1, _⟩ => show win6_0.index t (1 : Fin 2) * 256 + 1 * q.val = q.val; rw [e01]; omega

/-- The other input windows hold their whole arrays at every point. -/
theorem iblk6_1_eq (V : (c : Dev nD) → (b : Ref sig .tc) → Buf (Elt Ideal) ((c : Thread nD τ).loc b)) (c : Dev nD) (t : Fin cfg6.N) : (iblk6 V c 1 t : S256x128.Idx → EReal) = A6_1 V c := by
  obtain ⟨-, -, e10, e11, -⟩ := idx_facts6 t
  funext x
  show A6_1 V c (((cfg6.win 1).blk t).view.emb x) = _
  refine congrArg (A6_1 V c) (funext fun a => Fin.ext ?_)
  match a with
  | ⟨0, _⟩ => show win6_1.index t (0 : Fin 2) * 256 + 1 * (x 0).val = (x 0).val; rw [e10]; omega
  | ⟨1, _⟩ => show win6_1.index t (1 : Fin 2) * 128 + 1 * (x 1).val = (x 1).val; rw [e11]; omega
theorem iblk6_2_eq (V : (c : Dev nD) → (b : Ref sig .tc) → Buf (Elt Ideal) ((c : Thread nD τ).loc b)) (c : Dev nD) (t : Fin cfg6.N) : (iblk6 V c 2 t : S1x128.Idx → EReal) = A6_2 V c := by
  obtain ⟨-, -, -, -, e20, e21, -⟩ := idx_facts6 t
  funext x
  show A6_2 V c (((cfg6.win 2).blk t).view.emb x) = _
  refine congrArg (A6_2 V c) (funext fun a => Fin.ext ?_)
  match a with
  | ⟨0, _⟩ => show win6_2.index t (0 : Fin 2) * 1 + 1 * (x 0).val = (x 0).val; rw [e20]; omega
  | ⟨1, _⟩ => show win6_2.index t (1 : Fin 2) * 128 + 1 * (x 1).val = (x 1).val; rw [e21]; omega
theorem iblk6_3_eq (V : (c : Dev nD) → (b : Ref sig .tc) → Buf (Elt Ideal) ((c : Thread nD τ).loc b)) (c : Dev nD) (t : Fin cfg6.N) : (iblk6 V c 3 t : S128x1.Idx → EReal) = A6_3 V c := by
  obtain ⟨-, -, -, -, -, -, e30, e31, -⟩ := idx_facts6 t
  funext x
  show A6_3 V c (((cfg6.win 3).blk t).view.emb x) = _
  refine congrArg (A6_3 V c) (funext fun a => Fin.ext ?_)
  match a with
  | ⟨0, _⟩ => show win6_3.index t (0 : Fin 2) * 128 + 1 * (x 0).val = (x 0).val; rw [e30]; omega
  | ⟨1, _⟩ => show win6_3.index t (1 : Fin 2) * 1 + 1 * (x 1).val = (x 1).val; rw [e31]; omega
theorem iblk6_4_eq (V : (c : Dev nD) → (b : Ref sig .tc) → Buf (Elt Ideal) ((c : Thread nD τ).loc b)) (c : Dev nD) (t : Fin cfg6.N) : (iblk6 V c 4 t : S1x1.Idx → EReal) = A6_4 V c := by
  obtain ⟨-, -, -, -, -, -, -, -, e40, e41, -⟩ := idx_facts6 t
  funext x
  show A6_4 V c (((cfg6.win 4).blk t).view.emb x) = _
  refine congrArg (A6_4 V c) (funext fun a => Fin.ext ?_)
  match a with
  | ⟨0, _⟩ => show win6_4.index t (0 : Fin 2) * 1 + 1 * (x 0).val = (x 0).val; rw [e40]; omega
  | ⟨1, _⟩ => show win6_4.index t (1 : Fin 2) * 1 + 1 * (x 1).val = (x 1).val; rw [e41]; omega

/-- A row of the output's block at point `t` is row `2000 t + p` of its array, at the same column. -/
theorem blk6_5_emb (t : Fin cfg6.N) (y : S2000x1.Idx) :
    (((cfg6.win 5).blk t).view.emb y (0 : Fin 2)).val = t.val * 2000 + (y 0).val
      ∧ (((cfg6.win 5).blk t).view.emb y (1 : Fin 2)).val = (y 1).val := by
  obtain ⟨-, -, -, -, -, -, -, -, -, -, e50, e51⟩ := idx_facts6 t
  constructor
  · show win6_5.index t (0 : Fin 2) * 2000 + 1 * (y 0).val = _; rw [e50]; omega
  · show win6_5.index t (1 : Fin 2) * 1 + 1 * (y 1).val = _; rw [e51]; omega

/-! ## What a grid point writes back -/

/-- Point `t` writes back block `t` of `G6` of the arrays as the region finds them. -/
theorem flushed6_5_eq (V : (c : Dev nD) → (b : Ref sig .tc) → Buf (Elt Ideal) ((c : Thread nD τ).loc b)) (c : Dev nD) (t : Fin cfg6.N) :
    (dat6 (F := Ideal) V c).flushed 5 t = ((cfg6.win 5).blk t).view.read (Elt Ideal)
      (G6 (A6_0 V c) (A6_1 V c) (A6_2 V c) (A6_3 V c) (A6_4 V c)) := by
  show (cfg6.win 5).cut (cfg6.grid.coords t) ((dat6 V c).after 5 t) = _
  rw [after6_5]
  unfold out6_5
  rw [View.canon_unit_zero hz6]
  simp only [View.ld_unit_zero (S := S2000x256) hz6, View.ld_unit_zero (S := S256x128) hz6, View.ld_unit_zero (S := S1x128) hz6,
    View.ld_unit_zero (S := S128x1) hz6, View.ld_unit_zero (S := S1x1) hz6]
  funext y
  show (k6_pay1 (iblk6 V c 0 t) (iblk6 V c 1 t) (iblk6 V c 2 t) (iblk6 V c 3 t) (iblk6 V c 4 t) : S2000x1.Idx → EReal) y
    = G6 (A6_0 V c) (A6_1 V c) (A6_2 V c) (A6_3 V c) (A6_4 V c) (((cfg6.win 5).blk t).view.emb y)
  rw [pay6_at, iblk6_1_eq, iblk6_2_eq, iblk6_3_eq, iblk6_4_eq]
  obtain ⟨h0, h1⟩ := blk6_5_emb t y
  have H0 : ∀ q : Fin 256, (iblk6 V c 0 t : S2000x256.Idx → EReal) (ix2 (n0 := 2000) (y 0) q)
      = A6_0 V c (ix2 (n0 := 50000) (((cfg6.win 5).blk t).view.emb y 0) q) := fun q => iblk6_0_row V c t _ q _ h0
  have H1 : (((cfg6.win 5).blk t).view.emb y 1 : Fin 1) = y 1 := Fin.ext h1
  simp only [H0]
  unfold G6
  rw [H1]

/-! ## The blocks cover the array -/

/-- An index of the array is in point `t`'s block iff each coordinate is in the block's range on its axis. -/
theorem mem_blk6_5 (t : Fin cfg6.N) (i : S50000x1.Idx) :
    i ∈ ((cfg6.win 5).blk t).view.set ↔ ∀ a : Fin 2, win6_5.index t a * S2000x1.size a ≤ (i a).val ∧ (i a).val < win6_5.index t a * S2000x1.size a + S2000x1.size a := by
  show i ∈ ((View.whole main_v95).slice (win6_5.rect t)).set ↔ _
  rw [View.set_slice_whole, Rect.mem_set_unit]
  exact Iff.rfl

/-- Row `r` is in the block of point `r / 2000`. -/
theorem covered6_5 (i : S50000x1.Idx) : ∃ t : Fin cfg6.N, (cfg6.win 5).flush t = true ∧ i ∈ ((cfg6.win 5).blk t).view.set := by
  have hi0 : (i 0).val < 50000 := (i 0).isLt
  have hi1 : (i 1).val < 1 := (i 1).isLt
  have hN : cfg6.N = 25 := N_6
  have ht : (i 0).val / 2000 < cfg6.N := by rw [hN]; omega
  obtain ⟨e00, e01, e10, e11, e20, e21, e30, e31, e40, e41, e50, e51⟩ := idx_facts6 ⟨(i 0).val / 2000, ht⟩
  refine ⟨⟨(i 0).val / 2000, ht⟩, flush6_5 _, ?_⟩
  rw [mem_blk6_5]
  intro a
  match a with
  | ⟨0, _⟩ =>
    show win6_5.index ⟨(i 0).val / 2000, ht⟩ (0 : Fin 2) * 2000 ≤ (i 0).val ∧ (i 0).val < win6_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win6_5.index ⟨(i 0).val / 2000, ht⟩ (1 : Fin 2) * 1 ≤ (i 1).val ∧ (i 1).val < win6_5.index ⟨(i 0).val / 2000, ht⟩ (1 : Fin 2) * 1 + 1
    rw [e51]; omega

/-! ## The array after the region -/

/-- The output array after the region is `G6` of the input arrays as the region finds them. -/
theorem final6_5 (V : (c : Dev nD) → (b : Ref sig .tc) → Buf (Elt Ideal) ((c : Thread nD τ).loc b)) (c : Dev nD) :
    (dat6 (F := Ideal) V c).arrAt 5 cfg6.N
      = G6 (A6_0 V c) (A6_1 V c) (A6_2 V c) (A6_3 V c) (A6_4 V c) :=
  (dat6 (F := Ideal) V c).arrAt_eq_of_cover 5 _ (fun t _ => flushed6_5_eq V c t) covered6_5

/-- Index by index, over the input arrays named at their shapes: row `r` of the output is the logistic of the second
    layer's sum over the 128 hidden units, each the positive part of the first layer's sum over the 256 features plus
    its bias, plus the second bias. -/
theorem final6_5_apply_of (V : (c : Dev nD) → (b : Ref sig .tc) → Buf (Elt Ideal) ((c : Thread nD τ).loc b)) (c : Dev nD) (r : Fin 50000) (j : Fin 1)
    (A0 : S50000x256.Idx → EReal) (A1 : S256x128.Idx → EReal) (A2 : S1x128.Idx → EReal) (A3 : S128x1.Idx → EReal) (A4 : S1x1.Idx → EReal)
    (h0 : (V c (Pipeline.arrRef spec6 0) : S50000x256.Idx → EReal) = A0) (h1 : (V c (Pipeline.arrRef spec6 1) : S256x128.Idx → EReal) = A1)
    (h2 : (V c (Pipeline.arrRef spec6 2) : S1x128.Idx → EReal) = A2) (h3 : (V c (Pipeline.arrRef spec6 3) : S128x1.Idx → EReal) = A3)
    (h4 : (V c (Pipeline.arrRef spec6 4) : S1x1.Idx → EReal) = A4) :
    ((dat6 (F := Ideal) V c).arrAt 5 cfg6.N : S50000x1.Idx → EReal) (ix2 r j)
      = Ideal.logistic ((∑ k : Fin 128, (max ((∑ q : Fin 256, A0 (ix2 r q) * A1 (ix2 q k)) + A2 (ix2 0 k)) 0) * A3 (ix2 k j)) + A4 (ix2 0 j)) := by
  subst h0 h1 h2 h3 h4
  exact (congrFun (final6_5 V c) (ix2 r j)).trans (G6_apply _ _ _ _ _ r j)

/-- The same at the arrays themselves. -/
theorem final6_5_apply (V : (c : Dev nD) → (b : Ref sig .tc) → Buf (Elt Ideal) ((c : Thread nD τ).loc b)) (c : Dev nD) (r : Fin 50000) (j : Fin 1) :
    type_of% (final6_5_apply_of V c r j _ _ _ _ _ rfl rfl rfl rfl rfl) :=
  final6_5_apply_of V c r j _ _ _ _ _ rfl rfl rfl rfl rfl

end Cert.KernelIdeal.Hand

end
-- ==== Proof.KI.Net5.lean ====
import proofs.«159550_j10136122819017_2_alg».proof.Proof.KI.Fold
import proofs.«159550_j10136122819017_2_alg».proof.Proof.KI.NetInputs
import proofs.«159550_j10136122819017_2_alg».proof.Proof.KI.NetCarry
import proofs.«159550_j10136122819017_2_alg».proof.Proof.KI.Val6
import proofs.«159550_j10136122819017_2_alg».proof.Proof.Spec.Defs
import proofs.«159550_j10136122819017_2_alg».proof.Proof.Spec.Index
import proofs.«159550_j10136122819017_2_alg».proof.Proof.Spec.Consts
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

/-! # The node head: host stretch 6 and region 6 compute the specification's `permOf`

Host stretch 6 puts the node head's two weight matrices into the narrower format (the same extended reals) and its two
biases into one-row matrices; region 6's first window is the third layer's features in the narrower format, made by
host stretch 5 and untouched since. Region 6's output read at a row is then the specification's node head there. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.StableHlo
open Idealize.ShloMosaic.Pipeline (Dat)
open Idealize.ShloMosaic.ValueIdx

/-! ## Host stretches 5 and 6 read at an index, over any buffer contents -/

section Stretch
variable (V : Valuation τ sig (Elt Ideal))

/-- The node features in the narrower format: the same extended reals. -/
theorem n5_host5_v68 (r : Fin 50000) (q : Fin 256) :
    (StableHlo.after hostOps5 V (Proc.devRef .tc main_v68) : S50000x256.Idx → EReal) (ix2 r q)
      = (V (Proc.devRef .tc main_v67) : S50000x256.Idx → EReal) (ix2 r q) := by
  after_results_simp
  rfl

/-- The node head's first matrix in the narrower format. -/
theorem n5_host6_v91 (q : Fin 256) (k : Fin 128) :
    (StableHlo.after hostOps6 V (Proc.devRef .tc main_v91) : S256x128.Idx → EReal) (ix2 q k)
      = (V (Proc.devRef .tc main_arg10) : S256x128.Idx → EReal) (ix2 q k) := by
  after_results
  rfl

/-- The node head's second matrix in the narrower format. -/
theorem n5_host6_v92 (k : Fin 128) (j : Fin 1) :
    (StableHlo.after hostOps6 V (Proc.devRef .tc main_v92) : S128x1.Idx → EReal) (ix2 k j)
      = (V (Proc.devRef .tc main_arg12) : S128x1.Idx → EReal) (ix2 k j) := by
  after_results
  rfl

/-- The node head's first bias as a one-row matrix. -/
theorem n5_host6_v93 (k : Fin 128) :
    (StableHlo.after hostOps6 V (Proc.devRef .tc main_v93) : S1x128.Idx → EReal) (ix2 0 k)
      = (V (Proc.devRef .tc main_arg11) : S128.Idx → EReal) (ix1 k) := by
  after_results
  exact Cert.Spec.shapeCast_vec_to_row_apply _ _ _

/-- The node head's second bias as a one-row matrix. -/
theorem n5_host6_v94 (j : Fin 1) :
    (StableHlo.after hostOps6 V (Proc.devRef .tc main_v94) : S1x1.Idx → EReal) (ix2 0 j)
      = (V (Proc.devRef .tc main_arg13) : S1.Idx → EReal) (ix1 j) := by
  after_results
  exact Cert.Spec.shapeCast_vec_to_row_apply _ _ _

end Stretch

/-! ## Region 6's input arrays as the region finds them -/

variable (m : (ℓ : Loc nD τ sig) → Buf (Elt Ideal) ℓ) (ρ : Dev nD → PrngReg) (c : Dev nD)

/-- A buffer nothing touches up to region 5's exit is as launched. -/
theorem n5_carry12_arg (r : Ref sig .tc) (h0 : r ∉ hostOps0_W) (a0 : ∀ w, Pipeline.arrRef spec0 w ≠ r) (h1 : r ∉ hostOps1_W) (a1 : ∀ w, Pipeline.arrRef spec1 w ≠ r) (h2 : r ∉ hostOps2_W) (a2 : ∀ w, Pipeline.arrRef spec2 w ≠ r) (h3 : r ∉ hostOps3_W) (a3 : ∀ w, Pipeline.arrRef spec3 w ≠ r) (h4 : r ∉ hostOps4_W) (a4 : ∀ w, Pipeline.arrRef spec4 w ≠ r) (h5 : r ∉ hostOps5_W) (a5 : ∀ w, Pipeline.arrRef spec5 w ≠ r) :
    W12 m ρ c (Proc.devRef .tc r) = m ((c : Thread nD τ).loc r) :=
  (W12_of_ne m ρ c r a5).trans (carry11_arg m ρ c r h0 a0 h1 a1 h2 a2 h3 a3 h4 a4 h5)

/-- The third layer's features as host stretches 5 and 6 and region 5 leave them. -/
abbrev N5H3 : Prop := ∀ (r : Fin 50000) (j : Fin 256),
  (W10 m ρ c (Proc.devRef .tc main_v67) : S50000x256.Idx → EReal) (ix2 r j) = Cert.Spec.h3 (inputsK m c) r j

/-- Window 0: the third layer's features. -/
theorem n5_entry6_0 (hh3 : N5H3 m ρ c) (r : Fin 50000) (q : Fin 256) :
    (W13 m ρ c (Proc.devRef .tc main_v68) : S50000x256.Idx → EReal) (ix2 r q) = Cert.Spec.h3 (inputsK m c) r q :=
  (congrFun (step13 m ρ c main_v68 (by decide) (by decide)) (ix2 r q)).trans
    ((n5_host5_v68 (W10 m ρ c) r q).trans (hh3 r q))

/-- Window 1: the node head's first matrix. -/
theorem n5_entry6_1 (q : Fin 256) (k : Fin 128) :
    (W13 m ρ c (Proc.devRef .tc main_v91) : S256x128.Idx → EReal) (ix2 q k) = (inputsK m c).Wp1 (ix2 q k) :=
  (n5_host6_v91 (W12 m ρ c) q k).trans
    (congrFun (n5_carry12_arg m ρ c main_arg10 (by decide) (by decide) (by decide) (by decide) (by decide) (by decide) (by decide) (by decide) (by decide) (by decide) (by decide) (by decide)) (ix2 q k))

/-- Window 2: the node head's first bias. -/
theorem n5_entry6_2 (k : Fin 128) :
    (W13 m ρ c (Proc.devRef .tc main_v93) : S1x128.Idx → EReal) (ix2 0 k) = (inputsK m c).bp1 (ix1 k) :=
  (n5_host6_v93 (W12 m ρ c) k).trans
    (congrFun (n5_carry12_arg m ρ c main_arg11 (by decide) (by decide) (by decide) (by decide) (by decide) (by decide) (by decide) (by decide) (by decide) (by decide) (by decide) (by decide)) (ix1 k))

/-- Window 3: the node head's second matrix. -/
theorem n5_entry6_3 (k : Fin 128) (j : Fin 1) :
    (W13 m ρ c (Proc.devRef .tc main_v92) : S128x1.Idx → EReal) (ix2 k j) = (inputsK m c).Wp2 (ix2 k j) :=
  (n5_host6_v92 (W12 m ρ c) k j).trans
    (congrFun (n5_carry12_arg m ρ c main_arg12 (by decide) (by decide) (by decide) (by decide) (by decide) (by decide) (by decide) (by decide) (by decide) (by decide) (by decide) (by decide)) (ix2 k j))

/-- Window 4: the node head's second bias. -/
theorem n5_entry6_4 (j : Fin 1) :
    (W13 m ρ c (Proc.devRef .tc main_v94) : S1x1.Idx → EReal) (ix2 0 j) = (inputsK m c).bp2 (ix1 j) :=
  (n5_host6_v94 (W12 m ρ c) j).trans
    (congrFun (n5_carry12_arg m ρ c main_arg13 (by decide) (by decide) (by decide) (by decide) (by decide) (by decide) (by decide) (by decide) (by decide) (by decide) (by decide) (by decide)) (ix1 j))

/-! ## The same as equations between whole arrays -/

theorem n5_arr6_0 (hh3 : N5H3 m ρ c) :
    @Eq (S50000x256.Idx → EReal) (B13 m ρ c (Pipeline.arrRef spec6 0)) (fun i => Cert.Spec.h3 (inputsK m c) (i 0) (i 1)) :=
  funext fun i => by
    obtain ⟨a, b, rfl⟩ : ∃ (a : Fin 50000) (b : Fin 256), i = ix2 a b := ⟨i 0, i 1, eq_ix2 i⟩
    exact n5_entry6_0 m ρ c hh3 a b
theorem n5_arr6_1 : @Eq (S256x128.Idx → EReal) (B13 m ρ c (Pipeline.arrRef spec6 1)) (inputsK m c).Wp1 :=
  funext fun i => by
    obtain ⟨a, b, rfl⟩ : ∃ (a : Fin 256) (b : Fin 128), i = ix2 a b := ⟨i 0, i 1, eq_ix2 i⟩
    exact n5_entry6_1 m ρ c a b
theorem n5_arr6_2 : @Eq (S1x128.Idx → EReal) (B13 m ρ c (Pipeline.arrRef spec6 2)) (fun i => (inputsK m c).bp1 (ix1 (i 1))) :=
  funext fun i => by
    obtain ⟨a, b, rfl⟩ : ∃ (a : Fin 1) (b : Fin 128), i = ix2 a b := ⟨i 0, i 1, eq_ix2 i⟩
    obtain rfl : a = 0 := Subsingleton.elim _ _
    exact n5_entry6_2 m ρ c b
theorem n5_arr6_3 : @Eq (S128x1.Idx → EReal) (B13 m ρ c (Pipeline.arrRef spec6 3)) (inputsK m c).Wp2 :=
  funext fun i => by
    obtain ⟨a, b, rfl⟩ : ∃ (a : Fin 128) (b : Fin 1), i = ix2 a b := ⟨i 0, i 1, eq_ix2 i⟩
    exact n5_entry6_3 m ρ c a b
theorem n5_arr6_4 : @Eq (S1x1.Idx → EReal) (B13 m ρ c (Pipeline.arrRef spec6 4)) (fun i => (inputsK m c).bp2 (ix1 (i 1))) :=
  funext fun i => by
    obtain ⟨a, b, rfl⟩ : ∃ (a : Fin 1) (b : Fin 1), i = ix2 a b := ⟨i 0, i 1, eq_ix2 i⟩
    obtain rfl : a = 0 := Subsingleton.elim _ _
    exact n5_entry6_4 m ρ c b

/-! ## The node head -/

set_option maxHeartbeats 400000 in
/-- Region 6's output at row `r` is the specification's node head of the third layer's features there. -/
theorem net_perm_of (hh3 : N5H3 m ρ c) (r : Fin 50000) :
    (W14 m ρ c (Proc.devRef .tc main_v95) : S50000x1.Idx → EReal) (ix2 r 0)
      = Cert.Spec.permOf (inputsK m c) (Cert.Spec.h3 (inputsK m c)) r := by
  refine (congrFun (W14_arr m ρ c 5) (ix2 r 0)).trans ?_
  refine (final6_5_apply_of (B13 m ρ) c r 0
    (fun i => Cert.Spec.h3 (inputsK m c) (i 0) (i 1)) (inputsK m c).Wp1 (fun i => (inputsK m c).bp1 (ix1 (i 1))) (inputsK m c).Wp2 (fun i => (inputsK m c).bp2 (ix1 (i 1)))
    (n5_arr6_0 m ρ c hh3) (n5_arr6_1 m ρ c) (n5_arr6_2 m ρ c) (n5_arr6_3 m ρ c) (n5_arr6_4 m ρ c)).trans ?_
  unfold Cert.Spec.permOf Cert.Spec.permPre
  rfl

end Cert.KernelIdeal.Hand

end
-- ==== Proof.KI.Net6.lean ====
import proofs.«159550_j10136122819017_2_alg».proof.Proof.KI.Fold
import proofs.«159550_j10136122819017_2_alg».proof.Proof.KI.NetInputs
import proofs.«159550_j10136122819017_2_alg».proof.Proof.KI.NetCarry
import proofs.«159550_j10136122819017_2_alg».proof.Proof.KI.Net5
import proofs.«159550_j10136122819017_2_alg».proof.Proof.Spec.Defs
import proofs.«159550_j10136122819017_2_alg».proof.Proof.Spec.Index
import proofs.«159550_j10136122819017_2_alg».proof.Proof.Spec.Consts
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

/-! # What the program ends with: the three layers stacked, and the three results carried to the end

Host stretch 7 gives each layer's features a leading unit axis and stacks the three along it; nothing after their
regions writes the third layer's features, the edge head's output or the node head's output. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.StableHlo
open Idealize.ShloMosaic.Pipeline (Dat)
open Idealize.ShloMosaic.ValueIdx

/-! ## Three arrays stacked along a new leading axis -/

section Stack
variable {α : Type}

/-- Three [1,50000,256] arrays stacked along the leading axis, read in layer 0, 1, 2: the first, second, third array. -/
theorem n6_stack3_at0 (u0 u1 u2 : S1x50000x256.Idx → α) (r : Fin 50000) (j : Fin 256) :
    concatenate S3x50000x256 0 [⟨S1x50000x256, u0⟩, ⟨S1x50000x256, u1⟩, ⟨S1x50000x256, u2⟩] concatenates_S1x50000x256_S1x50000x256_S1x50000x256_S3x50000x256_d0 (ix3 0 r j)
      = u0 (ix3 0 r j) :=
  concatenate_apply_piece (t := S3x50000x256) 0 [⟨S1x50000x256, u0⟩, ⟨S1x50000x256, u1⟩, ⟨S1x50000x256, u2⟩] concatenates_S1x50000x256_S1x50000x256_S1x50000x256_S3x50000x256_d0 (ix3 0 r j) 0 (show 0 < 3 by decide) S1x50000x256 u0 rfl rfl 0 rfl (ix3 0 r j)
    (fun b hb => by match b with
      | ⟨0, _⟩ => exact absurd rfl hb
      | ⟨1, _⟩ => rfl
      | ⟨2, _⟩ => rfl) rfl
theorem n6_stack3_at1 (u0 u1 u2 : S1x50000x256.Idx → α) (r : Fin 50000) (j : Fin 256) :
    concatenate S3x50000x256 0 [⟨S1x50000x256, u0⟩, ⟨S1x50000x256, u1⟩, ⟨S1x50000x256, u2⟩] concatenates_S1x50000x256_S1x50000x256_S1x50000x256_S3x50000x256_d0 (ix3 1 r j)
      = u1 (ix3 0 r j) :=
  concatenate_apply_piece (t := S3x50000x256) 0 [⟨S1x50000x256, u0⟩, ⟨S1x50000x256, u1⟩, ⟨S1x50000x256, u2⟩] concatenates_S1x50000x256_S1x50000x256_S1x50000x256_S3x50000x256_d0 (ix3 1 r j) 1 (show 1 < 3 by decide) S1x50000x256 u1 rfl rfl 1 rfl (ix3 0 r j)
    (fun b hb => by match b with
      | ⟨0, _⟩ => exact absurd rfl hb
      | ⟨1, _⟩ => rfl
      | ⟨2, _⟩ => rfl) rfl
theorem n6_stack3_at2 (u0 u1 u2 : S1x50000x256.Idx → α) (r : Fin 50000) (j : Fin 256) :
    concatenate S3x50000x256 0 [⟨S1x50000x256, u0⟩, ⟨S1x50000x256, u1⟩, ⟨S1x50000x256, u2⟩] concatenates_S1x50000x256_S1x50000x256_S1x50000x256_S3x50000x256_d0 (ix3 2 r j)
      = u2 (ix3 0 r j) :=
  concatenate_apply_piece (t := S3x50000x256) 0 [⟨S1x50000x256, u0⟩, ⟨S1x50000x256, u1⟩, ⟨S1x50000x256, u2⟩] concatenates_S1x50000x256_S1x50000x256_S1x50000x256_S3x50000x256_d0 (ix3 2 r j) 2 (show 2 < 3 by decide) S1x50000x256 u2 rfl rfl 2 rfl (ix3 0 r j)
    (fun b hb => by match b with
      | ⟨0, _⟩ => exact absurd rfl hb
      | ⟨1, _⟩ => rfl
      | ⟨2, _⟩ => rfl) rfl

/-- A [50000,256] array given a leading unit axis reads the array. -/
theorem n6_lead_axis_apply (x : S50000x256.Idx → α) (r : Fin 50000) (j : Fin 256) :
    broadcastInDim S1x50000x256 ![1, 2] bcast_S50000x256_S1x50000x256_1_2 x (ix3 0 r j) = x (ix2 r j) :=
  broadcastInDim_apply _ bcast_S50000x256_S1x50000x256_1_2 x (ix3 0 r j) (ix2 r j) (fun a => match a with
    | ⟨0, _⟩ => by show r.val = if (50000 : Nat) = 1 then 0 else r.val; rw [if_neg (by decide)]
    | ⟨1, _⟩ => by show j.val = if (256 : Nat) = 1 then 0 else j.val; rw [if_neg (by decide)])

end Stack

/-! ## Host stretch 7 read at an index, over any buffer contents -/

section Stretch
variable (V : Valuation τ sig (Elt Ideal))

/-- The stack's layers are the three layers' features. -/
theorem n6_host7_v99_0 (r : Fin 50000) (j : Fin 256) :
    (StableHlo.after hostOps7 V (Proc.devRef .tc main_v99) : S3x50000x256.Idx → EReal) (ix3 0 r j)
      = (V (Proc.devRef .tc main_v37_0) : S50000x256.Idx → EReal) (ix2 r j) := by
  after_results
  refine (n6_stack3_at0 _ _ _ r j).trans ?_
  change (_ : Valuation τ sig (Elt Ideal)) (Proc.devRef .tc main_v96) (ix3 0 r j) = _
  repeat (first | rw [unary_result] | (rw [unary_result_ne]; rotate_left; decide))
  exact n6_lead_axis_apply _ r j
theorem n6_host7_v99_1 (r : Fin 50000) (j : Fin 256) :
    (StableHlo.after hostOps7 V (Proc.devRef .tc main_v99) : S3x50000x256.Idx → EReal) (ix3 1 r j)
      = (V (Proc.devRef .tc main_v53_0) : S50000x256.Idx → EReal) (ix2 r j) := by
  after_results
  refine (n6_stack3_at1 _ _ _ r j).trans ?_
  change (_ : Valuation τ sig (Elt Ideal)) (Proc.devRef .tc main_v97) (ix3 0 r j) = _
  repeat (first | rw [unary_result] | (rw [unary_result_ne]; rotate_left; decide))
  exact n6_lead_axis_apply _ r j
theorem n6_host7_v99_2 (r : Fin 50000) (j : Fin 256) :
    (StableHlo.after hostOps7 V (Proc.devRef .tc main_v99) : S3x50000x256.Idx → EReal) (ix3 2 r j)
      = (V (Proc.devRef .tc main_v67) : S50000x256.Idx → EReal) (ix2 r j) := by
  after_results
  refine (n6_stack3_at2 _ _ _ r j).trans ?_
  change (_ : Valuation τ sig (Elt Ideal)) (Proc.devRef .tc main_v98) (ix3 0 r j) = _
  repeat (first | rw [unary_result] | (rw [unary_result_ne]; rotate_left; decide))
  exact n6_lead_axis_apply _ r j

end Stretch

/-! ## The results carried to the end -/

variable (m : (ℓ : Loc nD τ sig) → Buf (Elt Ideal) ℓ) (ρ : Dev nD → PrngReg) (c : Dev nD)

/-- The first layer's features, made by region 2, are untouched up to region 6's exit. -/
theorem n6_carry14_v37_0 : W14 m ρ c (Proc.devRef .tc main_v37_0) = W6 m ρ c (Proc.devRef .tc main_v37_0) :=
  (W14_of_ne m ρ c main_v37_0 (by decide)).trans <|
  (step13 m ρ c main_v37_0 (by decide) (by decide)).trans <|
  (step11 m ρ c main_v37_0 (by decide) (by decide)).trans <|
  (step9 m ρ c main_v37_0 (by decide) (by decide)).trans <|
  (W7_of m ρ c main_v37_0 (by decide))

/-- The second layer's features, made by region 3, are untouched up to region 6's exit. -/
theorem n6_carry14_v53_0 : W14 m ρ c (Proc.devRef .tc main_v53_0) = W8 m ρ c (Proc.devRef .tc main_v53_0) :=
  (W14_of_ne m ρ c main_v53_0 (by decide)).trans <|
  (step13 m ρ c main_v53_0 (by decide) (by decide)).trans <|
  (step11 m ρ c main_v53_0 (by decide) (by decide)).trans <|
  (W9_of m ρ c main_v53_0 (by decide))

/-- The third layer's features, made by region 4, are untouched up to region 6's exit. -/
theorem n6_carry14_v67 : W14 m ρ c (Proc.devRef .tc main_v67) = W10 m ρ c (Proc.devRef .tc main_v67) :=
  (W14_of_ne m ρ c main_v67 (by decide)).trans <|
  (step13 m ρ c main_v67 (by decide) (by decide)).trans <|
  (W11_of m ρ c main_v67 (by decide))

/-- The edge head's output, made by region 5, is untouched up to region 6's exit. -/
theorem n6_carry14_v90 : W14 m ρ c (Proc.devRef .tc main_v90) = W12 m ρ c (Proc.devRef .tc main_v90) :=
  (W14_of_ne m ρ c main_v90 (by decide)).trans (W13_of m ρ c main_v90 (by decide))

/-! ## What the program ends with, from each part's own statement -/

/-- The three layers' features where their regions leave them, the edge head's output where region 5 leaves it. -/
abbrev N6H1 : Prop := ∀ (r : Fin 50000) (j : Fin 256),
  (W6 m ρ c (Proc.devRef .tc main_v37_0) : S50000x256.Idx → EReal) (ix2 r j) = Cert.Spec.h1 (inputsK m c) r j
abbrev N6H2 : Prop := ∀ (r : Fin 50000) (j : Fin 256),
  (W8 m ρ c (Proc.devRef .tc main_v53_0) : S50000x256.Idx → EReal) (ix2 r j) = Cert.Spec.h2 (inputsK m c) r j
abbrev N6Hier : Prop := ∀ (e : Fin 400000) (j : Fin 3),
  (W12 m ρ c (Proc.devRef .tc main_v90) : S400000x3.Idx → EReal) (ix2 e j) = Cert.Spec.hierOf (inputsK m c) (Cert.Spec.h3 (inputsK m c)) e j
abbrev N6Perm : Prop := ∀ r : Fin 50000,
  (W14 m ρ c (Proc.devRef .tc main_v95) : S50000x1.Idx → EReal) (ix2 r 0) = Cert.Spec.permOf (inputsK m c) (Cert.Spec.h3 (inputsK m c)) r

/-- The stacked features: layer `l` of the stack is the `l`-th layer's features. -/
theorem net_stack_of (hh1 : N6H1 m ρ c) (hh2 : N6H2 m ρ c) (hh3 : N5H3 m ρ c) (l : Fin 3) (r : Fin 50000) (j : Fin 256) :
    (W15 m ρ c (Proc.devRef .tc main_v99) : S3x50000x256.Idx → EReal) (ix3 l r j)
      = (match l with | ⟨0, _⟩ => Cert.Spec.h1 (inputsK m c) | ⟨1, _⟩ => Cert.Spec.h2 (inputsK m c) | ⟨2, _⟩ => Cert.Spec.h3 (inputsK m c)) r j :=
  match l with
  | ⟨0, _⟩ => (n6_host7_v99_0 (W14 m ρ c) r j).trans ((congrFun (n6_carry14_v37_0 m ρ c) (ix2 r j)).trans (hh1 r j))
  | ⟨1, _⟩ => (n6_host7_v99_1 (W14 m ρ c) r j).trans ((congrFun (n6_carry14_v53_0 m ρ c) (ix2 r j)).trans (hh2 r j))
  | ⟨2, _⟩ => (n6_host7_v99_2 (W14 m ρ c) r j).trans ((congrFun (n6_carry14_v67 m ρ c) (ix2 r j)).trans (hh3 r j))

/-- The third layer's features at the end. -/
theorem end_h_of (hh3 : N5H3 m ρ c) (r : Fin 50000) (j : Fin 256) :
    (W15 m ρ c (Proc.devRef .tc main_v67) : S50000x256.Idx → EReal) (ix2 r j) = Cert.Spec.h3 (inputsK m c) r j :=
  (congrFun ((W15_of m ρ c main_v67 (by decide)).trans (n6_carry14_v67 m ρ c)) (ix2 r j)).trans (hh3 r j)

/-- The edge head's output at the end. -/
theorem end_hier_of (hhier : N6Hier m ρ c) (e : Fin 400000) (j : Fin 3) :
    (W15 m ρ c (Proc.devRef .tc main_v90) : S400000x3.Idx → EReal) (ix2 e j)
      = Cert.Spec.hierOf (inputsK m c) (Cert.Spec.h3 (inputsK m c)) e j :=
  (congrFun ((W15_of m ρ c main_v90 (by decide)).trans (n6_carry14_v90 m ρ c)) (ix2 e j)).trans (hhier e j)

/-- The node head's output at the end. -/
theorem end_perm_of (hperm : N6Perm m ρ c) (r : Fin 50000) :
    (W15 m ρ c (Proc.devRef .tc main_v95) : S50000x1.Idx → EReal) (ix2 r 0)
      = Cert.Spec.permOf (inputsK m c) (Cert.Spec.h3 (inputsK m c)) r :=
  (congrFun (W15_of m ρ c main_v95 (by decide)) (ix2 r 0)).trans (hperm r)

end Cert.KernelIdeal.Hand

end
-- ==== Proof.Spec.Algebra.lean ====
/-
  The edgewise spelling of the network equals the factored one.

  The extended edge list is the 400000 edges followed by one loop per node. Among the loops exactly the loop of `v`
  lands on `v` (a node number below 50000, written as a 32-bit word and read signed, is itself), so a sum over the
  extended positions landing on `v` is the sum over the edges landing on `v` plus the loop's term. The degree counted
  over the extended list is therefore the in-degree plus one, the normaliser is the same in both spellings, and it is
  a non-negative real: the reciprocal square root of a natural number that is at least one. An edge landing on `v`
  gathers row `v` at its destination, so every edgewise summand is `nrm v` times the pre-scaled row of the source;
  multiplication by a non-negative real distributes over sums of extended reals, which pulls `nrm v` out of the sum.
  Nothing is assumed finite.
-/
import proofs.«159550_j10136122819017_2_alg».proof.Proof.Spec.Defs

noncomputable section

namespace Cert.Spec

open Idealize.ShloMosaic Idealize.ShloMosaic.ValueIdx

/-! ### The two readings of an in-range word -/

/-- A small natural number, as a 32-bit word read signed, is itself. -/
theorem toInt_ofNat_small (k : Nat) (hk : k < 50000) : (BitVec.ofNat 32 k).toInt = (k : Int) := by
  have hn : (BitVec.ofNat 32 k).toNat = k := by
    rw [BitVec.toNat_ofNat]; omega
  rw [BitVec.toInt_eq_toNat_of_lt (by rw [hn]; omega), hn]

/-- The word of node `k` scatters to row `k`. -/
theorem tgtOf_ofNat_loop (k : Fin 50000) : tgtOf (BitVec.ofNat 32 k.val) = some k := by
  have h := toInt_ofNat_small k.val k.isLt
  unfold tgtOf
  rw [dif_pos (by rw [h]; omega)]
  congr 1
  apply Fin.ext
  simp [h]

/-- A word that is non-negative and below the node count, read signed, gathers its own row. -/
theorem rowOf_val_of_nonneg (b : BitVec 32) (h0 : 0 ≤ b.toInt) (h1 : b.toInt < 50000) :
    (rowOf b).val = b.toInt.toNat := by
  have hneg : ¬ (b.toInt < 0) := by omega
  have hs : IntOp.cmpi .slt b 0#32 = 0#1 := by
    simp [IntOp.cmpi, BitVec.slt, hneg]
  unfold rowOf
  simp only [hs, Scalar.select]
  simp
  omega

/-- A word whose update lands on row `v` gathers row `v`. -/
theorem rowOf_of_tgtOf {b : BitVec 32} {v : Fin 50000} (h : tgtOf b = some v) : rowOf b = v := by
  unfold tgtOf at h
  split at h
  · rename_i hb
    have hv := Option.some.inj h
    apply Fin.ext
    rw [rowOf_val_of_nonneg b hb.1 hb.2, ← hv]
  · cases h

theorem rowOf_ofNat_loop (k : Fin 50000) : rowOf (BitVec.ofNat 32 k.val) = k :=
  rowOf_of_tgtOf (tgtOf_ofNat_loop k)

/-! ### Splitting the extended edge list into the edges and the loops -/

/-- A sum over the 450000 extended positions is the sum over the 400000 edge positions plus the sum over the 50000
loop positions. -/
theorem sum_ext_split {M : Type} [AddCommMonoid M] (f : Fin 450000 → M) :
    ∑ e : Fin 450000, f e
      = (∑ e : Fin 400000, f ⟨e.val, by omega⟩) + ∑ k : Fin 50000, f ⟨400000 + k.val, by omega⟩ :=
  Fin.sum_univ_add (a := 400000) (b := 50000) f

section
variable (EI : Edges)

theorem srcR_edge (e : Fin 400000) : srcR EI ⟨e.val, by omega⟩ = src EI e := by
  unfold srcR; exact dif_pos e.isLt
theorem dstR_edge (e : Fin 400000) : dstR EI ⟨e.val, by omega⟩ = dst EI e := by
  unfold dstR; exact dif_pos e.isLt
theorem srcR_loop (k : Fin 50000) : srcR EI ⟨400000 + k.val, by omega⟩ = BitVec.ofNat 32 k.val := by
  unfold srcR
  rw [dif_neg (by simp)]
  show BitVec.ofNat 32 (400000 + k.val - 400000) = _
  rw [Nat.add_sub_cancel_left]
theorem dstR_loop (k : Fin 50000) : dstR EI ⟨400000 + k.val, by omega⟩ = BitVec.ofNat 32 k.val := by
  unfold dstR
  rw [dif_neg (by simp)]
  show BitVec.ofNat 32 (400000 + k.val - 400000) = _
  rw [Nat.add_sub_cancel_left]

/-- A sum over the extended positions landing on `v` is the sum over the edges landing on `v` plus the term of
`v`'s own loop: among the loops exactly the one of `v` lands on `v`. -/
theorem sum_inER {M : Type} [AddCommMonoid M] (v : Fin 50000) (f : Fin 450000 → M) :
    ∑ e ∈ inER EI v, f e = (∑ e ∈ inE EI v, f ⟨e.val, by omega⟩) + f ⟨400000 + v.val, by omega⟩ := by
  have h1 : (∑ e : Fin 400000, if tgtOf (dstR EI ⟨e.val, by omega⟩) = some v then f ⟨e.val, by omega⟩ else 0)
      = ∑ e : Fin 400000, if tgtOf (dst EI e) = some v then f ⟨e.val, by omega⟩ else 0 :=
    Finset.sum_congr rfl fun e _ => by rw [dstR_edge]
  have h2 : (∑ k : Fin 50000, if tgtOf (dstR EI ⟨400000 + k.val, by omega⟩) = some v
        then f ⟨400000 + k.val, by omega⟩ else 0) = f ⟨400000 + v.val, by omega⟩ := by
    rw [Finset.sum_eq_single v]
    · rw [if_pos (by rw [dstR_loop, tgtOf_ofNat_loop])]
    · intro k _ hk
      rw [if_neg]
      rw [dstR_loop, tgtOf_ofNat_loop]
      intro h
      exact hk (Option.some.inj h)
    · intro h
      exact absurd (Finset.mem_univ v) h
  unfold inER inE
  rw [Finset.sum_filter, sum_ext_split, h1, h2, Finset.sum_filter]

theorem degR_eq (v : Fin 50000) : degR EI v = deg EI v := by
  unfold degR deg
  exact sum_inER EI v fun _ => (1 : EReal)

theorem nrmR_eq (v : Fin 50000) : nrmR EI v = nrm EI v := by
  unfold nrmR nrm
  rw [degR_eq]
end

/-! ### The normaliser is a non-negative real -/

section
variable (EI : Edges)

/-- The degree is a natural number plus one. -/
theorem deg_eq_natCast (v : Fin 50000) : deg EI v = (((inE EI v).card + 1 : ℕ) : ℝ) := by
  unfold deg
  rw [Finset.sum_const, nsmul_one]
  push_cast
  rfl

theorem nrm_nonneg_real (v : Fin 50000) : ∃ x : ℝ, 0 ≤ x ∧ nrm EI v = (x : EReal) := by
  have hpos : (0 : ℝ) < (((inE EI v).card + 1 : ℕ) : ℝ) := by exact_mod_cast Nat.succ_pos _
  have hone : (1 : ℝ) ≤ (((inE EI v).card + 1 : ℕ) : ℝ) := by exact_mod_cast Nat.succ_le_succ (Nat.zero_le _)
  refine ⟨(Real.sqrt (((inE EI v).card + 1 : ℕ) : ℝ))⁻¹, inv_nonneg.mpr (Real.sqrt_nonneg _), ?_⟩
  unfold nrm
  rw [deg_eq_natCast, max_eq_left (by rw [← EReal.coe_one]; exact EReal.coe_le_coe_iff.mpr hone), Ideal.rsqrt_coe,
    if_neg (not_lt.mpr hpos.le), if_neg hpos.ne']
end

/-! ### Pulling a non-negative real out of a sum -/

/-- Multiplication by a non-negative real distributes over a finite sum of extended reals. -/
theorem coe_mul_finset_sum {ι : Type} (s : Finset ι) (x : ℝ) (hx : 0 ≤ x) (g : ι → EReal) :
    (x : EReal) * ∑ i ∈ s, g i = ∑ i ∈ s, (x : EReal) * g i := by
  classical
  induction s using Finset.induction_on with
  | empty => simp
  | insert a s ha ih =>
    rw [Finset.sum_insert ha, Finset.sum_insert ha,
      EReal.left_distrib_of_nonneg_of_ne_top (EReal.coe_nonneg.mpr hx) (EReal.coe_ne_top x), ih]

/-! ### One layer -/

section
variable (EI : Edges)

theorem layerR_eq (h : Fin 50000 → Fin 256 → EReal) (W : Fin 256 → Fin 256 → EReal) (b : Fin 256 → EReal)
    (v : Fin 50000) (j : Fin 256) : layerR EI h W b v j = layer EI h W b v j := by
  obtain ⟨x, hx0, hx⟩ := nrm_nonneg_real EI v
  -- every edgewise summand of an edge landing on `v` is `nrm v` times the pre-scaled source row
  have hedge : ∀ e ∈ inE EI v,
      (∑ k : Fin 256, h (rowOf (srcR EI ⟨e.val, by omega⟩)) k * W k j)
          * (nrm EI (rowOf (srcR EI ⟨e.val, by omega⟩)) * nrm EI (rowOf (dstR EI ⟨e.val, by omega⟩)))
        = nrm EI v * hn EI h W (rowOf (src EI e)) j := by
    intro e he
    have hd : rowOf (dst EI e) = v := rowOf_of_tgtOf (Finset.mem_filter.mp he).2
    rw [srcR_edge, dstR_edge, hd]
    unfold hn
    rw [← mul_assoc, mul_comm]
  -- so is the summand of the loop of `v`
  have hloop :
      (∑ k : Fin 256, h (rowOf (srcR EI ⟨400000 + v.val, by omega⟩)) k * W k j)
          * (nrm EI (rowOf (srcR EI ⟨400000 + v.val, by omega⟩)) * nrm EI (rowOf (dstR EI ⟨400000 + v.val, by omega⟩)))
        = nrm EI v * hn EI h W v j := by
    rw [srcR_loop, dstR_loop, rowOf_ofNat_loop]
    unfold hn
    rw [← mul_assoc, mul_comm]
  unfold layerR layer agg
  simp only [nrmR_eq]
  rw [sum_inER, Finset.sum_congr rfl hedge, hloop, hx,
    EReal.left_distrib_of_nonneg_of_ne_top (EReal.coe_nonneg.mpr hx0) (EReal.coe_ne_top x),
    coe_mul_finset_sum _ x hx0]
end

/-! ### The three layers -/

section
variable (I : Inputs)

theorem h1R_eq : h1R I = h1 I := by
  unfold h1R h1
  funext v j
  exact layerR_eq I.EI _ _ _ v j

theorem h2R_eq : h2R I = h2 I := by
  unfold h2R h2
  rw [h1R_eq]
  funext v j
  exact layerR_eq I.EI _ _ _ v j

theorem h3R_eq : h3R I = h3 I := by
  unfold h3R h3
  rw [h2R_eq]
  funext v j
  exact layerR_eq I.EI _ _ _ v j

/-! ### The edge head: a contraction over 512 columns is two contractions over 256 -/

/-- A sum over 512 positions is the sum over the first 256 plus the sum over the last 256. -/
theorem sum_512_split {M : Type} [AddCommMonoid M] (f : Fin 512 → M) :
    ∑ q : Fin 512, f q = (∑ q : Fin 256, f ⟨q.val, by omega⟩) + ∑ q : Fin 256, f ⟨256 + q.val, by omega⟩ :=
  Fin.sum_univ_add (a := 256) (b := 256) f

theorem hierOfR_eq (h : Fin 50000 → Fin 256 → EReal) (e : Fin 400000) (j : Fin 3) :
    hierOfR I h e j = hierOf I h e j := by
  have key : ∀ k : Fin 256,
      (∑ q : Fin 512, (if hq : q.val < 256 then h (rowOf (src I.EI e)) ⟨q.val, hq⟩
          else h (rowOf (dst I.EI e)) ⟨q.val - 256, by omega⟩) * I.Wh1 (ix2 q k))
        = (∑ q : Fin 256, h (rowOf (src I.EI e)) q * I.Wh1 (ix2 ⟨q.val, by omega⟩ k))
          + ∑ q : Fin 256, h (rowOf (dst I.EI e)) q * I.Wh1 (ix2 ⟨256 + q.val, by omega⟩ k) := by
    intro k
    rw [sum_512_split]
    refine congrArg₂ (· + ·) (Finset.sum_congr rfl fun q _ => ?_) (Finset.sum_congr rfl fun q _ => ?_)
    · rw [dif_pos q.isLt]
    · rw [dif_neg (by show ¬ (256 + q.val < 256); omega)]
      simp only [Nat.add_sub_cancel_left, Fin.eta]
  unfold hierOfR hierOf
  simp only [key]

/-! ### The node head -/

theorem permOfR_eq (h : Fin 50000 → Fin 256 → EReal) (r : Fin 50000) : permOfR I h r = permOf I h r := by
  unfold permOfR permOf Ideal.logistic
  rfl
end

end Cert.Spec

end
-- ==== Proof.Ref.Results.lean ====
/-
  The reference's four results as whole arrays, each a function of the fourteen inputs alone, in the edgewise
  spelling of the specification: the last layer, the edge head and the node head read off the last layer, and the
  three layers stacked along a leading axis.
-/
import proofs.«159550_j10136122819017_2_alg».proof.Proof.Spec.Defs

noncomputable section

namespace Cert.RefHand

open Idealize.ShloMosaic Idealize.ShloMosaic.ValueIdx

/-- Layer `l` of the three, edgewise. -/
def layerSel (I : Cert.Spec.Inputs) (l : Fin 3) : Fin 50000 → Fin 256 → EReal :=
  match l with
  | ⟨0, _⟩ => Cert.Spec.h1R I
  | ⟨1, _⟩ => Cert.Spec.h2R I
  | ⟨2, _⟩ => Cert.Spec.h3R I

/-- The node features after the third layer. -/
def G149 (I : Cert.Spec.Inputs) : Cert.Spec.Mat 50000 256 := fun i => Cert.Spec.h3R I (i 0) (i 1)
/-- The edge head over the third layer. -/
def G173 (I : Cert.Spec.Inputs) : Cert.Spec.Mat 400000 3 := fun i => Cert.Spec.hierOfR I (Cert.Spec.h3R I) (i 0) (i 1)
/-- The node head over the third layer. -/
def G188 (I : Cert.Spec.Inputs) : Cert.Spec.Mat 50000 1 := fun i => Cert.Spec.permOfR I (Cert.Spec.h3R I) (i 0)
/-- The three layers stacked. -/
def G192 (I : Cert.Spec.Inputs) : Cert.Spec.Ten 3 50000 256 := fun i => layerSel I (i 0) (i 1) (i 2)

theorem G149_apply (I : Cert.Spec.Inputs) (r : Fin 50000) (j : Fin 256) : G149 I (ix2 r j) = Cert.Spec.h3R I r j := rfl
theorem G173_apply (I : Cert.Spec.Inputs) (e : Fin 400000) (j : Fin 3) :
    G173 I (ix2 e j) = Cert.Spec.hierOfR I (Cert.Spec.h3R I) e j := rfl
theorem G188_apply (I : Cert.Spec.Inputs) (r : Fin 50000) (j : Fin 1) :
    G188 I (ix2 r j) = Cert.Spec.permOfR I (Cert.Spec.h3R I) r := rfl
theorem G192_apply (I : Cert.Spec.Inputs) (l : Fin 3) (r : Fin 50000) (j : Fin 256) :
    G192 I (ix3 l r j) = layerSel I l r j := rfl

end Cert.RefHand

end
-- ==== Proof.KI.KernelRun.lean ====
/-
  The kernel's run in the specification's words. The program ends with every buffer at the fold of its contents;
  at the four result buffers that fold, read index by index, is the factored spelling of the network (the last
  layer, the edge head, the node head, the three layers stacked), which equals the edgewise spelling because the
  normalisation is a non-negative real. So the four results end at the whole-array functions G149, G173, G188, G192
  of the inputs read off the launch memory, and the fourteen arguments end as launched.
-/
import proofs.«159550_j10136122819017_2_alg».proof.Proof.Gen.KernelIdeal.Launch
import proofs.«159550_j10136122819017_2_alg».proof.Proof.Gen.KernelIdeal.Skeleton
import proofs.«159550_j10136122819017_2_alg».proof.Proof.Gen.KernelIdeal.Points
import proofs.«159550_j10136122819017_2_alg».proof.Proof.Gen.KernelIdeal.Regions
import proofs.«159550_j10136122819017_2_alg».proof.Proof.KI.Run
import proofs.«159550_j10136122819017_2_alg».proof.Proof.KI.Frame
import proofs.«159550_j10136122819017_2_alg».proof.Proof.KI.NetInputs
import proofs.«159550_j10136122819017_2_alg».proof.Proof.Spec.Algebra
import proofs.«159550_j10136122819017_2_alg».proof.Proof.Ref.Results
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- The four results index by index, in the factored spelling: what the chain of regions and host stretches gives. -/
structure EndReads : Prop where
  end_h : ∀ (c : Dev nD) (r : Fin 50000) (j : Fin 256),
    (W15 m ρ c (Proc.devRef .tc main_v67) : S50000x256.Idx → EReal) (ix2 r j) = Cert.Spec.h3 (inputsK m c) r j
  end_hier : ∀ (c : Dev nD) (e : Fin 400000) (j : Fin 3),
    (W15 m ρ c (Proc.devRef .tc main_v90) : S400000x3.Idx → EReal) (ix2 e j)
      = Cert.Spec.hierOf (inputsK m c) (Cert.Spec.h3 (inputsK m c)) e j
  end_perm : ∀ (c : Dev nD) (r : Fin 50000),
    (W15 m ρ c (Proc.devRef .tc main_v95) : S50000x1.Idx → EReal) (ix2 r 0)
      = Cert.Spec.permOf (inputsK m c) (Cert.Spec.h3 (inputsK m c)) r
  net_stack : ∀ (c : Dev nD) (l : Fin 3) (r : Fin 50000) (j : Fin 256),
    (W15 m ρ c (Proc.devRef .tc main_v99) : S3x50000x256.Idx → EReal) (ix3 l r j)
      = (match l with
          | ⟨0, _⟩ => Cert.Spec.h1 (inputsK m c)
          | ⟨1, _⟩ => Cert.Spec.h2 (inputsK m c)
          | ⟨2, _⟩ => Cert.Spec.h3 (inputsK m c)) r j

variable {m ρ}

/-- The last layer's buffer is the edgewise last layer of the inputs. -/
theorem whole_h (H : EndReads m ρ) (c : Dev nD) :
    (W15 m ρ c (Proc.devRef .tc main_v67) : S50000x256.Idx → EReal) = Cert.RefHand.G149 (inputsK m c) :=
  funext fun (i : S50000x256.Idx) =>
    ((congrArg (W15 m ρ c (Proc.devRef .tc main_v67) : S50000x256.Idx → EReal) (eq_ix2 i)).trans (H.end_h c (i 0) (i 1))).trans
      (congrFun (congrFun (Cert.Spec.h3R_eq (inputsK m c)) (i 0)) (i 1)).symm

/-- The edge head's buffer is the edgewise edge head over the edgewise last layer. -/
theorem whole_hier (H : EndReads m ρ) (c : Dev nD) :
    (W15 m ρ c (Proc.devRef .tc main_v90) : S400000x3.Idx → EReal) = Cert.RefHand.G173 (inputsK m c) :=
  funext fun (i : S400000x3.Idx) =>
    ((congrArg (W15 m ρ c (Proc.devRef .tc main_v90) : S400000x3.Idx → EReal) (eq_ix2 i)).trans (H.end_hier c (i 0) (i 1))).trans
      (((Cert.Spec.hierOfR_eq (inputsK m c) (Cert.Spec.h3R (inputsK m c)) (i 0) (i 1)).trans
        (congrArg (fun h => Cert.Spec.hierOf (inputsK m c) h (i 0) (i 1)) (Cert.Spec.h3R_eq (inputsK m c)))).symm)

/-- The node head's buffer is the edgewise node head over the edgewise last layer. -/
theorem whole_perm (H : EndReads m ρ) (c : Dev nD) :
    (W15 m ρ c (Proc.devRef .tc main_v95) : S50000x1.Idx → EReal) = Cert.RefHand.G188 (inputsK m c) :=
  funext fun (i : S50000x1.Idx) =>
    have hi : i = ix2 (i 0) 0 :=
      (eq_ix2 i).trans (congrArg (ix2 (i 0)) (Fin.ext (by have h : (i 1).val < 1 := (i 1).isLt; show (i 1).val = 0; omega)))
    ((congrArg (W15 m ρ c (Proc.devRef .tc main_v95) : S50000x1.Idx → EReal) hi).trans (H.end_perm c (i 0))).trans
      (((Cert.Spec.permOfR_eq (inputsK m c) (Cert.Spec.h3R (inputsK m c)) (i 0)).trans
        (congrArg (fun h => Cert.Spec.permOf (inputsK m c) h (i 0)) (Cert.Spec.h3R_eq (inputsK m c)))).symm)

/-- The edgewise layers are the factored ones, layer by layer. -/
theorem layerSel_eq (I : Cert.Spec.Inputs) (l : Fin 3) :
    Cert.RefHand.layerSel I l = (match l with
      | ⟨0, _⟩ => Cert.Spec.h1 I
      | ⟨1, _⟩ => Cert.Spec.h2 I
      | ⟨2, _⟩ => Cert.Spec.h3 I) := by
  match l with
  | ⟨0, _⟩ => exact Cert.Spec.h1R_eq I
  | ⟨1, _⟩ => exact Cert.Spec.h2R_eq I
  | ⟨2, _⟩ => exact Cert.Spec.h3R_eq I

/-- The stack's buffer is the three edgewise layers stacked. -/
theorem whole_stack (H : EndReads m ρ) (c : Dev nD) :
    (W15 m ρ c (Proc.devRef .tc main_v99) : S3x50000x256.Idx → EReal) = Cert.RefHand.G192 (inputsK m c) :=
  funext fun (i : S3x50000x256.Idx) =>
    ((congrArg (W15 m ρ c (Proc.devRef .tc main_v99) : S3x50000x256.Idx → EReal) (eq_ix3 i)).trans
      (H.net_stack c (i 0) (i 1) (i 2))).trans
      (congrFun (congrFun (layerSel_eq (inputsK m c) (i 0)) (i 1)) (i 2)).symm

/-- The kernel's run, given the four results' reads: every weakly fair execution terminates with the results at the
    whole-array functions of the launch memory's inputs and the arguments as launched. -/
theorem kernel_run_of (H : EndReads m ρ) :
    θ_run (defs (F := Ideal)) (onTc (τ := τ) (main (F := Ideal))) ⟨m, fun _ => 0, ρ⟩ (fun r => ∀ c : Dev nD,
      r.2.mem ((c.tc : Thread nD τ).loc main_v67) = Cert.RefHand.G149 (inputsK m c)
      ∧ r.2.mem ((c.tc : Thread nD τ).loc main_v90) = Cert.RefHand.G173 (inputsK m c)
      ∧ r.2.mem ((c.tc : Thread nD τ).loc main_v95) = Cert.RefHand.G188 (inputsK m c)
      ∧ r.2.mem ((c.tc : Thread nD τ).loc main_v99) = Cert.RefHand.G192 (inputsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v67 (by decide))).trans (whole_h H c),
      (h c _ (mem_uc main_v90 (by decide))).trans (whole_hier H c),
      (h c _ (mem_uc main_v95 (by decide))).trans (whole_perm H c),
      (h c _ (mem_uc main_v99 (by decide))).trans (whole_stack H c),
      (h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c),
      (h c _ (mem_uc main_arg9 (by decide))).trans (W15_main_arg9 m ρ c),
      (h c _ (mem_uc main_arg10 (by decide))).trans (W15_main_arg10 m ρ c),
      (h c _ (mem_uc main_arg11 (by decide))).trans (W15_main_arg11 m ρ c),
      (h c _ (mem_uc main_arg12 (by decide))).trans (W15_main_arg12 m ρ c),
      (h c _ (mem_uc main_arg13 (by decide))).trans (W15_main_arg13 m ρ c)⟩)
    (run_all m ρ)

end Cert.KernelIdeal.Hand

end
-- ==== Proof.KI.NetAll.lean ====
import proofs.«159550_j10136122819017_2_alg».proof.Proof.KI.Net0
import proofs.«159550_j10136122819017_2_alg».proof.Proof.KI.Net1
import proofs.«159550_j10136122819017_2_alg».proof.Proof.KI.Net2
import proofs.«159550_j10136122819017_2_alg».proof.Proof.KI.Net3
import proofs.«159550_j10136122819017_2_alg».proof.Proof.KI.Net4
import proofs.«159550_j10136122819017_2_alg».proof.Proof.KI.Net5
import proofs.«159550_j10136122819017_2_alg».proof.Proof.KI.Net6
import proofs.«159550_j10136122819017_2_alg».proof.Proof.KI.KernelRun
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem

/-! # The chain closed: the program's results in the specification's words

  Each part of the program was read from what the parts before it leave. Chained from the launch memory, the readings
  need no hypothesis: layer 3 from layer 2's pre-scaled linear output, the two heads from layer 3, the stack from the
  three layers, and all of them carried to the end. -/

variable (m : (ℓ : Loc nD τ sig) → Buf (Elt Ideal) ℓ) (ρ : Dev nD → PrngReg)

/-- Layer 3's output after region 4. -/
theorem net_h3 (c : Dev nD) (r : Fin 50000) (j : Fin 256) :
    (W10 m ρ c (Proc.devRef .tc main_v67) : S50000x256.Idx → EReal) (ix2 r j) = Cert.Spec.h3 (inputsK m c) r j :=
  net_h3_of m ρ c (net_hn2 m ρ c) r j

/-- The neighbour sum of layer 2's pre-scaled linear output after host stretch 4. -/
theorem net_agg2 (c : Dev nD) (v : Fin 50000) (j : Fin 256) :
    (W9 m ρ c (Proc.devRef .tc main_v63) : S50000x256.Idx → EReal) (ix2 v j)
      = Cert.Spec.agg (inputsK m c).EI (Cert.Spec.hn (inputsK m c).EI (Cert.Spec.h2 (inputsK m c)) (Cert.Spec.WgAt (inputsK m c) 2)) v j :=
  net_agg2_of m ρ c (net_hn2 m ρ c) v j

/-- The edge head's output after region 5. -/
theorem net_hier (c : Dev nD) (e : Fin 400000) (j : Fin 3) :
    (W12 m ρ c (Proc.devRef .tc main_v90) : S400000x3.Idx → EReal) (ix2 e j)
      = Cert.Spec.hierOf (inputsK m c) (Cert.Spec.h3 (inputsK m c)) e j :=
  net_hier_of m ρ c (net_src m ρ c) (net_dst m ρ c) (net_h3 m ρ c) e j

/-- The node head's output after region 6. -/
theorem net_perm (c : Dev nD) (r : Fin 50000) :
    (W14 m ρ c (Proc.devRef .tc main_v95) : S50000x1.Idx → EReal) (ix2 r 0)
      = Cert.Spec.permOf (inputsK m c) (Cert.Spec.h3 (inputsK m c)) r :=
  net_perm_of m ρ c (net_h3 m ρ c) r

/-- What the program ends with, index by index: the last layer, the edge head, the node head, the three layers stacked. -/
theorem endReads : EndReads m ρ where
  end_h := fun c r j => end_h_of m ρ c (net_h3 m ρ c) r j
  end_hier := fun c e j => end_hier_of m ρ c (net_hier m ρ c) e j
  end_perm := fun c r => end_perm_of m ρ c (net_perm m ρ c) r
  net_stack := fun c l r j => net_stack_of m ρ c (net_h1 m ρ c) (net_h2 m ρ c) (net_h3 m ρ c) l r j

/-- THE KERNEL'S RUN: every weakly fair execution from a launch memory with zero counters terminates with the four result
    buffers at the specification's whole-array functions of the inputs read off the launch memory, and the fourteen
    arguments as launched. -/
theorem kernel_run : type_of% (kernel_run_of (endReads m ρ)) :=
  kernel_run_of (endReads m ρ)

end Cert.KernelIdeal.Hand

end
-- ==== Proof.Ref.Ops.lean ====
/-
  The index-dependent operations of the reference at the program's shapes, each read at an index: a gather reads the
  row a raw word names after clamping, a scatter-add sums the updates whose word is the row, a concatenation reads
  the piece its coordinate falls in. Also: equality of indices coordinate by coordinate, and the word a gather
  reads after a negative word has been shifted by the node count.
-/
import proofs.«159550_j10136122819017_2_alg».proof.Proof.Gen.ReferenceIdeal.Read
import proofs.«159550_j10136122819017_2_alg».proof.Proof.Spec.Defs
import proofs.«159550_j10136122819017_2_alg».proof.Proof.Spec.Index
import proofs.«159550_j10136122819017_2_alg».proof.Proof.Spec.Consts
import Idealize.ShloMosaic.Lib.Pipeline.Value
import Idealize.ShloMosaic.Lib.ValueIdx
import Idealize.ShloMosaic.PureOps.Ideal.Laws

noncomputable section

namespace Cert.RefHand

open Cert.ReferenceIdeal Cert.ReferenceIdeal.Gen Cert.ReferenceIdeal.Read Idealize.ShloMosaic Idealize.ShloMosaic.TcCoe
  Idealize.ShloMosaic.ValueIdx Idealize.ShloMosaic.StableHlo

theorem idx1_ext {n : Nat} (i j : (⟨1, ![n]⟩ : Shape).Idx) (h0 : (i 0).val = (j 0).val) : i = j :=
  funext fun a => Fin.ext (by match a with | ⟨0, _⟩ => exact h0)
theorem idx2_ext {n0 n1 : Nat} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)
theorem idx3_ext {n0 n1 n2 : Nat} (i j : (⟨3, ![n0, n1, n2]⟩ : Shape).Idx) (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- A raw word read signed and clamped into the rows: the row a gather reads. -/
def clampRow (b : BitVec 32) : Fin 50000 := ⟨min b.toInt.toNat 49999, by omega⟩

section Ops
variable {α : Type}

theorem gathFlat (x : S50000.Idx → α) (idx : S450000x1.Idx → BitVec 32) (e : Fin 450000) :
    Host.gather gather_S50000_S450000x1_S450000_n_0_n_n_0_1_1 x idx (ix1 e) = x (ix1 (clampRow (idx (ix2 e 0)))) :=
  Cert.Spec.gather_flat_apply gather_S50000_S450000x1_S450000_n_0_n_n_0_1_1 rfl rfl rfl rfl rfl rfl rfl x idx e

theorem gathRows (x : S50000x256.Idx → α) (idx : S450000x1.Idx → BitVec 32) (e : Fin 450000) (j : Fin 256) :
    Host.gather gather_S50000x256_S450000x1_S450000x256_1_0_n_n_0_1_1256 x idx (ix2 e j)
      = x (ix2 (clampRow (idx (ix2 e 0))) j) :=
  Cert.Spec.gather_rows_apply gather_S50000x256_S450000x1_S450000x256_1_0_n_n_0_1_1256 rfl rfl rfl rfl rfl rfl rfl x idx e j

theorem gathRows4 (x : S50000x256.Idx → α) (idx : S400000x1.Idx → BitVec 32) (e : Fin 400000) (j : Fin 256) :
    Host.gather gather_S50000x256_S400000x1_S400000x256_1_0_n_n_0_1_1256 x idx (ix2 e j)
      = x (ix2 (clampRow (idx (ix2 e 0))) j) :=
  Cert.Spec.gather_rows_apply gather_S50000x256_S400000x1_S400000x256_1_0_n_n_0_1_1256 rfl rfl rfl rfl rfl rfl rfl x idx e j

theorem scatFlat (x : S50000.Idx → EReal) (idx : S450000x1.Idx → BitVec 32) (upd : S450000.Idx → EReal) (v : Fin 50000) :
    Host.scatterAdd (F := Ideal) (φ := .f32) scatter_S50000_S450000x1_S450000_n_0_0_1 x idx upd (ix1 v)
      = x (ix1 v) + ∑ e ∈ Finset.univ.filter (fun e : Fin 450000 => Cert.Spec.tgtOf (idx (ix2 e 0)) = some v), upd (ix1 e) :=
  Cert.Spec.scatterAdd_flat_apply (φ := .f32) scatter_S50000_S450000x1_S450000_n_0_0_1 rfl rfl rfl rfl x idx upd v

theorem scatRows (x : S50000x256.Idx → EReal) (idx : S450000x1.Idx → BitVec 32) (upd : S450000x256.Idx → EReal)
    (v : Fin 50000) (j : Fin 256) :
    Host.scatterAdd (F := Ideal) (φ := .f32) scatter_S50000x256_S450000x1_S450000x256_1_0_0_1 x idx upd (ix2 v j)
      = x (ix2 v j) + ∑ e ∈ Finset.univ.filter (fun e : Fin 450000 => Cert.Spec.tgtOf (idx (ix2 e 0)) = some v), upd (ix2 e j) :=
  Cert.Spec.scatterAdd_rows_apply (φ := .f32) scatter_S50000x256_S450000x1_S450000x256_1_0_0_1 rfl rfl rfl rfl x idx upd v j

end Ops

/-- The word a gather reads after the program's normalisation of a raw word: a negative word shifted by the node count. -/
def normWord (b : BitVec 32) : BitVec 32 := Scalar.select (IntOp.cmpi .slt b 0#32) (IntOp.addi b 50000#32) b

theorem rowOf_normWord (b : BitVec 32) : clampRow (normWord b) = Cert.Spec.rowOf b := rfl

/-- A list of 400000 words followed by 50000 words, read at a position. -/
theorem concat_idx (a : S400000.Idx → BitVec 32) (b : S50000.Idx → BitVec 32) (e : Fin 450000) :
    concatenate S450000 0 [⟨S400000, a⟩, ⟨S50000, b⟩] concatenates_S400000_S50000_S450000_d0 (ix1 e)
      = if h : e.val < 400000 then a (ix1 ⟨e.val, h⟩) else b (ix1 ⟨e.val - 400000, by omega⟩) := by
  split
  · next h =>
    exact concatenate_pair_apply_left 0 a b _ (ix1 e) rfl (ix1 ⟨e.val, h⟩) (fun b => by match b with | ⟨0, _⟩ => rfl)
  · next h =>
    exact concatenate_pair_apply_right 0 a b _ (ix1 e) rfl rfl (ix1 ⟨e.val - 400000, by omega⟩)
      (fun b hb => by match b with | ⟨0, _⟩ => exact absurd rfl hb)
      (by show (e.val - 400000) + 400000 = e.val; omega)

/-- Two 256-column matrices side by side, read at a position. -/
theorem concat_cols {α : Type} (a b : S400000x256.Idx → α) (e : Fin 400000) (q : Fin 512) :
    concatenate S400000x512 1 [⟨S400000x256, a⟩, ⟨S400000x256, b⟩] concatenates_S400000x256_S400000x256_S400000x512_d1 (ix2 e q)
      = if h : q.val < 256 then a (ix2 e ⟨q.val, h⟩) else b (ix2 e ⟨q.val - 256, by omega⟩) := by
  split
  · next h =>
    exact concatenate_pair_apply_left 1 a b _ (ix2 e q) rfl (ix2 e ⟨q.val, h⟩)
      (fun b => by match b with | ⟨0, _⟩ => rfl | ⟨1, _⟩ => rfl)
  · next h =>
    exact concatenate_pair_apply_right 1 a b _ (ix2 e q) rfl rfl (ix2 e ⟨q.val - 256, by omega⟩)
      (fun b hb => by match b with | ⟨0, _⟩ => rfl | ⟨1, _⟩ => exact absurd rfl hb)
      (by show (q.val - 256) + 256 = q.val; omega)

/-- Three arrays stacked along a new leading axis, read at an index: the array the leading coordinate names. -/
theorem stack3_apply {α : Type} (a b c : S1x50000x256.Idx → α)
    (h : Shape.Concatenates [S1x50000x256, S1x50000x256, S1x50000x256] S3x50000x256 0) (l : Fin 3) (r : Fin 50000) (j : Fin 256) :
    concatenate S3x50000x256 0 [⟨S1x50000x256, a⟩, ⟨S1x50000x256, b⟩, ⟨S1x50000x256, c⟩] h (ix3 l r j)
      = (match l with | ⟨0, _⟩ => a | ⟨1, _⟩ => b | ⟨2, _⟩ => c) (ix3 0 r j) := by
  have hi : ∀ (l : Fin 3) (b' : Fin S1x50000x256.rank), b'.cast (rfl : S1x50000x256.rank = S3x50000x256.rank) ≠ (0 : Fin S3x50000x256.rank) →
      ((ix3 (0 : Fin 1) r j : S1x50000x256.Idx) b').val = ((ix3 l r j : S3x50000x256.Idx) (b'.cast rfl)).val := fun l b' hb => by
    match b' with
    | ⟨0, _⟩ => exact absurd rfl hb
    | ⟨1, _⟩ => rfl
    | ⟨2, _⟩ => rfl
  match l with
  | ⟨0, _⟩ =>
    exact concatenate_apply_piece (t := S3x50000x256) 0 [⟨S1x50000x256, a⟩, ⟨S1x50000x256, b⟩, ⟨S1x50000x256, c⟩] h (ix3 ⟨0, by omega⟩ r j)
      0 (by show 0 < 3; omega) S1x50000x256 a rfl rfl 0 rfl (ix3 0 r j) (hi _) rfl
  | ⟨1, _⟩ =>
    exact concatenate_apply_piece (t := S3x50000x256) 0 [⟨S1x50000x256, a⟩, ⟨S1x50000x256, b⟩, ⟨S1x50000x256, c⟩] h (ix3 ⟨1, by omega⟩ r j)
      1 (by show 1 < 3; omega) S1x50000x256 b rfl rfl 1 rfl (ix3 0 r j) (hi _) rfl
  | ⟨2, _⟩ =>
    exact concatenate_apply_piece (t := S3x50000x256) 0 [⟨S1x50000x256, a⟩, ⟨S1x50000x256, b⟩, ⟨S1x50000x256, c⟩] h (ix3 ⟨2, by omega⟩ r j)
      2 (by show 2 < 3; omega) S1x50000x256 c rfl rfl 2 rfl (ix3 0 r j) (hi _) rfl

end Cert.RefHand

end
-- ==== Proof.Ref.Edges.lean ====
/-
  The buffers of one layer that depend on the edge list alone: the extended source and destination lists (the
  edges, then one self loop per node), the degree as a scatter-add of ones, its reciprocal square root, and the
  coefficient of every entry of the extended list, the product of the two gathered normalisations.
-/
import proofs.«159550_j10136122819017_2_alg».proof.Proof.Ref.Ops

noncomputable section

namespace Cert.RefHand

open Cert.ReferenceIdeal Cert.ReferenceIdeal.Gen Cert.ReferenceIdeal.Read Idealize.ShloMosaic Idealize.ShloMosaic.TcCoe
  Idealize.ShloMosaic.ValueIdx Idealize.ShloMosaic.StableHlo

variable (x1 : (⟨S2x400000, .i32⟩ : BufTy).Contents (Elt Ideal))

theorem v1_apply (e : Fin 400000) : val_main_v1 (F := Ideal) x1 (ix1 e) = Cert.Spec.src x1 e := by
  rw [val_main_v1_apply, val_main_v0_apply]
  exact congrArg x1 (idx2_ext _ _ rfl (by show e.val % 400000 = e.val; exact Nat.mod_eq_of_lt e.isLt))

theorem v3_apply (e : Fin 400000) : val_main_v3 (F := Ideal) x1 (ix1 e) = Cert.Spec.dst x1 e := by
  rw [val_main_v3_apply, val_main_v2_apply]
  exact congrArg x1 (idx2_ext _ _ rfl (by show e.val % 400000 = e.val; exact Nat.mod_eq_of_lt e.isLt))

theorem v15_apply (e : Fin 450000) : val_main_v15 (F := Ideal) x1 (ix1 e) = Cert.Spec.srcR x1 e := by
  unfold val_main_v15 Cert.Spec.srcR
  rw [concat_idx]
  split
  · next h => exact v1_apply x1 ⟨e.val, h⟩
  · rfl

theorem v16_apply (e : Fin 450000) : val_main_v16 (F := Ideal) x1 (ix1 e) = Cert.Spec.dstR x1 e := by
  unfold val_main_v16 Cert.Spec.dstR
  rw [concat_idx]
  split
  · next h => exact v3_apply x1 ⟨e.val, h⟩
  · rfl

/-! ## The buffers that depend on the edge list alone -/

theorem v19_apply (e : Fin 450000) : val_main_v19 (F := Ideal) x1 (ix2 e 0) = Cert.Spec.dstR x1 e := by
  rw [val_main_v19_apply, ← v16_apply]
  exact congrArg _ (idx1_ext _ _ rfl)

theorem v17_apply (i : S450000.Idx) : val_main_v17 (F := Ideal) i = 1 := by
  rw [val_main_v17_apply, val_main_cst_apply]; exact Cert.Spec.ofBits_one_f32

theorem v18_apply (i : S50000.Idx) : val_main_v18 (F := Ideal) i = 0 := by
  rw [val_main_v18_apply, val_main_cst_0_apply]; exact Ideal.ofBits_zero_f32

theorem v20_apply (v : Fin 50000) : val_main_v20 (F := Ideal) x1 (ix1 v) = Cert.Spec.degR x1 v := by
  unfold val_main_v20
  rw [scatFlat, v18_apply, zero_add]
  unfold Cert.Spec.degR Cert.Spec.inER
  simp only [v19_apply, v17_apply]

theorem v21_apply (i : S50000.Idx) : val_main_v21 (F := Ideal) i = 1 := by
  rw [val_main_v21_apply, val_main_cst_1_apply]; exact Cert.Spec.ofBits_one_f32

theorem v23_apply (v : Fin 50000) : val_main_v23 (F := Ideal) x1 (ix1 v) = Cert.Spec.nrmR x1 v := by
  rw [val_main_v23_apply, val_main_v22_apply, v20_apply, v21_apply, Ideal.hostUnary_rsqrt_def, Ideal.maximumf_def]
  unfold Cert.Spec.nrmR
  rfl

theorem v28_apply (e : Fin 450000) : val_main_v28 (F := Ideal) x1 (ix1 e) = normWord (Cert.Spec.srcR x1 e) := by
  rw [val_main_v28_apply, val_main_v25_apply, val_main_v27_apply, val_main_v24_apply, val_main_c_apply,
    val_main_v26_apply, val_main_c_2_apply, v15_apply]
  rfl

theorem v29_apply (e : Fin 450000) : val_main_v29 (F := Ideal) x1 (ix2 e 0) = normWord (Cert.Spec.srcR x1 e) := by
  rw [val_main_v29_apply, ← v28_apply]
  exact congrArg _ (idx1_ext _ _ rfl)

theorem v30_apply (e : Fin 450000) :
    val_main_v30 (F := Ideal) x1 (ix1 e) = Cert.Spec.nrmR x1 (Cert.Spec.rowOf (Cert.Spec.srcR x1 e)) := by
  unfold val_main_v30
  rw [gathFlat, v29_apply, rowOf_normWord]
  exact v23_apply x1 _

theorem v35_apply (e : Fin 450000) : val_main_v35 (F := Ideal) x1 (ix1 e) = normWord (Cert.Spec.dstR x1 e) := by
  rw [val_main_v35_apply, val_main_v32_apply, val_main_v34_apply, val_main_v31_apply, val_main_c_3_apply,
    val_main_v33_apply, val_main_c_4_apply, v16_apply]
  rfl

theorem v36_apply (e : Fin 450000) : val_main_v36 (F := Ideal) x1 (ix2 e 0) = normWord (Cert.Spec.dstR x1 e) := by
  rw [val_main_v36_apply, ← v35_apply]
  exact congrArg _ (idx1_ext _ _ rfl)

theorem v37_apply (e : Fin 450000) :
    val_main_v37 (F := Ideal) x1 (ix1 e) = Cert.Spec.nrmR x1 (Cert.Spec.rowOf (Cert.Spec.dstR x1 e)) := by
  unfold val_main_v37
  rw [gathFlat, v36_apply, rowOf_normWord]
  exact v23_apply x1 _

/-- The coefficient of an entry of the extended edge list. -/
theorem v47_apply (e : Fin 450000) (j : Fin 256) :
    val_main_v47 (F := Ideal) x1 (ix2 e j)
      = Cert.Spec.nrmR x1 (Cert.Spec.rowOf (Cert.Spec.srcR x1 e)) * Cert.Spec.nrmR x1 (Cert.Spec.rowOf (Cert.Spec.dstR x1 e)) := by
  rw [val_main_v47_apply, val_main_v39_apply, val_main_v38_apply, Ideal.mulf_def, ← v30_apply, ← v37_apply]
  exact congrArg₂ _ (congrArg _ (idx1_ext _ _ rfl)) (congrArg _ (idx1_ext _ _ rfl))

theorem v44_apply (e : Fin 450000) : val_main_v44 (F := Ideal) x1 (ix1 e) = normWord (Cert.Spec.srcR x1 e) := by
  rw [val_main_v44_apply, val_main_v41_apply, val_main_v43_apply, val_main_v40_apply, val_main_c_5_apply,
    val_main_v42_apply, val_main_c_6_apply, v15_apply]
  rfl

theorem v45_apply (e : Fin 450000) : val_main_v45 (F := Ideal) x1 (ix2 e 0) = normWord (Cert.Spec.srcR x1 e) := by
  rw [val_main_v45_apply, ← v44_apply]
  exact congrArg _ (idx1_ext _ _ rfl)

theorem v50_apply (e : Fin 450000) : val_main_v50 (F := Ideal) x1 (ix2 e 0) = Cert.Spec.dstR x1 e := by
  rw [val_main_v50_apply, ← v16_apply]
  exact congrArg _ (idx1_ext _ _ rfl)

theorem v49_apply (i : S50000x256.Idx) : val_main_v49 (F := Ideal) i = 0 := by
  rw [val_main_v49_apply, val_main_cst_7_apply]; exact Ideal.ofBits_zero_f32

end Cert.RefHand

end
-- ==== Proof.Ref.Layers.lean ====
/-
  The three graph-convolution layers of the reference. One layer, of ANY node features h, weight matrix W and bias b,
  is the scatter-add over the extended edge list of the gathered rows of h·W scaled by the edge's coefficient, plus
  the bias, clipped at zero: read at an index that is the specification's edgewise layer. Each of the program's layers is that
  one function of the previous layer's features and its own slice of the stacked weights and biases, so the three
  results are the specification's h1R, h2R, h3R.
-/
import proofs.«159550_j10136122819017_2_alg».proof.Proof.Ref.Edges

noncomputable section

namespace Cert.RefHand

open Cert.ReferenceIdeal Cert.ReferenceIdeal.Gen Cert.ReferenceIdeal.Read Idealize.ShloMosaic Idealize.ShloMosaic.TcCoe
  Idealize.ShloMosaic.ValueIdx Idealize.ShloMosaic.StableHlo

variable (x1 : (⟨S2x400000, .i32⟩ : BufTy).Contents (Elt Ideal))

/-! ## One layer, of any node features, weights and bias -/

theorem v4_ix2 (h : (⟨S50000x256, .f32⟩ : BufTy).Contents (Elt Ideal)) (W : (⟨S256x256, .f32⟩ : BufTy).Contents (Elt Ideal))
    (r : Fin 50000) (j : Fin 256) :
    val_main_v4 (F := Ideal) h W (ix2 r j) = ∑ k : Fin 256, h (ix2 r k) * W (ix2 k j) := by
  rw [val_main_v4_apply]
  refine Finset.sum_congr rfl fun k _ => ?_
  exact congrArg₂ (· * ·) (congrArg h (idx2_ext _ _ rfl rfl)) (congrArg W (idx2_ext _ _ rfl rfl))

theorem v6_ix2 (b : (⟨S256, .f32⟩ : BufTy).Contents (Elt Ideal)) (r : Fin 50000) (j : Fin 256) :
    val_main_v6 (F := Ideal) b (ix2 r j) = b (ix1 j) := by
  rw [val_main_v6_apply, val_main_v5_apply]
  exact congrArg b (idx1_ext _ _ rfl)

theorem call1_v0_apply (i : S50000x256.Idx) : val_main_call1_v0 (F := Ideal) i = 0 := by
  rw [val_main_call1_v0_apply, val_main_call1_cst_apply]; exact Ideal.ofBits_zero_f32

/-- One layer as the reference spells it: the extended edge list's scatter-add of the gathered, scaled rows of `h·W`,
    plus the bias, clipped at zero. -/
def layerVal (h : (⟨S50000x256, .f32⟩ : BufTy).Contents (Elt Ideal)) (W : (⟨S256x256, .f32⟩ : BufTy).Contents (Elt Ideal))
    (b : (⟨S256, .f32⟩ : BufTy).Contents (Elt Ideal)) (x1 : (⟨S2x400000, .i32⟩ : BufTy).Contents (Elt Ideal)) :
    (⟨S50000x256, .f32⟩ : BufTy).Contents (Elt Ideal) :=
  maximumf (F := Ideal) (φ := .f32) (addf (F := Ideal) (φ := .f32) (Host.scatterAdd (F := Ideal) (φ := .f32) scatter_S50000x256_S450000x1_S450000x256_1_0_0_1 (val_main_v49 (F := Ideal)) (val_main_v50 (F := Ideal) x1)
      (mulf (F := Ideal) (φ := .f32) (Host.gather gather_S50000x256_S450000x1_S450000x256_1_0_n_n_0_1_1256 (val_main_v4 (F := Ideal) h W) (val_main_v45 (F := Ideal) x1))
        (val_main_v47 (F := Ideal) x1)))
    (val_main_v6 (F := Ideal) b)) (val_main_call1_v0 (F := Ideal))

theorem layerVal_apply (h : (⟨S50000x256, .f32⟩ : BufTy).Contents (Elt Ideal)) (W : (⟨S256x256, .f32⟩ : BufTy).Contents (Elt Ideal))
    (b : (⟨S256, .f32⟩ : BufTy).Contents (Elt Ideal)) (r : Fin 50000) (j : Fin 256) :
    layerVal h W b x1 (ix2 r j)
      = Cert.Spec.layerR x1 (fun r k => h (ix2 r k)) (fun k j => W (ix2 k j)) (fun j => b (ix1 j)) r j := by
  unfold layerVal
  rw [maximumf_apply, addf_apply, scatRows, v49_apply, zero_add, v6_ix2, call1_v0_apply]
  unfold Cert.Spec.layerR Cert.Spec.inER
  simp only [v50_apply, mulf_apply, gathRows, v45_apply, rowOf_normWord, v47_apply, v4_ix2]

/-! ## The three layers -/

section Layers
variable (x0 : (⟨S50000x256, .f32⟩ : BufTy).Contents (Elt Ideal)) (x2 : (⟨S256x256, .f32⟩ : BufTy).Contents (Elt Ideal))
  (x3 : (⟨S256, .f32⟩ : BufTy).Contents (Elt Ideal)) (x4 : (⟨S3x256x256, .f32⟩ : BufTy).Contents (Elt Ideal))
  (x5 : (⟨S3x256, .f32⟩ : BufTy).Contents (Elt Ideal))

theorem v55_eq : val_main_v55 (F := Ideal) x0 x1 x2 x3 x4 x5
    = layerVal (val_main_v8 (F := Ideal) x0 x2 x3) (val_main_v10 (F := Ideal) x4) (val_main_v12 (F := Ideal) x5) x1 := rfl

theorem call0_v0_apply (i : S50000x256.Idx) : val_main_call0_v0 (F := Ideal) i = 0 := by
  rw [val_main_call0_v0_apply, val_main_call0_cst_apply]; exact Ideal.ofBits_zero_f32

/-- The input projection. -/
theorem v8_apply (r : Fin 50000) (j : Fin 256) :
    val_main_v8 (F := Ideal) x0 x2 x3 (ix2 r j) = max ((∑ k : Fin 256, x0 (ix2 r k) * x2 (ix2 k j)) + x3 (ix1 j)) 0 := by
  rw [val_main_v8_apply, val_main_v7_apply, v4_ix2, v6_ix2, call0_v0_apply]
  rfl

theorem v10_apply (k j : Fin 256) : val_main_v10 (F := Ideal) x4 (ix2 k j) = x4 (ix3 0 k j) := by
  rw [val_main_v10_apply, val_main_v9_apply]
  exact congrArg x4 (idx3_ext _ _ rfl
    (by show (k.val * 256 + j.val) / 256 % 256 = k.val; have := k.isLt; have := j.isLt; omega)
    (by show (k.val * 256 + j.val) % 256 = j.val; have := j.isLt; omega))

theorem v12_apply (j : Fin 256) : val_main_v12 (F := Ideal) x5 (ix1 j) = x5 (ix2 0 j) := by
  rw [val_main_v12_apply, val_main_v11_apply]
  exact congrArg x5 (idx2_ext _ _ rfl (by show j.val % 256 = j.val; exact Nat.mod_eq_of_lt j.isLt))

end Layers

/-! ## The layers against the specification -/

open Cert.Spec in
/-- A layer of features that are already the specification's, with the layer's weights and bias, is the
    specification's next layer. -/
theorem layer_step (I : Cert.Spec.Inputs) (l : Fin 3)
    (hprev : (⟨S50000x256, .f32⟩ : BufTy).Contents (Elt Ideal)) (hspec : Fin 50000 → Fin 256 → EReal)
    (hh : ∀ r k, hprev (ix2 r k) = hspec r k)
    (W : (⟨S256x256, .f32⟩ : BufTy).Contents (Elt Ideal)) (hW : ∀ k j, W (ix2 k j) = Cert.Spec.WgAt I l k j)
    (b : (⟨S256, .f32⟩ : BufTy).Contents (Elt Ideal)) (hb : ∀ j, b (ix1 j) = Cert.Spec.bgAt I l j)
    (r : Fin 50000) (j : Fin 256) :
    layerVal hprev W b I.EI (ix2 r j) = Cert.Spec.layerR I.EI hspec (Cert.Spec.WgAt I l) (Cert.Spec.bgAt I l) r j := by
  rw [layerVal_apply]
  have e1 : (fun r k => hprev (ix2 r k)) = hspec := funext fun r => funext fun k => hh r k
  have e2 : (fun k j => W (ix2 k j)) = Cert.Spec.WgAt I l := funext fun k => funext fun j => hW k j
  have e3 : (fun j => b (ix1 j)) = Cert.Spec.bgAt I l := funext fun j => hb j
  rw [e1, e2, e3]

section Spec
variable (I : Cert.Spec.Inputs)

theorem v8_spec (r : Fin 50000) (j : Fin 256) :
    val_main_v8 (F := Ideal) I.X I.Win I.bin (ix2 r j) = Cert.Spec.h0 I r j := v8_apply _ _ _ r j

theorem v55_spec (r : Fin 50000) (j : Fin 256) :
    val_main_v55 (F := Ideal) I.X I.EI I.Win I.bin I.Wg I.bg (ix2 r j) = Cert.Spec.h1R I r j := by
  rw [v55_eq]
  exact layer_step I 0 _ _ (v8_spec I) _ (fun k j => v10_apply _ k j) _ (fun j => v12_apply _ j) r j

theorem v102_eq : val_main_v102 (F := Ideal) I.X I.EI I.Win I.bin I.Wg I.bg
    = layerVal (val_main_v55 (F := Ideal) I.X I.EI I.Win I.bin I.Wg I.bg) (val_main_v57 (F := Ideal) I.Wg)
        (val_main_v59 (F := Ideal) I.bg) I.EI := rfl

theorem v57_apply (k j : Fin 256) : val_main_v57 (F := Ideal) I.Wg (ix2 k j) = I.Wg (ix3 1 k j) := by
  rw [val_main_v57_apply, val_main_v56_apply]
  exact congrArg I.Wg (idx3_ext _ _ rfl
    (by show (k.val * 256 + j.val) / 256 % 256 = k.val; have := k.isLt; have := j.isLt; omega)
    (by show (k.val * 256 + j.val) % 256 = j.val; have := j.isLt; omega))

theorem v59_apply (j : Fin 256) : val_main_v59 (F := Ideal) I.bg (ix1 j) = I.bg (ix2 1 j) := by
  rw [val_main_v59_apply, val_main_v58_apply]
  exact congrArg I.bg (idx2_ext _ _ rfl (by show j.val % 256 = j.val; exact Nat.mod_eq_of_lt j.isLt))

theorem v102_spec (r : Fin 50000) (j : Fin 256) :
    val_main_v102 (F := Ideal) I.X I.EI I.Win I.bin I.Wg I.bg (ix2 r j) = Cert.Spec.h2R I r j := by
  rw [v102_eq]
  exact layer_step I 1 _ _ (v55_spec I) _ (v57_apply I) _ (v59_apply I) r j

theorem v149_eq : val_main_v149 (F := Ideal) I.X I.EI I.Win I.bin I.Wg I.bg
    = layerVal (val_main_v102 (F := Ideal) I.X I.EI I.Win I.bin I.Wg I.bg) (val_main_v104 (F := Ideal) I.Wg)
        (val_main_v106 (F := Ideal) I.bg) I.EI := rfl

theorem v104_apply (k j : Fin 256) : val_main_v104 (F := Ideal) I.Wg (ix2 k j) = I.Wg (ix3 2 k j) := by
  rw [val_main_v104_apply, val_main_v103_apply]
  exact congrArg I.Wg (idx3_ext _ _ rfl
    (by show (k.val * 256 + j.val) / 256 % 256 = k.val; have := k.isLt; have := j.isLt; omega)
    (by show (k.val * 256 + j.val) % 256 = j.val; have := j.isLt; omega))

theorem v106_apply (j : Fin 256) : val_main_v106 (F := Ideal) I.bg (ix1 j) = I.bg (ix2 2 j) := by
  rw [val_main_v106_apply, val_main_v105_apply]
  exact congrArg I.bg (idx2_ext _ _ rfl (by show j.val % 256 = j.val; exact Nat.mod_eq_of_lt j.isLt))

theorem v149_spec (r : Fin 50000) (j : Fin 256) :
    val_main_v149 (F := Ideal) I.X I.EI I.Win I.bin I.Wg I.bg (ix2 r j) = Cert.Spec.h3R I r j := by
  rw [v149_eq]
  exact layer_step I 2 _ _ (v102_spec I) _ (v104_apply I) _ (v106_apply I) r j

end Spec

end Cert.RefHand

end
-- ==== Proof.Ref.Heads.lean ====
/-
  The two heads and the stack of the reference over the third layer's features. The edge head gathers the rows of
  an edge's two end points, lays them side by side (512 columns) and applies a two-layer perceptron; the node head
  applies a two-layer perceptron to each node and the logistic function spelt as one over one plus the exponential
  of the negation; the stack lays the three layers along a new leading axis.
-/
import proofs.«159550_j10136122819017_2_alg».proof.Proof.Ref.Layers
import proofs.«159550_j10136122819017_2_alg».proof.Proof.Ref.Results

noncomputable section

namespace Cert.RefHand

open Cert.ReferenceIdeal Cert.ReferenceIdeal.Gen Cert.ReferenceIdeal.Read Idealize.ShloMosaic Idealize.ShloMosaic.TcCoe
  Idealize.ShloMosaic.ValueIdx Idealize.ShloMosaic.StableHlo

/-! ## The edge head -/

section EdgeHead
variable (I : Cert.Spec.Inputs)

theorem v154_apply (e : Fin 400000) : val_main_v154 (F := Ideal) I.EI (ix1 e) = normWord (Cert.Spec.src I.EI e) := by
  rw [val_main_v154_apply, val_main_v151_apply, val_main_v153_apply, val_main_v150_apply, val_main_c_28_apply,
    val_main_v152_apply, val_main_c_29_apply, v1_apply]
  rfl

theorem v155_apply (e : Fin 400000) : val_main_v155 (F := Ideal) I.EI (ix2 e 0) = normWord (Cert.Spec.src I.EI e) := by
  rw [val_main_v155_apply, ← v154_apply]
  exact congrArg _ (idx1_ext _ _ rfl)

theorem v156_apply (e : Fin 400000) (q : Fin 256) :
    val_main_v156 (F := Ideal) I.X I.EI I.Win I.bin I.Wg I.bg (ix2 e q) = Cert.Spec.h3R I (Cert.Spec.rowOf (Cert.Spec.src I.EI e)) q := by
  unfold val_main_v156
  rw [gathRows4, v155_apply, rowOf_normWord]
  exact v149_spec I _ q

theorem v161_apply (e : Fin 400000) : val_main_v161 (F := Ideal) I.EI (ix1 e) = normWord (Cert.Spec.dst I.EI e) := by
  rw [val_main_v161_apply, val_main_v158_apply, val_main_v160_apply, val_main_v157_apply, val_main_c_30_apply,
    val_main_v159_apply, val_main_c_31_apply, v3_apply]
  rfl

theorem v162_apply (e : Fin 400000) : val_main_v162 (F := Ideal) I.EI (ix2 e 0) = normWord (Cert.Spec.dst I.EI e) := by
  rw [val_main_v162_apply, ← v161_apply]
  exact congrArg _ (idx1_ext _ _ rfl)

theorem v163_apply (e : Fin 400000) (q : Fin 256) :
    val_main_v163 (F := Ideal) I.X I.EI I.Win I.bin I.Wg I.bg (ix2 e q) = Cert.Spec.h3R I (Cert.Spec.rowOf (Cert.Spec.dst I.EI e)) q := by
  unfold val_main_v163
  rw [gathRows4, v162_apply, rowOf_normWord]
  exact v149_spec I _ q

theorem v164_apply (e : Fin 400000) (q : Fin 512) :
    val_main_v164 (F := Ideal) I.X I.EI I.Win I.bin I.Wg I.bg (ix2 e q)
      = if hq : q.val < 256 then Cert.Spec.h3R I (Cert.Spec.rowOf (Cert.Spec.src I.EI e)) ⟨q.val, hq⟩
        else Cert.Spec.h3R I (Cert.Spec.rowOf (Cert.Spec.dst I.EI e)) ⟨q.val - 256, by omega⟩ := by
  unfold val_main_v164
  rw [concat_cols]
  by_cases h : q.val < 256
  · rw [dif_pos h, dif_pos h]; exact v156_apply I e _
  · rw [dif_neg h, dif_neg h]; exact v163_apply I e _

theorem v165_apply (e : Fin 400000) (k : Fin 256) :
    val_main_v165 (F := Ideal) I.X I.EI I.Win I.bin I.Wg I.bg I.Wh1 (ix2 e k)
      = ∑ q : Fin 512, val_main_v164 (F := Ideal) I.X I.EI I.Win I.bin I.Wg I.bg (ix2 e q) * I.Wh1 (ix2 q k) := by
  rw [val_main_v165_apply]
  refine Finset.sum_congr rfl fun q _ => ?_
  exact congrArg₂ (· * ·) (congrArg _ (idx2_ext _ _ rfl rfl)) (congrArg I.Wh1 (idx2_ext _ _ rfl rfl))

theorem v167_apply (e : Fin 400000) (k : Fin 256) : val_main_v167 (F := Ideal) I.bh1 (ix2 e k) = I.bh1 (ix1 k) := by
  rw [val_main_v167_apply, val_main_v166_apply]
  exact congrArg I.bh1 (idx1_ext _ _ rfl)

theorem call4_v0_apply (i : S400000x256.Idx) : val_main_call4_v0 (F := Ideal) i = 0 := by
  rw [val_main_call4_v0_apply, val_main_call4_cst_apply]; exact Ideal.ofBits_zero_f32

theorem v169_apply (e : Fin 400000) (k : Fin 256) :
    val_main_v169 (F := Ideal) I.X I.EI I.Win I.bin I.Wg I.bg I.Wh1 I.bh1 (ix2 e k)
      = max ((∑ q : Fin 512, (if hq : q.val < 256 then Cert.Spec.h3R I (Cert.Spec.rowOf (Cert.Spec.src I.EI e)) ⟨q.val, hq⟩
          else Cert.Spec.h3R I (Cert.Spec.rowOf (Cert.Spec.dst I.EI e)) ⟨q.val - 256, by omega⟩) * I.Wh1 (ix2 q k)) + I.bh1 (ix1 k)) 0 := by
  rw [val_main_v169_apply, val_main_v168_apply, v165_apply, v167_apply, call4_v0_apply, Ideal.maximumf_def, Ideal.addf_def]
  simp only [v164_apply]

theorem v170_apply (e : Fin 400000) (j : Fin 3) :
    val_main_v170 (F := Ideal) I.X I.EI I.Win I.bin I.Wg I.bg I.Wh1 I.bh1 I.Wh2 (ix2 e j)
      = ∑ k : Fin 256, val_main_v169 (F := Ideal) I.X I.EI I.Win I.bin I.Wg I.bg I.Wh1 I.bh1 (ix2 e k) * I.Wh2 (ix2 k j) := by
  rw [val_main_v170_apply]
  refine Finset.sum_congr rfl fun k _ => ?_
  exact congrArg₂ (· * ·) (congrArg _ (idx2_ext _ _ rfl rfl)) (congrArg I.Wh2 (idx2_ext _ _ rfl rfl))

theorem v172_apply (e : Fin 400000) (j : Fin 3) : val_main_v172 (F := Ideal) I.bh2 (ix2 e j) = I.bh2 (ix1 j) := by
  rw [val_main_v172_apply, val_main_v171_apply]
  exact congrArg I.bh2 (idx1_ext _ _ rfl)

theorem v173_spec (e : Fin 400000) (j : Fin 3) :
    val_main_v173 (F := Ideal) I.X I.EI I.Win I.bin I.Wg I.bg I.Wh1 I.bh1 I.Wh2 I.bh2 (ix2 e j) = Cert.Spec.hierOfR I (Cert.Spec.h3R I) e j := by
  rw [val_main_v173_apply, v170_apply, v172_apply, Ideal.addf_def]
  unfold Cert.Spec.hierOfR
  simp only [v169_apply]

end EdgeHead

/-! ## The node head -/

section NodeHead
variable (I : Cert.Spec.Inputs)

theorem v174_apply (r : Fin 50000) (k : Fin 128) :
    val_main_v174 (F := Ideal) I.X I.EI I.Win I.bin I.Wg I.bg I.Wp1 (ix2 r k) = ∑ q : Fin 256, Cert.Spec.h3R I r q * I.Wp1 (ix2 q k) := by
  rw [val_main_v174_apply]
  refine Finset.sum_congr rfl fun q _ => ?_
  rw [← v149_spec I r q]
  exact congrArg₂ (· * ·) (congrArg _ (idx2_ext _ _ rfl rfl)) (congrArg I.Wp1 (idx2_ext _ _ rfl rfl))

theorem v176_apply (r : Fin 50000) (k : Fin 128) : val_main_v176 (F := Ideal) I.bp1 (ix2 r k) = I.bp1 (ix1 k) := by
  rw [val_main_v176_apply, val_main_v175_apply]
  exact congrArg I.bp1 (idx1_ext _ _ rfl)

theorem call5_v0_apply (i : S50000x128.Idx) : val_main_call5_v0 (F := Ideal) i = 0 := by
  rw [val_main_call5_v0_apply, val_main_call5_cst_apply]; exact Ideal.ofBits_zero_f32

theorem v178_apply (r : Fin 50000) (k : Fin 128) :
    val_main_v178 (F := Ideal) I.X I.EI I.Win I.bin I.Wg I.bg I.Wp1 I.bp1 (ix2 r k)
      = max ((∑ q : Fin 256, Cert.Spec.h3R I r q * I.Wp1 (ix2 q k)) + I.bp1 (ix1 k)) 0 := by
  rw [val_main_v178_apply, val_main_v177_apply, v174_apply, v176_apply, call5_v0_apply, Ideal.maximumf_def, Ideal.addf_def]

theorem v179_apply (r : Fin 50000) :
    val_main_v179 (F := Ideal) I.X I.EI I.Win I.bin I.Wg I.bg I.Wp1 I.bp1 I.Wp2 (ix2 r 0)
      = ∑ k : Fin 128, val_main_v178 (F := Ideal) I.X I.EI I.Win I.bin I.Wg I.bg I.Wp1 I.bp1 (ix2 r k) * I.Wp2 (ix2 k 0) := by
  rw [val_main_v179_apply]
  refine Finset.sum_congr rfl fun k _ => ?_
  exact congrArg₂ (· * ·) (congrArg _ (idx2_ext _ _ rfl rfl)) (congrArg I.Wp2 (idx2_ext _ _ rfl rfl))

theorem v181_apply (r : Fin 50000) : val_main_v181 (F := Ideal) I.bp2 (ix2 r 0) = I.bp2 (ix1 0) := by
  rw [val_main_v181_apply, val_main_v180_apply]
  exact congrArg I.bp2 (idx1_ext _ _ rfl)

theorem v182_apply (r : Fin 50000) :
    val_main_v182 (F := Ideal) I.X I.EI I.Win I.bin I.Wg I.bg I.Wp1 I.bp1 I.Wp2 I.bp2 (ix2 r 0) = Cert.Spec.permPre I (Cert.Spec.h3R I) r := by
  rw [val_main_v182_apply, v179_apply, v181_apply, Ideal.addf_def]
  unfold Cert.Spec.permPre
  simp only [v178_apply]

theorem v185_apply (i : S50000x1.Idx) : val_main_v185 (F := Ideal) i = 1 := by
  rw [val_main_v185_apply, val_main_cst_32_apply]; exact Cert.Spec.ofBits_one_f32

theorem v187_apply (i : S50000x1.Idx) : val_main_v187 (F := Ideal) i = 1 := by
  rw [val_main_v187_apply, val_main_cst_33_apply]; exact Cert.Spec.ofBits_one_f32

theorem v188_spec (r : Fin 50000) :
    val_main_v188 (F := Ideal) I.X I.EI I.Win I.bin I.Wg I.bg I.Wp1 I.bp1 I.Wp2 I.bp2 (ix2 r 0) = Cert.Spec.permOfR I (Cert.Spec.h3R I) r := by
  rw [val_main_v188_apply, val_main_v186_apply, val_main_v184_apply, val_main_v183_apply, v182_apply, v185_apply, v187_apply,
    Ideal.hostDivf_def, Ideal.addf_def, Ideal.hostUnary_exp_def, Ideal.hostNegf_def, Ideal.negf_def]
  rfl

end NodeHead

/-! ## The three layers stacked -/

section Stack
variable (I : Cert.Spec.Inputs)

theorem v189_apply (r : Fin 50000) (j : Fin 256) :
    val_main_v189 (F := Ideal) I.X I.EI I.Win I.bin I.Wg I.bg (ix3 0 r j) = Cert.Spec.h1R I r j := by
  rw [val_main_v189_apply, ← v55_spec I r j]
  exact congrArg _ (idx2_ext _ _ rfl rfl)

theorem v190_apply (r : Fin 50000) (j : Fin 256) :
    val_main_v190 (F := Ideal) I.X I.EI I.Win I.bin I.Wg I.bg (ix3 0 r j) = Cert.Spec.h2R I r j := by
  rw [val_main_v190_apply, ← v102_spec I r j]
  exact congrArg _ (idx2_ext _ _ rfl rfl)

theorem v191_apply (r : Fin 50000) (j : Fin 256) :
    val_main_v191 (F := Ideal) I.X I.EI I.Win I.bin I.Wg I.bg (ix3 0 r j) = Cert.Spec.h3R I r j := by
  rw [val_main_v191_apply, ← v149_spec I r j]
  exact congrArg _ (idx2_ext _ _ rfl rfl)

theorem v192_spec (l : Fin 3) (r : Fin 50000) (j : Fin 256) :
    val_main_v192 (F := Ideal) I.X I.EI I.Win I.bin I.Wg I.bg (ix3 l r j) = layerSel I l r j := by
  unfold val_main_v192
  rw [stack3_apply]
  match l with
  | ⟨0, _⟩ => exact v189_apply I r j
  | ⟨1, _⟩ => exact v190_apply I r j
  | ⟨2, _⟩ => exact v191_apply I r j

end Stack

end Cert.RefHand

end
-- ==== Proof.Ref.Run.lean ====
/-
  The reference's run in the specification's words: every weakly fair execution ends with the four results at the
  whole-array functions G149, G173, G188, G192 of the specification's inputs read off the initial memory's fourteen
  argument arrays, and the arguments unchanged.
-/
import proofs.«159550_j10136122819017_2_alg».proof.Proof.Gen.ReferenceIdeal.Run
import proofs.«159550_j10136122819017_2_alg».proof.Proof.Ref.Heads
import proofs.«159550_j10136122819017_2_alg».proof.Proof.Ref.Results
import Idealize.ShloMosaic.Lib.StableHlo.Run

noncomputable section

namespace Cert.RefHand

open Cert.ReferenceIdeal Cert.ReferenceIdeal.Gen Cert.ReferenceIdeal.Read Idealize.ShloMosaic Idealize.ShloMosaic.TcCoe
  Idealize.ShloMosaic.ValueIdx Idealize.ShloMosaic.StableHlo

/-! ## The results as whole arrays of the inputs -/

section Whole
open Idealize.SL.Sem

/-- The fourteen argument arrays of a memory, as the specification's inputs. -/
def inputsOf (m : (ℓ : Loc nD τ sig) → Buf (Elt Ideal) ℓ) (c : Dev nD) : Cert.Spec.Inputs :=
  { X := m ((c.tc : Thread nD τ).loc main_arg0)
    EI := m ((c.tc : Thread nD τ).loc main_arg1)
    Win := m ((c.tc : Thread nD τ).loc main_arg2)
    bin := m ((c.tc : Thread nD τ).loc main_arg3)
    Wg := m ((c.tc : Thread nD τ).loc main_arg4)
    bg := m ((c.tc : Thread nD τ).loc main_arg5)
    Wh1 := m ((c.tc : Thread nD τ).loc main_arg6)
    bh1 := m ((c.tc : Thread nD τ).loc main_arg7)
    Wh2 := m ((c.tc : Thread nD τ).loc main_arg8)
    bh2 := m ((c.tc : Thread nD τ).loc main_arg9)
    Wp1 := m ((c.tc : Thread nD τ).loc main_arg10)
    bp1 := m ((c.tc : Thread nD τ).loc main_arg11)
    Wp2 := m ((c.tc : Thread nD τ).loc main_arg12)
    bp2 := m ((c.tc : Thread nD τ).loc main_arg13) }

/-- A memory whose fourteen argument arrays are the fields of `I` has `I` as its inputs. -/
theorem inputsOf_eq (m : (ℓ : Loc nD τ sig) → Buf (Elt Ideal) ℓ) (c : Dev nD) (I : Cert.Spec.Inputs)
    (h0 : m ((c.tc : Thread nD τ).loc main_arg0) = I.X)
    (h1 : m ((c.tc : Thread nD τ).loc main_arg1) = I.EI)
    (h2 : m ((c.tc : Thread nD τ).loc main_arg2) = I.Win)
    (h3 : m ((c.tc : Thread nD τ).loc main_arg3) = I.bin)
    (h4 : m ((c.tc : Thread nD τ).loc main_arg4) = I.Wg)
    (h5 : m ((c.tc : Thread nD τ).loc main_arg5) = I.bg)
    (h6 : m ((c.tc : Thread nD τ).loc main_arg6) = I.Wh1)
    (h7 : m ((c.tc : Thread nD τ).loc main_arg7) = I.bh1)
    (h8 : m ((c.tc : Thread nD τ).loc main_arg8) = I.Wh2)
    (h9 : m ((c.tc : Thread nD τ).loc main_arg9) = I.bh2)
    (h10 : m ((c.tc : Thread nD τ).loc main_arg10) = I.Wp1)
    (h11 : m ((c.tc : Thread nD τ).loc main_arg11) = I.bp1)
    (h12 : m ((c.tc : Thread nD τ).loc main_arg12) = I.Wp2)
    (h13 : m ((c.tc : Thread nD τ).loc main_arg13) = I.bp2) :
    inputsOf m c = I := by
  unfold inputsOf
  rw [h0, h1, h2, h3, h4, h5, h6, h7, h8, h9, h10, h11, h12, h13]

variable (I : Cert.Spec.Inputs)

theorem v149_whole : val_main_v149 (F := Ideal) I.X I.EI I.Win I.bin I.Wg I.bg = G149 I := by
  funext i
  exact (congrArg (val_main_v149 (F := Ideal) I.X I.EI I.Win I.bin I.Wg I.bg) (eq_ix2 i)).trans (v149_spec I (i 0) (i 1))

theorem v173_whole : val_main_v173 (F := Ideal) I.X I.EI I.Win I.bin I.Wg I.bg I.Wh1 I.bh1 I.Wh2 I.bh2 = G173 I := by
  funext i
  exact (congrArg (val_main_v173 (F := Ideal) I.X I.EI I.Win I.bin I.Wg I.bg I.Wh1 I.bh1 I.Wh2 I.bh2) (eq_ix2 i)).trans (v173_spec I (i 0) (i 1))

theorem v188_whole : val_main_v188 (F := Ideal) I.X I.EI I.Win I.bin I.Wg I.bg I.Wp1 I.bp1 I.Wp2 I.bp2 = G188 I := by
  funext i
  have hi : i = ix2 (i 0) 0 := (eq_ix2 i).trans (congrArg (ix2 (i 0)) (Fin.ext (by have h : (i 1).val < 1 := (i 1).isLt; show (i 1).val = 0; omega)))
  exact (congrArg (val_main_v188 (F := Ideal) I.X I.EI I.Win I.bin I.Wg I.bg I.Wp1 I.bp1 I.Wp2 I.bp2) hi).trans (v188_spec I (i 0))

theorem v192_whole : val_main_v192 (F := Ideal) I.X I.EI I.Win I.bin I.Wg I.bg = G192 I := by
  funext i
  exact (congrArg (val_main_v192 (F := Ideal) I.X I.EI I.Win I.bin I.Wg I.bg) (eq_ix3 i)).trans (v192_spec I (i 0) (i 1) (i 2))

end Whole

section Run
open Idealize.SL.Sem

/-- Each result's run term is its whole-array function of the inputs of the memory. -/
theorem res149 (m : (ℓ : Loc nD τ sig) → Buf (Elt Ideal) ℓ) (c : Dev nD) :
    Cert.ReferenceIdeal.Value.res_main_v149 (F := Ideal) m c = G149 (inputsOf m c) :=
  (val_main_v149_eq (F := Ideal) m c).trans (v149_whole (inputsOf m c))

theorem res173 (m : (ℓ : Loc nD τ sig) → Buf (Elt Ideal) ℓ) (c : Dev nD) :
    Cert.ReferenceIdeal.Value.res_main_v173 (F := Ideal) m c = G173 (inputsOf m c) :=
  (val_main_v173_eq (F := Ideal) m c).trans (v173_whole (inputsOf m c))

theorem res188 (m : (ℓ : Loc nD τ sig) → Buf (Elt Ideal) ℓ) (c : Dev nD) :
    Cert.ReferenceIdeal.Value.res_main_v188 (F := Ideal) m c = G188 (inputsOf m c) :=
  (val_main_v188_eq (F := Ideal) m c).trans (v188_whole (inputsOf m c))

theorem res192 (m : (ℓ : Loc nD τ sig) → Buf (Elt Ideal) ℓ) (c : Dev nD) :
    Cert.ReferenceIdeal.Value.res_main_v192 (F := Ideal) m c = G192 (inputsOf m c) :=
  (val_main_v192_eq (F := Ideal) m c).trans (v192_whole (inputsOf m c))

/-- The reference's run, its results in the specification's edgewise spelling. -/
theorem run_spec (m' : (ℓ : Loc nD τ sig) → Buf (Elt Ideal) ℓ) (ρ' : Dev nD → PrngReg) :
    θ_run Cert.ReferenceIdeal.defs (onTc (τ := Cert.ReferenceIdeal.τ) (Cert.ReferenceIdeal.main (F := Ideal))) ⟨m', fun _ => 0, ρ'⟩
      (fun r => ∀ c : Dev nD,
        r.2.mem ((c.tc : Thread nD τ).loc main_v149) = G149 (inputsOf m' c)
        ∧ r.2.mem ((c.tc : Thread nD τ).loc main_v173) = G173 (inputsOf m' c)
        ∧ r.2.mem ((c.tc : Thread nD τ).loc main_v188) = G188 (inputsOf m' c)
        ∧ r.2.mem ((c.tc : Thread nD τ).loc main_v192) = G192 (inputsOf m' c)
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)
        ∧ r.2.mem ((c.tc : Thread nD τ).loc main_arg8) = m' ((c.tc : Thread nD τ).loc main_arg8)
        ∧ r.2.mem ((c.tc : Thread nD τ).loc main_arg9) = m' ((c.tc : Thread nD τ).loc main_arg9)
        ∧ r.2.mem ((c.tc : Thread nD τ).loc main_arg10) = m' ((c.tc : Thread nD τ).loc main_arg10)
        ∧ r.2.mem ((c.tc : Thread nD τ).loc main_arg11) = m' ((c.tc : Thread nD τ).loc main_arg11)
        ∧ r.2.mem ((c.tc : Thread nD τ).loc main_arg12) = m' ((c.tc : Thread nD τ).loc main_arg12)
        ∧ r.2.mem ((c.tc : Thread nD τ).loc main_arg13) = m' ((c.tc : Thread nD τ).loc main_arg13)) :=
  (θ_run Cert.ReferenceIdeal.defs _ _).mono
    (fun _ h c => ⟨(h c).1.trans (res149 m' c), (h c).2.1.trans (res173 m' c), (h c).2.2.1.trans (res188 m' c),
      (h c).2.2.2.1.trans (res192 m' c), (h c).2.2.2.2⟩)
    (Cert.ReferenceIdeal.Value.run (F := Ideal) m' ρ')

end Run

end Cert.RefHand

end
-- ==== Proof.KI.Agree.lean ====
/-
  Memories of the two programs that agree on the fourteen argument arrays give the specification the same inputs.
-/
import proofs.«159550_j10136122819017_2_alg».proof.Proof.KI.NetInputs
import proofs.«159550_j10136122819017_2_alg».proof.Proof.Ref.Run

set_option maxRecDepth 16384

noncomputable section

namespace Cert.KernelIdeal.Hand

open Cert.KernelIdeal Cert.KernelIdeal.Gen
open Idealize.ShloMosaic Idealize.ShloMosaic.TcCoe Idealize.ShloMosaic.Tactic

/-- The reference's inputs off a memory `m'` are the kernel's off `m` when the two agree argument by argument. -/
theorem inputs_agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)) :
    Cert.RefHand.inputsOf m' c = inputsK m c :=
  Cert.RefHand.inputsOf_eq m' c (inputsK m c) (hagree.1) (hagree.2.1) (hagree.2.2.1) (hagree.2.2.2.1) (hagree.2.2.2.2.1) (hagree.2.2.2.2.2.1) (hagree.2.2.2.2.2.2.1) (hagree.2.2.2.2.2.2.2.1) (hagree.2.2.2.2.2.2.2.2.1) (hagree.2.2.2.2.2.2.2.2.2.1) (hagree.2.2.2.2.2.2.2.2.2.2.1) (hagree.2.2.2.2.2.2.2.2.2.2.2.1) (hagree.2.2.2.2.2.2.2.2.2.2.2.2.1) (hagree.2.2.2.2.2.2.2.2.2.2.2.2.2)

end Cert.KernelIdeal.Hand

end
-- ==== Proof.lean ====
/-
  The certificate of a three-layer graph convolution network with an edge head and a node head, computed by seven
  tiled kernels around gathers and scatter-adds on the host, against its plain array-program reference.

  The kernel factors the symmetric degree normalisation: with `nrm = (in-degree + 1)^(-1/2)` and `hn = (h·W)·nrm`, a
  layer is `max (nrm[v] · (Σ_{e into v} hn[row(src e)] + hn[v]) + b) 0`, the self loop added analytically. The reference
  extends the edge list by one self loop per node and scales each gathered row by `nrm[row(src)]·nrm[row(dst)]` before
  the scatter-add. An edge whose update lands on `v` has `row(dst) = v`, and `nrm[v]` is a non-negative real, by which
  multiplication distributes over sums of extended reals: the two spellings agree on every input, with no assumption
  on the edge words (an out-of-range word is clamped by both gathers and dropped by both scatter-adds alike) and no use
  of the finiteness of the float inputs. The edge head's concatenated operand against one matrix is the sum of its two
  halves against the matrix's two halves; the node head's logistic function is one over one plus the exponential of
  the negation in both programs; a change of float format is the identity on extended reals.

  The frames: each program's buffers at its fifteen boundaries are a fold from the launch memory (a host stretch
  applies its operations, a region leaves its output arrays at what its grid points flushed), every weakly fair
  execution reaches the last boundary, and no argument array is written on the way. The reference is host operations
  only; its frame is its run with the results dropped.
-/
import proofs.«159550_j10136122819017_2_alg».proof.Defs
import proofs.«159550_j10136122819017_2_alg».proof.Proof.Gen.Kernel
import proofs.«159550_j10136122819017_2_alg».proof.Proof.Gen.KernelIdeal
import proofs.«159550_j10136122819017_2_alg».proof.Proof.Gen.ReferenceIdeal
import proofs.«159550_j10136122819017_2_alg».proof.Proof.Gen.Pre_finite_inputs
import proofs.«159550_j10136122819017_2_alg».proof.Proof.Gen.ReferenceIdeal.Run
import proofs.«159550_j10136122819017_2_alg».proof.Proof.Gen.ReferenceIdeal.Read
import proofs.«159550_j10136122819017_2_alg».proof.Proof.K.Frame
import proofs.«159550_j10136122819017_2_alg».proof.Proof.KI.Frame
import proofs.«159550_j10136122819017_2_alg».proof.Proof.KI.NetAll
import proofs.«159550_j10136122819017_2_alg».proof.Proof.KI.Agree
import proofs.«159550_j10136122819017_2_alg».proof.Proof.Ref.Run
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2.2.2) (Cert.ReferenceIdeal.Value.run (F := Ideal) m ρ)

/-- The ideal pass rewrote no operation of the kernel's module. -/
theorem preserves : Cert.preserves_Kernel_KernelIdeal := trivial

/-- Both programs, from memories agreeing on the fourteen arguments, end with the specification's four results of
    those arguments: the kernel in the factored spelling, the reference in the edgewise one, which are one function. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.RefHand.G149 (Cert.KernelIdeal.Hand.inputsK m c), fun c => Cert.RefHand.G173 (Cert.KernelIdeal.Hand.inputsK m c),
    fun c => Cert.RefHand.G188 (Cert.KernelIdeal.Hand.inputsK m c), fun c => Cert.RefHand.G192 (Cert.KernelIdeal.Hand.inputsK m c),
    Cert.KernelIdeal.Hand.kernel_run m ρ, ?_⟩
  refine (θ_run Cert.ReferenceIdeal.defs _ _).mono (fun r h c => ?_) (Cert.RefHand.run_spec m' ρ')
  have hc := h c
  rw [Cert.KernelIdeal.Hand.inputs_agree m m' c (hagree c)] at hc
  exact hc

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
